-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v317) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x64x300 : Shape := ⟨3, ![2048, 64, 300]⟩
abbrev S8x300x160 : Shape := ⟨3, ![8, 300, 160]⟩
abbrev S8x160 : Shape := ⟨2, ![8, 160]⟩
abbrev S8x160x128 : Shape := ⟨3, ![8, 160, 128]⟩
abbrev S8x128 : Shape := ⟨2, ![8, 128]⟩
abbrev S8x128x96 : Shape := ⟨3, ![8, 128, 96]⟩
abbrev S8x96 : Shape := ⟨2, ![8, 96]⟩
abbrev S8x96x1 : Shape := ⟨3, ![8, 96, 1]⟩
abbrev S8x1 : Shape := ⟨2, ![8, 1]⟩
abbrev S_ : Shape := ⟨0, ![]⟩

class Facts : Prop where
  bcast_S_S2048x64x300 : S_.BroadcastsInDim S2048x64x300 (![] : Fin 0 → Fin S2048x64x300.rank)
  reducesTo_S2048x64x300_S_d0_1_2 : S2048x64x300.ReducesTo [0, 1, 2] S_
  h_S_ : 0 < S_.numel
  bcast_S_S8x300x160 : S_.BroadcastsInDim S8x300x160 (![] : Fin 0 → Fin S8x300x160.rank)
  reducesTo_S8x300x160_S_d0_1_2 : S8x300x160.ReducesTo [0, 1, 2] S_
  bcast_S_S8x160 : S_.BroadcastsInDim S8x160 (![] : Fin 0 → Fin S8x160.rank)
  reducesTo_S8x160_S_d0_1 : S8x160.ReducesTo [0, 1] S_
  bcast_S_S8x160x128 : S_.BroadcastsInDim S8x160x128 (![] : Fin 0 → Fin S8x160x128.rank)
  reducesTo_S8x160x128_S_d0_1_2 : S8x160x128.ReducesTo [0, 1, 2] S_
  bcast_S_S8x128 : S_.BroadcastsInDim S8x128 (![] : Fin 0 → Fin S8x128.rank)
  reducesTo_S8x128_S_d0_1 : S8x128.ReducesTo [0, 1] S_
  bcast_S_S8x128x96 : S_.BroadcastsInDim S8x128x96 (![] : Fin 0 → Fin S8x128x96.rank)
  reducesTo_S8x128x96_S_d0_1_2 : S8x128x96.ReducesTo [0, 1, 2] S_
  bcast_S_S8x96 : S_.BroadcastsInDim S8x96 (![] : Fin 0 → Fin S8x96.rank)
  reducesTo_S8x96_S_d0_1 : S8x96.ReducesTo [0, 1] S_
  bcast_S_S8x96x1 : S_.BroadcastsInDim S8x96x1 (![] : Fin 0 → Fin S8x96x1.rank)
  reducesTo_S8x96x1_S_d0_1_2 : S8x96x1.ReducesTo [0, 1, 2] S_
  bcast_S_S8x1 : S_.BroadcastsInDim S8x1 (![] : Fin 0 → Fin S8x1.rank)
  reducesTo_S8x1_S_d0_1 : S8x1.ReducesTo [0, 1] S_

variable [Facts]

def fn_part2 {F : FTy → Type} [FloatOps F] (main_arg8 : FVec F S8x96x1 .f32) (main_arg9 : FVec F S8x1 .f32) (main_v33 : IVec S_ 1) : IVec S_ 1 :=
  let main_v34 : FVec F S8x96x1 .f32 := Host.absf main_arg8
  let main_cst_12 : FVec F S_ .f32 := constant S_ .f32 0x7F800000#32
  let main_v35 : FVec F S8x96x1 .f32 := broadcastInDim S8x96x1 ![] bcast_S_S8x96x1 main_cst_12
  let main_v36 : IVec S8x96x1 1 := cmpf .olt main_v34 main_v35
  let main_c_13 : IVec S_ 1 := constantI S_ 1 1#1
  let main_v37 : IVec S_ 1 := (fun x v => Host.reduce IntOp.andi x v reducesTo_S8x96x1_S_d0_1_2 h_S_) main_v36 main_c_13
  let main_v38 : IVec S_ 1 := andi main_v33 main_v37
  let main_v39 : FVec F S8x1 .f32 := Host.absf main_arg9
  let main_cst_14 : FVec F S_ .f32 := constant S_ .f32 0x7F800000#32
  let main_v40 : FVec F S8x1 .f32 := broadcastInDim S8x1 ![] bcast_S_S8x1 main_cst_14
  let main_v41 : IVec S8x1 1 := cmpf .olt main_v39 main_v40
  let main_c_15 : IVec S_ 1 := constantI S_ 1 1#1
  let main_v42 : IVec S_ 1 := (fun x v => Host.reduce IntOp.andi x v reducesTo_S8x1_S_d0_1 h_S_) main_v41 main_c_15
  let main_v43 : IVec S_ 1 := andi main_v38 main_v42
  main_v43

def fn_part1 {F : FTy → Type} [FloatOps F] (main_arg5 : FVec F S8x128 .f32) (main_arg6 : FVec F S8x128x96 .f32) (main_arg7 : FVec F S8x96 .f32) (main_arg8 : FVec F S8x96x1 .f32) (main_arg9 : FVec F S8x1 .f32) (main_v13 : IVec S_ 1) (main_v16 : IVec S8x160x128 1) : IVec S_ 1 :=
  let main_c_5 : IVec S_ 1 := constantI S_ 1 1#1
  let main_v17 : IVec S_ 1 := (fun x v => Host.reduce IntOp.andi x v reducesTo_S8x160x128_S_d0_1_2 h_S_) main_v16 main_c_5
  let main_v18 : IVec S_ 1 := andi main_v13 main_v17
  let main_v19 : FVec F S8x128 .f32 := Host.absf main_arg5
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S8x128x96 .f32 := Host.absf main_arg6
  let main_cst_8 : FVec F S_ .f32 := constant S_ .f32 0x7F800000#32
  let main_v25 : FVec F S8x128x96 .f32 := broadcastInDim S8x128x96 ![] bcast_S_S8x128x96 main_cst_8
  let main_v26 : IVec S8x128x96 1 := cmpf .olt main_v24 main_v25
  let main_c_9 : IVec S_ 1 := constantI S_ 1 1#1
  let main_v27 : IVec S_ 1 := (fun x v => Host.reduce IntOp.andi x v reducesTo_S8x128x96_S_d0_1_2 h_S_) main_v26 main_c_9
  let main_v28 : IVec S_ 1 := andi main_v23 main_v27
  let main_v29 : FVec F S8x96 .f32 := Host.absf main_arg7
  let main_cst_10 : FVec F S_ .f32 := constant S_ .f32 0x7F800000#32
  let main_v30 : FVec F S8x96 .f32 := broadcastInDim S8x96 ![] bcast_S_S8x96 main_cst_10
  let main_v31 : IVec S8x96 1 := cmpf .olt main_v29 main_v30
  let main_c_11 : IVec S_ 1 := constantI S_ 1 1#1
  let main_v32 : IVec S_ 1 := (fun x v => Host.reduce IntOp.andi x v reducesTo_S8x96_S_d0_1 h_S_) main_v31 main_c_11
  let main_v33 : IVec S_ 1 := andi main_v28 main_v32
  fn_part2 (F := F) main_arg8 main_arg9 main_v33

def fn {F : FTy → Type} [FloatOps F] (main_arg0 : IVec S2048x64 32) (main_arg1 : FVec F S2048x64x300 .f32) (main_arg2 : FVec F S8x300x160 .f32) (main_arg3 : FVec F S8x160 .f32) (main_arg4 : FVec F S8x160x128 .f32) (main_arg5 : FVec F S8x128 .f32) (main_arg6 : FVec F S8x128x96 .f32) (main_arg7 : FVec F S8x96 .f32) (main_arg8 : FVec F S8x96x1 .f32) (main_arg9 : FVec F S8x1 .f32) : IVec S_ 1 :=
  let main_v0 : FVec F S2048x64x300 .f32 := Host.absf main_arg1
  let main_cst : FVec F S_ .f32 := constant S_ .f32 0x7F800000#32
  let main_v1 : FVec F S2048x64x300 .f32 := broadcastInDim S2048x64x300 ![] bcast_S_S2048x64x300 main_cst
  let main_v2 : IVec S2048x64x300 1 := cmpf .olt main_v0 main_v1
  let main_c : IVec S_ 1 := constantI S_ 1 1#1
  let main_v3 : IVec S_ 1 := (fun x v => Host.reduce IntOp.andi x v reducesTo_S2048x64x300_S_d0_1_2 h_S_) main_v2 main_c
  let main_v4 : FVec F S8x300x160 .f32 := Host.absf main_arg2
  let main_cst_0 : FVec F S_ .f32 := constant S_ .f32 0x7F800000#32
  let main_v5 : FVec F S8x300x160 .f32 := broadcastInDim S8x300x160 ![] bcast_S_S8x300x160 main_cst_0
  let main_v6 : IVec S8x300x160 1 := cmpf .olt main_v4 main_v5
  let main_c_1 : IVec S_ 1 := constantI S_ 1 1#1
  let main_v7 : IVec S_ 1 := (fun x v => Host.reduce IntOp.andi x v reducesTo_S8x300x160_S_d0_1_2 h_S_) main_v6 main_c_1
  let main_v8 : IVec S_ 1 := andi main_v3 main_v7
  let main_v9 : FVec F S8x160 .f32 := Host.absf main_arg3
  let main_cst_2 : FVec F S_ .f32 := constant S_ .f32 0x7F800000#32
  let main_v10 : FVec F S8x160 .f32 := broadcastInDim S8x160 ![] bcast_S_S8x160 main_cst_2
  let main_v11 : IVec S8x160 1 := cmpf .olt main_v9 main_v10
  let main_c_3 : IVec S_ 1 := constantI S_ 1 1#1
  let main_v12 : IVec S_ 1 := (fun x v => Host.reduce IntOp.andi x v reducesTo_S8x160_S_d0_1 h_S_) main_v11 main_c_3
  let main_v13 : IVec S_ 1 := andi main_v8 main_v12
  let main_v14 : FVec F S8x160x128 .f32 := Host.absf main_arg4
  let main_cst_4 : FVec F S_ .f32 := constant S_ .f32 0x7F800000#32
  let main_v15 : FVec F S8x160x128 .f32 := broadcastInDim S8x160x128 ![] bcast_S_S8x160x128 main_cst_4
  let main_v16 : IVec S8x160x128 1 := cmpf .olt main_v14 main_v15
  fn_part1 (F := F) main_arg5 main_arg6 main_arg7 main_arg8 main_arg9 main_v13 main_v16
-- ==== Kernel.lean ====
abbrev S2048x64 : Shape := ⟨2, ![2048, 64]⟩
abbrev S2048x64x300 : Shape := ⟨3, ![2048, 64, 300]⟩
abbrev S8x300x160 : Shape := ⟨3, ![8, 300, 160]⟩
abbrev S8x160 : Shape := ⟨2, ![8, 160]⟩
abbrev S8x160x128 : Shape := ⟨3, ![8, 160, 128]⟩
abbrev S8x128 : Shape := ⟨2, ![8, 128]⟩
abbrev S8x128x96 : Shape := ⟨3, ![8, 128, 96]⟩
abbrev S8x96 : Shape := ⟨2, ![8, 96]⟩
abbrev S8x96x1 : Shape := ⟨3, ![8, 96, 1]⟩
abbrev S8x1 : Shape := ⟨2, ![8, 1]⟩
abbrev S131072x1 : Shape := ⟨2, ![131072, 1]⟩
abbrev S131072x300 : Shape := ⟨2, ![131072, 300]⟩
abbrev S300x8x160 : Shape := ⟨3, ![300, 8, 160]⟩
abbrev S300x1280 : Shape := ⟨2, ![300, 1280]⟩
abbrev S1x1280 : Shape := ⟨2, ![1, 1280]⟩
abbrev S1024x300 : Shape := ⟨2, ![1024, 300]⟩
abbrev S1024x1 : Shape := ⟨2, ![1024, 1]⟩
abbrev S1024x1280 : Shape := ⟨2, ![1024, 1280]⟩
abbrev S1024x160 : Shape := ⟨2, ![1024, 160]⟩
abbrev S1x160x128 : Shape := ⟨3, ![1, 160, 128]⟩
abbrev S160x128 : Shape := ⟨2, ![160, 128]⟩
abbrev S1024x128 : Shape := ⟨2, ![1024, 128]⟩
abbrev S1x128 : Shape := ⟨2, ![1, 128]⟩
abbrev S128 : Shape := ⟨1, ![128]⟩
abbrev S1x128x96 : Shape := ⟨3, ![1, 128, 96]⟩
abbrev S128x96 : Shape := ⟨2, ![128, 96]⟩
abbrev S1024x96 : Shape := ⟨2, ![1024, 96]⟩
abbrev S1x96 : Shape := ⟨2, ![1, 96]⟩
abbrev S96 : Shape := ⟨1, ![96]⟩
abbrev S1024 : Shape := ⟨1, ![1024]⟩
abbrev S1x1 : Shape := ⟨2, ![1, 1]⟩
abbrev S1 : Shape := ⟨1, ![1]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 14
  | .smem => 0
  | _ => 0

abbrev bufTy : (tb : Table) → Fin (tcTables nBuf tb) → BufTy
  | .hbm, ⟨0, _⟩ => ⟨S2048x64, .i32⟩
  | .hbm, ⟨1, _⟩ => ⟨S2048x64x300, .f32⟩
  | .hbm, ⟨2, _⟩ => ⟨S8x300x160, .f32⟩
  | .hbm, ⟨3, _⟩ => ⟨S8x160, .f32⟩
  | .hbm, ⟨4, _⟩ => ⟨S8x160x128, .f32⟩
  | .hbm, ⟨5, _⟩ => ⟨S8x128, .f32⟩
  | .hbm, ⟨6, _⟩ => ⟨S8x128x96, .f32⟩
  | .hbm, ⟨7, _⟩ => ⟨S8x96, .f32⟩
  | .hbm, ⟨8, _⟩ => ⟨S8x96x1, .f32⟩
  | .hbm, ⟨9, _⟩ => ⟨S8x1, .f32⟩
  | .hbm, ⟨10, _⟩ => ⟨S131072x1, .i32⟩
  | .hbm, ⟨11, _⟩ => ⟨S131072x300, .f32⟩
  | .hbm, ⟨12, _⟩ => ⟨S300x8x160, .f32⟩
  | .hbm, ⟨13, _⟩ => ⟨S300x1280, .f32⟩
  | .hbm, ⟨14, _⟩ => ⟨S300x1280, .bf16⟩
  | .hbm, ⟨15, _⟩ => ⟨S1x1280, .f32⟩
  | .hbm, ⟨16, _⟩ => ⟨S8x160x128, .bf16⟩
  | .hbm, ⟨17, _⟩ => ⟨S8x128x96, .bf16⟩
  | .hbm, ⟨18, _⟩ => ⟨S8x96, .f32⟩
  | .hbm, ⟨19, _⟩ => ⟨S131072x1, .f32⟩
  | .hbm, ⟨20, _⟩ => ⟨S2048x64, .f32⟩
  | .hbm, ⟨21, _⟩ => ⟨S_, .f32⟩
  | .hbm, ⟨22, _⟩ => ⟨S2048, .f32⟩
  | .hbm, ⟨23, _⟩ => ⟨S2048x1, .f32⟩
  | .local _ .vmem, ⟨0, _⟩ => ⟨S1024x300, .f32⟩
  | .local _ .vmem, ⟨1, _⟩ => ⟨S1024x300, .f32⟩
  | .local _ .vmem, ⟨2, _⟩ => ⟨S1024x1, .i32⟩
  | .local _ .vmem, ⟨3, _⟩ => ⟨S1024x1, .i32⟩
  | .local _ .vmem, ⟨4, _⟩ => ⟨S300x1280, .bf16⟩
  | .local _ .vmem, ⟨5, _⟩ => ⟨S1x1280, .f32⟩
  | .local _ .vmem, ⟨6, _⟩ => ⟨S8x160x128, .bf16⟩
  | .local _ .vmem, ⟨7, _⟩ => ⟨S8x128, .f32⟩
  | .local _ .vmem, ⟨8, _⟩ => ⟨S8x128x96, .bf16⟩
  | .local _ .vmem, ⟨9, _⟩ => ⟨S8x96, .f32⟩
  | .local _ .vmem, ⟨10, _⟩ => ⟨S8x96, .f32⟩
  | .local _ .vmem, ⟨11, _⟩ => ⟨S8x1, .f32⟩
  | .local _ .vmem, ⟨12, _⟩ => ⟨S1024x1, .f32⟩
  | .local _ .vmem, ⟨13, _⟩ => ⟨S1024x1, .f32⟩
  | _, _ => ⟨S2048x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x160x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S2048x64_S131072x1 : S2048x64.ShapeCasts S131072x1
  shapeCasts_S2048x64x300_S131072x300 : S2048x64x300.ShapeCasts S131072x300
  transposes_S8x300x160_S300x8x160_1_0_2 : S8x300x160.Transposes [1, 0, 2] S300x8x160
  shapeCasts_S300x8x160_S300x1280 : S300x8x160.ShapeCasts S300x1280
  bitsLt_bf16_f32 : FTy.bits .bf16 < FTy.bits .f32
  shapeCasts_S8x160_S1x1280 : S8x160.ShapeCasts S1x1280
  shapeCasts_S8x96x1_S8x96 : S8x96x1.ShapeCasts S8x96
  inb_S1024x300_S1024x300_0_0 : ∀ a, (![0, 0] : Fin 2 → Nat) a + S1024x300.size a ≤ S1024x300.size a
  h_S1024x300 : 0 < S1024x300.numel
  shapeCasts_S1024x300_S1024x300 : S1024x300.ShapeCasts S1024x300
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S300x1280_S300x1280_0_0 : ∀ a, (![0, 0] : Fin 2 → Nat) a + S300x1280.size a ≤ S300x1280.size a
  h_S300x1280 : 0 < S300x1280.numel
  shapeCasts_S300x1280_S300x1280 : S300x1280.ShapeCasts S300x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  inb_S8x160x128_S8x160x128_0_0_0 : ∀ a, (![0, 0, 0] : Fin 3 → Nat) a + S8x160x128.size a ≤ S8x160x128.size a
  h_S8x160x128 : 0 < S8x160x128.numel
  shapeCasts_S8x160x128_S8x160x128 : S8x160x128.ShapeCasts S8x160x128
  inb_S8x128_S8x128_0_0 : ∀ a, (![0, 0] : Fin 2 → Nat) a + S8x128.size a ≤ S8x128.size a
  h_S8x128 : 0 < S8x128.numel
  inb_S8x128x96_S8x128x96_0_0_0 : ∀ a, (![0, 0, 0] : Fin 3 → Nat) a + S8x128x96.size a ≤ S8x128x96.size a
  h_S8x128x96 : 0 < S8x128x96.numel
  shapeCasts_S8x128x96_S8x128x96 : S8x128x96.ShapeCasts S8x128x96
  inb_S8x96_S8x96_0_0 : ∀ a, (![0, 0] : Fin 2 → Nat) a + S8x96.size a ≤ S8x96.size a
  h_S8x96 : 0 < S8x96.numel
  shapeCasts_S8x96_S8x96 : S8x96.ShapeCasts S8x96
  inb_S8x1_S8x1_0_0 : ∀ a, (![0, 0] : Fin 2 → Nat) a + S8x1.size a ≤ S8x1.size a
  h_S8x1 : 0 < S8x1.numel
  slices_S1024x1280_o0_0_S1024x160 : S1024x1280.Slices ![0, 0] S1024x160
  slices_S8x160x128_o0_0_0_S1x160x128 : S8x160x128.Slices ![0, 0, 0] S1x160x128
  shapeCasts_S1x160x128_S160x128 : S1x160x128.ShapeCasts S160x128
  slices_S8x128_o0_0_S1x128 : S8x128.Slices ![0, 0] S1x128
  shapeCasts_S1x128_S128 : S1x128.ShapeCasts S128
  shapeCasts_S128_S1x128 : S128.ShapeCasts S1x128
  broadcasts_S1x128_S1024x128 : S1x128.Broadcasts S1024x128
  slices_S8x128x96_o0_0_0_S1x128x96 : S8x128x96.Slices ![0, 0, 0] S1x128x96
  shapeCasts_S1x128x96_S128x96 : S1x128x96.ShapeCasts S128x96
  slices_S8x96_o0_0_S1x96 : S8x96.Slices ![0, 0] S1x96
  shapeCasts_S1x96_S96 : S1x96.ShapeCasts S96
  shapeCasts_S96_S1x96 : S96.ShapeCasts S1x96
  broadcasts_S1x96_S1024x96 : S1x96.Broadcasts S1024x96
  reduces_S1024x96_S1024 : S1024x96.Reduces [1] S1024
  shapeCasts_S1024_S1024x1 : S1024.ShapeCasts S1024x1
  slices_S8x1_o0_0_S1x1 : S8x1.Slices ![0, 0] S1x1
  shapeCasts_S1x1_S1 : S1x1.ShapeCasts S1
  shapeCasts_S1_S1x1 : S1.ShapeCasts S1x1
  broadcasts_S1x1_S1024x1 : S1x1.Broadcasts S1024x1
  slices_S1024x1280_o0_160_S1024x160 : S1024x1280.Slices ![0, 160] S1024x160
  slices_S8x160x128_o1_0_0_S1x160x128 : S8x160x128.Slices ![1, 0, 0] S1x160x128
  slices_S8x128_o1_0_S1x128 : S8x128.Slices ![1, 0] S1x128
  slices_S8x128x96_o1_0_0_S1x128x96 : S8x128x96.Slices ![1, 0, 0] S1x128x96
  slices_S8x96_o1_0_S1x96 : S8x96.Slices ![1, 0] S1x96
  slices_S8x1_o1_0_S1x1 : S8x1.Slices ![1, 0] S1x1
  slices_S1024x1280_o0_320_S1024x160 : S1024x1280.Slices ![0, 320] S1024x160
  slices_S8x160x128_o2_0_0_S1x160x128 : S8x160x128.Slices ![2, 0, 0] S1x160x128
  slices_S8x128_o2_0_S1x128 : S8x128.Slices ![2, 0] S1x128
  slices_S8x128x96_o2_0_0_S1x128x96 : S8x128x96.Slices ![2, 0, 0] S1x128x96
  slices_S8x96_o2_0_S1x96 : S8x96.Slices ![2, 0] S1x96
  slices_S8x1_o2_0_S1x1 : S8x1.Slices ![2, 0] S1x1
  slices_S1024x1280_o0_480_S1024x160 : S1024x1280.Slices ![0, 480] S1024x160
  slices_S8x160x128_o3_0_0_S1x160x128 : S8x160x128.Slices ![3, 0, 0] S1x160x128
  slices_S8x128_o3_0_S1x128 : S8x128.Slices ![3, 0] S1x128
  slices_S8x128x96_o3_0_0_S1x128x96 : S8x128x96.Slices ![3, 0, 0] S1x128x96
  slices_S8x96_o3_0_S1x96 : S8x96.Slices ![3, 0] S1x96
  slices_S8x1_o3_0_S1x1 : S8x1.Slices ![3, 0] S1x1
  slices_S1024x1280_o0_640_S1024x160 : S1024x1280.Slices ![0, 640] S1024x160
  slices_S8x160x128_o4_0_0_S1x160x128 : S8x160x128.Slices ![4, 0, 0] S1x160x128
  slices_S8x128_o4_0_S1x128 : S8x128.Slices ![4, 0] S1x128
  slices_S8x128x96_o4_0_0_S1x128x96 : S8x128x96.Slices ![4, 0, 0] S1x128x96
  slices_S8x96_o4_0_S1x96 : S8x96.Slices ![4, 0] S1x96
  slices_S8x1_o4_0_S1x1 : S8x1.Slices ![4, 0] S1x1
  slices_S1024x1280_o0_800_S1024x160 : S1024x1280.Slices ![0, 800] S1024x160
  slices_S8x160x128_o5_0_0_S1x160x128 : S8x160x128.Slices ![5, 0, 0] S1x160x128
  slices_S8x128_o5_0_S1x128 : S8x128.Slices ![5, 0] S1x128
  slices_S8x128x96_o5_0_0_S1x128x96 : S8x128x96.Slices ![5, 0, 0] S1x128x96
  slices_S8x96_o5_0_S1x96 : S8x96.Slices ![5, 0] S1x96
  slices_S8x1_o5_0_S1x1 : S8x1.Slices ![5, 0] S1x1
  slices_S1024x1280_o0_960_S1024x160 : S1024x1280.Slices ![0, 960] S1024x160
  slices_S8x160x128_o6_0_0_S1x160x128 : S8x160x128.Slices ![6, 0, 0] S1x160x128
  slices_S8x128_o6_0_S1x128 : S8x128.Slices ![6, 0] S1x128
  slices_S8x128x96_o6_0_0_S1x128x96 : S8x128x96.Slices ![6, 0, 0] S1x128x96
  slices_S8x96_o6_0_S1x96 : S8x96.Slices ![6, 0] S1x96
  slices_S8x1_o6_0_S1x1 : S8x1.Slices ![6, 0] S1x1
  slices_S1024x1280_o0_1120_S1024x160 : S1024x1280.Slices ![0, 1120] S1024x160
  slices_S8x160x128_o7_0_0_S1x160x128 : S8x160x128.Slices ![7, 0, 0] S1x160x128
  slices_S8x128_o7_0_S1x128 : S8x128.Slices ![7, 0] S1x128
  slices_S8x128x96_o7_0_0_S1x128x96 : S8x128x96.Slices ![7, 0, 0] S1x128x96
  slices_S8x96_o7_0_S1x96 : S8x96.Slices ![7, 0] S1x96
  slices_S8x1_o7_0_S1x1 : S8x1.Slices ![7, 0] S1x1
  shapeCasts_S131072x1_S2048x64 : S131072x1.ShapeCasts S2048x64
  reducesTo_S2048x64_S2048_d1 : S2048x64.ReducesTo [1] S2048
  h_S_ : 0 < S_.numel
  bcast_S2048_S2048x1_0 : S2048.BroadcastsInDim S2048x1 (![0] : Fin 1 → Fin S2048x1.rank)
  dot_S1024x300_S300x1280_S1024x1280_1_0_0_1_n_n_wf : DotDims.WF S1024x300 S300x1280 S1024x1280 [1] [0] [0] [1] [] []
  dot_S1024x160_S160x128_S1024x128_1_0_0_1_n_n_wf : DotDims.WF S1024x160 S160x128 S1024x128 [1] [0] [0] [1] [] []
  dot_S1024x128_S128x96_S1024x96_1_0_0_1_n_n_wf : DotDims.WF S1024x128 S128x96 S1024x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x300.size a ≤ S131072x300.size a
  hwx0_0 : ∀ i : grid0.Coords, EltTy.bits .f32 = 32 ∨ (Rect.block (s := S131072x300) S1024x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S131072x1.size a
  hwx0_1 : ∀ i : grid0.Coords, EltTy.bits .i32 = 32 ∨ (Rect.block (s := S131072x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x1280.size a ≤ S300x1280.size a
  hwx0_2 : ∀ i : grid0.Coords, EltTy.bits .bf16 = 32 ∨ (Rect.block (s := S300x1280) S300x1280.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1280.size a ≤ S1x1280.size a
  hwx0_3 : ∀ i : grid0.Coords, EltTy.bits .f32 = 32 ∨ (Rect.block (s := S1x1280) S1x1280.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x160x128.size a ≤ S8x160x128.size a
  hwx0_4 : ∀ i : grid0.Coords, EltTy.bits .bf16 = 32 ∨ (Rect.block (s := S8x160x128) S8x160x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x128x96.size a ≤ S8x128x96.size a
  hwx0_6 : ∀ i : grid0.Coords, EltTy.bits .bf16 = 32 ∨ (Rect.block (s := S8x128x96) S8x128x96.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x96.size a ≤ S8x96.size a
  hwx0_7 : ∀ i : grid0.Coords, EltTy.bits .f32 = 32 ∨ (Rect.block (s := S8x96) S8x96.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x96.size a ≤ S8x96.size a
  hwx0_8 : ∀ i : grid0.Coords, EltTy.bits .f32 = 32 ∨ (Rect.block (s := S8x96) S8x96.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x1.size a ≤ S8x1.size a
  hwx0_9 : ∀ i : grid0.Coords, EltTy.bits .f32 = 32 ∨ (Rect.block (s := S8x1) S8x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S131072x1.size a
  hwx0_10 : ∀ i : grid0.Coords, EltTy.bits .f32 = 32 ∨ (Rect.block (s := S131072x1) S1024x1.size (cc0_transform_10 i) (hinb0_10 i)).WholeWords (EltTy.packing .f32)

variable [Facts₀]

def dot_S1024x300_S300x1280_S1024x1280_1_0_0_1_n_n : DotDims S1024x300 S300x1280 S1024x1280 where
  lhsContracting := [1]
  rhsContracting := [0]
  lhsNonContracting := [0]
  rhsNonContracting := [1]
  lhsBatch := []
  rhsBatch := []
  wf := dot_S1024x300_S300x1280_S1024x1280_1_0_0_1_n_n_wf
def dot_S1024x160_S160x128_S1024x128_1_0_0_1_n_n : DotDims S1024x160 S160x128 S1024x128 where
  lhsContracting := [1]
  rhsContracting := [0]
  lhsNonContracting := [0]
  rhsNonContracting := [1]
  lhsBatch := []
  rhsBatch := []
  wf := dot_S1024x160_S160x128_S1024x128_1_0_0_1_n_n_wf
def dot_S1024x128_S128x96_S1024x96_1_0_0_1_n_n : DotDims S1024x128 S128x96 S1024x96 where
  lhsContracting := [1]
  rhsContracting := [0]
  lhsNonContracting := [0]
  rhsNonContracting := [1]
  lhsBatch := []
  rhsBatch := []
  wf := dot_S1024x128_S128x96_S1024x96_1_0_0_1_n_n_wf

abbrev win0_0 : Pipeline.Window sig grid0 :=
  Pipeline.Window.ofSpec (Memref.whole main_v1) S1024x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S300x1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1280.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S8x160x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S8x128x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S8x96.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S8x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1024x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x64x300 : Shape := ⟨3, ![2048, 64, 300]⟩
abbrev S8x300x160 : Shape := ⟨3, ![8, 300, 160]⟩
abbrev S8x160 : Shape := ⟨2, ![8, 160]⟩
abbrev S8x160x128 : Shape := ⟨3, ![8, 160, 128]⟩
abbrev S8x128 : Shape := ⟨2, ![8, 128]⟩
abbrev S8x128x96 : Shape := ⟨3, ![8, 128, 96]⟩
abbrev S8x96 : Shape := ⟨2, ![8, 96]⟩
abbrev S8x96x1 : Shape := ⟨3, ![8, 96, 1]⟩
abbrev S8x1 : Shape := ⟨2, ![8, 1]⟩
abbrev S131072 : Shape := ⟨1, ![131072]⟩
abbrev S131072x300 : Shape := ⟨2, ![131072, 300]⟩
abbrev S_ : Shape := ⟨0, ![]⟩
abbrev S1x300x160 : Shape := ⟨3, ![1, 300, 160]⟩
abbrev S300x160 : Shape := ⟨2, ![300, 160]⟩
abbrev S131072x160 : Shape := ⟨2, ![131072, 160]⟩
abbrev S1x160 : Shape := ⟨2, ![1, 160]⟩
abbrev S160 : Shape := ⟨1, ![160]⟩
abbrev S1x160x128 : Shape := ⟨3, ![1, 160, 128]⟩
abbrev S160x128 : Shape := ⟨2, ![160, 128]⟩
abbrev S131072x128 : Shape := ⟨2, ![131072, 128]⟩
abbrev S1x128 : Shape := ⟨2, ![1, 128]⟩
abbrev S128 : Shape := ⟨1, ![128]⟩
abbrev S1x128x96 : Shape := ⟨3, ![1, 128, 96]⟩
abbrev S128x96 : Shape := ⟨2, ![128, 96]⟩
abbrev S131072x96 : Shape := ⟨2, ![131072, 96]⟩
abbrev S1x96 : Shape := ⟨2, ![1, 96]⟩
abbrev S96 : Shape := ⟨1, ![96]⟩
abbrev S1x96x1 : Shape := ⟨3, ![1, 96, 1]⟩
abbrev S96x1 : Shape := ⟨2, ![96, 1]⟩
abbrev S131072x1 : Shape := ⟨2, ![131072, 1]⟩
abbrev S1x1 : Shape := ⟨2, ![1, 1]⟩
abbrev S1 : Shape := ⟨1, ![1]⟩
abbrev S2048 : Shape := ⟨1, ![2048]⟩
abbrev S2048x1 : Shape := ⟨2, ![2048, 1]⟩

abbrev nBuf : Space → Nat
  | .hbm => 386
  | .vmem => 0
  | .smem => 0
  | _ => 0

abbrev hbmTy0_0 (i : Nat) : BufTy := match i % 128 with
  | 0 => ⟨S2048x64, .i32⟩
  | 1 => ⟨S2048x64x300, .f32⟩
  | 2 => ⟨S8x300x160, .f32⟩
  | 3 => ⟨S8x160, .f32⟩
  | 4 => ⟨S8x160x128, .f32⟩
  | 5 => ⟨S8x128, .f32⟩
  | 6 => ⟨S8x128x96, .f32⟩
  | 7 => ⟨S8x96, .f32⟩
  | 8 => ⟨S8x96x1, .f32⟩
  | 9 => ⟨S8x1, .f32⟩
  | 10 => ⟨S131072, .i32⟩
  | 11 => ⟨S131072x300, .f32⟩
  | 12 => ⟨S_, .f32⟩
  | 13 => ⟨S131072, .f32⟩
  | 14 => ⟨S1x300x160, .f32⟩
  | 15 => ⟨S300x160, .f32⟩
  | 16 => ⟨S131072x160, .f32⟩
  | 17 => ⟨S1x160, .f32⟩
  | 18 => ⟨S160, .f32⟩
  | 19 => ⟨S1x160, .f32⟩
  | 20 => ⟨S131072x160, .f32⟩
  | 21 => ⟨S131072x160, .f32⟩
  | 22 => ⟨S_, .f32⟩
  | 23 => ⟨S131072x160, .f32⟩
  | 24 => ⟨S131072x160, .f32⟩
  | 25 => ⟨S1x160x128, .f32⟩
  | 26 => ⟨S160x128, .f32⟩
  | 27 => ⟨S131072x128, .f32⟩
  | 28 => ⟨S1x128, .f32⟩
  | 29 => ⟨S128, .f32⟩
  | 30 => ⟨S1x128, .f32⟩
  | 31 => ⟨S131072x128, .f32⟩
  | 32 => ⟨S131072x128, .f32⟩
  | 33 => ⟨S_, .f32⟩
  | 34 => ⟨S131072x128, .f32⟩
  | 35 => ⟨S131072x128, .f32⟩
  | 36 => ⟨S1x128x96, .f32⟩
  | 37 => ⟨S128x96, .f32⟩
  | 38 => ⟨S131072x96, .f32⟩
  | 39 => ⟨S1x96, .f32⟩
  | 40 => ⟨S96, .f32⟩
  | 41 => ⟨S1x96, .f32⟩
  | 42 => ⟨S131072x96, .f32⟩
  | 43 => ⟨S131072x96, .f32⟩
  | 44 => ⟨S_, .f32⟩
  | 45 => ⟨S131072x96, .f32⟩
  | 46 => ⟨S131072x96, .f32⟩
  | 47 => ⟨S1x96x1, .f32⟩
  | 48 => ⟨S96x1, .f32⟩
  | 49 => ⟨S131072x1, .f32⟩
  | 50 => ⟨S1x1, .f32⟩
  | 51 => ⟨S1, .f32⟩
  | 52 => ⟨S1x1, .f32⟩
  | 53 => ⟨S131072x1, .f32⟩
  | 54 => ⟨S131072x1, .f32⟩
  | 55 => ⟨S131072, .f32⟩
  | 56 => ⟨S_, .i32⟩
  | 57 => ⟨S131072, .i32⟩
  | 58 => ⟨S131072, .i1⟩
  | 59 => ⟨S131072, .f32⟩
  | 60 => ⟨S1x300x160, .f32⟩
  | 61 => ⟨S300x160, .f32⟩
  | 62 => ⟨S131072x160, .f32⟩
  | 63 => ⟨S1x160, .f32⟩
  | 64 => ⟨S160, .f32⟩
  | 65 => ⟨S1x160, .f32⟩
  | 66 => ⟨S131072x160, .f32⟩
  | 67 => ⟨S131072x160, .f32⟩
  | 68 => ⟨S_, .f32⟩
  | 69 => ⟨S131072x160, .f32⟩
  | 70 => ⟨S131072x160, .f32⟩
  | 71 => ⟨S1x160x128, .f32⟩
  | 72 => ⟨S160x128, .f32⟩
  | 73 => ⟨S131072x128, .f32⟩
  | 74 => ⟨S1x128, .f32⟩
  | 75 => ⟨S128, .f32⟩
  | 76 => ⟨S1x128, .f32⟩
  | 77 => ⟨S131072x128, .f32⟩
  | 78 => ⟨S131072x128, .f32⟩
  | 79 => ⟨S_, .f32⟩
  | 80 => ⟨S131072x128, .f32⟩
  | 81 => ⟨S131072x128, .f32⟩
  | 82 => ⟨S1x128x96, .f32⟩
  | 83 => ⟨S128x96, .f32⟩
  | 84 => ⟨S131072x96, .f32⟩
  | 85 => ⟨S1x96, .f32⟩
  | 86 => ⟨S96, .f32⟩
  | 87 => ⟨S1x96, .f32⟩
  | 88 => ⟨S131072x96, .f32⟩
  | 89 => ⟨S131072x96, .f32⟩
  | 90 => ⟨S_, .f32⟩
  | 91 => ⟨S131072x96, .f32⟩
  | 92 => ⟨S131072x96, .f32⟩
  | 93 => ⟨S1x96x1, .f32⟩
  | 94 => ⟨S96x1, .f32⟩
  | 95 => ⟨S131072x1, .f32⟩
  | 96 => ⟨S1x1, .f32⟩
  | 97 => ⟨S1, .f32⟩
  | 98 => ⟨S1x1, .f32⟩
  | 99 => ⟨S131072x1, .f32⟩
  | 100 => ⟨S131072x1, .f32⟩
  | 101 => ⟨S131072, .f32⟩
  | 102 => ⟨S_, .i32⟩
  | 103 => ⟨S131072, .i32⟩
  | 104 => ⟨S131072, .i1⟩
  | 105 => ⟨S131072, .f32⟩
  | 106 => ⟨S1x300x160, .f32⟩
  | 107 => ⟨S300x160, .f32⟩
  | 108 => ⟨S131072x160, .f32⟩
  | 109 => ⟨S1x160, .f32⟩
  | 110 => ⟨S160, .f32⟩
  | 111 => ⟨S1x160, .f32⟩
  | 112 => ⟨S131072x160, .f32⟩
  | 113 => ⟨S131072x160, .f32⟩
  | 114 => ⟨S_, .f32⟩
  | 115 => ⟨S131072x160, .f32⟩
  | 116 => ⟨S131072x160, .f32⟩
  | 117 => ⟨S1x160x128, .f32⟩
  | 118 => ⟨S160x128, .f32⟩
  | 119 => ⟨S131072x128, .f32⟩
  | 120 => ⟨S1x128, .f32⟩
  | 121 => ⟨S128, .f32⟩
  | 122 => ⟨S1x128, .f32⟩
  | 123 => ⟨S131072x128, .f32⟩
  | 124 => ⟨S131072x128, .f32⟩
  | 125 => ⟨S_, .f32⟩
  | 126 => ⟨S131072x128, .f32⟩
  | 127 => ⟨S131072x128, .f32⟩
  | _ => ⟨S2048x64, .i32⟩

abbrev hbmTy0_1 (i : Nat) : BufTy := match i % 128 with
  | 0 => ⟨S1x128x96, .f32⟩
  | 1 => ⟨S128x96, .f32⟩
  | 2 => ⟨S131072x96, .f32⟩
  | 3 => ⟨S1x96, .f32⟩
  | 4 => ⟨S96, .f32⟩
  | 5 => ⟨S1x96, .f32⟩
  | 6 => ⟨S131072x96, .f32⟩
  | 7 => ⟨S131072x96, .f32⟩
  | 8 => ⟨S_, .f32⟩
  | 9 => ⟨S131072x96, .f32⟩
  | 10 => ⟨S131072x96, .f32⟩
  | 11 => ⟨S1x96x1, .f32⟩
  | 12 => ⟨S96x1, .f32⟩
  | 13 => ⟨S131072x1, .f32⟩
  | 14 => ⟨S1x1, .f32⟩
  | 15 => ⟨S1, .f32⟩
  | 16 => ⟨S1x1, .f32⟩
  | 17 => ⟨S131072x1, .f32⟩
  | 18 => ⟨S131072x1, .f32⟩
  | 19 => ⟨S131072, .f32⟩
  | 20 => ⟨S_, .i32⟩
  | 21 => ⟨S131072, .i32⟩
  | 22 => ⟨S131072, .i1⟩
  | 23 => ⟨S131072, .f32⟩
  | 24 => ⟨S1x300x160, .f32⟩
  | 25 => ⟨S300x160, .f32⟩
  | 26 => ⟨S131072x160, .f32⟩
  | 27 => ⟨S1x160, .f32⟩
  | 28 => ⟨S160, .f32⟩
  | 29 => ⟨S1x160, .f32⟩
  | 30 => ⟨S131072x160, .f32⟩
  | 31 => ⟨S131072x160, .f32⟩
  | 32 => ⟨S_, .f32⟩
  | 33 => ⟨S131072x160, .f32⟩
  | 34 => ⟨S131072x160, .f32⟩
  | 35 => ⟨S1x160x128, .f32⟩
  | 36 => ⟨S160x128, .f32⟩
  | 37 => ⟨S131072x128, .f32⟩
  | 38 => ⟨S1x128, .f32⟩
  | 39 => ⟨S128, .f32⟩
  | 40 => ⟨S1x128, .f32⟩
  | 41 => ⟨S131072x128, .f32⟩
  | 42 => ⟨S131072x128, .f32⟩
  | 43 => ⟨S_, .f32⟩
  | 44 => ⟨S131072x128, .f32⟩
  | 45 => ⟨S131072x128, .f32⟩
  | 46 => ⟨S1x128x96, .f32⟩
  | 47 => ⟨S128x96, .f32⟩
  | 48 => ⟨S131072x96, .f32⟩
  | 49 => ⟨S1x96, .f32⟩
  | 50 => ⟨S96, .f32⟩
  | 51 => ⟨S1x96, .f32⟩
  | 52 => ⟨S131072x96, .f32⟩
  | 53 => ⟨S131072x96, .f32⟩
  | 54 => ⟨S_, .f32⟩
  | 55 => ⟨S131072x96, .f32⟩
  | 56 => ⟨S131072x96, .f32⟩
  | 57 => ⟨S1x96x1, .f32⟩
  | 58 => ⟨S96x1, .f32⟩
  | 59 => ⟨S131072x1, .f32⟩
  | 60 => ⟨S1x1, .f32⟩
  | 61 => ⟨S1, .f32⟩
  | 62 => ⟨S1x1, .f32⟩
  | 63 => ⟨S131072x1, .f32⟩
  | 64 => ⟨S131072x1, .f32⟩
  | 65 => ⟨S131072, .f32⟩
  | 66 => ⟨S_, .i32⟩
  | 67 => ⟨S131072, .i32⟩
  | 68 => ⟨S131072, .i1⟩
  | 69 => ⟨S131072, .f32⟩
  | 70 => ⟨S1x300x160, .f32⟩
  | 71 => ⟨S300x160, .f32⟩
  | 72 => ⟨S131072x160, .f32⟩
  | 73 => ⟨S1x160, .f32⟩
  | 74 => ⟨S160, .f32⟩
  | 75 => ⟨S1x160, .f32⟩
  | 76 => ⟨S131072x160, .f32⟩
  | 77 => ⟨S131072x160, .f32⟩
  | 78 => ⟨S_, .f32⟩
  | 79 => ⟨S131072x160, .f32⟩
  | 80 => ⟨S131072x160, .f32⟩
  | 81 => ⟨S1x160x128, .f32⟩
  | 82 => ⟨S160x128, .f32⟩
  | 83 => ⟨S131072x128, .f32⟩
  | 84 => ⟨S1x128, .f32⟩
  | 85 => ⟨S128, .f32⟩
  | 86 => ⟨S1x128, .f32⟩
  | 87 => ⟨S131072x128, .f32⟩
  | 88 => ⟨S131072x128, .f32⟩
  | 89 => ⟨S_, .f32⟩
  | 90 => ⟨S131072x128, .f32⟩
  | 91 => ⟨S131072x128, .f32⟩
  | 92 => ⟨S1x128x96, .f32⟩
  | 93 => ⟨S128x96, .f32⟩
  | 94 => ⟨S131072x96, .f32⟩
  | 95 => ⟨S1x96, .f32⟩
  | 96 => ⟨S96, .f32⟩
  | 97 => ⟨S1x96, .f32⟩
  | 98 => ⟨S131072x96, .f32⟩
  | 99 => ⟨S131072x96, .f32⟩
  | 100 => ⟨S_, .f32⟩
  | 101 => ⟨S131072x96, .f32⟩
  | 102 => ⟨S131072x96, .f32⟩
  | 103 => ⟨S1x96x1, .f32⟩
  | 104 => ⟨S96x1, .f32⟩
  | 105 => ⟨S131072x1, .f32⟩
  | 106 => ⟨S1x1, .f32⟩
  | 107 => ⟨S1, .f32⟩
  | 108 => ⟨S1x1, .f32⟩
  | 109 => ⟨S131072x1, .f32⟩
  | 110 => ⟨S131072x1, .f32⟩
  | 111 => ⟨S131072, .f32⟩
  | 112 => ⟨S_, .i32⟩
  | 113 => ⟨S131072, .i32⟩
  | 114 => ⟨S131072, .i1⟩
  | 115 => ⟨S131072, .f32⟩
  | 116 => ⟨S1x300x160, .f32⟩
  | 117 => ⟨S300x160, .f32⟩
  | 118 => ⟨S131072x160, .f32⟩
  | 119 => ⟨S1x160, .f32⟩
  | 120 => ⟨S160, .f32⟩
  | 121 => ⟨S1x160, .f32⟩
  | 122 => ⟨S131072x160, .f32⟩
  | 123 => ⟨S131072x160, .f32⟩
  | 124 => ⟨S_, .f32⟩
  | 125 => ⟨S131072x160, .f32⟩
  | 126 => ⟨S131072x160, .f32⟩
  | 127 => ⟨S1x160x128, .f32⟩
  | _ => ⟨S2048x64, .i32⟩

abbrev hbmTy0_2 (i : Nat) : BufTy := match i % 128 with
  | 0 => ⟨S160x128, .f32⟩
  | 1 => ⟨S131072x128, .f32⟩
  | 2 => ⟨S1x128, .f32⟩
  | 3 => ⟨S128, .f32⟩
  | 4 => ⟨S1x128, .f32⟩
  | 5 => ⟨S131072x128, .f32⟩
  | 6 => ⟨S131072x128, .f32⟩
  | 7 => ⟨S_, .f32⟩
  | 8 => ⟨S131072x128, .f32⟩
  | 9 => ⟨S131072x128, .f32⟩
  | 10 => ⟨S1x128x96, .f32⟩
  | 11 => ⟨S128x96, .f32⟩
  | 12 => ⟨S131072x96, .f32⟩
  | 13 => ⟨S1x96, .f32⟩
  | 14 => ⟨S96, .f32⟩
  | 15 => ⟨S1x96, .f32⟩
  | 16 => ⟨S131072x96, .f32⟩
  | 17 => ⟨S131072x96, .f32⟩
  | 18 => ⟨S_, .f32⟩
  | 19 => ⟨S131072x96, .f32⟩
  | 20 => ⟨S131072x96, .f32⟩
  | 21 => ⟨S1x96x1, .f32⟩
  | 22 => ⟨S96x1, .f32⟩
  | 23 => ⟨S131072x1, .f32⟩
  | 24 => ⟨S1x1, .f32⟩
  | 25 => ⟨S1, .f32⟩
  | 26 => ⟨S1x1, .f32⟩
  | 27 => ⟨S131072x1, .f32⟩
  | 28 => ⟨S131072x1, .f32⟩
  | 29 => ⟨S131072, .f32⟩
  | 30 => ⟨S_, .i32⟩
  | 31 => ⟨S131072, .i32⟩
  | 32 => ⟨S131072, .i1⟩
  | 33 => ⟨S131072, .f32⟩
  | 34 => ⟨S1x300x160, .f32⟩
  | 35 => ⟨S300x160, .f32⟩
  | 36 => ⟨S131072x160, .f32⟩
  | 37 => ⟨S1x160, .f32⟩
  | 38 => ⟨S160, .f32⟩
  | 39 => ⟨S1x160, .f32⟩
  | 40 => ⟨S131072x160, .f32⟩
  | 41 => ⟨S131072x160, .f32⟩
  | 42 => ⟨S_, .f32⟩
  | 43 => ⟨S131072x160, .f32⟩
  | 44 => ⟨S131072x160, .f32⟩
  | 45 => ⟨S1x160x128, .f32⟩
  | 46 => ⟨S160x128, .f32⟩
  | 47 => ⟨S131072x128, .f32⟩
  | 48 => ⟨S1x128, .f32⟩
  | 49 => ⟨S128, .f32⟩
  | 50 => ⟨S1x128, .f32⟩
  | 51 => ⟨S131072x128, .f32⟩
  | 52 => ⟨S131072x128, .f32⟩
  | 53 => ⟨S_, .f32⟩
  | 54 => ⟨S131072x128, .f32⟩
  | 55 => ⟨S131072x128, .f32⟩
  | 56 => ⟨S1x128x96, .f32⟩
  | 57 => ⟨S128x96, .f32⟩
  | 58 => ⟨S131072x96, .f32⟩
  | 59 => ⟨S1x96, .f32⟩
  | 60 => ⟨S96, .f32⟩
  | 61 => ⟨S1x96, .f32⟩
  | 62 => ⟨S131072x96, .f32⟩
  | 63 => ⟨S131072x96, .f32⟩
  | 64 => ⟨S_, .f32⟩
  | 65 => ⟨S131072x96, .f32⟩
  | 66 => ⟨S131072x96, .f32⟩
  | 67 => ⟨S1x96x1, .f32⟩
  | 68 => ⟨S96x1, .f32⟩
  | 69 => ⟨S131072x1, .f32⟩
  | 70 => ⟨S1x1, .f32⟩
  | 71 => ⟨S1, .f32⟩
  | 72 => ⟨S1x1, .f32⟩
  | 73 => ⟨S131072x1, .f32⟩
  | 74 => ⟨S131072x1, .f32⟩
  | 75 => ⟨S131072, .f32⟩
  | 76 => ⟨S_, .i32⟩
  | 77 => ⟨S131072, .i32⟩
  | 78 => ⟨S131072, .i1⟩
  | 79 => ⟨S131072, .f32⟩
  | 80 => ⟨S1x300x160, .f32⟩
  | 81 => ⟨S300x160, .f32⟩
  | 82 => ⟨S131072x160, .f32⟩
  | 83 => ⟨S1x160, .f32⟩
  | 84 => ⟨S160, .f32⟩
  | 85 => ⟨S1x160, .f32⟩
  | 86 => ⟨S131072x160, .f32⟩
  | 87 => ⟨S131072x160, .f32⟩
  | 88 => ⟨S_, .f32⟩
  | 89 => ⟨S131072x160, .f32⟩
  | 90 => ⟨S131072x160, .f32⟩
  | 91 => ⟨S1x160x128, .f32⟩
  | 92 => ⟨S160x128, .f32⟩
  | 93 => ⟨S131072x128, .f32⟩
  | 94 => ⟨S1x128, .f32⟩
  | 95 => ⟨S128, .f32⟩
  | 96 => ⟨S1x128, .f32⟩
  | 97 => ⟨S131072x128, .f32⟩
  | 98 => ⟨S131072x128, .f32⟩
  | 99 => ⟨S_, .f32⟩
  | 100 => ⟨S131072x128, .f32⟩
  | 101 => ⟨S131072x128, .f32⟩
  | 102 => ⟨S1x128x96, .f32⟩
  | 103 => ⟨S128x96, .f32⟩
  | 104 => ⟨S131072x96, .f32⟩
  | 105 => ⟨S1x96, .f32⟩
  | 106 => ⟨S96, .f32⟩
  | 107 => ⟨S1x96, .f32⟩
  | 108 => ⟨S131072x96, .f32⟩
  | 109 => ⟨S131072x96, .f32⟩
  | 110 => ⟨S_, .f32⟩
  | 111 => ⟨S131072x96, .f32⟩
  | 112 => ⟨S131072x96, .f32⟩
  | 113 => ⟨S1x96x1, .f32⟩
  | 114 => ⟨S96x1, .f32⟩
  | 115 => ⟨S131072x1, .f32⟩
  | 116 => ⟨S1x1, .f32⟩
  | 117 => ⟨S1, .f32⟩
  | 118 => ⟨S1x1, .f32⟩
  | 119 => ⟨S131072x1, .f32⟩
  | 120 => ⟨S131072x1, .f32⟩
  | 121 => ⟨S131072, .f32⟩
  | 122 => ⟨S_, .i32⟩
  | 123 => ⟨S131072, .i32⟩
  | 124 => ⟨S131072, .i1⟩
  | 125 => ⟨S131072, .f32⟩
  | 126 => ⟨S2048x64, .f32⟩
  | 127 => ⟨S_, .f32⟩
  | _ => ⟨S2048x64, .i32⟩

abbrev hbmTy0_3 (i : Nat) : BufTy := match i % 128 with
  | 0 => ⟨S2048, .f32⟩
  | 1 => ⟨S2048x1, .f32⟩
  | _ => ⟨S2048x64, .i32⟩

abbrev hbmTy (i : Nat) : BufTy := match i / 128 with
  | 0 => hbmTy0_0 i
  | 1 => hbmTy0_1 i
  | 2 => hbmTy0_2 i
  | 3 => hbmTy0_3 i
  | _ => ⟨S2048x64, .i32⟩

abbrev bufTy : (tb : Table) → Fin (tcTables nBuf tb) → BufTy
  | .hbm, ⟨i, _⟩ => hbmTy i
  | _, _ => ⟨S2048x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_cst : Ref sig .tc := ⟨.hbm, 33, rfl⟩
abbrev main_call1_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call2_cst : Ref sig .tc := ⟨.hbm, 44, rfl⟩
abbrev main_call2_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call4_cst : Ref sig .tc := ⟨.hbm, 68, rfl⟩
abbrev main_call4_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_call5_cst : Ref sig .tc := ⟨.hbm, 79, rfl⟩
abbrev main_call5_v0 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call6_cst : Ref sig .tc := ⟨.hbm, 90, rfl⟩
abbrev main_call6_v0 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_0 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_call8_cst : Ref sig .tc := ⟨.hbm, 114, rfl⟩
abbrev main_call8_v0 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_call9_cst : Ref sig .tc := ⟨.hbm, 125, rfl⟩
abbrev main_call9_v0 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_call10_cst : Ref sig .tc := ⟨.hbm, 136, rfl⟩
abbrev main_call10_v0 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_1 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_call12_cst : Ref sig .tc := ⟨.hbm, 160, rfl⟩
abbrev main_call12_v0 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_call13_cst : Ref sig .tc := ⟨.hbm, 171, rfl⟩
abbrev main_call13_v0 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_call14_cst : Ref sig .tc := ⟨.hbm, 182, rfl⟩
abbrev main_call14_v0 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_c_2 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_call16_cst : Ref sig .tc := ⟨.hbm, 206, rfl⟩
abbrev main_call16_v0 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_call17_cst : Ref sig .tc := ⟨.hbm, 217, rfl⟩
abbrev main_call17_v0 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_call18_cst : Ref sig .tc := ⟨.hbm, 228, rfl⟩
abbrev main_call18_v0 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_c_3 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_call20_cst : Ref sig .tc := ⟨.hbm, 252, rfl⟩
abbrev main_call20_v0 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_call21_cst : Ref sig .tc := ⟨.hbm, 263, rfl⟩
abbrev main_call21_v0 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_call22_cst : Ref sig .tc := ⟨.hbm, 274, rfl⟩
abbrev main_call22_v0 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_c_4 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_call24_cst : Ref sig .tc := ⟨.hbm, 298, rfl⟩
abbrev main_call24_v0 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_call25_cst : Ref sig .tc := ⟨.hbm, 309, rfl⟩
abbrev main_call25_v0 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_call26_cst : Ref sig .tc := ⟨.hbm, 320, rfl⟩
abbrev main_call26_v0 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_c_5 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_call28_cst : Ref sig .tc := ⟨.hbm, 344, rfl⟩
abbrev main_call28_v0 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_call29_cst : Ref sig .tc := ⟨.hbm, 355, rfl⟩
abbrev main_call29_v0 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_call30_cst : Ref sig .tc := ⟨.hbm, 366, rfl⟩
abbrev main_call30_v0 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_c_6 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_cst_7 : Ref sig .tc := ⟨.hbm, 383, rfl⟩
abbrev main_v316 : Ref sig .tc := ⟨.hbm, 384, rfl⟩
abbrev main_v317 : Ref sig .tc := ⟨.hbm, 385, rfl⟩

abbrev nD : Nat := 1
abbrev τ : Topo := Topo.v7x

variable {F : FTy → Type} [FloatOps F]

class Facts₀ : Prop where
  shapeCasts_S2048x64_S131072 : S2048x64.ShapeCasts S131072
  shapeCasts_S2048x64x300_S131072x300 : S2048x64x300.ShapeCasts S131072x300
  bcast_S_S131072 : S_.BroadcastsInDim S131072 (![] : Fin 0 → Fin S131072.rank)
  slices_S8x300x160_S1x300x160_0_0_0 : S8x300x160.Slices ![0, 0, 0] S1x300x160
  shapeCasts_S1x300x160_S300x160 : S1x300x160.ShapeCasts S300x160
  slices_S8x160_S1x160_0_0 : S8x160.Slices ![0, 0] S1x160
  shapeCasts_S1x160_S160 : S1x160.ShapeCasts S160
  bcast_S160_S1x160_1 : S160.BroadcastsInDim S1x160 (![1] : Fin 1 → Fin S1x160.rank)
  bcast_S1x160_S131072x160_0_1 : S1x160.BroadcastsInDim S131072x160 (![0, 1] : Fin 2 → Fin S131072x160.rank)
  bcast_S_S131072x160 : S_.BroadcastsInDim S131072x160 (![] : Fin 0 → Fin S131072x160.rank)
  slices_S8x160x128_S1x160x128_0_0_0 : S8x160x128.Slices ![0, 0, 0] S1x160x128
  shapeCasts_S1x160x128_S160x128 : S1x160x128.ShapeCasts S160x128
  slices_S8x128_S1x128_0_0 : S8x128.Slices ![0, 0] S1x128
  shapeCasts_S1x128_S128 : S1x128.ShapeCasts S128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  slices_S8x128x96_S1x128x96_0_0_0 : S8x128x96.Slices ![0, 0, 0] S1x128x96
  shapeCasts_S1x128x96_S128x96 : S1x128x96.ShapeCasts S128x96
  slices_S8x96_S1x96_0_0 : S8x96.Slices ![0, 0] S1x96
  shapeCasts_S1x96_S96 : S1x96.ShapeCasts S96
  bcast_S96_S1x96_1 : S96.BroadcastsInDim S1x96 (![1] : Fin 1 → Fin S1x96.rank)
  bcast_S1x96_S131072x96_0_1 : S1x96.BroadcastsInDim S131072x96 (![0, 1] : Fin 2 → Fin S131072x96.rank)
  bcast_S_S131072x96 : S_.BroadcastsInDim S131072x96 (![] : Fin 0 → Fin S131072x96.rank)
  slices_S8x96x1_S1x96x1_0_0_0 : S8x96x1.Slices ![0, 0, 0] S1x96x1
  shapeCasts_S1x96x1_S96x1 : S1x96x1.ShapeCasts S96x1
  slices_S8x1_S1x1_0_0 : S8x1.Slices ![0, 0] S1x1
  shapeCasts_S1x1_S1 : S1x1.ShapeCasts S1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  slices_S8x300x160_S1x300x160_1_0_0 : S8x300x160.Slices ![1, 0, 0] S1x300x160
  slices_S8x160_S1x160_1_0 : S8x160.Slices ![1, 0] S1x160
  slices_S8x160x128_S1x160x128_1_0_0 : S8x160x128.Slices ![1, 0, 0] S1x160x128
  slices_S8x128_S1x128_1_0 : S8x128.Slices ![1, 0] S1x128
  slices_S8x128x96_S1x128x96_1_0_0 : S8x128x96.Slices ![1, 0, 0] S1x128x96
  slices_S8x96_S1x96_1_0 : S8x96.Slices ![1, 0] S1x96
  slices_S8x96x1_S1x96x1_1_0_0 : S8x96x1.Slices ![1, 0, 0] S1x96x1
  slices_S8x1_S1x1_1_0 : S8x1.Slices ![1, 0] S1x1
  slices_S8x300x160_S1x300x160_2_0_0 : S8x300x160.Slices ![2, 0, 0] S1x300x160
  slices_S8x160_S1x160_2_0 : S8x160.Slices ![2, 0] S1x160
  slices_S8x160x128_S1x160x128_2_0_0 : S8x160x128.Slices ![2, 0, 0] S1x160x128
  slices_S8x128_S1x128_2_0 : S8x128.Slices ![2, 0] S1x128
  slices_S8x128x96_S1x128x96_2_0_0 : S8x128x96.Slices ![2, 0, 0] S1x128x96
  slices_S8x96_S1x96_2_0 : S8x96.Slices ![2, 0] S1x96
  slices_S8x96x1_S1x96x1_2_0_0 : S8x96x1.Slices ![2, 0, 0] S1x96x1
  slices_S8x1_S1x1_2_0 : S8x1.Slices ![2, 0] S1x1
  slices_S8x300x160_S1x300x160_3_0_0 : S8x300x160.Slices ![3, 0, 0] S1x300x160
  slices_S8x160_S1x160_3_0 : S8x160.Slices ![3, 0] S1x160
  slices_S8x160x128_S1x160x128_3_0_0 : S8x160x128.Slices ![3, 0, 0] S1x160x128
  slices_S8x128_S1x128_3_0 : S8x128.Slices ![3, 0] S1x128
  slices_S8x128x96_S1x128x96_3_0_0 : S8x128x96.Slices ![3, 0, 0] S1x128x96
  slices_S8x96_S1x96_3_0 : S8x96.Slices ![3, 0] S1x96
  slices_S8x96x1_S1x96x1_3_0_0 : S8x96x1.Slices ![3, 0, 0] S1x96x1
  slices_S8x1_S1x1_3_0 : S8x1.Slices ![3, 0] S1x1
  slices_S8x300x160_S1x300x160_4_0_0 : S8x300x160.Slices ![4, 0, 0] S1x300x160
  slices_S8x160_S1x160_4_0 : S8x160.Slices ![4, 0] S1x160
  slices_S8x160x128_S1x160x128_4_0_0 : S8x160x128.Slices ![4, 0, 0] S1x160x128
  slices_S8x128_S1x128_4_0 : S8x128.Slices ![4, 0] S1x128
  slices_S8x128x96_S1x128x96_4_0_0 : S8x128x96.Slices ![4, 0, 0] S1x128x96
  slices_S8x96_S1x96_4_0 : S8x96.Slices ![4, 0] S1x96
  slices_S8x96x1_S1x96x1_4_0_0 : S8x96x1.Slices ![4, 0, 0] S1x96x1
  slices_S8x1_S1x1_4_0 : S8x1.Slices ![4, 0] S1x1
  slices_S8x300x160_S1x300x160_5_0_0 : S8x300x160.Slices ![5, 0, 0] S1x300x160
  slices_S8x160_S1x160_5_0 : S8x160.Slices ![5, 0] S1x160
  slices_S8x160x128_S1x160x128_5_0_0 : S8x160x128.Slices ![5, 0, 0] S1x160x128
  slices_S8x128_S1x128_5_0 : S8x128.Slices ![5, 0] S1x128
  slices_S8x128x96_S1x128x96_5_0_0 : S8x128x96.Slices ![5, 0, 0] S1x128x96
  slices_S8x96_S1x96_5_0 : S8x96.Slices ![5, 0] S1x96
  slices_S8x96x1_S1x96x1_5_0_0 : S8x96x1.Slices ![5, 0, 0] S1x96x1
  slices_S8x1_S1x1_5_0 : S8x1.Slices ![5, 0] S1x1
  slices_S8x300x160_S1x300x160_6_0_0 : S8x300x160.Slices ![6, 0, 0] S1x300x160
  slices_S8x160_S1x160_6_0 : S8x160.Slices ![6, 0] S1x160
  slices_S8x160x128_S1x160x128_6_0_0 : S8x160x128.Slices ![6, 0, 0] S1x160x128
  slices_S8x128_S1x128_6_0 : S8x128.Slices ![6, 0] S1x128
  slices_S8x128x96_S1x128x96_6_0_0 : S8x128x96.Slices ![6, 0, 0] S1x128x96
  slices_S8x96_S1x96_6_0 : S8x96.Slices ![6, 0] S1x96
  slices_S8x96x1_S1x96x1_6_0_0 : S8x96x1.Slices ![6, 0, 0] S1x96x1
  slices_S8x1_S1x1_6_0 : S8x1.Slices ![6, 0] S1x1
  slices_S8x300x160_S1x300x160_7_0_0 : S8x300x160.Slices ![7, 0, 0] S1x300x160
  slices_S8x160_S1x160_7_0 : S8x160.Slices ![7, 0] S1x160
  slices_S8x160x128_S1x160x128_7_0_0 : S8x160x128.Slices ![7, 0, 0] S1x160x128
  slices_S8x128_S1x128_7_0 : S8x128.Slices ![7, 0] S1x128
  slices_S8x128x96_S1x128x96_7_0_0 : S8x128x96.Slices ![7, 0, 0] S1x128x96
  slices_S8x96_S1x96_7_0 : S8x96.Slices ![7, 0] S1x96
  slices_S8x96x1_S1x96x1_7_0_0 : S8x96x1.Slices ![7, 0, 0] S1x96x1
  slices_S8x1_S1x1_7_0 : S8x1.Slices ![7, 0] S1x1
  shapeCasts_S131072_S2048x64 : S131072.ShapeCasts S2048x64
  reducesTo_S2048x64_S2048_d1 : S2048x64.ReducesTo [1] S2048
  h_S_ : 0 < S_.numel
  bcast_S2048_S2048x1_0 : S2048.BroadcastsInDim S2048x1 (![0] : Fin 1 → Fin S2048x1.rank)
  dot_S131072x300_S300x160_S131072x160_1_0_0_1_n_n_wf : DotDims.WF S131072x300 S300x160 S131072x160 [1] [0] [0] [1] [] []
  dot_S131072x160_S160x128_S131072x128_1_0_0_1_n_n_wf : DotDims.WF S131072x160 S160x128 S131072x128 [1] [0] [0] [1] [] []
  dot_S131072x128_S128x96_S131072x96_1_0_0_1_n_n_wf : DotDims.WF S131072x128 S128x96 S131072x96 [1] [0] [0] [1] [] []
  dot_S131072x96_S96x1_S131072x1_1_0_0_1_n_n_wf : DotDims.WF S131072x96 S96x1 S131072x1 [1] [0] [0] [1] [] []

variable [Facts₀]

def dot_S131072x300_S300x160_S131072x160_1_0_0_1_n_n : DotDims S131072x300 S300x160 S131072x160 where
  lhsContracting := [1]
  rhsContracting := [0]
  lhsNonContracting := [0]
  rhsNonContracting := [1]
  lhsBatch := []
  rhsBatch := []
  wf := dot_S131072x300_S300x160_S131072x160_1_0_0_1_n_n_wf
def dot_S131072x160_S160x128_S131072x128_1_0_0_1_n_n : DotDims S131072x160 S160x128 S131072x128 where
  lhsContracting := [1]
  rhsContracting := [0]
  lhsNonContracting := [0]
  rhsNonContracting := [1]
  lhsBatch := []
  rhsBatch := []
  wf := dot_S131072x160_S160x128_S131072x128_1_0_0_1_n_n_wf
def dot_S131072x128_S128x96_S131072x96_1_0_0_1_n_n : DotDims S131072x128 S128x96 S131072x96 where
  lhsContracting := [1]
  rhsContracting := [0]
  lhsNonContracting := [0]
  rhsNonContracting := [1]
  lhsBatch := []
  rhsBatch := []
  wf := dot_S131072x128_S128x96_S131072x96_1_0_0_1_n_n_wf
def dot_S131072x96_S96x1_S131072x1_1_0_0_1_n_n : DotDims S131072x96 S96x1 S131072x1 where
  lhsContracting := [1]
  rhsContracting := [0]
  lhsNonContracting := [0]
  rhsNonContracting := [1]
  lhsBatch := []
  rhsBatch := []
  wf := dot_S131072x96_S96x1_S131072x1_1_0_0_1_n_n_wf

class Facts : Prop extends Facts₀ where

variable [Facts]
-- ==== Proof.Spec.lean ====
/-
  The per-atom network as functions on the extended reals.

  Every atom carries a feature row `ξ` of 300 numbers and a species word. Species `s` owns a small network: three dense
  layers, each a row-by-matrix product plus a bias followed by the rectifier `max · 0`, then a scalar head, a row-by-column
  product plus one number. An atom's value is chosen among the eight networks' values by its species word, by a chain of
  eight choices that starts from zero: choice `s` keeps the value so far unless the word is `s`, in which case it takes
  network `s`'s value. A molecule's value is the sum of its atoms' values.

  Everything here is stated index by index over literal extents, with no program in sight: both programs are shown to
  compute these functions.
-/
import Idealize.ShloMosaic.PureOps.Ideal.Laws
import Idealize.ShloMosaic.Lib.ValueIdx

noncomputable section

namespace Cert.Atoms

open Idealize.ShloMosaic Idealize.ShloMosaic.ValueIdx
open scoped BigOperators

/-- The value of the all-zero word. -/
abbrev zero : EReal := Ideal.ofBits .f32 0x00000000#32

/-- One dense layer on one row: the row against each column of the weights, plus the bias, rectified. -/
def layer {K b : ℕ} (W : Fin K → Fin b → EReal) (β : Fin b → EReal) (ξ : Fin K → EReal) : Fin b → EReal :=
  fun q => max ((∑ k : Fin K, ξ k * W k q) + β q) zero

/-- The scalar head on one row: the row against one column of weights, plus one number. -/
def head {K : ℕ} (w : Fin K → EReal) (β : EReal) (ξ : Fin K → EReal) : EReal :=
  (∑ k : Fin K, ξ k * w k) + β

/-- The stacked parameters of the eight networks. -/
structure Params where
  W1 : (⟨3, ![8, 300, 160]⟩ : Shape).Idx → EReal
  b1 : (⟨2, ![8, 160]⟩ : Shape).Idx → EReal
  W2 : (⟨3, ![8, 160, 128]⟩ : Shape).Idx → EReal
  b2 : (⟨2, ![8, 128]⟩ : Shape).Idx → EReal
  W3 : (⟨3, ![8, 128, 96]⟩ : Shape).Idx → EReal
  b3 : (⟨2, ![8, 96]⟩ : Shape).Idx → EReal
  W4 : (⟨3, ![8, 96, 1]⟩ : Shape).Idx → EReal
  b4 : (⟨2, ![8, 1]⟩ : Shape).Idx → EReal

/-- The first hidden row of species `s`'s network. -/
def hidden1 (P : Params) (s : Fin 8) (ξ : Fin 300 → EReal) : Fin 160 → EReal :=
  layer (fun k q => P.W1 (ix3 s k q)) (fun q => P.b1 (ix2 s q)) ξ

/-- Species `s`'s network from its first hidden row on: two more dense layers and the head. -/
def fromHidden1 (P : Params) (s : Fin 8) (η : Fin 160 → EReal) : EReal :=
  head (fun k => P.W4 (ix3 s k (0 : Fin 1))) (P.b4 (ix2 s (0 : Fin 1)))
    (layer (fun k q => P.W3 (ix3 s k q)) (fun q => P.b3 (ix2 s q))
      (layer (fun k q => P.W2 (ix3 s k q)) (fun q => P.b2 (ix2 s q)) η))

/-- Species `s`'s network on a feature row. -/
def network (P : Params) (s : Fin 8) (ξ : Fin 300 → EReal) : EReal :=
  fromHidden1 P s (hidden1 P s ξ)

/-- One choice: the value so far, unless the species word is `s`. -/
def choose (sp : BitVec 32) (s : BitVec 32) (y prev : EReal) : EReal :=
  Scalar.select (IntOp.cmpi .eq sp s) y prev

/-- The chain of eight choices, from zero. -/
def pick (sp : BitVec 32) (y : Fin 8 → EReal) : EReal :=
  choose sp 7#32 (y 7) (choose sp 6#32 (y 6) (choose sp 5#32 (y 5) (choose sp 4#32 (y 4)
    (choose sp 3#32 (y 3) (choose sp 2#32 (y 2) (choose sp 1#32 (y 1) (choose sp 0#32 (y 0) zero)))))))

/-- An atom's value: its species word picks among the eight networks applied to its feature row. -/
def atom (P : Params) (sp : BitVec 32) (ξ : Fin 300 → EReal) : EReal :=
  pick sp fun s => network P s ξ

/-- All atoms' values, from the flat species words and the flat feature matrix. -/
def atoms (P : Params) (sp : (⟨1, ![131072]⟩ : Shape).Idx → BitVec 32)
    (X : (⟨2, ![131072, 300]⟩ : Shape).Idx → EReal) : Fin 131072 → EReal :=
  fun n => atom P (sp (ix1 n)) fun d => X (ix2 n d)

/-- The atoms' values laid out molecule by molecule: atom `a` of molecule `b` is flat atom `64 b + a`. -/
def byMolecule (A : Fin 131072 → EReal) : (⟨2, ![2048, 64]⟩ : Shape).Idx → EReal :=
  fun j => A ⟨(j 0).val * 64 + (j 1).val, by have h0 := (j 0).isLt; have h1 := (j 1).isLt; change (j 0).val < 2048 at h0; change (j 1).val < 64 at h1; omega⟩

/-- A molecule's value: zero plus the sum of its 64 atoms' values, as a column of 2048 numbers. -/
def molecules (O : (⟨2, ![2048, 64]⟩ : Shape).Idx → EReal) : (⟨2, ![2048, 1]⟩ : Shape).Idx → EReal :=
  fun i => zero + ∑ a : Fin 64, O (ix2 (i 0) a)

end Cert.Atoms

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«129781_j39633958207559_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColumnBack.lean ====
/-
  A column read back as a vector.

  An `[a, 1]` column reshaped to a vector of `a` entries reads, at `i`, the column's entry `(i, 0)`: the inverse of laying
  a vector as a column.
-/
import Idealize.ShloMosaic.Lib.ValueIdx
import Idealize.ShloMosaic.Lib.Pipeline.Value

noncomputable section

namespace Cert.Lib

open Idealize.ShloMosaic Idealize.ShloMosaic.ValueIdx

variable {α : Type}

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.LibDense.lean ====
/-
  A dense layer of a stacked network, read at an index.

  The parameters of `n0` networks are stacked along a leading axis: weights `[n0, K, b]`, biases `[n0, b]`. Network `s`'s
  layer takes a matrix of rows `[N, K]`, multiplies it by slab `s` of the weights, adds row `s` of the biases to every
  row of the product, and rectifies. Read at `(p, q)` on the extended reals this is `Atoms.layer` of row `p`: the sum
  over `k` of `l (p, k) · W (s, k, q)`, plus `β (s, q)`, against zero under `max`. Two spellings of the same layer are
  read: with the operations of a kernel body (a product into the zero accumulator, the bias row cut out, flattened, laid
  back as a row and repeated, the zero a repeated scalar), and with the host's (a `dot_general`, the bias row broadcast in
  two steps, the zero a broadcast scalar constant). The scalar head is read the same way: in a kernel as a sum along the
  rows of an elementwise product plus a repeated number, on the host as a product with a one-column matrix plus a
  broadcast number.
-/
import Idealize.ShloMosaic.PureOps.Ideal.Laws
import Idealize.ShloMosaic.Lib.ValueIdx
import Idealize.ShloMosaic.Lib.Pipeline.Value
import Idealize.ShloMosaic.Lib.ValueLayout
import proofs.«129781_j39633958207559_2_alg».proof.Proof.Spec
import proofs.«129781_j39633958207559_2_alg».proof.Proof.LibMatDot
import proofs.«129781_j39633958207559_2_alg».proof.Proof.LibSlabs
import proofs.«129781_j39633958207559_2_alg».proof.Proof.LibAsRow
import proofs.«129781_j39633958207559_2_alg».proof.Proof.LibRowSum
import proofs.«129781_j39633958207559_2_alg».proof.Proof.LibColumn
import proofs.«129781_j39633958207559_2_alg».proof.Proof.LibColumnBack

noncomputable section

namespace Cert.Lib

open Idealize.ShloMosaic Idealize.ShloMosaic.ValueIdx Cert.Atoms
open scoped BigOperators

variable {n0 N K b : ℕ}

/-! ## In a kernel body -/

/-- A kernel's dense layer of network `s` at `(p, q)`. -/
theorem kernel_layer_apply {φl φw : FTy} (D : DotDims ⟨2, ![N, K]⟩ ⟨2, ![K, b]⟩ ⟨2, ![N, b]⟩)
    (wf : DotDims.WF ⟨2, ![N, K]⟩ ⟨2, ![K, b]⟩ ⟨2, ![N, b]⟩ [1] [0] [0] [1] [] []) (hD : D = matDot wf)
    (prec : Option ContractPrecision) (l : FVec Ideal ⟨2, ![N, K]⟩ φl)
    (Wst : FVec Ideal ⟨3, ![n0, K, b]⟩ φw) (bst : FVec Ideal ⟨2, ![n0, b]⟩ .f32) (s : ℕ) (hs : s < n0)
    (hsW : (⟨3, ![n0, K, b]⟩ : Shape).Slices ![s, 0, 0] ⟨3, ![1, K, b]⟩)
    (hcW : (⟨3, ![1, K, b]⟩ : Shape).ShapeCasts ⟨2, ![K, b]⟩)
    (hsb : (⟨2, ![n0, b]⟩ : Shape).Slices ![s, 0] ⟨2, ![1, b]⟩)
    (hc1 : (⟨2, ![1, b]⟩ : Shape).ShapeCasts ⟨1, ![b]⟩) (hc2 : (⟨1, ![b]⟩ : Shape).ShapeCasts ⟨2, ![1, b]⟩)
    (hbr : (⟨2, ![1, b]⟩ : Shape).Broadcasts ⟨2, ![N, b]⟩) (p : Fin N) (q : Fin b) :
    maximumf (addf (FloatOps.matmul D prec l
          (shapeCast ⟨2, ![K, b]⟩ (extractStridedSlice ⟨3, ![1, K, b]⟩ ![s, 0, 0] Wst hsW) hcW)
          (constant ⟨2, ![N, b]⟩ .f32 0x00000000#32))
        (broadcastTo ⟨2, ![N, b]⟩ (shapeCast ⟨2, ![1, b]⟩ (shapeCast ⟨1, ![b]⟩
          (extractStridedSlice ⟨2, ![1, b]⟩ ![s, 0] bst hsb) hc1) hc2) hbr))
      (broadcast ⟨2, ![N, b]⟩ (Scalar.ofBits (F := Ideal) .f32 0x00000000#32)) (ix2 p q)
      = layer (fun k q => Wst (ix3 (⟨s, hs⟩ : Fin n0) k q)) (fun q => bst (ix2 (⟨s, hs⟩ : Fin n0) q))
          (fun k => l (ix2 p k)) q := by
  subst hD
  unfold layer
  rw [maximumf_apply, addf_apply, matmul_plain_zero_apply, broadcastTo_1b_ab_apply, shapeCast_a_1a_apply,
    hostSlab2 hs, broadcast_apply]
  refine congrArg (fun x => max (x + _) _) (Finset.sum_congr rfl fun k _ => ?_)
  rw [hostSlab3 hs]

/-- A kernel's scalar head of network `s` at `(p, 0)`: the rows of `h` against row `s` of the head's weights, summed along
    each row, plus entry `s` of the head's biases. -/
theorem kernel_head_apply (h : FVec Ideal ⟨2, ![N, K]⟩ .f32) (wst : FVec Ideal ⟨2, ![n0, K]⟩ .f32)
    (βst : FVec Ideal ⟨2, ![n0, 1]⟩ .f32) (s : ℕ) (hs : s < n0)
    (hsw : (⟨2, ![n0, K]⟩ : Shape).Slices ![s, 0] ⟨2, ![1, K]⟩)
    (hc1 : (⟨2, ![1, K]⟩ : Shape).ShapeCasts ⟨1, ![K]⟩) (hc2 : (⟨1, ![K]⟩ : Shape).ShapeCasts ⟨2, ![1, K]⟩)
    (hbr : (⟨2, ![1, K]⟩ : Shape).Broadcasts ⟨2, ![N, K]⟩)
    (hred : (⟨2, ![N, K]⟩ : Shape).Reduces [1] (⟨1, ![N]⟩ : Shape)) (hφ : FKind.Formats .f32)
    (hacc : (0x00000000#32 : BitVec FTy.f32.bits) = FKind.add.neutral .f32 hφ)
    (hcol : (⟨1, ![N]⟩ : Shape).ShapeCasts ⟨2, ![N, 1]⟩)
    (hsβ : (⟨2, ![n0, 1]⟩ : Shape).Slices ![s, 0] ⟨2, ![1, 1]⟩)
    (hd1 : (⟨2, ![1, 1]⟩ : Shape).ShapeCasts ⟨1, ![1]⟩) (hd2 : (⟨1, ![1]⟩ : Shape).ShapeCasts ⟨2, ![1, 1]⟩)
    (hbβ : (⟨2, ![1, 1]⟩ : Shape).Broadcasts ⟨2, ![N, 1]⟩) (p : Fin N) (u : Fin 1) :
    addf (shapeCast ⟨2, ![N, 1]⟩ (multiReduction .add [1] (⟨1, ![N]⟩ : Shape)
          (mulf h (broadcastTo ⟨2, ![N, K]⟩ (shapeCast ⟨2, ![1, K]⟩ (shapeCast ⟨1, ![K]⟩
            (extractStridedSlice ⟨2, ![1, K]⟩ ![s, 0] wst hsw) hc1) hc2) hbr))
          0x00000000#32 hred hφ hacc) hcol)
        (broadcastTo ⟨2, ![N, 1]⟩ (shapeCast ⟨2, ![1, 1]⟩ (shapeCast ⟨1, ![1]⟩
          (extractStridedSlice ⟨2, ![1, 1]⟩ ![s, 0] βst hsβ) hd1) hd2) hbβ) (ix2 p u)
      = head (fun k => wst (ix2 (⟨s, hs⟩ : Fin n0) k)) (βst (ix2 (⟨s, hs⟩ : Fin n0) (0 : Fin 1)))
          (fun k => h (ix2 p k)) := by
  obtain rfl : u = 0 := Subsingleton.elim _ _
  unfold head
  rw [addf_apply, shapeCast_a_a1_apply, multiReduction_add_rows, broadcastTo_1b_ab_apply, shapeCast_a_1a_apply,
    hostSlab2 hs]
  refine congrArg (· + _) (Finset.sum_congr rfl fun k _ => ?_)
  rw [mulf_apply, broadcastTo_1b_ab_apply, shapeCast_a_1a_apply, hostSlab2 hs]

/-! ## On the host -/

/-- The host's dense layer of network `s` at `(p, q)`. -/
theorem host_layer_apply {φl φw : FTy} (D : DotDims ⟨2, ![N, K]⟩ ⟨2, ![K, b]⟩ ⟨2, ![N, b]⟩)
    (wf : DotDims.WF ⟨2, ![N, K]⟩ ⟨2, ![K, b]⟩ ⟨2, ![N, b]⟩ [1] [0] [0] [1] [] []) (hD : D = matDot wf)
    (prec : Option ContractPrecision) (l : FVec Ideal ⟨2, ![N, K]⟩ φl)
    (Wst : FVec Ideal ⟨3, ![n0, K, b]⟩ φw) (bst : FVec Ideal ⟨2, ![n0, b]⟩ .f32) (s : ℕ) (hs : s < n0)
    (hsW : (⟨3, ![n0, K, b]⟩ : Shape).Slices ![s, 0, 0] ⟨3, ![1, K, b]⟩)
    (hcW : (⟨3, ![1, K, b]⟩ : Shape).ShapeCasts ⟨2, ![K, b]⟩)
    (hsb : (⟨2, ![n0, b]⟩ : Shape).Slices ![s, 0] ⟨2, ![1, b]⟩)
    (hc1 : (⟨2, ![1, b]⟩ : Shape).ShapeCasts ⟨1, ![b]⟩)
    (hb1 : (⟨1, ![b]⟩ : Shape).BroadcastsInDim ⟨2, ![1, b]⟩ (![1] : Fin 1 → Fin 2))
    (hb2 : (⟨2, ![1, b]⟩ : Shape).BroadcastsInDim ⟨2, ![N, b]⟩ (![0, 1] : Fin 2 → Fin 2))
    (hb0 : (⟨0, ![]⟩ : Shape).BroadcastsInDim ⟨2, ![N, b]⟩ (![] : Fin 0 → Fin 2)) (p : Fin N) (q : Fin b) :
    maximumf (addf (Host.dotGeneral D prec l
          (shapeCast ⟨2, ![K, b]⟩ (extractStridedSlice ⟨3, ![1, K, b]⟩ ![s, 0, 0] Wst hsW) hcW))
        (broadcastInDim ⟨2, ![N, b]⟩ ![0, 1] hb2 (broadcastInDim ⟨2, ![1, b]⟩ ![1] hb1
          (shapeCast ⟨1, ![b]⟩ (extractStridedSlice ⟨2, ![1, b]⟩ ![s, 0] bst hsb) hc1))))
      (broadcastInDim ⟨2, ![N, b]⟩ ![] hb0 (constant (F := Ideal) ⟨0, ![]⟩ .f32 0x00000000#32)) (ix2 p q)
      = layer (fun k q => Wst (ix3 (⟨s, hs⟩ : Fin n0) k q)) (fun q => bst (ix2 (⟨s, hs⟩ : Fin n0) q))
          (fun k => l (ix2 p k)) q := by
  subst hD
  unfold layer Host.dotGeneral
  rw [maximumf_apply, addf_apply, dotGeneral_plain_apply, rows_of_oneRow, broadcastInDim_eq_asRow, asRow_apply,
    hostSlab2 hs, broadcastInDim_apply _ hb0 _ (ix2 p q) ix0 (fun a => a.elim0), constant_apply]
  refine congrArg (fun x => max (x + _) _) (Finset.sum_congr rfl fun k _ => ?_)
  rw [hostSlab3 hs]

/-- The host's scalar head of network `s`, flattened, at atom `p`: row `p` of `h` against the one column of slab `s` of the
    head's weights, plus entry `s` of the head's biases. -/
theorem host_head_apply {φl φw : FTy} (D : DotDims ⟨2, ![N, K]⟩ ⟨2, ![K, 1]⟩ ⟨2, ![N, 1]⟩)
    (wf : DotDims.WF ⟨2, ![N, K]⟩ ⟨2, ![K, 1]⟩ ⟨2, ![N, 1]⟩ [1] [0] [0] [1] [] []) (hD : D = matDot wf)
    (prec : Option ContractPrecision) (h : FVec Ideal ⟨2, ![N, K]⟩ φl)
    (Wst : FVec Ideal ⟨3, ![n0, K, 1]⟩ φw) (βst : FVec Ideal ⟨2, ![n0, 1]⟩ .f32) (s : ℕ) (hs : s < n0)
    (hsW : (⟨3, ![n0, K, 1]⟩ : Shape).Slices ![s, 0, 0] ⟨3, ![1, K, 1]⟩)
    (hcW : (⟨3, ![1, K, 1]⟩ : Shape).ShapeCasts ⟨2, ![K, 1]⟩)
    (hsβ : (⟨2, ![n0, 1]⟩ : Shape).Slices ![s, 0] ⟨2, ![1, 1]⟩)
    (hc1 : (⟨2, ![1, 1]⟩ : Shape).ShapeCasts ⟨1, ![1]⟩)
    (hb1 : (⟨1, ![1]⟩ : Shape).BroadcastsInDim ⟨2, ![1, 1]⟩ (![1] : Fin 1 → Fin 2))
    (hb2 : (⟨2, ![1, 1]⟩ : Shape).BroadcastsInDim ⟨2, ![N, 1]⟩ (![0, 1] : Fin 2 → Fin 2))
    (hflat : (⟨2, ![N, 1]⟩ : Shape).ShapeCasts ⟨1, ![N]⟩) (p : Fin N) :
    shapeCast ⟨1, ![N]⟩ (addf (Host.dotGeneral D prec h
          (shapeCast ⟨2, ![K, 1]⟩ (extractStridedSlice ⟨3, ![1, K, 1]⟩ ![s, 0, 0] Wst hsW) hcW))
        (broadcastInDim ⟨2, ![N, 1]⟩ ![0, 1] hb2 (broadcastInDim ⟨2, ![1, 1]⟩ ![1] hb1
          (shapeCast ⟨1, ![1]⟩ (extractStridedSlice ⟨2, ![1, 1]⟩ ![s, 0] βst hsβ) hc1)))) hflat (ix1 p)
      = head (fun k => Wst (ix3 (⟨s, hs⟩ : Fin n0) k (0 : Fin 1))) (βst (ix2 (⟨s, hs⟩ : Fin n0) (0 : Fin 1)))
          (fun k => h (ix2 p k)) := by
  subst hD
  unfold head Host.dotGeneral
  rw [shapeCast_a1_a_apply, addf_apply, dotGeneral_plain_apply, rows_of_oneRow, broadcastInDim_eq_asRow, asRow_apply,
    hostSlab2 hs]
  refine congrArg (· + _) (Finset.sum_congr rfl fun k _ => ?_)
  rw [hostSlab3 hs]

end Cert.Lib

end
-- ==== Proof.KernelBody.lean ====
/-
  The kernel body's arithmetic, read at an index.

  The body works on a block of 1024 atoms. It first computes every network's first hidden layer at once, as one product of
  the block's feature rows with a `[300, 1280]` matrix whose columns `160 s … 160 s + 159` are network `s`'s first-layer
  weights, plus a row of biases laid out the same way, rectified. Then, for `s = 0 … 7` in turn, it cuts network `s`'s 160
  columns out of that array, applies the network's second and third dense layers and its scalar head — the head as a sum
  along each row of an elementwise product — and keeps the result for the atoms whose species word is `s`, starting from
  zero. Here one network's column is written once, generic in `s` and in the column offset, read at an index as the
  specification's `head` over two `layer`s over 160 consecutive entries of a row of the fused array; the fused first layer is
  read at an index; and the whole body's output is read as the chain of eight choices.
-/
import proofs.«129781_j39633958207559_2_alg».proof.Proof.Gen.KernelIdeal.Skeleton
import proofs.«129781_j39633958207559_2_alg».proof.Proof.LibDense

noncomputable section

namespace Cert.KernelIdeal.Body

open Cert.KernelIdeal Cert.KernelIdeal.Gen Idealize.ShloMosaic Idealize.ShloMosaic.ValueIdx Cert.Atoms Cert.Lib
open scoped BigOperators

/-! ## One network's column -/

/-- Network `s`'s values on the block, in the body's operations, from the fused first hidden layer `h1` (network `s`'s
    columns start at `o`) and the stacked parameters. -/
def column (s o : ℕ)
    (hA : S1024x1280.Slices ![0, o] S1024x160) (hB : S8x160x128.Slices ![s, 0, 0] S1x160x128)
    (hC : S8x128.Slices ![s, 0] S1x128) (hD : S8x128x96.Slices ![s, 0, 0] S1x128x96)
    (hE : S8x96.Slices ![s, 0] S1x96) (hG : S8x1.Slices ![s, 0] S1x1)
    (h1 : FVec Ideal S1024x1280 .bf16) (W2 : FVec Ideal S8x160x128 .bf16) (b2 : Vec Ideal S8x128 .f32)
    (W3 : FVec Ideal S8x128x96 .bf16) (b3 : Vec Ideal S8x96 .f32) (w4 : FVec Ideal S8x96 .f32) (b4 : Vec Ideal S8x1 .f32) :
    FVec Ideal S1024x1 .f32 :=
  addf
    (shapeCast S1024x1
      (multiReduction .add [1] S1024
        (mulf
          (maximumf
            (addf
              (matmul dot_S1024x128_S128x96_S1024x96_1_0_0_1_n_n none
                (truncf .bf16
                  (maximumf
                    (addf
                      (matmul dot_S1024x160_S160x128_S1024x128_1_0_0_1_n_n none
                        (extractStridedSlice S1024x160 ![0, o] h1 hA)
                        (shapeCast S160x128 (extractStridedSlice S1x160x128 ![s, 0, 0] W2 hB) shapeCasts_S1x160x128_S160x128)
                        (constant S1024x128 .f32 0x00000000#32))
                      (broadcastTo S1024x128
                        (shapeCast S1x128 (shapeCast S128 (extractStridedSlice S1x128 ![s, 0] b2 hC) shapeCasts_S1x128_S128)
                          shapeCasts_S128_S1x128)
                        broadcasts_S1x128_S1024x128))
                    (broadcast S1024x128 (Scalar.ofBits .f32 0x00000000#32)))
                  bitsLt_bf16_f32)
                (shapeCast S128x96 (extractStridedSlice S1x128x96 ![s, 0, 0] W3 hD) shapeCasts_S1x128x96_S128x96)
                (constant S1024x96 .f32 0x00000000#32))
              (broadcastTo S1024x96
                (shapeCast S1x96 (shapeCast S96 (extractStridedSlice S1x96 ![s, 0] b3 hE) shapeCasts_S1x96_S96)
                  shapeCasts_S96_S1x96)
                broadcasts_S1x96_S1024x96))
            (broadcast S1024x96 (Scalar.ofBits .f32 0x00000000#32)))
          (broadcastTo S1024x96
            (shapeCast S1x96 (shapeCast S96 (extractStridedSlice S1x96 ![s, 0] w4 hE) shapeCasts_S1x96_S96)
              shapeCasts_S96_S1x96)
            broadcasts_S1x96_S1024x96))
        0x00000000#32 reduces_S1024x96_S1024 (.inl rfl) rfl)
      shapeCasts_S1024_S1024x1)
    (broadcastTo S1024x1
      (shapeCast S1x1 (shapeCast S1 (extractStridedSlice S1x1 ![s, 0] b4 hG) shapeCasts_S1x1_S1) shapeCasts_S1_S1x1)
      broadcasts_S1x1_S1024x1)

/-- Network `s`'s column at atom `p` of the block: the head over the third layer over the second layer of the 160 entries
    of row `p` of the fused array from column `o` on. -/
theorem column_apply (s o : ℕ) (hs : s < 8) (ho : o + 160 ≤ 1280)
    (hA : S1024x1280.Slices ![0, o] S1024x160) (hB : S8x160x128.Slices ![s, 0, 0] S1x160x128)
    (hC : S8x128.Slices ![s, 0] S1x128) (hD : S8x128x96.Slices ![s, 0, 0] S1x128x96)
    (hE : S8x96.Slices ![s, 0] S1x96) (hG : S8x1.Slices ![s, 0] S1x1)
    (h1 : FVec Ideal S1024x1280 .bf16) (W2 : FVec Ideal S8x160x128 .bf16) (b2 : Vec Ideal S8x128 .f32)
    (W3 : FVec Ideal S8x128x96 .bf16) (b3 : Vec Ideal S8x96 .f32) (w4 : FVec Ideal S8x96 .f32) (b4 : Vec Ideal S8x1 .f32)
    (p : Fin 1024) (u : Fin 1) :
    column s o hA hB hC hD hE hG h1 W2 b2 W3 b3 w4 b4 (ix2 p u)
      = head (fun k => w4 (ix2 (⟨s, hs⟩ : Fin 8) k)) (b4 (ix2 (⟨s, hs⟩ : Fin 8) (0 : Fin 1)))
          (layer (fun k q => W3 (ix3 (⟨s, hs⟩ : Fin 8) k q)) (fun q => b3 (ix2 (⟨s, hs⟩ : Fin 8) q))
            (layer (fun k q => W2 (ix3 (⟨s, hs⟩ : Fin 8) k q)) (fun q => b2 (ix2 (⟨s, hs⟩ : Fin 8) q))
              (fun k : Fin 160 => h1 (ix2 p (⟨o + k.val, by have := k.isLt; omega⟩ : Fin 1280))))) := by
  unfold column
  refine (kernel_head_apply (N := 1024) (K := 96) (n0 := 8) _ w4 b4 s hs hE shapeCasts_S1x96_S96 shapeCasts_S96_S1x96
    broadcasts_S1x96_S1024x96 reduces_S1024x96_S1024 (.inl rfl) rfl shapeCasts_S1024_S1024x1 hG shapeCasts_S1x1_S1
    shapeCasts_S1_S1x1 broadcasts_S1x1_S1024x1 p u).trans ?_
  refine congrArg (head _ _) (funext fun q => ?_)
  refine (kernel_layer_apply (N := 1024) (K := 128) (b := 96) (n0 := 8) dot_S1024x128_S128x96_S1024x96_1_0_0_1_n_n
    Facts₀.dot_S1024x128_S128x96_S1024x96_1_0_0_1_n_n_wf rfl none _ W3 b3 s hs hD shapeCasts_S1x128x96_S128x96 hE
    shapeCasts_S1x96_S96 shapeCasts_S96_S1x96 broadcasts_S1x96_S1024x96 p q).trans ?_
  refine congrArg (fun ξ => layer _ _ ξ q) (funext fun k => ?_)
  refine (kernel_layer_apply (N := 1024) (K := 160) (b := 128) (n0 := 8) dot_S1024x160_S160x128_S1024x128_1_0_0_1_n_n
    Facts₀.dot_S1024x160_S160x128_S1024x128_1_0_0_1_n_n_wf rfl none _ W2 b2 s hs hB shapeCasts_S1x160x128_S160x128 hC
    shapeCasts_S1x128_S128 shapeCasts_S128_S1x128 broadcasts_S1x128_S1024x128 p k).trans ?_
  refine congrArg (fun ξ => layer _ _ ξ k) (funext fun j => ?_)
  exact slice2_axis1_apply o h1 hA p j _ rfl

/-! ## The fused first layer -/

/-- The fused first hidden layer at `(p, c)`: row `p` of the block against column `c` of the fused weights, plus entry `c` of
    the fused biases, rectified. -/
theorem fused_apply (x : Vec Ideal S1024x300 .f32) (W : Vec Ideal S300x1280 .bf16) (β : Vec Ideal S1x1280 .f32)
    (p : Fin 1024) (c : Fin 1280) :
    k0_pay3 (F := Ideal) x W β (ix2 p c)
      = max ((∑ d : Fin 300, x (ix2 p d) * W (ix2 d c)) + β (ix2 (0 : Fin 1) c)) zero := by
  unfold k0_pay3
  simp only [shapeCast_self]
  rw [truncf_apply, maximumf_apply, addf_apply, broadcastTo_1b_ab_apply, broadcast_apply]
  refine congrArg (fun y => max (y + _) _) ?_
  exact matmul_plain_zero_apply (a := 1024) (K := 300) (b := 1280)
    Facts₀.dot_S1024x300_S300x1280_S1024x1280_1_0_0_1_n_n_wf none (truncf .bf16 x bitsLt_bf16_f32) W p c

/-! ## The chain of choices -/

/-- One choice on the block: network `s`'s column where the species word is `s`, the values so far elsewhere. -/
def step (sp : IVec S1024x1 32) (s : ℕ) (y prev : FVec Ideal S1024x1 .f32) : FVec Ideal S1024x1 .f32 :=
  select (cmpi .eq sp (broadcast S1024x1 (BitVec.ofNat 32 s))) y prev

theorem step_apply (sp : IVec S1024x1 32) (s : ℕ) (y prev : FVec Ideal S1024x1 .f32) (i : S1024x1.Idx) :
    step sp s y prev i = choose (sp i) (BitVec.ofNat 32 s) (y i) (prev i) := rfl

/-- The body's output on the block, from the ten input blocks: the eight choices in turn, from zero. -/
def bodyOut (x0 : Vec Ideal S1024x300 .f32) (x1 : Vec Ideal S1024x1 .i32) (x2 : Vec Ideal S300x1280 .bf16)
    (x3 : Vec Ideal S1x1280 .f32) (x4 : Vec Ideal S8x160x128 .bf16) (x5 : Vec Ideal S8x128 .f32)
    (x6 : Vec Ideal S8x128x96 .bf16) (x7 : Vec Ideal S8x96 .f32) (x8 : Vec Ideal S8x96 .f32) (x9 : Vec Ideal S8x1 .f32) :
    FVec Ideal S1024x1 .f32 :=
  step (k0_pay2 x1) 7 (column 7 1120 slices_S1024x1280_o0_1120_S1024x160 slices_S8x160x128_o7_0_0_S1x160x128
      slices_S8x128_o7_0_S1x128 slices_S8x128x96_o7_0_0_S1x128x96 slices_S8x96_o7_0_S1x96 slices_S8x1_o7_0_S1x1
      (k0_pay3 x0 x2 x3) (k0_pay4 x4) x5 (k0_pay5 x6) x7 (k0_pay6 x8) x9)
  (step (k0_pay2 x1) 6 (column 6 960 slices_S1024x1280_o0_960_S1024x160 slices_S8x160x128_o6_0_0_S1x160x128
      slices_S8x128_o6_0_S1x128 slices_S8x128x96_o6_0_0_S1x128x96 slices_S8x96_o6_0_S1x96 slices_S8x1_o6_0_S1x1
      (k0_pay3 x0 x2 x3) (k0_pay4 x4) x5 (k0_pay5 x6) x7 (k0_pay6 x8) x9)
  (step (k0_pay2 x1) 5 (column 5 800 slices_S1024x1280_o0_800_S1024x160 slices_S8x160x128_o5_0_0_S1x160x128
      slices_S8x128_o5_0_S1x128 slices_S8x128x96_o5_0_0_S1x128x96 slices_S8x96_o5_0_S1x96 slices_S8x1_o5_0_S1x1
      (k0_pay3 x0 x2 x3) (k0_pay4 x4) x5 (k0_pay5 x6) x7 (k0_pay6 x8) x9)
  (step (k0_pay2 x1) 4 (column 4 640 slices_S1024x1280_o0_640_S1024x160 slices_S8x160x128_o4_0_0_S1x160x128
      slices_S8x128_o4_0_S1x128 slices_S8x128x96_o4_0_0_S1x128x96 slices_S8x96_o4_0_S1x96 slices_S8x1_o4_0_S1x1
      (k0_pay3 x0 x2 x3) (k0_pay4 x4) x5 (k0_pay5 x6) x7 (k0_pay6 x8) x9)
  (step (k0_pay2 x1) 3 (column 3 480 slices_S1024x1280_o0_480_S1024x160 slices_S8x160x128_o3_0_0_S1x160x128
      slices_S8x128_o3_0_S1x128 slices_S8x128x96_o3_0_0_S1x128x96 slices_S8x96_o3_0_S1x96 slices_S8x1_o3_0_S1x1
      (k0_pay3 x0 x2 x3) (k0_pay4 x4) x5 (k0_pay5 x6) x7 (k0_pay6 x8) x9)
  (step (k0_pay2 x1) 2 (column 2 320 slices_S1024x1280_o0_320_S1024x160 slices_S8x160x128_o2_0_0_S1x160x128
      slices_S8x128_o2_0_S1x128 slices_S8x128x96_o2_0_0_S1x128x96 slices_S8x96_o2_0_S1x96 slices_S8x1_o2_0_S1x1
      (k0_pay3 x0 x2 x3) (k0_pay4 x4) x5 (k0_pay5 x6) x7 (k0_pay6 x8) x9)
  (step (k0_pay2 x1) 1 (column 1 160 slices_S1024x1280_o0_160_S1024x160 slices_S8x160x128_o1_0_0_S1x160x128
      slices_S8x128_o1_0_S1x128 slices_S8x128x96_o1_0_0_S1x128x96 slices_S8x96_o1_0_S1x96 slices_S8x1_o1_0_S1x1
      (k0_pay3 x0 x2 x3) (k0_pay4 x4) x5 (k0_pay5 x6) x7 (k0_pay6 x8) x9)
  (step (k0_pay2 x1) 0 (column 0 0 slices_S1024x1280_o0_0_S1024x160 slices_S8x160x128_o0_0_0_S1x160x128
      slices_S8x128_o0_0_S1x128 slices_S8x128x96_o0_0_0_S1x128x96 slices_S8x96_o0_0_S1x96 slices_S8x1_o0_0_S1x1
      (k0_pay3 x0 x2 x3) (k0_pay4 x4) x5 (k0_pay5 x6) x7 (k0_pay6 x8) x9)
  (k0_pay7 (F := Ideal)))))))))

/-- What the entries of the ten input blocks must be for atom `p` of the block to have feature row `ξ`, species word `sp`
    and the networks' parameters `P`. -/
structure Reads (P : Params) (sp : BitVec 32) (ξ : Fin 300 → EReal) (p : Fin 1024)
    (x0 : Vec Ideal S1024x300 .f32) (x1 : Vec Ideal S1024x1 .i32) (x2 : Vec Ideal S300x1280 .bf16)
    (x3 : Vec Ideal S1x1280 .f32) (x4 : Vec Ideal S8x160x128 .bf16) (x5 : Vec Ideal S8x128 .f32)
    (x6 : Vec Ideal S8x128x96 .bf16) (x7 : Vec Ideal S8x96 .f32) (x8 : Vec Ideal S8x96 .f32) (x9 : Vec Ideal S8x1 .f32) :
    Prop where
  feat : ∀ d : Fin 300, x0 (ix2 p d) = ξ d
  word : x1 (ix2 p (0 : Fin 1)) = sp
  w1 : ∀ (s : Fin 8) (d : Fin 300) (k : Fin 160),
    x2 (ix2 d (⟨s.val * 160 + k.val, by have := s.isLt; have := k.isLt; omega⟩ : Fin 1280)) = P.W1 (ix3 s d k)
  b1 : ∀ (s : Fin 8) (k : Fin 160),
    x3 (ix2 (0 : Fin 1) (⟨s.val * 160 + k.val, by have := s.isLt; have := k.isLt; omega⟩ : Fin 1280)) = P.b1 (ix2 s k)
  w2 : ∀ (s : Fin 8) (k : Fin 160) (q : Fin 128), x4 (ix3 s k q) = P.W2 (ix3 s k q)
  b2 : ∀ (s : Fin 8) (q : Fin 128), x5 (ix2 s q) = P.b2 (ix2 s q)
  w3 : ∀ (s : Fin 8) (k : Fin 128) (q : Fin 96), x6 (ix3 s k q) = P.W3 (ix3 s k q)
  b3 : ∀ (s : Fin 8) (q : Fin 96), x7 (ix2 s q) = P.b3 (ix2 s q)
  w4 : ∀ (s : Fin 8) (k : Fin 96), x8 (ix2 s k) = P.W4 (ix3 s k (0 : Fin 1))
  b4 : ∀ s : Fin 8, x9 (ix2 s (0 : Fin 1)) = P.b4 (ix2 s (0 : Fin 1))

section
variable {P : Params} {sp : BitVec 32} {ξ : Fin 300 → EReal} {p : Fin 1024}
  {x0 : Vec Ideal S1024x300 .f32} {x1 : Vec Ideal S1024x1 .i32} {x2 : Vec Ideal S300x1280 .bf16}
  {x3 : Vec Ideal S1x1280 .f32} {x4 : Vec Ideal S8x160x128 .bf16} {x5 : Vec Ideal S8x128 .f32}
  {x6 : Vec Ideal S8x128x96 .bf16} {x7 : Vec Ideal S8x96 .f32} {x8 : Vec Ideal S8x96 .f32} {x9 : Vec Ideal S8x1 .f32}

/-- Network `s`'s column at atom `p` is the specification's network `s` on the atom's feature row. -/
theorem column_network (R : Reads P sp ξ p x0 x1 x2 x3 x4 x5 x6 x7 x8 x9) (s o : ℕ) (hs : s < 8) (ho : o = s * 160)
    (hA : S1024x1280.Slices ![0, o] S1024x160) (hB : S8x160x128.Slices ![s, 0, 0] S1x160x128)
    (hC : S8x128.Slices ![s, 0] S1x128) (hD : S8x128x96.Slices ![s, 0, 0] S1x128x96)
    (hE : S8x96.Slices ![s, 0] S1x96) (hG : S8x1.Slices ![s, 0] S1x1) (u : Fin 1) :
    column s o hA hB hC hD hE hG (k0_pay3 x0 x2 x3) (k0_pay4 x4) x5 (k0_pay5 x6) x7 (k0_pay6 x8) x9 (ix2 p u)
      = network P (⟨s, hs⟩ : Fin 8) ξ := by
  subst ho
  refine (column_apply s (s * 160) hs (by omega) hA hB hC hD hE hG _ _ _ _ _ _ _ p u).trans ?_
  unfold network fromHidden1 hidden1 k0_pay4 k0_pay5 k0_pay6
  simp only [shapeCast_self]
  have e8 : (fun k : Fin 96 => x8 (ix2 (⟨s, hs⟩ : Fin 8) k)) = fun k => P.W4 (ix3 (⟨s, hs⟩ : Fin 8) k (0 : Fin 1)) :=
    funext fun k => R.w4 _ k
  have e6 : (fun (k : Fin 128) (q : Fin 96) => x6 (ix3 (⟨s, hs⟩ : Fin 8) k q)) = fun k q => P.W3 (ix3 (⟨s, hs⟩ : Fin 8) k q) :=
    funext fun k => funext fun q => R.w3 _ k q
  have e7 : (fun q : Fin 96 => x7 (ix2 (⟨s, hs⟩ : Fin 8) q)) = fun q => P.b3 (ix2 (⟨s, hs⟩ : Fin 8) q) :=
    funext fun q => R.b3 _ q
  have e4 : (fun (k : Fin 160) (q : Fin 128) => x4 (ix3 (⟨s, hs⟩ : Fin 8) k q)) = fun k q => P.W2 (ix3 (⟨s, hs⟩ : Fin 8) k q) :=
    funext fun k => funext fun q => R.w2 _ k q
  have e5 : (fun q : Fin 128 => x5 (ix2 (⟨s, hs⟩ : Fin 8) q)) = fun q => P.b2 (ix2 (⟨s, hs⟩ : Fin 8) q) :=
    funext fun q => R.b2 _ q
  have e1 : (fun k : Fin 160 => k0_pay3 (F := Ideal) x0 x2 x3
        (ix2 p (⟨s * 160 + k.val, by have := k.isLt; omega⟩ : Fin 1280)))
      = layer (fun k q => P.W1 (ix3 (⟨s, hs⟩ : Fin 8) k q)) (fun q => P.b1 (ix2 (⟨s, hs⟩ : Fin 8) q)) ξ := by
    funext k
    rw [fused_apply]
    unfold layer
    refine congrArg₂ (fun a b => max (a + b) zero) (Finset.sum_congr rfl fun d _ => ?_) (R.b1 ⟨s, hs⟩ k)
    rw [R.feat d]
    exact congrArg (ξ d * ·) (R.w1 ⟨s, hs⟩ d k)
  rw [e8, e6, e7, e4, e5, e1, R.b4 ⟨s, hs⟩]

/-- THE BODY AT AN ATOM: the output block's entry for atom `p` is the specification's value of that atom. -/
theorem bodyOut_atom (R : Reads P sp ξ p x0 x1 x2 x3 x4 x5 x6 x7 x8 x9) (u : Fin 1) :
    bodyOut x0 x1 x2 x3 x4 x5 x6 x7 x8 x9 (ix2 p u) = atom P sp ξ := by
  obtain rfl : u = 0 := Subsingleton.elim _ _
  have hw : k0_pay2 (F := Ideal) x1 (ix2 p (0 : Fin 1)) = sp := by
    unfold k0_pay2
    rw [shapeCast_self]
    exact R.word
  unfold bodyOut atom pick
  simp only [step_apply]
  rw [hw, column_network R 7 1120 (by decide) rfl, column_network R 6 960 (by decide) rfl,
    column_network R 5 800 (by decide) rfl, column_network R 4 640 (by decide) rfl,
    column_network R 3 480 (by decide) rfl, column_network R 2 320 (by decide) rfl,
    column_network R 1 160 (by decide) rfl, column_network R 0 0 (by decide) rfl]
  rfl

end

end Cert.KernelIdeal.Body

end
-- ==== Proof.LibSumColumn.lean ====
/-
  Row sums laid as a column, read at an index.

  The host sums each row of an `[R, K]` array from an initial value and lays the `R` sums out as an `[R, 1]` column. Read on
  the extended reals at `(r, 0)` this is the initial value plus the sum of row `r`'s `K` entries. The companion fact: an
  array of `R·K` numbers reshaped to `[R, K]`, from a flat vector or from a one-column matrix, has flat entry `K r + a` at
  `(r, a)`.
-/
import Idealize.ShloMosaic.PureOps.Ideal.Laws
import Idealize.ShloMosaic.Lib.ValueIdx
import Idealize.ShloMosaic.Lib.Pipeline.Value
import proofs.«129781_j39633958207559_2_alg».proof.Proof.LibRowSum

noncomputable section

namespace Cert.Lib

open Idealize.ShloMosaic Idealize.ShloMosaic.ValueIdx
open scoped BigOperators

variable {R K : ℕ}

/-- The column of row sums at `i`: the initial value plus the sum of row `i 0`. -/
theorem rowSums_column_apply {φ : FTy} {u : Shape} (O : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (hb : (⟨1, ![R]⟩ : Shape).BroadcastsInDim ⟨2, ![R, 1]⟩ (![0] : Fin 1 → Fin 2))
    (i : (⟨2, ![R, 1]⟩ : Shape).Idx) :
    broadcastInDim ⟨2, ![R, 1]⟩ ![0] hb (Host.reduceAdd O init h' hu) i
      = init (Shape.Idx.first hu) + ∑ k : Fin K, O (ix2 (i 0) k) := by
  refine (broadcastInDim_apply _ hb _ i (ix1 (i 0)) fun a => ?_).trans (hostReduceAdd_rows O init h' h hu (i 0))
  match a with
  | ⟨0, _⟩ =>
    show (i 0).val = if R = 1 then 0 else (i 0).val
    have hlt : (i 0).val < R := (i 0).isLt
    split
    · omega
    · rfl

/-- A flat vector of `R·K` entries reshaped to `[R, K]`: entry `(r, a)` is flat entry `K r + a`. -/
theorem reshape_flat_apply {α : Type} {n : ℕ} (x : (⟨1, ![n]⟩ : Shape).Idx → α)
    (h : (⟨1, ![n]⟩ : Shape).ShapeCasts ⟨2, ![R, K]⟩) (r : Fin R) (a : Fin K) (j : Fin n) (hj : j.val = r.val * K + a.val) :
    shapeCast ⟨2, ![R, K]⟩ x h (ix2 r a) = x (ix1 j) :=
  shapeCast_apply x h _ _ (by
    rw [Shape.rowMajor_val_two, Shape.rowMajor_val_one]
    exact hj)

/-- A one-column matrix of `R·K` rows reshaped to `[R, K]`: entry `(r, a)` is row `K r + a`. -/
theorem reshape_column_apply {α : Type} {n : ℕ} (x : (⟨2, ![n, 1]⟩ : Shape).Idx → α)
    (h : (⟨2, ![n, 1]⟩ : Shape).ShapeCasts ⟨2, ![R, K]⟩) (r : Fin R) (a : Fin K) (j : Fin n) (hj : j.val = r.val * K + a.val) :
    shapeCast ⟨2, ![R, K]⟩ x h (ix2 r a) = x (ix2 j (0 : Fin 1)) :=
  shapeCast_apply x h _ _ (by
    rw [Shape.rowMajor_val_two, Shape.rowMajor_val_two]
    show j.val * 1 + 0 = r.val * K + a.val
    omega)

end Cert.Lib

end
-- ==== Proof.KernelArray.lean ====
/-
  From the blocks to the whole array, and the molecule sums after the region.

  The region walks 128 points; point `t` stages rows `1024 t … 1024 t + 1023` of the flat feature matrix and of the flat
  species column, every parameter array whole, and writes back rows `1024 t … 1024 t + 1023` of the result column. So the
  result column ends holding, at row `n = 1024 t + p`, the body's output for atom `p` of block `t` — the specification's
  value of atom `n` — and the lines after the region reshape that column to one row per molecule and sum each row.

  The arrays the region finds are the arguments re-laid by the lines before it: the features and the species words
  flattened; the first-layer weights with the network axis moved inside and merged with the hidden axis, so that column
  `160 s + k` of row `d` is network `s`'s weight `(d, k)`; the first-layer biases flattened to one row the same way; the
  head's weights with their unit axis dropped; the rest as they are (a change of float format is the identity here).
-/
import proofs.«129781_j39633958207559_2_alg».proof.Proof.Gen.KernelIdeal.Frame
import proofs.«129781_j39633958207559_2_alg».proof.Proof.KernelBody
import proofs.«129781_j39633958207559_2_alg».proof.Proof.LibSumColumn
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Body Idealize.ShloMosaic.ValueIdx Cert.Atoms Cert.Lib
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The arguments, as the specification takes them -/

/-- The networks' parameters: the eight parameter arguments as launched. -/
def params (c : Dev nD) : Params :=
  ⟨m ((c : Thread nD τ).loc main_arg2), m ((c : Thread nD τ).loc main_arg3), m ((c : Thread nD τ).loc main_arg4),
    m ((c : Thread nD τ).loc main_arg5), m ((c : Thread nD τ).loc main_arg6), m ((c : Thread nD τ).loc main_arg7),
    m ((c : Thread nD τ).loc main_arg8), m ((c : Thread nD τ).loc main_arg9)⟩

theorem hflat : S2048x64.ShapeCasts (⟨1, ![131072]⟩ : Shape) := by decide

/-- The species words, flat. -/
def words (c : Dev nD) : (⟨1, ![131072]⟩ : Shape).Idx → BitVec 32 :=
  shapeCast (⟨1, ![131072]⟩ : Shape) (m ((c : Thread nD τ).loc main_arg0)) hflat

/-- The feature rows, flat. -/
def feats (c : Dev nD) : (⟨2, ![131072, 300]⟩ : Shape).Idx → EReal :=
  shapeCast S131072x300 (m ((c : Thread nD τ).loc main_arg1)) shapeCasts_S2048x64x300_S131072x300

/-- The result column the region leaves: row `n` is atom `n`'s value. -/
def resultColumn (c : Dev nD) : S131072x1.Idx → EReal :=
  fun i => atoms (params m c) (words m c) (feats m c) (i 0)

/-! ## The body's output is the chain of choices -/

theorem out_eq (x0 : Vec Ideal S1024x300 .f32) (x1 : Vec Ideal S1024x1 .i32) (x2 : Vec Ideal S300x1280 .bf16)
    (x3 : Vec Ideal S1x1280 .f32) (x4 : Vec Ideal S8x160x128 .bf16) (x5 : Vec Ideal S8x128 .f32)
    (x6 : Vec Ideal S8x128x96 .bf16) (x7 : Vec Ideal S8x96 .f32) (x8 : Vec Ideal S8x96 .f32) (x9 : Vec Ideal S8x1 .f32) :
    out0_10 (F := Ideal) x0 x1 x2 x3 x4 x5 x6 x7 x8 x9 = bodyOut x0 x1 x2 x3 x4 x5 x6 x7 x8 x9 := by
  unfold out0_10
  rw [View.canon_unit_zero hz2]
  simp only [View.ld_unit_zero (S := S1024x300) hz2, View.ld_unit_zero (S := S1024x1) hz2,
    View.ld_unit_zero (S := S300x1280) hz2, View.ld_unit_zero (S := S1x1280) hz2,
    View.ld_unit_zero (S := S8x160x128) hz3, View.ld_unit_zero (S := S8x128) hz2,
    View.ld_unit_zero (S := S8x128x96) hz3, View.ld_unit_zero (S := S8x96) hz2, View.ld_unit_zero (S := S8x1) hz2]
  rfl

/-! ## The arrays the region finds -/

theorem V_v0 (c : Dev nD) : (V m c main_v0 : S131072x1.Idx → BitVec 32)
    = shapeCast S131072x1 (m ((c : Thread nD τ).loc main_arg0)) shapeCasts_S2048x64_S131072x1 := by
  show StableHlo.after hostOps0 (fun b => m (c, b)) (Proc.devRef .tc main_v0) = _
  after_results
  rfl

theorem V_v1 (c : Dev nD) : (V m c main_v1 : S131072x300.Idx → EReal) = feats m c := by
  show StableHlo.after hostOps0 (fun b => m (c, b)) (Proc.devRef .tc main_v1) = _
  after_results
  rfl

theorem V_v4 (c : Dev nD) : (V m c main_v4 : S300x1280.Idx → EReal)
    = shapeCast S300x1280 (transpose S300x8x160 [1, 0, 2] (m ((c : Thread nD τ).loc main_arg2))
        transposes_S8x300x160_S300x8x160_1_0_2) shapeCasts_S300x8x160_S300x1280 := by
  show StableHlo.after hostOps0 (fun b => m (c, b)) (Proc.devRef .tc main_v4) = _
  after_results
  rfl

theorem V_v5 (c : Dev nD) : (V m c main_v5 : S1x1280.Idx → EReal)
    = shapeCast S1x1280 (m ((c : Thread nD τ).loc main_arg3)) shapeCasts_S8x160_S1x1280 := by
  show StableHlo.after hostOps0 (fun b => m (c, b)) (Proc.devRef .tc main_v5) = _
  after_results
  rfl

theorem V_v6 (c : Dev nD) : (V m c main_v6 : S8x160x128.Idx → EReal)
    = m ((c : Thread nD τ).loc main_arg4) := by
  show StableHlo.after hostOps0 (fun b => m (c, b)) (Proc.devRef .tc main_v6) = _
  after_results
  rfl

theorem V_v7 (c : Dev nD) : (V m c main_v7 : S8x128x96.Idx → EReal)
    = m ((c : Thread nD τ).loc main_arg6) := by
  show StableHlo.after hostOps0 (fun b => m (c, b)) (Proc.devRef .tc main_v7) = _
  after_results
  rfl

theorem V_v8 (c : Dev nD) : (V m c main_v8 : S8x96.Idx → EReal)
    = shapeCast S8x96 (m ((c : Thread nD τ).loc main_arg8)) shapeCasts_S8x96x1_S8x96 := by
  show StableHlo.after hostOps0 (fun b => m (c, b)) (Proc.devRef .tc main_v8) = _
  after_results
  rfl

/-! ## The blocks -/

/-- The printed index maps over the grid: the feature, species and result windows move one block per point along their
    first axis; every parameter window stays at the origin. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

theorem t_lt (t : Fin cfg0.N) : t.val < 128 := lt_of_lt_of_eq t.isLt N_0

/-- Entry `(p, d)` of the feature block at point `t` is feature `d` of atom `1024 t + p`. -/
theorem blk0 (c : Dev nD) (t : Fin cfg0.N) (p : Fin 1024) (d : Fin 300) (n : Fin 131072) (hn : n.val = 1024 * t.val + p.val) :
    (iblk m c 0 t : Vec Ideal S1024x300 .f32) (ix2 p d) = feats m c (ix2 n d) := by
  obtain ⟨⟨e0, e1⟩, -⟩ := idx_facts t
  unfold iblk
  rw [View.read_apply]
  show V m c main_v1 _ = _
  rw [V_v1]
  congr 1
  funext a
  apply Fin.ext
  match a with
  | ⟨0, _⟩ => show win0_0.index t (0 : Fin 2) * 1024 + 1 * p.val = n.val; rw [e0, hn]; omega
  | ⟨1, _⟩ => show win0_0.index t (1 : Fin 2) * 300 + 1 * d.val = d.val; rw [e1]; omega

/-- Entry `(p, 0)` of the species block at point `t` is the species word of atom `1024 t + p`. -/
theorem blk1 (c : Dev nD) (t : Fin cfg0.N) (p : Fin 1024) (n : Fin 131072) (hn : n.val = 1024 * t.val + p.val) :
    (iblk m c 1 t : Vec Ideal S1024x1 .i32) (ix2 p (0 : Fin 1)) = words m c (ix1 n) := by
  obtain ⟨-, ⟨e0, e1⟩, -⟩ := idx_facts t
  unfold iblk
  rw [View.read_apply]
  show V m c main_v0 _ = _
  rw [V_v0]
  unfold words
  have hq : n.val / 64 < 2048 := by have := n.isLt; omega
  have hr : n.val % 64 < 64 := Nat.mod_lt _ (by decide)
  refine (shapeCast_apply _ _ _ (ix2 (⟨n.val / 64, hq⟩ : Fin 2048) (⟨n.val % 64, hr⟩ : Fin 64)) ?_).trans
    (shapeCast_apply _ _ _ (ix2 (⟨n.val / 64, hq⟩ : Fin 2048) (⟨n.val % 64, hr⟩ : Fin 64)) ?_).symm
  · rw [Shape.rowMajor_val_two, Shape.rowMajor_val_two]
    show n.val / 64 * 64 + n.val % 64 = (win0_1.index t (0 : Fin 2) * 1024 + 1 * p.val) * 1 + (win0_1.index t (1 : Fin 2) * 1 + 1 * 0)
    rw [e0, e1]; omega
  · rw [Shape.rowMajor_val_two, Shape.rowMajor_val_one]
    show n.val / 64 * 64 + n.val % 64 = n.val
    omega

/-- A window that stays at the origin and spans its whole array reads the array: rank 2. -/
theorem emb2 {a b : ℕ} (i0 i1 : ℕ) (h0 : i0 = 0) (h1 : i1 = 0) (x : (⟨2, ![a, b]⟩ : Shape).Idx)
    (y : (⟨2, ![a, b]⟩ : Shape).Idx) (hy0 : (y 0).val = i0 * a + 1 * (x 0).val) (hy1 : (y 1).val = i1 * b + 1 * (x 1).val) :
    y = x := by
  subst h0 h1
  funext ax
  apply Fin.ext
  match ax with
  | ⟨0, _⟩ => show (y 0).val = (x 0).val; omega
  | ⟨1, _⟩ => show (y 1).val = (x 1).val; omega

/-- The same at rank 3. -/
theorem emb3 {a b d : ℕ} (i0 i1 i2 : ℕ) (h0 : i0 = 0) (h1 : i1 = 0) (h2 : i2 = 0) (x : (⟨3, ![a, b, d]⟩ : Shape).Idx)
    (y : (⟨3, ![a, b, d]⟩ : Shape).Idx) (hy0 : (y 0).val = i0 * a + 1 * (x 0).val)
    (hy1 : (y 1).val = i1 * b + 1 * (x 1).val) (hy2 : (y 2).val = i2 * d + 1 * (x 2).val) : y = x := by
  subst h0 h1 h2
  funext ax
  apply Fin.ext
  match ax with
  | ⟨0, _⟩ => show (y 0).val = (x 0).val; omega
  | ⟨1, _⟩ => show (y 1).val = (x 1).val; omega
  | ⟨2, _⟩ => show (y 2).val = (x 2).val; omega

theorem blk2 (c : Dev nD) (t : Fin cfg0.N) (x : S300x1280.Idx) :
    (iblk m c 2 t : Vec Ideal S300x1280 .bf16) x = (V m c main_v4 : S300x1280.Idx → EReal) x := by
  obtain ⟨-, -, ⟨e0, e1⟩, -⟩ := idx_facts t
  unfold iblk
  rw [View.read_apply]
  show V m c main_v4 _ = _
  exact congrArg _ (emb2 _ _ e0 e1 x _ rfl rfl)

theorem blk3 (c : Dev nD) (t : Fin cfg0.N) (x : S1x1280.Idx) :
    (iblk m c 3 t : Vec Ideal S1x1280 .f32) x = (V m c main_v5 : S1x1280.Idx → EReal) x := by
  obtain ⟨-, -, -, ⟨e0, e1⟩, -⟩ := idx_facts t
  unfold iblk
  rw [View.read_apply]
  show V m c main_v5 _ = _
  exact congrArg _ (emb2 _ _ e0 e1 x _ rfl rfl)

theorem blk4 (c : Dev nD) (t : Fin cfg0.N) (x : S8x160x128.Idx) :
    (iblk m c 4 t : Vec Ideal S8x160x128 .bf16) x = (V m c main_v6 : S8x160x128.Idx → EReal) x := by
  obtain ⟨-, -, -, -, ⟨e0, e1, e2⟩, -⟩ := idx_facts t
  unfold iblk
  rw [View.read_apply]
  show V m c main_v6 _ = _
  exact congrArg _ (emb3 _ _ _ e0 e1 e2 x _ rfl rfl rfl)

theorem blk5 (c : Dev nD) (t : Fin cfg0.N) (x : S8x128.Idx) :
    (iblk m c 5 t : Vec Ideal S8x128 .f32) x = (V m c main_arg5 : S8x128.Idx → EReal) x := by
  obtain ⟨-, -, -, -, -, ⟨e0, e1⟩, -⟩ := idx_facts t
  unfold iblk
  rw [View.read_apply]
  show V m c main_arg5 _ = _
  exact congrArg _ (emb2 _ _ e0 e1 x _ rfl rfl)

theorem blk6 (c : Dev nD) (t : Fin cfg0.N) (x : S8x128x96.Idx) :
    (iblk m c 6 t : Vec Ideal S8x128x96 .bf16) x = (V m c main_v7 : S8x128x96.Idx → EReal) x := by
  obtain ⟨-, -, -, -, -, -, ⟨e0, e1, e2⟩, -⟩ := idx_facts t
  unfold iblk
  rw [View.read_apply]
  show V m c main_v7 _ = _
  exact congrArg _ (emb3 _ _ _ e0 e1 e2 x _ rfl rfl rfl)

theorem blk7 (c : Dev nD) (t : Fin cfg0.N) (x : S8x96.Idx) :
    (iblk m c 7 t : Vec Ideal S8x96 .f32) x = (V m c main_arg7 : S8x96.Idx → EReal) x := by
  obtain ⟨-, -, -, -, -, -, -, ⟨e0, e1⟩, -⟩ := idx_facts t
  unfold iblk
  rw [View.read_apply]
  show V m c main_arg7 _ = _
  exact congrArg _ (emb2 _ _ e0 e1 x _ rfl rfl)

theorem blk8 (c : Dev nD) (t : Fin cfg0.N) (x : S8x96.Idx) :
    (iblk m c 8 t : Vec Ideal S8x96 .f32) x = (V m c main_v8 : S8x96.Idx → EReal) x := by
  obtain ⟨-, -, -, -, -, -, -, -, ⟨e0, e1⟩, -⟩ := idx_facts t
  unfold iblk
  rw [View.read_apply]
  show V m c main_v8 _ = _
  exact congrArg _ (emb2 _ _ e0 e1 x _ rfl rfl)

theorem blk9 (c : Dev nD) (t : Fin cfg0.N) (x : S8x1.Idx) :
    (iblk m c 9 t : Vec Ideal S8x1 .f32) x = (V m c main_arg9 : S8x1.Idx → EReal) x := by
  obtain ⟨-, -, -, -, -, -, -, -, -, ⟨e0, e1⟩, -⟩ := idx_facts t
  unfold iblk
  rw [View.read_apply]
  show V m c main_arg9 _ = _
  exact congrArg _ (emb2 _ _ e0 e1 x _ rfl rfl)

/-- At point `t`, atom `p` of the block is atom `n = 1024 t + p`: the ten blocks' entries are its feature row, its species
    word and the networks' parameters. -/
theorem reads (c : Dev nD) (t : Fin cfg0.N) (p : Fin 1024) (n : Fin 131072) (hn : n.val = 1024 * t.val + p.val) :
    Reads (params m c) (words m c (ix1 n)) (fun d => feats m c (ix2 n d)) p
      (iblk m c 0 t) (iblk m c 1 t) (iblk m c 2 t) (iblk m c 3 t) (iblk m c 4 t) (iblk m c 5 t) (iblk m c 6 t)
      (iblk m c 7 t) (iblk m c 8 t) (iblk m c 9 t) where
  feat d := blk0 m c t p d n hn
  word := blk1 m c t p n hn
  w1 s d k := by
    refine (blk2 m c t _).trans ?_
    rw [V_v4]
    refine (shapeCast_apply _ _ _ (ix3 d s k) ?_).trans (transpose_apply _ _ _ _ (ix3 s d k) fun b => ?_)
    · rw [Shape.rowMajor_val_three, Shape.rowMajor_val_two]
      show (d.val * 8 + s.val) * 160 + k.val = d.val * 1280 + (s.val * 160 + k.val)
      omega
    · match b with
      | ⟨0, _⟩ => rfl
      | ⟨1, _⟩ => rfl
      | ⟨2, _⟩ => rfl
  b1 s k := by
    refine (blk3 m c t _).trans ?_
    rw [V_v5]
    refine shapeCast_apply _ _ _ (ix2 s k) ?_
    rw [Shape.rowMajor_val_two, Shape.rowMajor_val_two]
    show s.val * 160 + k.val = 0 * 1280 + (s.val * 160 + k.val)
    omega
  w2 s k q := by
    refine (blk4 m c t _).trans ?_
    rw [V_v6]
    rfl
  b2 s q := by
    refine (blk5 m c t _).trans ?_
    rw [V_main_arg5]
    rfl
  w3 s k q := by
    refine (blk6 m c t _).trans ?_
    rw [V_v7]
    rfl
  b3 s q := by
    refine (blk7 m c t _).trans ?_
    rw [V_main_arg7]
    rfl
  w4 s k := by
    refine (blk8 m c t _).trans ?_
    rw [V_v8]
    refine shapeCast_apply _ _ _ (ix3 s k (0 : Fin 1)) ?_
    rw [Shape.rowMajor_val_three, Shape.rowMajor_val_two]
    show (s.val * 96 + k.val) * 1 + 0 = s.val * 96 + k.val
    omega
  b4 s := by
    refine (blk9 m c t _).trans ?_
    rw [V_main_arg9]
    rfl

/-! ## What a point writes back, and the whole column -/

/-- WHAT POINT `t` WRITES BACK is block `t` of the column of atoms' values. -/
theorem flushed_eq (c : Dev nD) (t : Fin cfg0.N) :
    (dats m 0 c).flushed 10 t = ((cfg0.win 10).blk t).view.read (Elt Ideal) (resultColumn m c) := by
  obtain ⟨-, -, -, -, -, -, -, -, -, -, ⟨e0, e1⟩⟩ := idx_facts t
  have ht := t_lt t
  show (cfg0.win 10).cut (grid0.coords t) ((dats m 0 c).after 10 t) = _
  rw [after0_10]
  funext y
  obtain ⟨p, u, rfl⟩ : ∃ (p : Fin 1024) (u : Fin 1), y = ix2 p u := ⟨y 0, y 1, eq_ix2 y⟩
  have hp := p.isLt
  show out0_10 (F := Ideal) (iblk m c 0 t) (iblk m c 1 t) (iblk m c 2 t) (iblk m c 3 t) (iblk m c 4 t) (iblk m c 5 t)
      (iblk m c 6 t) (iblk m c 7 t) (iblk m c 8 t) (iblk m c 9 t) (ix2 p u)
    = resultColumn m c (((cfg0.win 10).blk t).view.emb (ix2 p u))
  refine (congrFun (out_eq (iblk m c 0 t) (iblk m c 1 t) (iblk m c 2 t) (iblk m c 3 t) (iblk m c 4 t) (iblk m c 5 t)
    (iblk m c 6 t) (iblk m c 7 t) (iblk m c 8 t) (iblk m c 9 t)) (ix2 p u)).trans ?_
  refine (bodyOut_atom (reads m c t p (⟨1024 * t.val + p.val, by omega⟩ : Fin 131072) rfl) u).trans ?_
  unfold resultColumn atoms
  have hi : (((cfg0.win 10).blk t).view.emb (ix2 p u)) 0 = (⟨1024 * t.val + p.val, by omega⟩ : Fin 131072) :=
    Fin.ext (by show win0_10.index t (0 : Fin 2) * 1024 + 1 * p.val = 1024 * t.val + p.val; rw [e0]; omega)
  rw [hi]

/-- An index of the column is in point `t`'s block iff each coordinate is in the block's range on its axis. -/
theorem mem_blk (t : Fin cfg0.N) (i : S131072x1.Idx) :
    i ∈ ((cfg0.win 10).blk t).view.set ↔ ∀ a : Fin 2, win0_10.index t a * S1024x1.size a ≤ (i a).val
      ∧ (i a).val < win0_10.index t a * S1024x1.size a + S1024x1.size a := by
  show i ∈ ((View.whole main_v9).slice (win0_10.rect t)).set ↔ _
  rw [View.set_slice_whole, Rect.mem_set_unit]
  exact Iff.rfl

/-- Row `n` of the column is in the block of point `n / 1024`. -/
theorem cover (i : S131072x1.Idx) :
    ∃ t : Fin cfg0.N, (cfg0.win 10).flush t = true ∧ i ∈ ((cfg0.win 10).blk t).view.set := by
  have h0 : (i 0).val < 131072 := (i 0).isLt
  have h1 : (i 1).val < 1 := (i 1).isLt
  let t : Fin cfg0.N := Fin.cast N_0.symm (⟨(i 0).val / 1024, by omega⟩ : Fin 128)
  have htv : t.val = (i 0).val / 1024 := rfl
  obtain ⟨-, -, -, -, -, -, -, -, -, -, ⟨e0, e1⟩⟩ := idx_facts t
  refine ⟨t, flush0_10 t, ?_⟩
  rw [mem_blk]
  intro a
  match a with
  | ⟨0, _⟩ =>
    show win0_10.index t (0 : Fin 2) * 1024 ≤ (i 0).val ∧ (i 0).val < win0_10.index t (0 : Fin 2) * 1024 + 1024
    rw [e0, htv]; omega
  | ⟨1, _⟩ =>
    show win0_10.index t (1 : Fin 2) * 1 ≤ (i 1).val ∧ (i 1).val < win0_10.index t (1 : Fin 2) * 1 + 1
    rw [e1]; omega

/-- THE COLUMN after the region: every atom's value. -/
theorem final (c : Dev nD) : (dats m 0 c).arrAt 10 cfg0.N = resultColumn m c :=
  (dats m 0 c).arrAt_eq_of_cover 10 (resultColumn m c) (fun t _ => flushed_eq m c t) cover

/-! ## After the region: one row per molecule, summed -/

/-- What the program returns: every molecule's sum of its atoms' values. -/
def result (c : Dev nD) : S2048x1.Idx → EReal :=
  molecules (byMolecule (atoms (params m c) (words m c) (feats m c)))

/-- The lines after the region, run on the column the region left, give `result`: the reshape puts atom `64 b + a` at
    `(b, a)`, the sum along each row starts from the zero constant, and the sums are laid as a column. -/
theorem tail_eq (c : Dev nD) :
    Pipeline.afterTail₀ cfgs (dats m) 0 (V0 m) [hostOps1] c main_v12 = result m c := by
  unfold Pipeline.afterTail₀
  show StableHlo.after hostOps1 _ (Proc.devRef .tc main_v12) = _
  after_results
  have hcol : Pipeline.withArrays (cfgs 0).spec c (V0 m c) (fun w => (dats m 0 c).arrAt w (cfgs 0).N)
      (Proc.devRef .tc main_v9) = resultColumn m c :=
    (Pipeline.withArrays_arr spec0 launch0.win.arr_inj c _ _ 10).trans (final m c)
  rw [hcol]
  funext i
  refine (rowSums_column_apply _ _ _ (by decide) _ _ i).trans ?_
  unfold result molecules
  refine congrArg (zero + ·) (Finset.sum_congr rfl fun a _ => ?_)
  have hlt : (i 0).val * 64 + a.val < 131072 := by
    have h0 : (i 0).val < 2048 := (i 0).isLt
    have h1 := a.isLt
    omega
  exact reshape_column_apply (resultColumn m c) _ (i 0) a (⟨(i 0).val * 64 + a.val, hlt⟩ : Fin 131072) rfl

/-- THE RUN, READ: every weakly fair execution of the program terminates with the result at every molecule's sum of its atoms'
    values and the arguments unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c)))⟩)
    (run_main m ρ)

end Cert.KernelIdeal.Arr

end
-- ==== Proof.RefMain.lean ====
/-
  The reference's program as a list of operations.

  The reference is a straight line of 376 array operations (a called function's operations standing at its call), printed
  in 6 windows of at most sixty statements. Each window is its operations run in order, so the whole program is the windows'
  lists appended, run in order; every operation touches only the one core's array buffers, and none allocates. These are the
  facts the run of a straight line of operations asks for. What the operations compute is read elsewhere.
-/
import proofs.«129781_j39633958207559_2_alg».proof.Proof.Gen.ReferenceIdeal
import Idealize.ShloMosaic.Lib.StableHlo.Run

noncomputable section

namespace Cert.ReferenceIdeal.RefMain

open Cert.ReferenceIdeal Cert.ReferenceIdeal.Gen Idealize.ShloMosaic Idealize.ShloMosaic.TcCoe Idealize.SL.Sem Idealize.ShloMosaic.StableHlo

variable {F : FTy → Type} [FloatOps F]

/-- Window 0: operations 1 to 68. -/
abbrev p0 : List (HloOp τ sig (Elt F)) :=
  [ reshape main_arg0 main_v0 rfl shapeCasts_S2048x64_S131072,
    reshape main_arg1 main_v1 rfl shapeCasts_S2048x64x300_S131072x300,
    nullary main_cst (constant S_ .f32 0x00000000#32),
    unary main_cst main_v2 (broadcastInDim S131072 ![] bcast_S_S131072 : (⟨S_, .f32⟩ : BufTy).Contents (Elt F) → (⟨S131072, .f32⟩ : BufTy).Contents (Elt F)),
    unary main_arg2 main_v3 ((extractStridedSlice S1x300x160 ![0, 0, 0] · slices_S8x300x160_S1x300x160_0_0_0) : (⟨S8x300x160, .f32⟩ : BufTy).Contents (Elt F) → (⟨S1x300x160, .f32⟩ : BufTy).Contents (Elt F)),
    reshape main_v3 main_v4 rfl shapeCasts_S1x300x160_S300x160,
    binary main_v1 main_v4 main_v5 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v6 ((extractStridedSlice S1x160 ![0, 0] · slices_S8x160_S1x160_0_0) : (⟨S8x160, .f32⟩ : BufTy).Contents (Elt F) → (⟨S1x160, .f32⟩ : BufTy).Contents (Elt F)),
    reshape main_v6 main_v7 rfl shapeCasts_S1x160_S160,
    unary main_v7 main_v8 (broadcastInDim S1x160 ![1] bcast_S160_S1x160_1 : (⟨S160, .f32⟩ : BufTy).Contents (Elt F) → (⟨S1x160, .f32⟩ : BufTy).Contents (Elt F)),
    unary main_v8 main_v9 (broadcastInDim S131072x160 ![0, 1] bcast_S1x160_S131072x160_0_1 : (⟨S1x160, .f32⟩ : BufTy).Contents (Elt F) → (⟨S131072x160, .f32⟩ : BufTy).Contents (Elt F)),
    binary main_v5 main_v9 main_v10 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S131072x160, .f32⟩) main_call0_v0) (broadcastInDim S131072x160 ![] bcast_S_S131072x160),
    TRef.binary (TRef.of (T := ⟨S131072x160, .f32⟩) main_v10) (TRef.of (T := ⟨S131072x160, .f32⟩) main_call0_v0) (TRef.of (T := ⟨S131072x160, .f32⟩) main_v11) maximumf,
    unary main_arg4 main_v12 ((extractStridedSlice S1x160x128 ![0, 0, 0] · slices_S8x160x128_S1x160x128_0_0_0) : (⟨S8x160x128, .f32⟩ : BufTy).Contents (Elt F) → (⟨S1x160x128, .f32⟩ : BufTy).Contents (Elt F)),
    reshape main_v12 main_v13 rfl shapeCasts_S1x160x128_S160x128,
    binary main_v11 main_v13 main_v14 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v15 ((extractStridedSlice S1x128 ![0, 0] · slices_S8x128_S1x128_0_0) : (⟨S8x128, .f32⟩ : BufTy).Contents (Elt F) → (⟨S1x128, .f32⟩ : BufTy).Contents (Elt F)),
    reshape main_v15 main_v16 rfl shapeCasts_S1x128_S128,
    unary main_v16 main_v17 (broadcastInDim S1x128 ![1] bcast_S128_S1x128_1 : (⟨S128, .f32⟩ : BufTy).Contents (Elt F) → (⟨S1x128, .f32⟩ : BufTy).Contents (Elt F)),
    unary main_v17 main_v18 (broadcastInDim S131072x128 ![0, 1] bcast_S1x128_S131072x128_0_1 : (⟨S1x128, .f32⟩ : BufTy).Contents (Elt F) → (⟨S131072x128, .f32⟩ : BufTy).Contents (Elt F)),
    binary main_v14 main_v18 main_v19 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S131072x128, .f32⟩) main_call1_v0) (broadcastInDim S131072x128 ![] bcast_S_S131072x128),
    TRef.binary (TRef.of (T := ⟨S131072x128, .f32⟩) main_v19) (TRef.of (T := ⟨S131072x128, .f32⟩) main_call1_v0) (TRef.of (T := ⟨S131072x128, .f32⟩) main_v20) maximumf,
    unary main_arg6 main_v21 ((extractStridedSlice S1x128x96 ![0, 0, 0] · slices_S8x128x96_S1x128x96_0_0_0) : (⟨S8x128x96, .f32⟩ : BufTy).Contents (Elt F) → (⟨S1x128x96, .f32⟩ : BufTy).Contents (Elt F)),
    reshape main_v21 main_v22 rfl shapeCasts_S1x128x96_S128x96,
    binary main_v20 main_v22 main_v23 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v24 ((extractStridedSlice S1x96 ![0, 0] · slices_S8x96_S1x96_0_0) : (⟨S8x96, .f32⟩ : BufTy).Contents (Elt F) → (⟨S1x96, .f32⟩ : BufTy).Contents (Elt F)),
    reshape main_v24 main_v25 rfl shapeCasts_S1x96_S96,
    unary main_v25 main_v26 (broadcastInDim S1x96 ![1] bcast_S96_S1x96_1 : (⟨S96, .f32⟩ : BufTy).Contents (Elt F) → (⟨S1x96, .f32⟩ : BufTy).Contents (Elt F)),
    unary main_v26 main_v27 (broadcastInDim S131072x96 ![0, 1] bcast_S1x96_S131072x96_0_1 : (⟨S1x96, .f32⟩ : BufTy).Contents (Elt F) → (⟨S131072x96, .f32⟩ : BufTy).Contents (Elt F)),
    binary main_v23 main_v27 main_v28 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S131072x96, .f32⟩) main_call2_v0) (broadcastInDim S131072x96 ![] bcast_S_S131072x96),
    TRef.binary (TRef.of (T := ⟨S131072x96, .f32⟩) main_v28) (TRef.of (T := ⟨S131072x96, .f32⟩) main_call2_v0) (TRef.of (T := ⟨S131072x96, .f32⟩) main_v29) maximumf,
    unary main_arg8 main_v30 ((extractStridedSlice S1x96x1 ![0, 0, 0] · slices_S8x96x1_S1x96x1_0_0_0) : (⟨S8x96x1, .f32⟩ : BufTy).Contents (Elt F) → (⟨S1x96x1, .f32⟩ : BufTy).Contents (Elt F)),
    reshape main_v30 main_v31 rfl shapeCasts_S1x96x1_S96x1,
    binary main_v29 main_v31 main_v32 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v33 ((extractStridedSlice S1x1 ![0, 0] · slices_S8x1_S1x1_0_0) : (⟨S8x1, .f32⟩ : BufTy).Contents (Elt F) → (⟨S1x1, .f32⟩ : BufTy).Contents (Elt F)),
    reshape main_v33 main_v34 rfl shapeCasts_S1x1_S1,
    unary main_v34 main_v35 (broadcastInDim S1x1 ![1] bcast_S1_S1x1_1 : (⟨S1, .f32⟩ : BufTy).Contents (Elt F) → (⟨S1x1, .f32⟩ : BufTy).Contents (Elt F)),
    unary main_v35 main_v36 (broadcastInDim S131072x1 ![0, 1] bcast_S1x1_S131072x1_0_1 : (⟨S1x1, .f32⟩ : BufTy).Contents (Elt F) → (⟨S131072x1, .f32⟩ : BufTy).Contents (Elt F)),
    binary main_v32 main_v36 main_v37 (addf : (⟨S131072x1, .f32⟩ : BufTy).Contents (Elt F) → (⟨S131072x1, .f32⟩ : BufTy).Contents (Elt F) → (⟨S131072x1, .f32⟩ : BufTy).Contents (Elt F)),
    reshape main_v37 main_v38 rfl shapeCasts_S131072x1_S131072,
    nullary main_c (constantI S_ 32 0#32),
    unary main_c main_v39 (broadcastInDim S131072 ![] bcast_S_S131072 : (⟨S_, .i32⟩ : BufTy).Contents (Elt F) → (⟨S131072, .i32⟩ : BufTy).Contents (Elt F)),
    binary main_v0 main_v39 main_v40 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v40) (TRef.of (T := ⟨S131072, .f32⟩) main_v38) (TRef.of (T := ⟨S131072, .f32⟩) main_v2) (TRef.of (T := ⟨S131072, .f32⟩) main_v41) select,
    unary main_arg2 main_v42 ((extractStridedSlice S1x300x160 ![1, 0, 0] · slices_S8x300x160_S1x300x160_1_0_0) : (⟨S8x300x160, .f32⟩ : BufTy).Contents (Elt F) → (⟨S1x300x160, .f32⟩ : BufTy).Contents (Elt F)),
    reshape main_v42 main_v43 rfl shapeCasts_S1x300x160_S300x160,
    binary main_v1 main_v43 main_v44 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v45 ((extractStridedSlice S1x160 ![1, 0] · slices_S8x160_S1x160_1_0) : (⟨S8x160, .f32⟩ : BufTy).Contents (Elt F) → (⟨S1x160, .f32⟩ : BufTy).Contents (Elt F)),
    reshape main_v45 main_v46 rfl shapeCasts_S1x160_S160,
    unary main_v46 main_v47 (broadcastInDim S1x160 ![1] bcast_S160_S1x160_1 : (⟨S160, .f32⟩ : BufTy).Contents (Elt F) → (⟨S1x160, .f32⟩ : BufTy).Contents (Elt F)),
    unary main_v47 main_v48 (broadcastInDim S131072x160 ![0, 1] bcast_S1x160_S131072x160_0_1 : (⟨S1x160, .f32⟩ : BufTy).Contents (Elt F) → (⟨S131072x160, .f32⟩ : BufTy).Contents (Elt F)),
    binary main_v44 main_v48 main_v49 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S131072x160, .f32⟩) main_call4_v0) (broadcastInDim S131072x160 ![] bcast_S_S131072x160),
    TRef.binary (TRef.of (T := ⟨S131072x160, .f32⟩) main_v49) (TRef.of (T := ⟨S131072x160, .f32⟩) main_call4_v0) (TRef.of (T := ⟨S131072x160, .f32⟩) main_v50) maximumf,
    unary main_arg4 main_v51 ((extractStridedSlice S1x160x128 ![1, 0, 0] · slices_S8x160x128_S1x160x128_1_0_0) : (⟨S8x160x128, .f32⟩ : BufTy).Contents (Elt F) → (⟨S1x160x128, .f32⟩ : BufTy).Contents (Elt F)),
    reshape main_v51 main_v52 rfl shapeCasts_S1x160x128_S160x128,
    binary main_v50 main_v52 main_v53 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v54 ((extractStridedSlice S1x128 ![1, 0] · slices_S8x128_S1x128_1_0) : (⟨S8x128, .f32⟩ : BufTy).Contents (Elt F) → (⟨S1x128, .f32⟩ : BufTy).Contents (Elt F)),
    reshape main_v54 main_v55 rfl shapeCasts_S1x128_S128,
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S131072x128 ![0, 1] bcast_S1x128_S131072x128_0_1 : (⟨S1x128, .f32⟩ : BufTy).Contents (Elt F) → (⟨S131072x128, .f32⟩ : BufTy).Contents (Elt F)) ]

/-- Window 0 is its operations run in order. -/
theorem part0_eq (d : Dev nD) : main_part0 (F := F) d = seq p0 := rfl

/-- Each touches the core's array buffers only. -/
theorem p0_sub : (p0 : List (HloOp τ sig (Elt F))).Forall fun op => op.bufs ⊆ tcRefs τ sig :=
  ⟨reshape_bufs_sub .., reshape_bufs_sub .., nullary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub ..⟩

/-- None allocates. -/
theorem p0_fresh : ∀ op ∈ (p0 : List (HloOp τ sig (Elt F))), op.fresh = ∅ := by
  intro _ h; (repeat (cases h with | head => rfl | tail _ h => ?_)); exact nomatch h

/-- Window 1: operations 69 to 138. -/
abbrev p1 : List (HloOp τ sig (Elt F)) :=
  [ binary main_v53 main_v57 main_v58 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S131072x128, .f32⟩) main_call5_v0) (broadcastInDim S131072x128 ![] bcast_S_S131072x128),
    TRef.binary (TRef.of (T := ⟨S131072x128, .f32⟩) main_v58) (TRef.of (T := ⟨S131072x128, .f32⟩) main_call5_v0) (TRef.of (T := ⟨S131072x128, .f32⟩) main_v59) maximumf,
    unary main_arg6 main_v60 ((extractStridedSlice S1x128x96 ![1, 0, 0] · slices_S8x128x96_S1x128x96_1_0_0) : (⟨S8x128x96, .f32⟩ : BufTy).Contents (Elt F) → (⟨S1x128x96, .f32⟩ : BufTy).Contents (Elt F)),
    reshape main_v60 main_v61 rfl shapeCasts_S1x128x96_S128x96,
    binary main_v59 main_v61 main_v62 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v63 ((extractStridedSlice S1x96 ![1, 0] · slices_S8x96_S1x96_1_0) : (⟨S8x96, .f32⟩ : BufTy).Contents (Elt F) → (⟨S1x96, .f32⟩ : BufTy).Contents (Elt F)),
    reshape main_v63 main_v64 rfl shapeCasts_S1x96_S96,
    unary main_v64 main_v65 (broadcastInDim S1x96 ![1] bcast_S96_S1x96_1 : (⟨S96, .f32⟩ : BufTy).Contents (Elt F) → (⟨S1x96, .f32⟩ : BufTy).Contents (Elt F)),
    unary main_v65 main_v66 (broadcastInDim S131072x96 ![0, 1] bcast_S1x96_S131072x96_0_1 : (⟨S1x96, .f32⟩ : BufTy).Contents (Elt F) → (⟨S131072x96, .f32⟩ : BufTy).Contents (Elt F)),
    binary main_v62 main_v66 main_v67 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S131072x96, .f32⟩) main_call6_v0) (broadcastInDim S131072x96 ![] bcast_S_S131072x96),
    TRef.binary (TRef.of (T := ⟨S131072x96, .f32⟩) main_v67) (TRef.of (T := ⟨S131072x96, .f32⟩) main_call6_v0) (TRef.of (T := ⟨S131072x96, .f32⟩) main_v68) maximumf,
    unary main_arg8 main_v69 ((extractStridedSlice S1x96x1 ![1, 0, 0] · slices_S8x96x1_S1x96x1_1_0_0) : (⟨S8x96x1, .f32⟩ : BufTy).Contents (Elt F) → (⟨S1x96x1, .f32⟩ : BufTy).Contents (Elt F)),
    reshape main_v69 main_v70 rfl shapeCasts_S1x96x1_S96x1,
    binary main_v68 main_v70 main_v71 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v72 ((extractStridedSlice S1x1 ![1, 0] · slices_S8x1_S1x1_1_0) : (⟨S8x1, .f32⟩ : BufTy).Contents (Elt F) → (⟨S1x1, .f32⟩ : BufTy).Contents (Elt F)),
    reshape main_v72 main_v73 rfl shapeCasts_S1x1_S1,
    unary main_v73 main_v74 (broadcastInDim S1x1 ![1] bcast_S1_S1x1_1 : (⟨S1, .f32⟩ : BufTy).Contents (Elt F) → (⟨S1x1, .f32⟩ : BufTy).Contents (Elt F)),
    unary main_v74 main_v75 (broadcastInDim S131072x1 ![0, 1] bcast_S1x1_S131072x1_0_1 : (⟨S1x1, .f32⟩ : BufTy).Contents (Elt F) → (⟨S131072x1, .f32⟩ : BufTy).Contents (Elt F)),
    binary main_v71 main_v75 main_v76 (addf : (⟨S131072x1, .f32⟩ : BufTy).Contents (Elt F) → (⟨S131072x1, .f32⟩ : BufTy).Contents (Elt F) → (⟨S131072x1, .f32⟩ : BufTy).Contents (Elt F)),
    reshape main_v76 main_v77 rfl shapeCasts_S131072x1_S131072,
    nullary main_c_0 (constantI S_ 32 1#32),
    unary main_c_0 main_v78 (broadcastInDim S131072 ![] bcast_S_S131072 : (⟨S_, .i32⟩ : BufTy).Contents (Elt F) → (⟨S131072, .i32⟩ : BufTy).Contents (Elt F)),
    binary main_v0 main_v78 main_v79 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v79) (TRef.of (T := ⟨S131072, .f32⟩) main_v77) (TRef.of (T := ⟨S131072, .f32⟩) main_v41) (TRef.of (T := ⟨S131072, .f32⟩) main_v80) select,
    unary main_arg2 main_v81 ((extractStridedSlice S1x300x160 ![2, 0, 0] · slices_S8x300x160_S1x300x160_2_0_0) : (⟨S8x300x160, .f32⟩ : BufTy).Contents (Elt F) → (⟨S1x300x160, .f32⟩ : BufTy).Contents (Elt F)),
    reshape main_v81 main_v82 rfl shapeCasts_S1x300x160_S300x160,
    binary main_v1 main_v82 main_v83 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v84 ((extractStridedSlice S1x160 ![2, 0] · slices_S8x160_S1x160_2_0) : (⟨S8x160, .f32⟩ : BufTy).Contents (Elt F) → (⟨S1x160, .f32⟩ : BufTy).Contents (Elt F)),
    reshape main_v84 main_v85 rfl shapeCasts_S1x160_S160,
    unary main_v85 main_v86 (broadcastInDim S1x160 ![1] bcast_S160_S1x160_1 : (⟨S160, .f32⟩ : BufTy).Contents (Elt F) → (⟨S1x160, .f32⟩ : BufTy).Contents (Elt F)),
    unary main_v86 main_v87 (broadcastInDim S131072x160 ![0, 1] bcast_S1x160_S131072x160_0_1 : (⟨S1x160, .f32⟩ : BufTy).Contents (Elt F) → (⟨S131072x160, .f32⟩ : BufTy).Contents (Elt F)),
    binary main_v83 main_v87 main_v88 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S131072x160, .f32⟩) main_call8_v0) (broadcastInDim S131072x160 ![] bcast_S_S131072x160),
    TRef.binary (TRef.of (T := ⟨S131072x160, .f32⟩) main_v88) (TRef.of (T := ⟨S131072x160, .f32⟩) main_call8_v0) (TRef.of (T := ⟨S131072x160, .f32⟩) main_v89) maximumf,
    unary main_arg4 main_v90 ((extractStridedSlice S1x160x128 ![2, 0, 0] · slices_S8x160x128_S1x160x128_2_0_0) : (⟨S8x160x128, .f32⟩ : BufTy).Contents (Elt F) → (⟨S1x160x128, .f32⟩ : BufTy).Contents (Elt F)),
    reshape main_v90 main_v91 rfl shapeCasts_S1x160x128_S160x128,
    binary main_v89 main_v91 main_v92 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v93 ((extractStridedSlice S1x128 ![2, 0] · slices_S8x128_S1x128_2_0) : (⟨S8x128, .f32⟩ : BufTy).Contents (Elt F) → (⟨S1x128, .f32⟩ : BufTy).Contents (Elt F)),
    reshape main_v93 main_v94 rfl shapeCasts_S1x128_S128,
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S131072x128 ![0, 1] bcast_S1x128_S131072x128_0_1 : (⟨S1x128, .f32⟩ : BufTy).Contents (Elt F) → (⟨S131072x128, .f32⟩ : BufTy).Contents (Elt F)),
    binary main_v92 main_v96 main_v97 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S131072x128, .f32⟩) main_call9_v0) (broadcastInDim S131072x128 ![] bcast_S_S131072x128),
    TRef.binary (TRef.of (T := ⟨S131072x128, .f32⟩) main_v97) (TRef.of (T := ⟨S131072x128, .f32⟩) main_call9_v0) (TRef.of (T := ⟨S131072x128, .f32⟩) main_v98) maximumf,
    unary main_arg6 main_v99 ((extractStridedSlice S1x128x96 ![2, 0, 0] · slices_S8x128x96_S1x128x96_2_0_0) : (⟨S8x128x96, .f32⟩ : BufTy).Contents (Elt F) → (⟨S1x128x96, .f32⟩ : BufTy).Contents (Elt F)),
    reshape main_v99 main_v100 rfl shapeCasts_S1x128x96_S128x96,
    binary main_v98 main_v100 main_v101 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v102 ((extractStridedSlice S1x96 ![2, 0] · slices_S8x96_S1x96_2_0) : (⟨S8x96, .f32⟩ : BufTy).Contents (Elt F) → (⟨S1x96, .f32⟩ : BufTy).Contents (Elt F)),
    reshape main_v102 main_v103 rfl shapeCasts_S1x96_S96,
    unary main_v103 main_v104 (broadcastInDim S1x96 ![1] bcast_S96_S1x96_1 : (⟨S96, .f32⟩ : BufTy).Contents (Elt F) → (⟨S1x96, .f32⟩ : BufTy).Contents (Elt F)),
    unary main_v104 main_v105 (broadcastInDim S131072x96 ![0, 1] bcast_S1x96_S131072x96_0_1 : (⟨S1x96, .f32⟩ : BufTy).Contents (Elt F) → (⟨S131072x96, .f32⟩ : BufTy).Contents (Elt F)),
    binary main_v101 main_v105 main_v106 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S131072x96, .f32⟩) main_call10_v0) (broadcastInDim S131072x96 ![] bcast_S_S131072x96),
    TRef.binary (TRef.of (T := ⟨S131072x96, .f32⟩) main_v106) (TRef.of (T := ⟨S131072x96, .f32⟩) main_call10_v0) (TRef.of (T := ⟨S131072x96, .f32⟩) main_v107) maximumf,
    unary main_arg8 main_v108 ((extractStridedSlice S1x96x1 ![2, 0, 0] · slices_S8x96x1_S1x96x1_2_0_0) : (⟨S8x96x1, .f32⟩ : BufTy).Contents (Elt F) → (⟨S1x96x1, .f32⟩ : BufTy).Contents (Elt F)),
    reshape main_v108 main_v109 rfl shapeCasts_S1x96x1_S96x1,
    binary main_v107 main_v109 main_v110 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v111 ((extractStridedSlice S1x1 ![2, 0] · slices_S8x1_S1x1_2_0) : (⟨S8x1, .f32⟩ : BufTy).Contents (Elt F) → (⟨S1x1, .f32⟩ : BufTy).Contents (Elt F)),
    reshape main_v111 main_v112 rfl shapeCasts_S1x1_S1,
    unary main_v112 main_v113 (broadcastInDim S1x1 ![1] bcast_S1_S1x1_1 : (⟨S1, .f32⟩ : BufTy).Contents (Elt F) → (⟨S1x1, .f32⟩ : BufTy).Contents (Elt F)),
    unary main_v113 main_v114 (broadcastInDim S131072x1 ![0, 1] bcast_S1x1_S131072x1_0_1 : (⟨S1x1, .f32⟩ : BufTy).Contents (Elt F) → (⟨S131072x1, .f32⟩ : BufTy).Contents (Elt F)),
    binary main_v110 main_v114 main_v115 (addf : (⟨S131072x1, .f32⟩ : BufTy).Contents (Elt F) → (⟨S131072x1, .f32⟩ : BufTy).Contents (Elt F) → (⟨S131072x1, .f32⟩ : BufTy).Contents (Elt F)),
    reshape main_v115 main_v116 rfl shapeCasts_S131072x1_S131072 ]

/-- Window 1 is its operations run in order. -/
theorem part1_eq (d : Dev nD) : main_part1 (F := F) d = seq p1 := rfl

/-- Each touches the core's array buffers only. -/
theorem p1_sub : (p1 : List (HloOp τ sig (Elt F))).Forall fun op => op.bufs ⊆ tcRefs τ sig :=
  ⟨binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub ..⟩

/-- None allocates. -/
theorem p1_fresh : ∀ op ∈ (p1 : List (HloOp τ sig (Elt F))), op.fresh = ∅ := by
  intro _ h; (repeat (cases h with | head => rfl | tail _ h => ?_)); exact nomatch h

/-- Window 2: operations 139 to 206. -/
abbrev p2 : List (HloOp τ sig (Elt F)) :=
  [ nullary main_c_1 (constantI S_ 32 2#32),
    unary main_c_1 main_v117 (broadcastInDim S131072 ![] bcast_S_S131072 : (⟨S_, .i32⟩ : BufTy).Contents (Elt F) → (⟨S131072, .i32⟩ : BufTy).Contents (Elt F)),
    binary main_v0 main_v117 main_v118 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v118) (TRef.of (T := ⟨S131072, .f32⟩) main_v116) (TRef.of (T := ⟨S131072, .f32⟩) main_v80) (TRef.of (T := ⟨S131072, .f32⟩) main_v119) select,
    unary main_arg2 main_v120 ((extractStridedSlice S1x300x160 ![3, 0, 0] · slices_S8x300x160_S1x300x160_3_0_0) : (⟨S8x300x160, .f32⟩ : BufTy).Contents (Elt F) → (⟨S1x300x160, .f32⟩ : BufTy).Contents (Elt F)),
    reshape main_v120 main_v121 rfl shapeCasts_S1x300x160_S300x160,
    binary main_v1 main_v121 main_v122 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v123 ((extractStridedSlice S1x160 ![3, 0] · slices_S8x160_S1x160_3_0) : (⟨S8x160, .f32⟩ : BufTy).Contents (Elt F) → (⟨S1x160, .f32⟩ : BufTy).Contents (Elt F)),
    reshape main_v123 main_v124 rfl shapeCasts_S1x160_S160,
    unary main_v124 main_v125 (broadcastInDim S1x160 ![1] bcast_S160_S1x160_1 : (⟨S160, .f32⟩ : BufTy).Contents (Elt F) → (⟨S1x160, .f32⟩ : BufTy).Contents (Elt F)),
    unary main_v125 main_v126 (broadcastInDim S131072x160 ![0, 1] bcast_S1x160_S131072x160_0_1 : (⟨S1x160, .f32⟩ : BufTy).Contents (Elt F) → (⟨S131072x160, .f32⟩ : BufTy).Contents (Elt F)),
    binary main_v122 main_v126 main_v127 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S131072x160, .f32⟩) main_call12_v0) (broadcastInDim S131072x160 ![] bcast_S_S131072x160),
    TRef.binary (TRef.of (T := ⟨S131072x160, .f32⟩) main_v127) (TRef.of (T := ⟨S131072x160, .f32⟩) main_call12_v0) (TRef.of (T := ⟨S131072x160, .f32⟩) main_v128) maximumf,
    unary main_arg4 main_v129 ((extractStridedSlice S1x160x128 ![3, 0, 0] · slices_S8x160x128_S1x160x128_3_0_0) : (⟨S8x160x128, .f32⟩ : BufTy).Contents (Elt F) → (⟨S1x160x128, .f32⟩ : BufTy).Contents (Elt F)),
    reshape main_v129 main_v130 rfl shapeCasts_S1x160x128_S160x128,
    binary main_v128 main_v130 main_v131 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v132 ((extractStridedSlice S1x128 ![3, 0] · slices_S8x128_S1x128_3_0) : (⟨S8x128, .f32⟩ : BufTy).Contents (Elt F) → (⟨S1x128, .f32⟩ : BufTy).Contents (Elt F)),
    reshape main_v132 main_v133 rfl shapeCasts_S1x128_S128,
    unary main_v133 main_v134 (broadcastInDim S1x128 ![1] bcast_S128_S1x128_1 : (⟨S128, .f32⟩ : BufTy).Contents (Elt F) → (⟨S1x128, .f32⟩ : BufTy).Contents (Elt F)),
    unary main_v134 main_v135 (broadcastInDim S131072x128 ![0, 1] bcast_S1x128_S131072x128_0_1 : (⟨S1x128, .f32⟩ : BufTy).Contents (Elt F) → (⟨S131072x128, .f32⟩ : BufTy).Contents (Elt F)),
    binary main_v131 main_v135 main_v136 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S131072x128, .f32⟩) main_call13_v0) (broadcastInDim S131072x128 ![] bcast_S_S131072x128),
    TRef.binary (TRef.of (T := ⟨S131072x128, .f32⟩) main_v136) (TRef.of (T := ⟨S131072x128, .f32⟩) main_call13_v0) (TRef.of (T := ⟨S131072x128, .f32⟩) main_v137) maximumf,
    unary main_arg6 main_v138 ((extractStridedSlice S1x128x96 ![3, 0, 0] · slices_S8x128x96_S1x128x96_3_0_0) : (⟨S8x128x96, .f32⟩ : BufTy).Contents (Elt F) → (⟨S1x128x96, .f32⟩ : BufTy).Contents (Elt F)),
    reshape main_v138 main_v139 rfl shapeCasts_S1x128x96_S128x96,
    binary main_v137 main_v139 main_v140 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v141 ((extractStridedSlice S1x96 ![3, 0] · slices_S8x96_S1x96_3_0) : (⟨S8x96, .f32⟩ : BufTy).Contents (Elt F) → (⟨S1x96, .f32⟩ : BufTy).Contents (Elt F)),
    reshape main_v141 main_v142 rfl shapeCasts_S1x96_S96,
    unary main_v142 main_v143 (broadcastInDim S1x96 ![1] bcast_S96_S1x96_1 : (⟨S96, .f32⟩ : BufTy).Contents (Elt F) → (⟨S1x96, .f32⟩ : BufTy).Contents (Elt F)),
    unary main_v143 main_v144 (broadcastInDim S131072x96 ![0, 1] bcast_S1x96_S131072x96_0_1 : (⟨S1x96, .f32⟩ : BufTy).Contents (Elt F) → (⟨S131072x96, .f32⟩ : BufTy).Contents (Elt F)),
    binary main_v140 main_v144 main_v145 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S131072x96, .f32⟩) main_call14_v0) (broadcastInDim S131072x96 ![] bcast_S_S131072x96),
    TRef.binary (TRef.of (T := ⟨S131072x96, .f32⟩) main_v145) (TRef.of (T := ⟨S131072x96, .f32⟩) main_call14_v0) (TRef.of (T := ⟨S131072x96, .f32⟩) main_v146) maximumf,
    unary main_arg8 main_v147 ((extractStridedSlice S1x96x1 ![3, 0, 0] · slices_S8x96x1_S1x96x1_3_0_0) : (⟨S8x96x1, .f32⟩ : BufTy).Contents (Elt F) → (⟨S1x96x1, .f32⟩ : BufTy).Contents (Elt F)),
    reshape main_v147 main_v148 rfl shapeCasts_S1x96x1_S96x1,
    binary main_v146 main_v148 main_v149 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v150 ((extractStridedSlice S1x1 ![3, 0] · slices_S8x1_S1x1_3_0) : (⟨S8x1, .f32⟩ : BufTy).Contents (Elt F) → (⟨S1x1, .f32⟩ : BufTy).Contents (Elt F)),
    reshape main_v150 main_v151 rfl shapeCasts_S1x1_S1,
    unary main_v151 main_v152 (broadcastInDim S1x1 ![1] bcast_S1_S1x1_1 : (⟨S1, .f32⟩ : BufTy).Contents (Elt F) → (⟨S1x1, .f32⟩ : BufTy).Contents (Elt F)),
    unary main_v152 main_v153 (broadcastInDim S131072x1 ![0, 1] bcast_S1x1_S131072x1_0_1 : (⟨S1x1, .f32⟩ : BufTy).Contents (Elt F) → (⟨S131072x1, .f32⟩ : BufTy).Contents (Elt F)),
    binary main_v149 main_v153 main_v154 (addf : (⟨S131072x1, .f32⟩ : BufTy).Contents (Elt F) → (⟨S131072x1, .f32⟩ : BufTy).Contents (Elt F) → (⟨S131072x1, .f32⟩ : BufTy).Contents (Elt F)),
    reshape main_v154 main_v155 rfl shapeCasts_S131072x1_S131072,
    nullary main_c_2 (constantI S_ 32 3#32),
    unary main_c_2 main_v156 (broadcastInDim S131072 ![] bcast_S_S131072 : (⟨S_, .i32⟩ : BufTy).Contents (Elt F) → (⟨S131072, .i32⟩ : BufTy).Contents (Elt F)),
    binary main_v0 main_v156 main_v157 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v157) (TRef.of (T := ⟨S131072, .f32⟩) main_v155) (TRef.of (T := ⟨S131072, .f32⟩) main_v119) (TRef.of (T := ⟨S131072, .f32⟩) main_v158) select,
    unary main_arg2 main_v159 ((extractStridedSlice S1x300x160 ![4, 0, 0] · slices_S8x300x160_S1x300x160_4_0_0) : (⟨S8x300x160, .f32⟩ : BufTy).Contents (Elt F) → (⟨S1x300x160, .f32⟩ : BufTy).Contents (Elt F)),
    reshape main_v159 main_v160 rfl shapeCasts_S1x300x160_S300x160,
    binary main_v1 main_v160 main_v161 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v162 ((extractStridedSlice S1x160 ![4, 0] · slices_S8x160_S1x160_4_0) : (⟨S8x160, .f32⟩ : BufTy).Contents (Elt F) → (⟨S1x160, .f32⟩ : BufTy).Contents (Elt F)),
    reshape main_v162 main_v163 rfl shapeCasts_S1x160_S160,
    unary main_v163 main_v164 (broadcastInDim S1x160 ![1] bcast_S160_S1x160_1 : (⟨S160, .f32⟩ : BufTy).Contents (Elt F) → (⟨S1x160, .f32⟩ : BufTy).Contents (Elt F)),
    unary main_v164 main_v165 (broadcastInDim S131072x160 ![0, 1] bcast_S1x160_S131072x160_0_1 : (⟨S1x160, .f32⟩ : BufTy).Contents (Elt F) → (⟨S131072x160, .f32⟩ : BufTy).Contents (Elt F)),
    binary main_v161 main_v165 main_v166 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S131072x160, .f32⟩) main_call16_v0) (broadcastInDim S131072x160 ![] bcast_S_S131072x160),
    TRef.binary (TRef.of (T := ⟨S131072x160, .f32⟩) main_v166) (TRef.of (T := ⟨S131072x160, .f32⟩) main_call16_v0) (TRef.of (T := ⟨S131072x160, .f32⟩) main_v167) maximumf,
    unary main_arg4 main_v168 ((extractStridedSlice S1x160x128 ![4, 0, 0] · slices_S8x160x128_S1x160x128_4_0_0) : (⟨S8x160x128, .f32⟩ : BufTy).Contents (Elt F) → (⟨S1x160x128, .f32⟩ : BufTy).Contents (Elt F)),
    reshape main_v168 main_v169 rfl shapeCasts_S1x160x128_S160x128,
    binary main_v167 main_v169 main_v170 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v171 ((extractStridedSlice S1x128 ![4, 0] · slices_S8x128_S1x128_4_0) : (⟨S8x128, .f32⟩ : BufTy).Contents (Elt F) → (⟨S1x128, .f32⟩ : BufTy).Contents (Elt F)),
    reshape main_v171 main_v172 rfl shapeCasts_S1x128_S128,
    unary main_v172 main_v173 (broadcastInDim S1x128 ![1] bcast_S128_S1x128_1 : (⟨S128, .f32⟩ : BufTy).Contents (Elt F) → (⟨S1x128, .f32⟩ : BufTy).Contents (Elt F)),
    unary main_v173 main_v174 (broadcastInDim S131072x128 ![0, 1] bcast_S1x128_S131072x128_0_1 : (⟨S1x128, .f32⟩ : BufTy).Contents (Elt F) → (⟨S131072x128, .f32⟩ : BufTy).Contents (Elt F)) ]

/-- Window 2 is its operations run in order. -/
theorem part2_eq (d : Dev nD) : main_part2 (F := F) d = seq p2 := rfl

/-- Each touches the core's array buffers only. -/
theorem p2_sub : (p2 : List (HloOp τ sig (Elt F))).Forall fun op => op.bufs ⊆ tcRefs τ sig :=
  ⟨nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub ..⟩

/-- None allocates. -/
theorem p2_fresh : ∀ op ∈ (p2 : List (HloOp τ sig (Elt F))), op.fresh = ∅ := by
  intro _ h; (repeat (cases h with | head => rfl | tail _ h => ?_)); exact nomatch h

/-- Window 3: operations 207 to 276. -/
abbrev p3 : List (HloOp τ sig (Elt F)) :=
  [ binary main_v170 main_v174 main_v175 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S131072x128, .f32⟩) main_call17_v0) (broadcastInDim S131072x128 ![] bcast_S_S131072x128),
    TRef.binary (TRef.of (T := ⟨S131072x128, .f32⟩) main_v175) (TRef.of (T := ⟨S131072x128, .f32⟩) main_call17_v0) (TRef.of (T := ⟨S131072x128, .f32⟩) main_v176) maximumf,
    unary main_arg6 main_v177 ((extractStridedSlice S1x128x96 ![4, 0, 0] · slices_S8x128x96_S1x128x96_4_0_0) : (⟨S8x128x96, .f32⟩ : BufTy).Contents (Elt F) → (⟨S1x128x96, .f32⟩ : BufTy).Contents (Elt F)),
    reshape main_v177 main_v178 rfl shapeCasts_S1x128x96_S128x96,
    binary main_v176 main_v178 main_v179 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v180 ((extractStridedSlice S1x96 ![4, 0] · slices_S8x96_S1x96_4_0) : (⟨S8x96, .f32⟩ : BufTy).Contents (Elt F) → (⟨S1x96, .f32⟩ : BufTy).Contents (Elt F)),
    reshape main_v180 main_v181 rfl shapeCasts_S1x96_S96,
    unary main_v181 main_v182 (broadcastInDim S1x96 ![1] bcast_S96_S1x96_1 : (⟨S96, .f32⟩ : BufTy).Contents (Elt F) → (⟨S1x96, .f32⟩ : BufTy).Contents (Elt F)),
    unary main_v182 main_v183 (broadcastInDim S131072x96 ![0, 1] bcast_S1x96_S131072x96_0_1 : (⟨S1x96, .f32⟩ : BufTy).Contents (Elt F) → (⟨S131072x96, .f32⟩ : BufTy).Contents (Elt F)),
    binary main_v179 main_v183 main_v184 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S131072x96, .f32⟩) main_call18_v0) (broadcastInDim S131072x96 ![] bcast_S_S131072x96),
    TRef.binary (TRef.of (T := ⟨S131072x96, .f32⟩) main_v184) (TRef.of (T := ⟨S131072x96, .f32⟩) main_call18_v0) (TRef.of (T := ⟨S131072x96, .f32⟩) main_v185) maximumf,
    unary main_arg8 main_v186 ((extractStridedSlice S1x96x1 ![4, 0, 0] · slices_S8x96x1_S1x96x1_4_0_0) : (⟨S8x96x1, .f32⟩ : BufTy).Contents (Elt F) → (⟨S1x96x1, .f32⟩ : BufTy).Contents (Elt F)),
    reshape main_v186 main_v187 rfl shapeCasts_S1x96x1_S96x1,
    binary main_v185 main_v187 main_v188 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v189 ((extractStridedSlice S1x1 ![4, 0] · slices_S8x1_S1x1_4_0) : (⟨S8x1, .f32⟩ : BufTy).Contents (Elt F) → (⟨S1x1, .f32⟩ : BufTy).Contents (Elt F)),
    reshape main_v189 main_v190 rfl shapeCasts_S1x1_S1,
    unary main_v190 main_v191 (broadcastInDim S1x1 ![1] bcast_S1_S1x1_1 : (⟨S1, .f32⟩ : BufTy).Contents (Elt F) → (⟨S1x1, .f32⟩ : BufTy).Contents (Elt F)),
    unary main_v191 main_v192 (broadcastInDim S131072x1 ![0, 1] bcast_S1x1_S131072x1_0_1 : (⟨S1x1, .f32⟩ : BufTy).Contents (Elt F) → (⟨S131072x1, .f32⟩ : BufTy).Contents (Elt F)),
    binary main_v188 main_v192 main_v193 (addf : (⟨S131072x1, .f32⟩ : BufTy).Contents (Elt F) → (⟨S131072x1, .f32⟩ : BufTy).Contents (Elt F) → (⟨S131072x1, .f32⟩ : BufTy).Contents (Elt F)),
    reshape main_v193 main_v194 rfl shapeCasts_S131072x1_S131072,
    nullary main_c_3 (constantI S_ 32 4#32),
    unary main_c_3 main_v195 (broadcastInDim S131072 ![] bcast_S_S131072 : (⟨S_, .i32⟩ : BufTy).Contents (Elt F) → (⟨S131072, .i32⟩ : BufTy).Contents (Elt F)),
    binary main_v0 main_v195 main_v196 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v196) (TRef.of (T := ⟨S131072, .f32⟩) main_v194) (TRef.of (T := ⟨S131072, .f32⟩) main_v158) (TRef.of (T := ⟨S131072, .f32⟩) main_v197) select,
    unary main_arg2 main_v198 ((extractStridedSlice S1x300x160 ![5, 0, 0] · slices_S8x300x160_S1x300x160_5_0_0) : (⟨S8x300x160, .f32⟩ : BufTy).Contents (Elt F) → (⟨S1x300x160, .f32⟩ : BufTy).Contents (Elt F)),
    reshape main_v198 main_v199 rfl shapeCasts_S1x300x160_S300x160,
    binary main_v1 main_v199 main_v200 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v201 ((extractStridedSlice S1x160 ![5, 0] · slices_S8x160_S1x160_5_0) : (⟨S8x160, .f32⟩ : BufTy).Contents (Elt F) → (⟨S1x160, .f32⟩ : BufTy).Contents (Elt F)),
    reshape main_v201 main_v202 rfl shapeCasts_S1x160_S160,
    unary main_v202 main_v203 (broadcastInDim S1x160 ![1] bcast_S160_S1x160_1 : (⟨S160, .f32⟩ : BufTy).Contents (Elt F) → (⟨S1x160, .f32⟩ : BufTy).Contents (Elt F)),
    unary main_v203 main_v204 (broadcastInDim S131072x160 ![0, 1] bcast_S1x160_S131072x160_0_1 : (⟨S1x160, .f32⟩ : BufTy).Contents (Elt F) → (⟨S131072x160, .f32⟩ : BufTy).Contents (Elt F)),
    binary main_v200 main_v204 main_v205 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S131072x160, .f32⟩) main_call20_v0) (broadcastInDim S131072x160 ![] bcast_S_S131072x160),
    TRef.binary (TRef.of (T := ⟨S131072x160, .f32⟩) main_v205) (TRef.of (T := ⟨S131072x160, .f32⟩) main_call20_v0) (TRef.of (T := ⟨S131072x160, .f32⟩) main_v206) maximumf,
    unary main_arg4 main_v207 ((extractStridedSlice S1x160x128 ![5, 0, 0] · slices_S8x160x128_S1x160x128_5_0_0) : (⟨S8x160x128, .f32⟩ : BufTy).Contents (Elt F) → (⟨S1x160x128, .f32⟩ : BufTy).Contents (Elt F)),
    reshape main_v207 main_v208 rfl shapeCasts_S1x160x128_S160x128,
    binary main_v206 main_v208 main_v209 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v210 ((extractStridedSlice S1x128 ![5, 0] · slices_S8x128_S1x128_5_0) : (⟨S8x128, .f32⟩ : BufTy).Contents (Elt F) → (⟨S1x128, .f32⟩ : BufTy).Contents (Elt F)),
    reshape main_v210 main_v211 rfl shapeCasts_S1x128_S128,
    unary main_v211 main_v212 (broadcastInDim S1x128 ![1] bcast_S128_S1x128_1 : (⟨S128, .f32⟩ : BufTy).Contents (Elt F) → (⟨S1x128, .f32⟩ : BufTy).Contents (Elt F)),
    unary main_v212 main_v213 (broadcastInDim S131072x128 ![0, 1] bcast_S1x128_S131072x128_0_1 : (⟨S1x128, .f32⟩ : BufTy).Contents (Elt F) → (⟨S131072x128, .f32⟩ : BufTy).Contents (Elt F)),
    binary main_v209 main_v213 main_v214 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S131072x128, .f32⟩) main_call21_v0) (broadcastInDim S131072x128 ![] bcast_S_S131072x128),
    TRef.binary (TRef.of (T := ⟨S131072x128, .f32⟩) main_v214) (TRef.of (T := ⟨S131072x128, .f32⟩) main_call21_v0) (TRef.of (T := ⟨S131072x128, .f32⟩) main_v215) maximumf,
    unary main_arg6 main_v216 ((extractStridedSlice S1x128x96 ![5, 0, 0] · slices_S8x128x96_S1x128x96_5_0_0) : (⟨S8x128x96, .f32⟩ : BufTy).Contents (Elt F) → (⟨S1x128x96, .f32⟩ : BufTy).Contents (Elt F)),
    reshape main_v216 main_v217 rfl shapeCasts_S1x128x96_S128x96,
    binary main_v215 main_v217 main_v218 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v219 ((extractStridedSlice S1x96 ![5, 0] · slices_S8x96_S1x96_5_0) : (⟨S8x96, .f32⟩ : BufTy).Contents (Elt F) → (⟨S1x96, .f32⟩ : BufTy).Contents (Elt F)),
    reshape main_v219 main_v220 rfl shapeCasts_S1x96_S96,
    unary main_v220 main_v221 (broadcastInDim S1x96 ![1] bcast_S96_S1x96_1 : (⟨S96, .f32⟩ : BufTy).Contents (Elt F) → (⟨S1x96, .f32⟩ : BufTy).Contents (Elt F)),
    unary main_v221 main_v222 (broadcastInDim S131072x96 ![0, 1] bcast_S1x96_S131072x96_0_1 : (⟨S1x96, .f32⟩ : BufTy).Contents (Elt F) → (⟨S131072x96, .f32⟩ : BufTy).Contents (Elt F)),
    binary main_v218 main_v222 main_v223 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S131072x96, .f32⟩) main_call22_v0) (broadcastInDim S131072x96 ![] bcast_S_S131072x96),
    TRef.binary (TRef.of (T := ⟨S131072x96, .f32⟩) main_v223) (TRef.of (T := ⟨S131072x96, .f32⟩) main_call22_v0) (TRef.of (T := ⟨S131072x96, .f32⟩) main_v224) maximumf,
    unary main_arg8 main_v225 ((extractStridedSlice S1x96x1 ![5, 0, 0] · slices_S8x96x1_S1x96x1_5_0_0) : (⟨S8x96x1, .f32⟩ : BufTy).Contents (Elt F) → (⟨S1x96x1, .f32⟩ : BufTy).Contents (Elt F)),
    reshape main_v225 main_v226 rfl shapeCasts_S1x96x1_S96x1,
    binary main_v224 main_v226 main_v227 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v228 ((extractStridedSlice S1x1 ![5, 0] · slices_S8x1_S1x1_5_0) : (⟨S8x1, .f32⟩ : BufTy).Contents (Elt F) → (⟨S1x1, .f32⟩ : BufTy).Contents (Elt F)),
    reshape main_v228 main_v229 rfl shapeCasts_S1x1_S1,
    unary main_v229 main_v230 (broadcastInDim S1x1 ![1] bcast_S1_S1x1_1 : (⟨S1, .f32⟩ : BufTy).Contents (Elt F) → (⟨S1x1, .f32⟩ : BufTy).Contents (Elt F)),
    unary main_v230 main_v231 (broadcastInDim S131072x1 ![0, 1] bcast_S1x1_S131072x1_0_1 : (⟨S1x1, .f32⟩ : BufTy).Contents (Elt F) → (⟨S131072x1, .f32⟩ : BufTy).Contents (Elt F)),
    binary main_v227 main_v231 main_v232 (addf : (⟨S131072x1, .f32⟩ : BufTy).Contents (Elt F) → (⟨S131072x1, .f32⟩ : BufTy).Contents (Elt F) → (⟨S131072x1, .f32⟩ : BufTy).Contents (Elt F)),
    reshape main_v232 main_v233 rfl shapeCasts_S131072x1_S131072 ]

/-- Window 3 is its operations run in order. -/
theorem part3_eq (d : Dev nD) : main_part3 (F := F) d = seq p3 := rfl

/-- Each touches the core's array buffers only. -/
theorem p3_sub : (p3 : List (HloOp τ sig (Elt F))).Forall fun op => op.bufs ⊆ tcRefs τ sig :=
  ⟨binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub ..⟩

/-- None allocates. -/
theorem p3_fresh : ∀ op ∈ (p3 : List (HloOp τ sig (Elt F))), op.fresh = ∅ := by
  intro _ h; (repeat (cases h with | head => rfl | tail _ h => ?_)); exact nomatch h

/-- Window 4: operations 277 to 344. -/
abbrev p4 : List (HloOp τ sig (Elt F)) :=
  [ nullary main_c_4 (constantI S_ 32 5#32),
    unary main_c_4 main_v234 (broadcastInDim S131072 ![] bcast_S_S131072 : (⟨S_, .i32⟩ : BufTy).Contents (Elt F) → (⟨S131072, .i32⟩ : BufTy).Contents (Elt F)),
    binary main_v0 main_v234 main_v235 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v235) (TRef.of (T := ⟨S131072, .f32⟩) main_v233) (TRef.of (T := ⟨S131072, .f32⟩) main_v197) (TRef.of (T := ⟨S131072, .f32⟩) main_v236) select,
    unary main_arg2 main_v237 ((extractStridedSlice S1x300x160 ![6, 0, 0] · slices_S8x300x160_S1x300x160_6_0_0) : (⟨S8x300x160, .f32⟩ : BufTy).Contents (Elt F) → (⟨S1x300x160, .f32⟩ : BufTy).Contents (Elt F)),
    reshape main_v237 main_v238 rfl shapeCasts_S1x300x160_S300x160,
    binary main_v1 main_v238 main_v239 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v240 ((extractStridedSlice S1x160 ![6, 0] · slices_S8x160_S1x160_6_0) : (⟨S8x160, .f32⟩ : BufTy).Contents (Elt F) → (⟨S1x160, .f32⟩ : BufTy).Contents (Elt F)),
    reshape main_v240 main_v241 rfl shapeCasts_S1x160_S160,
    unary main_v241 main_v242 (broadcastInDim S1x160 ![1] bcast_S160_S1x160_1 : (⟨S160, .f32⟩ : BufTy).Contents (Elt F) → (⟨S1x160, .f32⟩ : BufTy).Contents (Elt F)),
    unary main_v242 main_v243 (broadcastInDim S131072x160 ![0, 1] bcast_S1x160_S131072x160_0_1 : (⟨S1x160, .f32⟩ : BufTy).Contents (Elt F) → (⟨S131072x160, .f32⟩ : BufTy).Contents (Elt F)),
    binary main_v239 main_v243 main_v244 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call24_cst) (constant S_ .f32 0x00000000#32),
    TRef.unary (TRef.of (T := ⟨S_, .f32⟩) main_call24_cst) (TRef.of (T := ⟨S131072x160, .f32⟩) main_call24_v0) (broadcastInDim S131072x160 ![] bcast_S_S131072x160),
    TRef.binary (TRef.of (T := ⟨S131072x160, .f32⟩) main_v244) (TRef.of (T := ⟨S131072x160, .f32⟩) main_call24_v0) (TRef.of (T := ⟨S131072x160, .f32⟩) main_v245) maximumf,
    unary main_arg4 main_v246 ((extractStridedSlice S1x160x128 ![6, 0, 0] · slices_S8x160x128_S1x160x128_6_0_0) : (⟨S8x160x128, .f32⟩ : BufTy).Contents (Elt F) → (⟨S1x160x128, .f32⟩ : BufTy).Contents (Elt F)),
    reshape main_v246 main_v247 rfl shapeCasts_S1x160x128_S160x128,
    binary main_v245 main_v247 main_v248 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v249 ((extractStridedSlice S1x128 ![6, 0] · slices_S8x128_S1x128_6_0) : (⟨S8x128, .f32⟩ : BufTy).Contents (Elt F) → (⟨S1x128, .f32⟩ : BufTy).Contents (Elt F)),
    reshape main_v249 main_v250 rfl shapeCasts_S1x128_S128,
    unary main_v250 main_v251 (broadcastInDim S1x128 ![1] bcast_S128_S1x128_1 : (⟨S128, .f32⟩ : BufTy).Contents (Elt F) → (⟨S1x128, .f32⟩ : BufTy).Contents (Elt F)),
    unary main_v251 main_v252 (broadcastInDim S131072x128 ![0, 1] bcast_S1x128_S131072x128_0_1 : (⟨S1x128, .f32⟩ : BufTy).Contents (Elt F) → (⟨S131072x128, .f32⟩ : BufTy).Contents (Elt F)),
    binary main_v248 main_v252 main_v253 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S131072x128, .f32⟩) main_call25_v0) (broadcastInDim S131072x128 ![] bcast_S_S131072x128),
    TRef.binary (TRef.of (T := ⟨S131072x128, .f32⟩) main_v253) (TRef.of (T := ⟨S131072x128, .f32⟩) main_call25_v0) (TRef.of (T := ⟨S131072x128, .f32⟩) main_v254) maximumf,
    unary main_arg6 main_v255 ((extractStridedSlice S1x128x96 ![6, 0, 0] · slices_S8x128x96_S1x128x96_6_0_0) : (⟨S8x128x96, .f32⟩ : BufTy).Contents (Elt F) → (⟨S1x128x96, .f32⟩ : BufTy).Contents (Elt F)),
    reshape main_v255 main_v256 rfl shapeCasts_S1x128x96_S128x96,
    binary main_v254 main_v256 main_v257 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v258 ((extractStridedSlice S1x96 ![6, 0] · slices_S8x96_S1x96_6_0) : (⟨S8x96, .f32⟩ : BufTy).Contents (Elt F) → (⟨S1x96, .f32⟩ : BufTy).Contents (Elt F)),
    reshape main_v258 main_v259 rfl shapeCasts_S1x96_S96,
    unary main_v259 main_v260 (broadcastInDim S1x96 ![1] bcast_S96_S1x96_1 : (⟨S96, .f32⟩ : BufTy).Contents (Elt F) → (⟨S1x96, .f32⟩ : BufTy).Contents (Elt F)),
    unary main_v260 main_v261 (broadcastInDim S131072x96 ![0, 1] bcast_S1x96_S131072x96_0_1 : (⟨S1x96, .f32⟩ : BufTy).Contents (Elt F) → (⟨S131072x96, .f32⟩ : BufTy).Contents (Elt F)),
    binary main_v257 main_v261 main_v262 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call26_cst) (constant S_ .f32 0x00000000#32),
    TRef.unary (TRef.of (T := ⟨S_, .f32⟩) main_call26_cst) (TRef.of (T := ⟨S131072x96, .f32⟩) main_call26_v0) (broadcastInDim S131072x96 ![] bcast_S_S131072x96),
    TRef.binary (TRef.of (T := ⟨S131072x96, .f32⟩) main_v262) (TRef.of (T := ⟨S131072x96, .f32⟩) main_call26_v0) (TRef.of (T := ⟨S131072x96, .f32⟩) main_v263) maximumf,
    unary main_arg8 main_v264 ((extractStridedSlice S1x96x1 ![6, 0, 0] · slices_S8x96x1_S1x96x1_6_0_0) : (⟨S8x96x1, .f32⟩ : BufTy).Contents (Elt F) → (⟨S1x96x1, .f32⟩ : BufTy).Contents (Elt F)),
    reshape main_v264 main_v265 rfl shapeCasts_S1x96x1_S96x1,
    binary main_v263 main_v265 main_v266 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v267 ((extractStridedSlice S1x1 ![6, 0] · slices_S8x1_S1x1_6_0) : (⟨S8x1, .f32⟩ : BufTy).Contents (Elt F) → (⟨S1x1, .f32⟩ : BufTy).Contents (Elt F)),
    reshape main_v267 main_v268 rfl shapeCasts_S1x1_S1,
    unary main_v268 main_v269 (broadcastInDim S1x1 ![1] bcast_S1_S1x1_1 : (⟨S1, .f32⟩ : BufTy).Contents (Elt F) → (⟨S1x1, .f32⟩ : BufTy).Contents (Elt F)),
    unary main_v269 main_v270 (broadcastInDim S131072x1 ![0, 1] bcast_S1x1_S131072x1_0_1 : (⟨S1x1, .f32⟩ : BufTy).Contents (Elt F) → (⟨S131072x1, .f32⟩ : BufTy).Contents (Elt F)),
    binary main_v266 main_v270 main_v271 (addf : (⟨S131072x1, .f32⟩ : BufTy).Contents (Elt F) → (⟨S131072x1, .f32⟩ : BufTy).Contents (Elt F) → (⟨S131072x1, .f32⟩ : BufTy).Contents (Elt F)),
    reshape main_v271 main_v272 rfl shapeCasts_S131072x1_S131072,
    nullary main_c_5 (constantI S_ 32 6#32),
    unary main_c_5 main_v273 (broadcastInDim S131072 ![] bcast_S_S131072 : (⟨S_, .i32⟩ : BufTy).Contents (Elt F) → (⟨S131072, .i32⟩ : BufTy).Contents (Elt F)),
    binary main_v0 main_v273 main_v274 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v274) (TRef.of (T := ⟨S131072, .f32⟩) main_v272) (TRef.of (T := ⟨S131072, .f32⟩) main_v236) (TRef.of (T := ⟨S131072, .f32⟩) main_v275) select,
    unary main_arg2 main_v276 ((extractStridedSlice S1x300x160 ![7, 0, 0] · slices_S8x300x160_S1x300x160_7_0_0) : (⟨S8x300x160, .f32⟩ : BufTy).Contents (Elt F) → (⟨S1x300x160, .f32⟩ : BufTy).Contents (Elt F)),
    reshape main_v276 main_v277 rfl shapeCasts_S1x300x160_S300x160,
    binary main_v1 main_v277 main_v278 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v279 ((extractStridedSlice S1x160 ![7, 0] · slices_S8x160_S1x160_7_0) : (⟨S8x160, .f32⟩ : BufTy).Contents (Elt F) → (⟨S1x160, .f32⟩ : BufTy).Contents (Elt F)),
    reshape main_v279 main_v280 rfl shapeCasts_S1x160_S160,
    unary main_v280 main_v281 (broadcastInDim S1x160 ![1] bcast_S160_S1x160_1 : (⟨S160, .f32⟩ : BufTy).Contents (Elt F) → (⟨S1x160, .f32⟩ : BufTy).Contents (Elt F)),
    unary main_v281 main_v282 (broadcastInDim S131072x160 ![0, 1] bcast_S1x160_S131072x160_0_1 : (⟨S1x160, .f32⟩ : BufTy).Contents (Elt F) → (⟨S131072x160, .f32⟩ : BufTy).Contents (Elt F)),
    binary main_v278 main_v282 main_v283 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call28_cst) (constant S_ .f32 0x00000000#32),
    TRef.unary (TRef.of (T := ⟨S_, .f32⟩) main_call28_cst) (TRef.of (T := ⟨S131072x160, .f32⟩) main_call28_v0) (broadcastInDim S131072x160 ![] bcast_S_S131072x160),
    TRef.binary (TRef.of (T := ⟨S131072x160, .f32⟩) main_v283) (TRef.of (T := ⟨S131072x160, .f32⟩) main_call28_v0) (TRef.of (T := ⟨S131072x160, .f32⟩) main_v284) maximumf,
    unary main_arg4 main_v285 ((extractStridedSlice S1x160x128 ![7, 0, 0] · slices_S8x160x128_S1x160x128_7_0_0) : (⟨S8x160x128, .f32⟩ : BufTy).Contents (Elt F) → (⟨S1x160x128, .f32⟩ : BufTy).Contents (Elt F)),
    reshape main_v285 main_v286 rfl shapeCasts_S1x160x128_S160x128,
    binary main_v284 main_v286 main_v287 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v288 ((extractStridedSlice S1x128 ![7, 0] · slices_S8x128_S1x128_7_0) : (⟨S8x128, .f32⟩ : BufTy).Contents (Elt F) → (⟨S1x128, .f32⟩ : BufTy).Contents (Elt F)),
    reshape main_v288 main_v289 rfl shapeCasts_S1x128_S128,
    unary main_v289 main_v290 (broadcastInDim S1x128 ![1] bcast_S128_S1x128_1 : (⟨S128, .f32⟩ : BufTy).Contents (Elt F) → (⟨S1x128, .f32⟩ : BufTy).Contents (Elt F)),
    unary main_v290 main_v291 (broadcastInDim S131072x128 ![0, 1] bcast_S1x128_S131072x128_0_1 : (⟨S1x128, .f32⟩ : BufTy).Contents (Elt F) → (⟨S131072x128, .f32⟩ : BufTy).Contents (Elt F)) ]

/-- Window 4 is its operations run in order. -/
theorem part4_eq (d : Dev nD) : main_part4 (F := F) d = seq p4 := rfl

/-- Each touches the core's array buffers only. -/
theorem p4_sub : (p4 : List (HloOp τ sig (Elt F))).Forall fun op => op.bufs ⊆ tcRefs τ sig :=
  ⟨nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub ..⟩

/-- None allocates. -/
theorem p4_fresh : ∀ op ∈ (p4 : List (HloOp τ sig (Elt F))), op.fresh = ∅ := by
  intro _ h; (repeat (cases h with | head => rfl | tail _ h => ?_)); exact nomatch h

/-- Window 5: operations 345 to 376. -/
abbrev p5 : List (HloOp τ sig (Elt F)) :=
  [ binary main_v287 main_v291 main_v292 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call29_cst) (constant S_ .f32 0x00000000#32),
    TRef.unary (TRef.of (T := ⟨S_, .f32⟩) main_call29_cst) (TRef.of (T := ⟨S131072x128, .f32⟩) main_call29_v0) (broadcastInDim S131072x128 ![] bcast_S_S131072x128),
    TRef.binary (TRef.of (T := ⟨S131072x128, .f32⟩) main_v292) (TRef.of (T := ⟨S131072x128, .f32⟩) main_call29_v0) (TRef.of (T := ⟨S131072x128, .f32⟩) main_v293) maximumf,
    unary main_arg6 main_v294 ((extractStridedSlice S1x128x96 ![7, 0, 0] · slices_S8x128x96_S1x128x96_7_0_0) : (⟨S8x128x96, .f32⟩ : BufTy).Contents (Elt F) → (⟨S1x128x96, .f32⟩ : BufTy).Contents (Elt F)),
    reshape main_v294 main_v295 rfl shapeCasts_S1x128x96_S128x96,
    binary main_v293 main_v295 main_v296 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v297 ((extractStridedSlice S1x96 ![7, 0] · slices_S8x96_S1x96_7_0) : (⟨S8x96, .f32⟩ : BufTy).Contents (Elt F) → (⟨S1x96, .f32⟩ : BufTy).Contents (Elt F)),
    reshape main_v297 main_v298 rfl shapeCasts_S1x96_S96,
    unary main_v298 main_v299 (broadcastInDim S1x96 ![1] bcast_S96_S1x96_1 : (⟨S96, .f32⟩ : BufTy).Contents (Elt F) → (⟨S1x96, .f32⟩ : BufTy).Contents (Elt F)),
    unary main_v299 main_v300 (broadcastInDim S131072x96 ![0, 1] bcast_S1x96_S131072x96_0_1 : (⟨S1x96, .f32⟩ : BufTy).Contents (Elt F) → (⟨S131072x96, .f32⟩ : BufTy).Contents (Elt F)),
    binary main_v296 main_v300 main_v301 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call30_cst) (constant S_ .f32 0x00000000#32),
    TRef.unary (TRef.of (T := ⟨S_, .f32⟩) main_call30_cst) (TRef.of (T := ⟨S131072x96, .f32⟩) main_call30_v0) (broadcastInDim S131072x96 ![] bcast_S_S131072x96),
    TRef.binary (TRef.of (T := ⟨S131072x96, .f32⟩) main_v301) (TRef.of (T := ⟨S131072x96, .f32⟩) main_call30_v0) (TRef.of (T := ⟨S131072x96, .f32⟩) main_v302) maximumf,
    unary main_arg8 main_v303 ((extractStridedSlice S1x96x1 ![7, 0, 0] · slices_S8x96x1_S1x96x1_7_0_0) : (⟨S8x96x1, .f32⟩ : BufTy).Contents (Elt F) → (⟨S1x96x1, .f32⟩ : BufTy).Contents (Elt F)),
    reshape main_v303 main_v304 rfl shapeCasts_S1x96x1_S96x1,
    binary main_v302 main_v304 main_v305 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v306 ((extractStridedSlice S1x1 ![7, 0] · slices_S8x1_S1x1_7_0) : (⟨S8x1, .f32⟩ : BufTy).Contents (Elt F) → (⟨S1x1, .f32⟩ : BufTy).Contents (Elt F)),
    reshape main_v306 main_v307 rfl shapeCasts_S1x1_S1,
    unary main_v307 main_v308 (broadcastInDim S1x1 ![1] bcast_S1_S1x1_1 : (⟨S1, .f32⟩ : BufTy).Contents (Elt F) → (⟨S1x1, .f32⟩ : BufTy).Contents (Elt F)),
    unary main_v308 main_v309 (broadcastInDim S131072x1 ![0, 1] bcast_S1x1_S131072x1_0_1 : (⟨S1x1, .f32⟩ : BufTy).Contents (Elt F) → (⟨S131072x1, .f32⟩ : BufTy).Contents (Elt F)),
    binary main_v305 main_v309 main_v310 (addf : (⟨S131072x1, .f32⟩ : BufTy).Contents (Elt F) → (⟨S131072x1, .f32⟩ : BufTy).Contents (Elt F) → (⟨S131072x1, .f32⟩ : BufTy).Contents (Elt F)),
    reshape main_v310 main_v311 rfl shapeCasts_S131072x1_S131072,
    nullary main_c_6 (constantI S_ 32 7#32),
    unary main_c_6 main_v312 (broadcastInDim S131072 ![] bcast_S_S131072 : (⟨S_, .i32⟩ : BufTy).Contents (Elt F) → (⟨S131072, .i32⟩ : BufTy).Contents (Elt F)),
    binary main_v0 main_v312 main_v313 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v313) (TRef.of (T := ⟨S131072, .f32⟩) main_v311) (TRef.of (T := ⟨S131072, .f32⟩) main_v275) (TRef.of (T := ⟨S131072, .f32⟩) main_v314) select,
    reshape main_v314 main_v315 rfl shapeCasts_S131072_S2048x64,
    nullary main_cst_7 (constant S_ .f32 0x00000000#32),
    binary main_v315 main_cst_7 main_v316 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v316 main_v317 (broadcastInDim S2048x1 ![0] bcast_S2048_S2048x1_0 : (⟨S2048, .f32⟩ : BufTy).Contents (Elt F) → (⟨S2048x1, .f32⟩ : BufTy).Contents (Elt F)) ]

/-- Window 5 is its operations run in order. -/
theorem part5_eq (d : Dev nD) : main_part5 (F := F) d = seq p5 := rfl

/-- Each touches the core's array buffers only. -/
theorem p5_sub : (p5 : List (HloOp τ sig (Elt F))).Forall fun op => op.bufs ⊆ tcRefs τ sig :=
  ⟨binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., reshape_bufs_sub .., nullary_bufs_sub .., unary_bufs_sub .., binary_bufs_sub .., ternary_bufs_sub .., reshape_bufs_sub .., nullary_bufs_sub .., binary_bufs_sub .., unary_bufs_sub ..⟩

/-- None allocates. -/
theorem p5_fresh : ∀ op ∈ (p5 : List (HloOp τ sig (Elt F))), op.fresh = ∅ := by
  intro _ h; (repeat (cases h with | head => rfl | tail _ h => ?_)); exact nomatch h

/-- The whole program's operations: the windows' lists appended. -/
abbrev ops : List (HloOp τ sig (Elt F)) := p0 ++ (p1 ++ (p2 ++ (p3 ++ (p4 ++ (p5)))))

/-- The program is its operations run in order. -/
theorem main_eq (d : Dev nD) : main (F := F) d = seq ops := by
  have e : main (F := F) d = (main_part0 d >>= fun _ => main_part1 d >>= fun _ => main_part2 d >>= fun _ => main_part3 d >>= fun _ => main_part4 d >>= fun _ => main_part5 d) := rfl
  rw [e, part0_eq, part1_eq, part2_eq, part3_eq, part4_eq, part5_eq]
  show _ = seq (p0 ++ (p1 ++ (p2 ++ (p3 ++ (p4 ++ (p5))))))
  simp only [seq_append]

theorem ops_sub : (ops : List (HloOp τ sig (Elt F))).Forall fun op => op.bufs ⊆ tcRefs τ sig := by
  rw [List.forall_iff_forall_mem]
  intro op h
  simp only [List.mem_append] at h
  rcases h with h | h | h | h | h | h
  · exact (List.forall_iff_forall_mem.mp p0_sub) op h
  · exact (List.forall_iff_forall_mem.mp p1_sub) op h
  · exact (List.forall_iff_forall_mem.mp p2_sub) op h
  · exact (List.forall_iff_forall_mem.mp p3_sub) op h
  · exact (List.forall_iff_forall_mem.mp p4_sub) op h
  · exact (List.forall_iff_forall_mem.mp p5_sub) op h

theorem ops_fresh : ∀ op ∈ (ops : List (HloOp τ sig (Elt F))), op.fresh = ∅ := by
  intro op h
  simp only [List.mem_append] at h
  rcases h with h | h | h | h | h | h
  · exact p0_fresh op h
  · exact p1_fresh op h
  · exact p2_fresh op h
  · exact p3_fresh op h
  · exact p4_fresh op h
  · exact p5_fresh op h

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefMain

end
-- ==== Proof.RefAtoms.lean ====
/-
  The reference's operations, read as the atoms' and the molecules' values.

  The reference flattens the species words to 131072 atoms and the features to a 131072 × 300 matrix. For each species
  `s = 0, …, 7` it runs network `s` on every atom at once: slab `s` of each stacked weight array and row `s` of each
  stacked bias array are cut out, and three dense layers (a matrix product, plus the bias row repeated down the rows,
  against zero under `max`) and a one-column head follow. The eight results are merged by a chain of eight choices from
  the all-zero vector, choice `s` taking network `s`'s value where the species word is `s`. The merged vector is laid
  out as 2048 rows of 64 and each row is summed from zero.

  Here network `s` is written once, with the species a natural number `s < 8`, in the reference's own spelling, and read
  at an atom as `Atoms.network`; the chain of choices at an atom is `Atoms.atoms`; the row sums over the relaid vector
  are `Atoms.molecules` of `Atoms.byMolecule`.
-/
import proofs.«129781_j39633958207559_2_alg».proof.Proof.Gen.ReferenceIdeal
import proofs.«129781_j39633958207559_2_alg».proof.Proof.LibDense
import proofs.«129781_j39633958207559_2_alg».proof.Proof.LibSumColumn

noncomputable section

namespace Cert.ReferenceIdeal.RefValue

open Cert.ReferenceIdeal Cert.ReferenceIdeal.Gen Idealize.ShloMosaic Idealize.ShloMosaic.TcCoe
  Idealize.ShloMosaic.ValueIdx Idealize.SL.Sem
open scoped BigOperators

/-! ## One species' network -/

/-- Species `s`'s network on all atoms at once: slab `s` of every stacked parameter array, three rectified dense layers
    and the one-column head, the column flattened to a vector. -/
def refNetwork (s : ℕ)
    (h2 : S8x300x160.Slices ![s, 0, 0] S1x300x160) (h3 : S8x160.Slices ![s, 0] S1x160)
    (h4 : S8x160x128.Slices ![s, 0, 0] S1x160x128) (h5 : S8x128.Slices ![s, 0] S1x128)
    (h6 : S8x128x96.Slices ![s, 0, 0] S1x128x96) (h7 : S8x96.Slices ![s, 0] S1x96)
    (h8 : S8x96x1.Slices ![s, 0, 0] S1x96x1) (h9 : S8x1.Slices ![s, 0] S1x1)
    (X : FVec Ideal S131072x300 .f32)
    (a2 : FVec Ideal S8x300x160 .f32) (a3 : FVec Ideal S8x160 .f32) (a4 : FVec Ideal S8x160x128 .f32)
    (a5 : FVec Ideal S8x128 .f32) (a6 : FVec Ideal S8x128x96 .f32) (a7 : FVec Ideal S8x96 .f32)
    (a8 : FVec Ideal S8x96x1 .f32) (a9 : FVec Ideal S8x1 .f32) : FVec Ideal S131072 .f32 :=
  shapeCast _ (addf (Host.dotGeneral dot_S131072x96_S96x1_S131072x1_1_0_0_1_n_n none
      (maximumf (addf (Host.dotGeneral dot_S131072x128_S128x96_S131072x96_1_0_0_1_n_n none
      (maximumf (addf (Host.dotGeneral dot_S131072x160_S160x128_S131072x128_1_0_0_1_n_n none
      (maximumf (addf (Host.dotGeneral dot_S131072x300_S300x160_S131072x160_1_0_0_1_n_n none X
      (shapeCast _ (extractStridedSlice S1x300x160 ![s, 0, 0] a2 h2) shapeCasts_S1x300x160_S300x160))
      (broadcastInDim S131072x160 ![0, 1] bcast_S1x160_S131072x160_0_1 (broadcastInDim S1x160 ![1] bcast_S160_S1x160_1 (shapeCast _ (extractStridedSlice S1x160 ![s, 0] a3 h3) shapeCasts_S1x160_S160))))
      (broadcastInDim S131072x160 ![] bcast_S_S131072x160 (constant (F := Ideal) S_ .f32 0x00000000#32)))
      (shapeCast _ (extractStridedSlice S1x160x128 ![s, 0, 0] a4 h4) shapeCasts_S1x160x128_S160x128))
      (broadcastInDim S131072x128 ![0, 1] bcast_S1x128_S131072x128_0_1 (broadcastInDim S1x128 ![1] bcast_S128_S1x128_1 (shapeCast _ (extractStridedSlice S1x128 ![s, 0] a5 h5) shapeCasts_S1x128_S128))))
      (broadcastInDim S131072x128 ![] bcast_S_S131072x128 (constant (F := Ideal) S_ .f32 0x00000000#32)))
      (shapeCast _ (extractStridedSlice S1x128x96 ![s, 0, 0] a6 h6) shapeCasts_S1x128x96_S128x96))
      (broadcastInDim S131072x96 ![0, 1] bcast_S1x96_S131072x96_0_1 (broadcastInDim S1x96 ![1] bcast_S96_S1x96_1 (shapeCast _ (extractStridedSlice S1x96 ![s, 0] a7 h7) shapeCasts_S1x96_S96))))
      (broadcastInDim S131072x96 ![] bcast_S_S131072x96 (constant (F := Ideal) S_ .f32 0x00000000#32)))
      (shapeCast _ (extractStridedSlice S1x96x1 ![s, 0, 0] a8 h8) shapeCasts_S1x96x1_S96x1))
      (broadcastInDim S131072x1 ![0, 1] bcast_S1x1_S131072x1_0_1 (broadcastInDim S1x1 ![1] bcast_S1_S1x1_1 (shapeCast _ (extractStridedSlice S1x1 ![s, 0] a9 h9) shapeCasts_S1x1_S1)))) shapeCasts_S131072x1_S131072

/-- Network `s` at atom `n` is `Atoms.network` of the atom's feature row: the head of the third layer of the second
    layer of the first layer, each read at an index. -/
theorem refNetwork_apply (s : ℕ) (hs : s < 8)
    (h2 : S8x300x160.Slices ![s, 0, 0] S1x300x160) (h3 : S8x160.Slices ![s, 0] S1x160)
    (h4 : S8x160x128.Slices ![s, 0, 0] S1x160x128) (h5 : S8x128.Slices ![s, 0] S1x128)
    (h6 : S8x128x96.Slices ![s, 0, 0] S1x128x96) (h7 : S8x96.Slices ![s, 0] S1x96)
    (h8 : S8x96x1.Slices ![s, 0, 0] S1x96x1) (h9 : S8x1.Slices ![s, 0] S1x1)
    (X : FVec Ideal S131072x300 .f32)
    (a2 : FVec Ideal S8x300x160 .f32) (a3 : FVec Ideal S8x160 .f32) (a4 : FVec Ideal S8x160x128 .f32)
    (a5 : FVec Ideal S8x128 .f32) (a6 : FVec Ideal S8x128x96 .f32) (a7 : FVec Ideal S8x96 .f32)
    (a8 : FVec Ideal S8x96x1 .f32) (a9 : FVec Ideal S8x1 .f32) (n : Fin 131072) :
    refNetwork s h2 h3 h4 h5 h6 h7 h8 h9 X a2 a3 a4 a5 a6 a7 a8 a9 (ix1 n)
      = Cert.Atoms.network ⟨a2, a3, a4, a5, a6, a7, a8, a9⟩ ⟨s, hs⟩ (fun d => X (ix2 n d)) := by
  unfold refNetwork Cert.Atoms.network Cert.Atoms.fromHidden1 Cert.Atoms.hidden1
  refine (Cert.Lib.host_head_apply (n0 := 8) (N := 131072) (K := 96) (φl := .f32) (φw := .f32)
    dot_S131072x96_S96x1_S131072x1_1_0_0_1_n_n dot_S131072x96_S96x1_S131072x1_1_0_0_1_n_n_wf rfl none _ a8 a9 s hs
    h8 shapeCasts_S1x96x1_S96x1 h9 shapeCasts_S1x1_S1 bcast_S1_S1x1_1 bcast_S1x1_S131072x1_0_1
    shapeCasts_S131072x1_S131072 n).trans ?_
  refine congrArg (Cert.Atoms.head _ _) (funext fun q3 => ?_)
  refine (Cert.Lib.host_layer_apply (n0 := 8) (N := 131072) (K := 128) (b := 96) (φl := .f32) (φw := .f32)
    dot_S131072x128_S128x96_S131072x96_1_0_0_1_n_n dot_S131072x128_S128x96_S131072x96_1_0_0_1_n_n_wf rfl none _ a6 a7 s hs
    h6 shapeCasts_S1x128x96_S128x96 h7 shapeCasts_S1x96_S96 bcast_S96_S1x96_1 bcast_S1x96_S131072x96_0_1
    bcast_S_S131072x96 n q3).trans ?_
  refine congrArg (fun ξ => Cert.Atoms.layer _ _ ξ q3) (funext fun q2 => ?_)
  refine (Cert.Lib.host_layer_apply (n0 := 8) (N := 131072) (K := 160) (b := 128) (φl := .f32) (φw := .f32)
    dot_S131072x160_S160x128_S131072x128_1_0_0_1_n_n dot_S131072x160_S160x128_S131072x128_1_0_0_1_n_n_wf rfl none _ a4 a5 s hs
    h4 shapeCasts_S1x160x128_S160x128 h5 shapeCasts_S1x128_S128 bcast_S128_S1x128_1 bcast_S1x128_S131072x128_0_1
    bcast_S_S131072x128 n q2).trans ?_
  refine congrArg (fun ξ => Cert.Atoms.layer _ _ ξ q2) (funext fun q1 => ?_)
  exact Cert.Lib.host_layer_apply (n0 := 8) (N := 131072) (K := 300) (b := 160) (φl := .f32) (φw := .f32)
    dot_S131072x300_S300x160_S131072x160_1_0_0_1_n_n dot_S131072x300_S300x160_S131072x160_1_0_0_1_n_n_wf rfl none X a2 a3 s hs
    h2 shapeCasts_S1x300x160_S300x160 h3 shapeCasts_S1x160_S160 bcast_S160_S1x160_1 bcast_S1x160_S131072x160_0_1
    bcast_S_S131072x160 n q1

/-! ## The chain of eight choices -/

/-- The merged vector: from the all-zero vector, choice `s` takes network `s`'s value where the species word is `s`. -/
def refOut (SP : IVec S131072 32)
    (X : FVec Ideal S131072x300 .f32)
    (a2 : FVec Ideal S8x300x160 .f32) (a3 : FVec Ideal S8x160 .f32) (a4 : FVec Ideal S8x160x128 .f32)
    (a5 : FVec Ideal S8x128 .f32) (a6 : FVec Ideal S8x128x96 .f32) (a7 : FVec Ideal S8x96 .f32)
    (a8 : FVec Ideal S8x96x1 .f32) (a9 : FVec Ideal S8x1 .f32) : FVec Ideal S131072 .f32 :=
  select (cmpi .eq SP (broadcastInDim S131072 ![] bcast_S_S131072 (constantI S_ 32 7#32)))
    (refNetwork 7 slices_S8x300x160_S1x300x160_7_0_0 slices_S8x160_S1x160_7_0 slices_S8x160x128_S1x160x128_7_0_0
      slices_S8x128_S1x128_7_0 slices_S8x128x96_S1x128x96_7_0_0 slices_S8x96_S1x96_7_0 slices_S8x96x1_S1x96x1_7_0_0
      slices_S8x1_S1x1_7_0 X a2 a3 a4 a5 a6 a7 a8 a9)
  (select (cmpi .eq SP (broadcastInDim S131072 ![] bcast_S_S131072 (constantI S_ 32 6#32)))
    (refNetwork 6 slices_S8x300x160_S1x300x160_6_0_0 slices_S8x160_S1x160_6_0 slices_S8x160x128_S1x160x128_6_0_0
      slices_S8x128_S1x128_6_0 slices_S8x128x96_S1x128x96_6_0_0 slices_S8x96_S1x96_6_0 slices_S8x96x1_S1x96x1_6_0_0
      slices_S8x1_S1x1_6_0 X a2 a3 a4 a5 a6 a7 a8 a9)
  (select (cmpi .eq SP (broadcastInDim S131072 ![] bcast_S_S131072 (constantI S_ 32 5#32)))
    (refNetwork 5 slices_S8x300x160_S1x300x160_5_0_0 slices_S8x160_S1x160_5_0 slices_S8x160x128_S1x160x128_5_0_0
      slices_S8x128_S1x128_5_0 slices_S8x128x96_S1x128x96_5_0_0 slices_S8x96_S1x96_5_0 slices_S8x96x1_S1x96x1_5_0_0
      slices_S8x1_S1x1_5_0 X a2 a3 a4 a5 a6 a7 a8 a9)
  (select (cmpi .eq SP (broadcastInDim S131072 ![] bcast_S_S131072 (constantI S_ 32 4#32)))
    (refNetwork 4 slices_S8x300x160_S1x300x160_4_0_0 slices_S8x160_S1x160_4_0 slices_S8x160x128_S1x160x128_4_0_0
      slices_S8x128_S1x128_4_0 slices_S8x128x96_S1x128x96_4_0_0 slices_S8x96_S1x96_4_0 slices_S8x96x1_S1x96x1_4_0_0
      slices_S8x1_S1x1_4_0 X a2 a3 a4 a5 a6 a7 a8 a9)
  (select (cmpi .eq SP (broadcastInDim S131072 ![] bcast_S_S131072 (constantI S_ 32 3#32)))
    (refNetwork 3 slices_S8x300x160_S1x300x160_3_0_0 slices_S8x160_S1x160_3_0 slices_S8x160x128_S1x160x128_3_0_0
      slices_S8x128_S1x128_3_0 slices_S8x128x96_S1x128x96_3_0_0 slices_S8x96_S1x96_3_0 slices_S8x96x1_S1x96x1_3_0_0
      slices_S8x1_S1x1_3_0 X a2 a3 a4 a5 a6 a7 a8 a9)
  (select (cmpi .eq SP (broadcastInDim S131072 ![] bcast_S_S131072 (constantI S_ 32 2#32)))
    (refNetwork 2 slices_S8x300x160_S1x300x160_2_0_0 slices_S8x160_S1x160_2_0 slices_S8x160x128_S1x160x128_2_0_0
      slices_S8x128_S1x128_2_0 slices_S8x128x96_S1x128x96_2_0_0 slices_S8x96_S1x96_2_0 slices_S8x96x1_S1x96x1_2_0_0
      slices_S8x1_S1x1_2_0 X a2 a3 a4 a5 a6 a7 a8 a9)
  (select (cmpi .eq SP (broadcastInDim S131072 ![] bcast_S_S131072 (constantI S_ 32 1#32)))
    (refNetwork 1 slices_S8x300x160_S1x300x160_1_0_0 slices_S8x160_S1x160_1_0 slices_S8x160x128_S1x160x128_1_0_0
      slices_S8x128_S1x128_1_0 slices_S8x128x96_S1x128x96_1_0_0 slices_S8x96_S1x96_1_0 slices_S8x96x1_S1x96x1_1_0_0
      slices_S8x1_S1x1_1_0 X a2 a3 a4 a5 a6 a7 a8 a9)
  (select (cmpi .eq SP (broadcastInDim S131072 ![] bcast_S_S131072 (constantI S_ 32 0#32)))
    (refNetwork 0 slices_S8x300x160_S1x300x160_0_0_0 slices_S8x160_S1x160_0_0 slices_S8x160x128_S1x160x128_0_0_0
      slices_S8x128_S1x128_0_0 slices_S8x128x96_S1x128x96_0_0_0 slices_S8x96_S1x96_0_0 slices_S8x96x1_S1x96x1_0_0_0
      slices_S8x1_S1x1_0_0 X a2 a3 a4 a5 a6 a7 a8 a9)
  (broadcastInDim S131072 ![] bcast_S_S131072 (constant (F := Ideal) S_ .f32 0x00000000#32)))))))))

/-- One choice at atom `n`: the species word against the literal `w`, between the two operands' values at `n`. -/
theorem choose_at (SP : IVec S131072 32) (w : BitVec 32) (A B : FVec Ideal S131072 .f32) (n : Fin 131072)
    (y prev : EReal) (hA : A (ix1 n) = y) (hB : B (ix1 n) = prev) :
    select (cmpi .eq SP (broadcastInDim S131072 ![] bcast_S_S131072 (constantI S_ 32 w))) A B (ix1 n)
      = Cert.Atoms.choose (SP (ix1 n)) w y prev := by
  subst hA hB
  rfl

/-- The merged vector at atom `n` is the atom's value. -/
theorem refOut_apply (SP : IVec S131072 32)
    (X : FVec Ideal S131072x300 .f32)
    (a2 : FVec Ideal S8x300x160 .f32) (a3 : FVec Ideal S8x160 .f32) (a4 : FVec Ideal S8x160x128 .f32)
    (a5 : FVec Ideal S8x128 .f32) (a6 : FVec Ideal S8x128x96 .f32) (a7 : FVec Ideal S8x96 .f32)
    (a8 : FVec Ideal S8x96x1 .f32) (a9 : FVec Ideal S8x1 .f32) (n : Fin 131072) :
    refOut SP X a2 a3 a4 a5 a6 a7 a8 a9 (ix1 n) = Cert.Atoms.atoms ⟨a2, a3, a4, a5, a6, a7, a8, a9⟩ SP X n := by
  unfold refOut Cert.Atoms.atoms Cert.Atoms.atom Cert.Atoms.pick
  refine choose_at SP 7#32 _ _ n _ _ (refNetwork_apply 7 (by decide) _ _ _ _ _ _ _ _ X a2 a3 a4 a5 a6 a7 a8 a9 n) ?_
  refine choose_at SP 6#32 _ _ n _ _ (refNetwork_apply 6 (by decide) _ _ _ _ _ _ _ _ X a2 a3 a4 a5 a6 a7 a8 a9 n) ?_
  refine choose_at SP 5#32 _ _ n _ _ (refNetwork_apply 5 (by decide) _ _ _ _ _ _ _ _ X a2 a3 a4 a5 a6 a7 a8 a9 n) ?_
  refine choose_at SP 4#32 _ _ n _ _ (refNetwork_apply 4 (by decide) _ _ _ _ _ _ _ _ X a2 a3 a4 a5 a6 a7 a8 a9 n) ?_
  refine choose_at SP 3#32 _ _ n _ _ (refNetwork_apply 3 (by decide) _ _ _ _ _ _ _ _ X a2 a3 a4 a5 a6 a7 a8 a9 n) ?_
  refine choose_at SP 2#32 _ _ n _ _ (refNetwork_apply 2 (by decide) _ _ _ _ _ _ _ _ X a2 a3 a4 a5 a6 a7 a8 a9 n) ?_
  refine choose_at SP 1#32 _ _ n _ _ (refNetwork_apply 1 (by decide) _ _ _ _ _ _ _ _ X a2 a3 a4 a5 a6 a7 a8 a9 n) ?_
  refine choose_at SP 0#32 _ _ n _ _ (refNetwork_apply 0 (by decide) _ _ _ _ _ _ _ _ X a2 a3 a4 a5 a6 a7 a8 a9 n) ?_
  rfl

/-! ## The row sums -/

/-- A vector of 131072 numbers laid out as 2048 rows of 64, each row summed from zero and the sums laid as a column:
    the molecules' values of the vector's entries. -/
theorem rowSums_eq (O : FVec Ideal S131072 .f32) (A : Fin 131072 → EReal) (hO : ∀ n, O (ix1 n) = A n) :
    broadcastInDim S2048x1 ![0] bcast_S2048_S2048x1_0 (Host.reduceAdd (F := Ideal) (shapeCast S2048x64 O shapeCasts_S131072_S2048x64)
        (constant (F := Ideal) S_ .f32 0x00000000#32) reducesTo_S2048x64_S2048_d1 h_S_)
      = Cert.Atoms.molecules (Cert.Atoms.byMolecule A) := by
  funext i
  refine (Cert.Lib.rowSums_column_apply (R := 2048) (K := 64) (shapeCast S2048x64 O shapeCasts_S131072_S2048x64)
    (constant (F := Ideal) S_ .f32 0x00000000#32) reducesTo_S2048x64_S2048_d1 (by decide) h_S_ bcast_S2048_S2048x1_0 i).trans ?_
  unfold Cert.Atoms.molecules
  refine congrArg (Cert.Atoms.zero + ·) (Finset.sum_congr rfl fun a _ => ?_)
  exact (Cert.Lib.reshape_flat_apply (R := 2048) (K := 64) O shapeCasts_S131072_S2048x64 (i 0) a
    ⟨(i 0).val * 64 + a.val, by have hb : (i 0).val < 2048 := (i 0).isLt; have ha := a.isLt; omega⟩ rfl).trans (hO _)

/-! ## The parameters -/

/-- the parameters as the reference finds them -/
def params (m : (ℓ : Loc nD τ sig) → Buf (Elt Ideal) ℓ) (c : Dev nD) : Cert.Atoms.Params :=
  ⟨m ((c.tc : Thread nD τ).loc main_arg2), m ((c.tc : Thread nD τ).loc main_arg3),
    m ((c.tc : Thread nD τ).loc main_arg4), m ((c.tc : Thread nD τ).loc main_arg5),
    m ((c.tc : Thread nD τ).loc main_arg6), m ((c.tc : Thread nD τ).loc main_arg7),
    m ((c.tc : Thread nD τ).loc main_arg8), m ((c.tc : Thread nD τ).loc main_arg9)⟩

end Cert.ReferenceIdeal.RefValue

end
-- ==== Proof.RefChunkA.lean ====
/-
  The reference's first four operations, from any contents.

  The species words are flattened to a vector of 131072 words and the features to a 131072 × 300 matrix; a scalar zero is
  written and repeated into the all-zero vector of 131072 numbers, from which the chain of choices starts. Read from an
  arbitrary valuation of the buffers, so that nothing before these operations is looked at.
-/
import proofs.«129781_j39633958207559_2_alg».proof.Proof.RefAtoms
import Idealize.ShloMosaic.Lib.StableHlo.Run

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

/-- The first four operations. -/
abbrev opsA : List (HloOp τ sig (Elt F)) :=
  [ reshape main_arg0 main_v0 rfl shapeCasts_S2048x64_S131072,
    reshape main_arg1 main_v1 rfl shapeCasts_S2048x64x300_S131072x300,
    nullary main_cst (constant S_ .f32 0x00000000#32),
    unary main_cst main_v2 (broadcastInDim S131072 ![] bcast_S_S131072 : (⟨S_, .f32⟩ : BufTy).Contents (Elt F) → (⟨S131072, .f32⟩ : BufTy).Contents (Elt F)) ]

/-- What the three buffers read later hold after them. -/
theorem outA (V : Valuation τ sig (Elt Ideal)) :
    after (opsA (F := Ideal)) V (Proc.devRef (τ := τ) .tc main_v0) = shapeCast S131072 (V (Proc.devRef (τ := τ) .tc main_arg0)) shapeCasts_S2048x64_S131072
    ∧ after (opsA (F := Ideal)) V (Proc.devRef (τ := τ) .tc main_v1) = shapeCast S131072x300 (V (Proc.devRef (τ := τ) .tc main_arg1)) shapeCasts_S2048x64x300_S131072x300
    ∧ after (opsA (F := Ideal)) V (Proc.devRef (τ := τ) .tc main_v2) = broadcastInDim S131072 ![] bcast_S_S131072 (constant (F := Ideal) S_ .f32 0x00000000#32) := by
  refine ⟨?_, ?_, ?_⟩ <;> after_results_simp <;> rfl

/-- The line writes none of these buffers: each holds afterwards what it held before. -/
theorem keepA (V : Valuation τ sig (Elt Ideal)) :
    after (opsA (F := Ideal)) V (Proc.devRef (τ := τ) .tc main_arg0) = V (Proc.devRef (τ := τ) .tc main_arg0)
    ∧ after (opsA (F := Ideal)) V (Proc.devRef (τ := τ) .tc main_arg1) = V (Proc.devRef (τ := τ) .tc main_arg1)
    ∧ after (opsA (F := Ideal)) V (Proc.devRef (τ := τ) .tc main_arg2) = V (Proc.devRef (τ := τ) .tc main_arg2)
    ∧ after (opsA (F := Ideal)) V (Proc.devRef (τ := τ) .tc main_arg3) = V (Proc.devRef (τ := τ) .tc main_arg3)
    ∧ after (opsA (F := Ideal)) V (Proc.devRef (τ := τ) .tc main_arg4) = V (Proc.devRef (τ := τ) .tc main_arg4)
    ∧ after (opsA (F := Ideal)) V (Proc.devRef (τ := τ) .tc main_arg5) = V (Proc.devRef (τ := τ) .tc main_arg5)
    ∧ after (opsA (F := Ideal)) V (Proc.devRef (τ := τ) .tc main_arg6) = V (Proc.devRef (τ := τ) .tc main_arg6)
    ∧ after (opsA (F := Ideal)) V (Proc.devRef (τ := τ) .tc main_arg7) = V (Proc.devRef (τ := τ) .tc main_arg7)
    ∧ after (opsA (F := Ideal)) V (Proc.devRef (τ := τ) .tc main_arg8) = V (Proc.devRef (τ := τ) .tc main_arg8)
    ∧ after (opsA (F := Ideal)) V (Proc.devRef (τ := τ) .tc main_arg9) = V (Proc.devRef (τ := τ) .tc main_arg9) := by
  refine ⟨?_, ?_, ?_, ?_, ?_, ?_, ?_, ?_, ?_, ?_⟩ <;> after_results_simp

end Cert.ReferenceIdeal.RefValue

end
-- ==== Proof.RefChunk0.lean ====
/-
  Species 0's forty-six operations, from any contents.

  Slab 0 of each stacked weight array and row 0 of each stacked bias array are cut out; three dense layers, each a
  product, the bias row repeated down the rows and the rectifier, and the one-column head follow; the column is flattened;
  the species words are compared with the literal 0 and, where they agree, the network's value replaces the vector
  merged so far. Read from an arbitrary valuation of the buffers: the line's last buffer holds one choice between
  `refNetwork 0` of the valuation's flattened features and parameters and the valuation's merged vector, and the
  buffers the line does not write keep their contents.
-/
import proofs.«129781_j39633958207559_2_alg».proof.Proof.RefAtoms
import Idealize.ShloMosaic.Lib.StableHlo.Run

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

/-- Species 0's operations. -/
abbrev ops0 : List (HloOp τ sig (Elt F)) :=
  [ unary main_arg2 main_v3 ((extractStridedSlice S1x300x160 ![0, 0, 0] · slices_S8x300x160_S1x300x160_0_0_0) : (⟨S8x300x160, .f32⟩ : BufTy).Contents (Elt F) → (⟨S1x300x160, .f32⟩ : BufTy).Contents (Elt F)),
    reshape main_v3 main_v4 rfl shapeCasts_S1x300x160_S300x160,
    binary main_v1 main_v4 main_v5 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v6 ((extractStridedSlice S1x160 ![0, 0] · slices_S8x160_S1x160_0_0) : (⟨S8x160, .f32⟩ : BufTy).Contents (Elt F) → (⟨S1x160, .f32⟩ : BufTy).Contents (Elt F)),
    reshape main_v6 main_v7 rfl shapeCasts_S1x160_S160,
    unary main_v7 main_v8 (broadcastInDim S1x160 ![1] bcast_S160_S1x160_1 : (⟨S160, .f32⟩ : BufTy).Contents (Elt F) → (⟨S1x160, .f32⟩ : BufTy).Contents (Elt F)),
    unary main_v8 main_v9 (broadcastInDim S131072x160 ![0, 1] bcast_S1x160_S131072x160_0_1 : (⟨S1x160, .f32⟩ : BufTy).Contents (Elt F) → (⟨S131072x160, .f32⟩ : BufTy).Contents (Elt F)),
    binary main_v5 main_v9 main_v10 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S131072x160, .f32⟩) main_call0_v0) (broadcastInDim S131072x160 ![] bcast_S_S131072x160),
    TRef.binary (TRef.of (T := ⟨S131072x160, .f32⟩) main_v10) (TRef.of (T := ⟨S131072x160, .f32⟩) main_call0_v0) (TRef.of (T := ⟨S131072x160, .f32⟩) main_v11) maximumf,
    unary main_arg4 main_v12 ((extractStridedSlice S1x160x128 ![0, 0, 0] · slices_S8x160x128_S1x160x128_0_0_0) : (⟨S8x160x128, .f32⟩ : BufTy).Contents (Elt F) → (⟨S1x160x128, .f32⟩ : BufTy).Contents (Elt F)),
    reshape main_v12 main_v13 rfl shapeCasts_S1x160x128_S160x128,
    binary main_v11 main_v13 main_v14 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v15 ((extractStridedSlice S1x128 ![0, 0] · slices_S8x128_S1x128_0_0) : (⟨S8x128, .f32⟩ : BufTy).Contents (Elt F) → (⟨S1x128, .f32⟩ : BufTy).Contents (Elt F)),
    reshape main_v15 main_v16 rfl shapeCasts_S1x128_S128,
    unary main_v16 main_v17 (broadcastInDim S1x128 ![1] bcast_S128_S1x128_1 : (⟨S128, .f32⟩ : BufTy).Contents (Elt F) → (⟨S1x128, .f32⟩ : BufTy).Contents (Elt F)),
    unary main_v17 main_v18 (broadcastInDim S131072x128 ![0, 1] bcast_S1x128_S131072x128_0_1 : (⟨S1x128, .f32⟩ : BufTy).Contents (Elt F) → (⟨S131072x128, .f32⟩ : BufTy).Contents (Elt F)),
    binary main_v14 main_v18 main_v19 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S131072x128, .f32⟩) main_call1_v0) (broadcastInDim S131072x128 ![] bcast_S_S131072x128),
    TRef.binary (TRef.of (T := ⟨S131072x128, .f32⟩) main_v19) (TRef.of (T := ⟨S131072x128, .f32⟩) main_call1_v0) (TRef.of (T := ⟨S131072x128, .f32⟩) main_v20) maximumf,
    unary main_arg6 main_v21 ((extractStridedSlice S1x128x96 ![0, 0, 0] · slices_S8x128x96_S1x128x96_0_0_0) : (⟨S8x128x96, .f32⟩ : BufTy).Contents (Elt F) → (⟨S1x128x96, .f32⟩ : BufTy).Contents (Elt F)),
    reshape main_v21 main_v22 rfl shapeCasts_S1x128x96_S128x96,
    binary main_v20 main_v22 main_v23 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v24 ((extractStridedSlice S1x96 ![0, 0] · slices_S8x96_S1x96_0_0) : (⟨S8x96, .f32⟩ : BufTy).Contents (Elt F) → (⟨S1x96, .f32⟩ : BufTy).Contents (Elt F)),
    reshape main_v24 main_v25 rfl shapeCasts_S1x96_S96,
    unary main_v25 main_v26 (broadcastInDim S1x96 ![1] bcast_S96_S1x96_1 : (⟨S96, .f32⟩ : BufTy).Contents (Elt F) → (⟨S1x96, .f32⟩ : BufTy).Contents (Elt F)),
    unary main_v26 main_v27 (broadcastInDim S131072x96 ![0, 1] bcast_S1x96_S131072x96_0_1 : (⟨S1x96, .f32⟩ : BufTy).Contents (Elt F) → (⟨S131072x96, .f32⟩ : BufTy).Contents (Elt F)),
    binary main_v23 main_v27 main_v28 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S131072x96, .f32⟩) main_call2_v0) (broadcastInDim S131072x96 ![] bcast_S_S131072x96),
    TRef.binary (TRef.of (T := ⟨S131072x96, .f32⟩) main_v28) (TRef.of (T := ⟨S131072x96, .f32⟩) main_call2_v0) (TRef.of (T := ⟨S131072x96, .f32⟩) main_v29) maximumf,
    unary main_arg8 main_v30 ((extractStridedSlice S1x96x1 ![0, 0, 0] · slices_S8x96x1_S1x96x1_0_0_0) : (⟨S8x96x1, .f32⟩ : BufTy).Contents (Elt F) → (⟨S1x96x1, .f32⟩ : BufTy).Contents (Elt F)),
    reshape main_v30 main_v31 rfl shapeCasts_S1x96x1_S96x1,
    binary main_v29 main_v31 main_v32 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v33 ((extractStridedSlice S1x1 ![0, 0] · slices_S8x1_S1x1_0_0) : (⟨S8x1, .f32⟩ : BufTy).Contents (Elt F) → (⟨S1x1, .f32⟩ : BufTy).Contents (Elt F)),
    reshape main_v33 main_v34 rfl shapeCasts_S1x1_S1,
    unary main_v34 main_v35 (broadcastInDim S1x1 ![1] bcast_S1_S1x1_1 : (⟨S1, .f32⟩ : BufTy).Contents (Elt F) → (⟨S1x1, .f32⟩ : BufTy).Contents (Elt F)),
    unary main_v35 main_v36 (broadcastInDim S131072x1 ![0, 1] bcast_S1x1_S131072x1_0_1 : (⟨S1x1, .f32⟩ : BufTy).Contents (Elt F) → (⟨S131072x1, .f32⟩ : BufTy).Contents (Elt F)),
    binary main_v32 main_v36 main_v37 (addf : (⟨S131072x1, .f32⟩ : BufTy).Contents (Elt F) → (⟨S131072x1, .f32⟩ : BufTy).Contents (Elt F) → (⟨S131072x1, .f32⟩ : BufTy).Contents (Elt F)),
    reshape main_v37 main_v38 rfl shapeCasts_S131072x1_S131072,
    nullary main_c (constantI S_ 32 0#32),
    unary main_c main_v39 (broadcastInDim S131072 ![] bcast_S_S131072 : (⟨S_, .i32⟩ : BufTy).Contents (Elt F) → (⟨S131072, .i32⟩ : BufTy).Contents (Elt F)),
    binary main_v0 main_v39 main_v40 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v40) (TRef.of (T := ⟨S131072, .f32⟩) main_v38) (TRef.of (T := ⟨S131072, .f32⟩) main_v2) (TRef.of (T := ⟨S131072, .f32⟩) main_v41) select ]

/-- The merged vector after species 0: one choice on the species words between network 0 and the vector so far. -/
theorem out0 (V : Valuation τ sig (Elt Ideal)) :
    after (ops0 (F := Ideal)) V (Proc.devRef (τ := τ) .tc main_v41)
      = select (cmpi .eq (V (Proc.devRef (τ := τ) .tc main_v0)) (broadcastInDim S131072 ![] bcast_S_S131072 (constantI S_ 32 0#32)))
          (refNetwork 0 slices_S8x300x160_S1x300x160_0_0_0 slices_S8x160_S1x160_0_0 slices_S8x160x128_S1x160x128_0_0_0 slices_S8x128_S1x128_0_0 slices_S8x128x96_S1x128x96_0_0_0 slices_S8x96_S1x96_0_0 slices_S8x96x1_S1x96x1_0_0_0 slices_S8x1_S1x1_0_0
            (V (Proc.devRef (τ := τ) .tc main_v1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)))
          (V (Proc.devRef (τ := τ) .tc main_v2)) := by
  after_results_simp <;> rfl

/-- The line writes none of these buffers: each holds afterwards what it held before. -/
theorem keep0 (V : Valuation τ sig (Elt Ideal)) :
    after (ops0 (F := Ideal)) V (Proc.devRef (τ := τ) .tc main_v0) = V (Proc.devRef (τ := τ) .tc main_v0)
    ∧ after (ops0 (F := Ideal)) V (Proc.devRef (τ := τ) .tc main_v1) = V (Proc.devRef (τ := τ) .tc main_v1)
    ∧ after (ops0 (F := Ideal)) V (Proc.devRef (τ := τ) .tc main_arg0) = V (Proc.devRef (τ := τ) .tc main_arg0)
    ∧ after (ops0 (F := Ideal)) V (Proc.devRef (τ := τ) .tc main_arg1) = V (Proc.devRef (τ := τ) .tc main_arg1)
    ∧ after (ops0 (F := Ideal)) V (Proc.devRef (τ := τ) .tc main_arg2) = V (Proc.devRef (τ := τ) .tc main_arg2)
    ∧ after (ops0 (F := Ideal)) V (Proc.devRef (τ := τ) .tc main_arg3) = V (Proc.devRef (τ := τ) .tc main_arg3)
    ∧ after (ops0 (F := Ideal)) V (Proc.devRef (τ := τ) .tc main_arg4) = V (Proc.devRef (τ := τ) .tc main_arg4)
    ∧ after (ops0 (F := Ideal)) V (Proc.devRef (τ := τ) .tc main_arg5) = V (Proc.devRef (τ := τ) .tc main_arg5)
    ∧ after (ops0 (F := Ideal)) V (Proc.devRef (τ := τ) .tc main_arg6) = V (Proc.devRef (τ := τ) .tc main_arg6)
    ∧ after (ops0 (F := Ideal)) V (Proc.devRef (τ := τ) .tc main_arg7) = V (Proc.devRef (τ := τ) .tc main_arg7)
    ∧ after (ops0 (F := Ideal)) V (Proc.devRef (τ := τ) .tc main_arg8) = V (Proc.devRef (τ := τ) .tc main_arg8)
    ∧ after (ops0 (F := Ideal)) V (Proc.devRef (τ := τ) .tc main_arg9) = V (Proc.devRef (τ := τ) .tc main_arg9) := by
  refine ⟨?_, ?_, ?_, ?_, ?_, ?_, ?_, ?_, ?_, ?_, ?_, ?_⟩ <;> after_results_simp

end Cert.ReferenceIdeal.RefValue

end
-- ==== Proof.RefChunk1.lean ====
/-
  Species 1's forty-six operations, from any contents.

  Slab 1 of each stacked weight array and row 1 of each stacked bias array are cut out; three dense layers, each a
  product, the bias row repeated down the rows and the rectifier, and the one-column head follow; the column is flattened;
  the species words are compared with the literal 1 and, where they agree, the network's value replaces the vector
  merged so far. Read from an arbitrary valuation of the buffers: the line's last buffer holds one choice between
  `refNetwork 1` of the valuation's flattened features and parameters and the valuation's merged vector, and the
  buffers the line does not write keep their contents.
-/
import proofs.«129781_j39633958207559_2_alg».proof.Proof.RefAtoms
import Idealize.ShloMosaic.Lib.StableHlo.Run

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

/-- Species 1's operations. -/
abbrev ops1 : List (HloOp τ sig (Elt F)) :=
  [ unary main_arg2 main_v42 ((extractStridedSlice S1x300x160 ![1, 0, 0] · slices_S8x300x160_S1x300x160_1_0_0) : (⟨S8x300x160, .f32⟩ : BufTy).Contents (Elt F) → (⟨S1x300x160, .f32⟩ : BufTy).Contents (Elt F)),
    reshape main_v42 main_v43 rfl shapeCasts_S1x300x160_S300x160,
    binary main_v1 main_v43 main_v44 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v45 ((extractStridedSlice S1x160 ![1, 0] · slices_S8x160_S1x160_1_0) : (⟨S8x160, .f32⟩ : BufTy).Contents (Elt F) → (⟨S1x160, .f32⟩ : BufTy).Contents (Elt F)),
    reshape main_v45 main_v46 rfl shapeCasts_S1x160_S160,
    unary main_v46 main_v47 (broadcastInDim S1x160 ![1] bcast_S160_S1x160_1 : (⟨S160, .f32⟩ : BufTy).Contents (Elt F) → (⟨S1x160, .f32⟩ : BufTy).Contents (Elt F)),
    unary main_v47 main_v48 (broadcastInDim S131072x160 ![0, 1] bcast_S1x160_S131072x160_0_1 : (⟨S1x160, .f32⟩ : BufTy).Contents (Elt F) → (⟨S131072x160, .f32⟩ : BufTy).Contents (Elt F)),
    binary main_v44 main_v48 main_v49 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S131072x160, .f32⟩) main_call4_v0) (broadcastInDim S131072x160 ![] bcast_S_S131072x160),
    TRef.binary (TRef.of (T := ⟨S131072x160, .f32⟩) main_v49) (TRef.of (T := ⟨S131072x160, .f32⟩) main_call4_v0) (TRef.of (T := ⟨S131072x160, .f32⟩) main_v50) maximumf,
    unary main_arg4 main_v51 ((extractStridedSlice S1x160x128 ![1, 0, 0] · slices_S8x160x128_S1x160x128_1_0_0) : (⟨S8x160x128, .f32⟩ : BufTy).Contents (Elt F) → (⟨S1x160x128, .f32⟩ : BufTy).Contents (Elt F)),
    reshape main_v51 main_v52 rfl shapeCasts_S1x160x128_S160x128,
    binary main_v50 main_v52 main_v53 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v54 ((extractStridedSlice S1x128 ![1, 0] · slices_S8x128_S1x128_1_0) : (⟨S8x128, .f32⟩ : BufTy).Contents (Elt F) → (⟨S1x128, .f32⟩ : BufTy).Contents (Elt F)),
    reshape main_v54 main_v55 rfl shapeCasts_S1x128_S128,
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S131072x128 ![0, 1] bcast_S1x128_S131072x128_0_1 : (⟨S1x128, .f32⟩ : BufTy).Contents (Elt F) → (⟨S131072x128, .f32⟩ : BufTy).Contents (Elt F)),
    binary main_v53 main_v57 main_v58 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S131072x128, .f32⟩) main_call5_v0) (broadcastInDim S131072x128 ![] bcast_S_S131072x128),
    TRef.binary (TRef.of (T := ⟨S131072x128, .f32⟩) main_v58) (TRef.of (T := ⟨S131072x128, .f32⟩) main_call5_v0) (TRef.of (T := ⟨S131072x128, .f32⟩) main_v59) maximumf,
    unary main_arg6 main_v60 ((extractStridedSlice S1x128x96 ![1, 0, 0] · slices_S8x128x96_S1x128x96_1_0_0) : (⟨S8x128x96, .f32⟩ : BufTy).Contents (Elt F) → (⟨S1x128x96, .f32⟩ : BufTy).Contents (Elt F)),
    reshape main_v60 main_v61 rfl shapeCasts_S1x128x96_S128x96,
    binary main_v59 main_v61 main_v62 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v63 ((extractStridedSlice S1x96 ![1, 0] · slices_S8x96_S1x96_1_0) : (⟨S8x96, .f32⟩ : BufTy).Contents (Elt F) → (⟨S1x96, .f32⟩ : BufTy).Contents (Elt F)),
    reshape main_v63 main_v64 rfl shapeCasts_S1x96_S96,
    unary main_v64 main_v65 (broadcastInDim S1x96 ![1] bcast_S96_S1x96_1 : (⟨S96, .f32⟩ : BufTy).Contents (Elt F) → (⟨S1x96, .f32⟩ : BufTy).Contents (Elt F)),
    unary main_v65 main_v66 (broadcastInDim S131072x96 ![0, 1] bcast_S1x96_S131072x96_0_1 : (⟨S1x96, .f32⟩ : BufTy).Contents (Elt F) → (⟨S131072x96, .f32⟩ : BufTy).Contents (Elt F)),
    binary main_v62 main_v66 main_v67 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S131072x96, .f32⟩) main_call6_v0) (broadcastInDim S131072x96 ![] bcast_S_S131072x96),
    TRef.binary (TRef.of (T := ⟨S131072x96, .f32⟩) main_v67) (TRef.of (T := ⟨S131072x96, .f32⟩) main_call6_v0) (TRef.of (T := ⟨S131072x96, .f32⟩) main_v68) maximumf,
    unary main_arg8 main_v69 ((extractStridedSlice S1x96x1 ![1, 0, 0] · slices_S8x96x1_S1x96x1_1_0_0) : (⟨S8x96x1, .f32⟩ : BufTy).Contents (Elt F) → (⟨S1x96x1, .f32⟩ : BufTy).Contents (Elt F)),
    reshape main_v69 main_v70 rfl shapeCasts_S1x96x1_S96x1,
    binary main_v68 main_v70 main_v71 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v72 ((extractStridedSlice S1x1 ![1, 0] · slices_S8x1_S1x1_1_0) : (⟨S8x1, .f32⟩ : BufTy).Contents (Elt F) → (⟨S1x1, .f32⟩ : BufTy).Contents (Elt F)),
    reshape main_v72 main_v73 rfl shapeCasts_S1x1_S1,
    unary main_v73 main_v74 (broadcastInDim S1x1 ![1] bcast_S1_S1x1_1 : (⟨S1, .f32⟩ : BufTy).Contents (Elt F) → (⟨S1x1, .f32⟩ : BufTy).Contents (Elt F)),
    unary main_v74 main_v75 (broadcastInDim S131072x1 ![0, 1] bcast_S1x1_S131072x1_0_1 : (⟨S1x1, .f32⟩ : BufTy).Contents (Elt F) → (⟨S131072x1, .f32⟩ : BufTy).Contents (Elt F)),
    binary main_v71 main_v75 main_v76 (addf : (⟨S131072x1, .f32⟩ : BufTy).Contents (Elt F) → (⟨S131072x1, .f32⟩ : BufTy).Contents (Elt F) → (⟨S131072x1, .f32⟩ : BufTy).Contents (Elt F)),
    reshape main_v76 main_v77 rfl shapeCasts_S131072x1_S131072,
    nullary main_c_0 (constantI S_ 32 1#32),
    unary main_c_0 main_v78 (broadcastInDim S131072 ![] bcast_S_S131072 : (⟨S_, .i32⟩ : BufTy).Contents (Elt F) → (⟨S131072, .i32⟩ : BufTy).Contents (Elt F)),
    binary main_v0 main_v78 main_v79 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v79) (TRef.of (T := ⟨S131072, .f32⟩) main_v77) (TRef.of (T := ⟨S131072, .f32⟩) main_v41) (TRef.of (T := ⟨S131072, .f32⟩) main_v80) select ]

/-- The merged vector after species 1: one choice on the species words between network 1 and the vector so far. -/
theorem out1 (V : Valuation τ sig (Elt Ideal)) :
    after (ops1 (F := Ideal)) V (Proc.devRef (τ := τ) .tc main_v80)
      = select (cmpi .eq (V (Proc.devRef (τ := τ) .tc main_v0)) (broadcastInDim S131072 ![] bcast_S_S131072 (constantI S_ 32 1#32)))
          (refNetwork 1 slices_S8x300x160_S1x300x160_1_0_0 slices_S8x160_S1x160_1_0 slices_S8x160x128_S1x160x128_1_0_0 slices_S8x128_S1x128_1_0 slices_S8x128x96_S1x128x96_1_0_0 slices_S8x96_S1x96_1_0 slices_S8x96x1_S1x96x1_1_0_0 slices_S8x1_S1x1_1_0
            (V (Proc.devRef (τ := τ) .tc main_v1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)))
          (V (Proc.devRef (τ := τ) .tc main_v41)) := by
  after_results_simp <;> rfl

/-- The line writes none of these buffers: each holds afterwards what it held before. -/
theorem keep1 (V : Valuation τ sig (Elt Ideal)) :
    after (ops1 (F := Ideal)) V (Proc.devRef (τ := τ) .tc main_v0) = V (Proc.devRef (τ := τ) .tc main_v0)
    ∧ after (ops1 (F := Ideal)) V (Proc.devRef (τ := τ) .tc main_v1) = V (Proc.devRef (τ := τ) .tc main_v1)
    ∧ after (ops1 (F := Ideal)) V (Proc.devRef (τ := τ) .tc main_arg0) = V (Proc.devRef (τ := τ) .tc main_arg0)
    ∧ after (ops1 (F := Ideal)) V (Proc.devRef (τ := τ) .tc main_arg1) = V (Proc.devRef (τ := τ) .tc main_arg1)
    ∧ after (ops1 (F := Ideal)) V (Proc.devRef (τ := τ) .tc main_arg2) = V (Proc.devRef (τ := τ) .tc main_arg2)
    ∧ after (ops1 (F := Ideal)) V (Proc.devRef (τ := τ) .tc main_arg3) = V (Proc.devRef (τ := τ) .tc main_arg3)
    ∧ after (ops1 (F := Ideal)) V (Proc.devRef (τ := τ) .tc main_arg4) = V (Proc.devRef (τ := τ) .tc main_arg4)
    ∧ after (ops1 (F := Ideal)) V (Proc.devRef (τ := τ) .tc main_arg5) = V (Proc.devRef (τ := τ) .tc main_arg5)
    ∧ after (ops1 (F := Ideal)) V (Proc.devRef (τ := τ) .tc main_arg6) = V (Proc.devRef (τ := τ) .tc main_arg6)
    ∧ after (ops1 (F := Ideal)) V (Proc.devRef (τ := τ) .tc main_arg7) = V (Proc.devRef (τ := τ) .tc main_arg7)
    ∧ after (ops1 (F := Ideal)) V (Proc.devRef (τ := τ) .tc main_arg8) = V (Proc.devRef (τ := τ) .tc main_arg8)
    ∧ after (ops1 (F := Ideal)) V (Proc.devRef (τ := τ) .tc main_arg9) = V (Proc.devRef (τ := τ) .tc main_arg9) := by
  refine ⟨?_, ?_, ?_, ?_, ?_, ?_, ?_, ?_, ?_, ?_, ?_, ?_⟩ <;> after_results_simp

/-- The first 18 of them: those printed in the window that ends inside this species. -/
def ops1a : List (HloOp τ sig (Elt F)) :=
  [ unary main_arg2 main_v42 ((extractStridedSlice S1x300x160 ![1, 0, 0] · slices_S8x300x160_S1x300x160_1_0_0) : (⟨S8x300x160, .f32⟩ : BufTy).Contents (Elt F) → (⟨S1x300x160, .f32⟩ : BufTy).Contents (Elt F)),
    reshape main_v42 main_v43 rfl shapeCasts_S1x300x160_S300x160,
    binary main_v1 main_v43 main_v44 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v45 ((extractStridedSlice S1x160 ![1, 0] · slices_S8x160_S1x160_1_0) : (⟨S8x160, .f32⟩ : BufTy).Contents (Elt F) → (⟨S1x160, .f32⟩ : BufTy).Contents (Elt F)),
    reshape main_v45 main_v46 rfl shapeCasts_S1x160_S160,
    unary main_v46 main_v47 (broadcastInDim S1x160 ![1] bcast_S160_S1x160_1 : (⟨S160, .f32⟩ : BufTy).Contents (Elt F) → (⟨S1x160, .f32⟩ : BufTy).Contents (Elt F)),
    unary main_v47 main_v48 (broadcastInDim S131072x160 ![0, 1] bcast_S1x160_S131072x160_0_1 : (⟨S1x160, .f32⟩ : BufTy).Contents (Elt F) → (⟨S131072x160, .f32⟩ : BufTy).Contents (Elt F)),
    binary main_v44 main_v48 main_v49 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S131072x160, .f32⟩) main_call4_v0) (broadcastInDim S131072x160 ![] bcast_S_S131072x160),
    TRef.binary (TRef.of (T := ⟨S131072x160, .f32⟩) main_v49) (TRef.of (T := ⟨S131072x160, .f32⟩) main_call4_v0) (TRef.of (T := ⟨S131072x160, .f32⟩) main_v50) maximumf,
    unary main_arg4 main_v51 ((extractStridedSlice S1x160x128 ![1, 0, 0] · slices_S8x160x128_S1x160x128_1_0_0) : (⟨S8x160x128, .f32⟩ : BufTy).Contents (Elt F) → (⟨S1x160x128, .f32⟩ : BufTy).Contents (Elt F)),
    reshape main_v51 main_v52 rfl shapeCasts_S1x160x128_S160x128,
    binary main_v50 main_v52 main_v53 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v54 ((extractStridedSlice S1x128 ![1, 0] · slices_S8x128_S1x128_1_0) : (⟨S8x128, .f32⟩ : BufTy).Contents (Elt F) → (⟨S1x128, .f32⟩ : BufTy).Contents (Elt F)),
    reshape main_v54 main_v55 rfl shapeCasts_S1x128_S128,
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S131072x128 ![0, 1] bcast_S1x128_S131072x128_0_1 : (⟨S1x128, .f32⟩ : BufTy).Contents (Elt F) → (⟨S131072x128, .f32⟩ : BufTy).Contents (Elt F)) ]

/-- The other 28, printed in the next window. -/
def ops1b : List (HloOp τ sig (Elt F)) :=
  [ binary main_v53 main_v57 main_v58 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S131072x128, .f32⟩) main_call5_v0) (broadcastInDim S131072x128 ![] bcast_S_S131072x128),
    TRef.binary (TRef.of (T := ⟨S131072x128, .f32⟩) main_v58) (TRef.of (T := ⟨S131072x128, .f32⟩) main_call5_v0) (TRef.of (T := ⟨S131072x128, .f32⟩) main_v59) maximumf,
    unary main_arg6 main_v60 ((extractStridedSlice S1x128x96 ![1, 0, 0] · slices_S8x128x96_S1x128x96_1_0_0) : (⟨S8x128x96, .f32⟩ : BufTy).Contents (Elt F) → (⟨S1x128x96, .f32⟩ : BufTy).Contents (Elt F)),
    reshape main_v60 main_v61 rfl shapeCasts_S1x128x96_S128x96,
    binary main_v59 main_v61 main_v62 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v63 ((extractStridedSlice S1x96 ![1, 0] · slices_S8x96_S1x96_1_0) : (⟨S8x96, .f32⟩ : BufTy).Contents (Elt F) → (⟨S1x96, .f32⟩ : BufTy).Contents (Elt F)),
    reshape main_v63 main_v64 rfl shapeCasts_S1x96_S96,
    unary main_v64 main_v65 (broadcastInDim S1x96 ![1] bcast_S96_S1x96_1 : (⟨S96, .f32⟩ : BufTy).Contents (Elt F) → (⟨S1x96, .f32⟩ : BufTy).Contents (Elt F)),
    unary main_v65 main_v66 (broadcastInDim S131072x96 ![0, 1] bcast_S1x96_S131072x96_0_1 : (⟨S1x96, .f32⟩ : BufTy).Contents (Elt F) → (⟨S131072x96, .f32⟩ : BufTy).Contents (Elt F)),
    binary main_v62 main_v66 main_v67 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S131072x96, .f32⟩) main_call6_v0) (broadcastInDim S131072x96 ![] bcast_S_S131072x96),
    TRef.binary (TRef.of (T := ⟨S131072x96, .f32⟩) main_v67) (TRef.of (T := ⟨S131072x96, .f32⟩) main_call6_v0) (TRef.of (T := ⟨S131072x96, .f32⟩) main_v68) maximumf,
    unary main_arg8 main_v69 ((extractStridedSlice S1x96x1 ![1, 0, 0] · slices_S8x96x1_S1x96x1_1_0_0) : (⟨S8x96x1, .f32⟩ : BufTy).Contents (Elt F) → (⟨S1x96x1, .f32⟩ : BufTy).Contents (Elt F)),
    reshape main_v69 main_v70 rfl shapeCasts_S1x96x1_S96x1,
    binary main_v68 main_v70 main_v71 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v72 ((extractStridedSlice S1x1 ![1, 0] · slices_S8x1_S1x1_1_0) : (⟨S8x1, .f32⟩ : BufTy).Contents (Elt F) → (⟨S1x1, .f32⟩ : BufTy).Contents (Elt F)),
    reshape main_v72 main_v73 rfl shapeCasts_S1x1_S1,
    unary main_v73 main_v74 (broadcastInDim S1x1 ![1] bcast_S1_S1x1_1 : (⟨S1, .f32⟩ : BufTy).Contents (Elt F) → (⟨S1x1, .f32⟩ : BufTy).Contents (Elt F)),
    unary main_v74 main_v75 (broadcastInDim S131072x1 ![0, 1] bcast_S1x1_S131072x1_0_1 : (⟨S1x1, .f32⟩ : BufTy).Contents (Elt F) → (⟨S131072x1, .f32⟩ : BufTy).Contents (Elt F)),
    binary main_v71 main_v75 main_v76 (addf : (⟨S131072x1, .f32⟩ : BufTy).Contents (Elt F) → (⟨S131072x1, .f32⟩ : BufTy).Contents (Elt F) → (⟨S131072x1, .f32⟩ : BufTy).Contents (Elt F)),
    reshape main_v76 main_v77 rfl shapeCasts_S131072x1_S131072,
    nullary main_c_0 (constantI S_ 32 1#32),
    unary main_c_0 main_v78 (broadcastInDim S131072 ![] bcast_S_S131072 : (⟨S_, .i32⟩ : BufTy).Contents (Elt F) → (⟨S131072, .i32⟩ : BufTy).Contents (Elt F)),
    binary main_v0 main_v78 main_v79 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v79) (TRef.of (T := ⟨S131072, .f32⟩) main_v77) (TRef.of (T := ⟨S131072, .f32⟩) main_v41) (TRef.of (T := ⟨S131072, .f32⟩) main_v80) select ]

theorem split1 : (ops1 : List (HloOp τ sig (Elt F))) = ops1a ++ ops1b := rfl

end Cert.ReferenceIdeal.RefValue

end
-- ==== Proof.RefChunk2.lean ====
/-
  Species 2's forty-six operations, from any contents.

  Slab 2 of each stacked weight array and row 2 of each stacked bias array are cut out; three dense layers, each a
  product, the bias row repeated down the rows and the rectifier, and the one-column head follow; the column is flattened;
  the species words are compared with the literal 2 and, where they agree, the network's value replaces the vector
  merged so far. Read from an arbitrary valuation of the buffers: the line's last buffer holds one choice between
  `refNetwork 2` of the valuation's flattened features and parameters and the valuation's merged vector, and the
  buffers the line does not write keep their contents.
-/
import proofs.«129781_j39633958207559_2_alg».proof.Proof.RefAtoms
import Idealize.ShloMosaic.Lib.StableHlo.Run

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

/-- Species 2's operations. -/
abbrev ops2 : List (HloOp τ sig (Elt F)) :=
  [ unary main_arg2 main_v81 ((extractStridedSlice S1x300x160 ![2, 0, 0] · slices_S8x300x160_S1x300x160_2_0_0) : (⟨S8x300x160, .f32⟩ : BufTy).Contents (Elt F) → (⟨S1x300x160, .f32⟩ : BufTy).Contents (Elt F)),
    reshape main_v81 main_v82 rfl shapeCasts_S1x300x160_S300x160,
    binary main_v1 main_v82 main_v83 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v84 ((extractStridedSlice S1x160 ![2, 0] · slices_S8x160_S1x160_2_0) : (⟨S8x160, .f32⟩ : BufTy).Contents (Elt F) → (⟨S1x160, .f32⟩ : BufTy).Contents (Elt F)),
    reshape main_v84 main_v85 rfl shapeCasts_S1x160_S160,
    unary main_v85 main_v86 (broadcastInDim S1x160 ![1] bcast_S160_S1x160_1 : (⟨S160, .f32⟩ : BufTy).Contents (Elt F) → (⟨S1x160, .f32⟩ : BufTy).Contents (Elt F)),
    unary main_v86 main_v87 (broadcastInDim S131072x160 ![0, 1] bcast_S1x160_S131072x160_0_1 : (⟨S1x160, .f32⟩ : BufTy).Contents (Elt F) → (⟨S131072x160, .f32⟩ : BufTy).Contents (Elt F)),
    binary main_v83 main_v87 main_v88 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S131072x160, .f32⟩) main_call8_v0) (broadcastInDim S131072x160 ![] bcast_S_S131072x160),
    TRef.binary (TRef.of (T := ⟨S131072x160, .f32⟩) main_v88) (TRef.of (T := ⟨S131072x160, .f32⟩) main_call8_v0) (TRef.of (T := ⟨S131072x160, .f32⟩) main_v89) maximumf,
    unary main_arg4 main_v90 ((extractStridedSlice S1x160x128 ![2, 0, 0] · slices_S8x160x128_S1x160x128_2_0_0) : (⟨S8x160x128, .f32⟩ : BufTy).Contents (Elt F) → (⟨S1x160x128, .f32⟩ : BufTy).Contents (Elt F)),
    reshape main_v90 main_v91 rfl shapeCasts_S1x160x128_S160x128,
    binary main_v89 main_v91 main_v92 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v93 ((extractStridedSlice S1x128 ![2, 0] · slices_S8x128_S1x128_2_0) : (⟨S8x128, .f32⟩ : BufTy).Contents (Elt F) → (⟨S1x128, .f32⟩ : BufTy).Contents (Elt F)),
    reshape main_v93 main_v94 rfl shapeCasts_S1x128_S128,
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S131072x128 ![0, 1] bcast_S1x128_S131072x128_0_1 : (⟨S1x128, .f32⟩ : BufTy).Contents (Elt F) → (⟨S131072x128, .f32⟩ : BufTy).Contents (Elt F)),
    binary main_v92 main_v96 main_v97 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S131072x128, .f32⟩) main_call9_v0) (broadcastInDim S131072x128 ![] bcast_S_S131072x128),
    TRef.binary (TRef.of (T := ⟨S131072x128, .f32⟩) main_v97) (TRef.of (T := ⟨S131072x128, .f32⟩) main_call9_v0) (TRef.of (T := ⟨S131072x128, .f32⟩) main_v98) maximumf,
    unary main_arg6 main_v99 ((extractStridedSlice S1x128x96 ![2, 0, 0] · slices_S8x128x96_S1x128x96_2_0_0) : (⟨S8x128x96, .f32⟩ : BufTy).Contents (Elt F) → (⟨S1x128x96, .f32⟩ : BufTy).Contents (Elt F)),
    reshape main_v99 main_v100 rfl shapeCasts_S1x128x96_S128x96,
    binary main_v98 main_v100 main_v101 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v102 ((extractStridedSlice S1x96 ![2, 0] · slices_S8x96_S1x96_2_0) : (⟨S8x96, .f32⟩ : BufTy).Contents (Elt F) → (⟨S1x96, .f32⟩ : BufTy).Contents (Elt F)),
    reshape main_v102 main_v103 rfl shapeCasts_S1x96_S96,
    unary main_v103 main_v104 (broadcastInDim S1x96 ![1] bcast_S96_S1x96_1 : (⟨S96, .f32⟩ : BufTy).Contents (Elt F) → (⟨S1x96, .f32⟩ : BufTy).Contents (Elt F)),
    unary main_v104 main_v105 (broadcastInDim S131072x96 ![0, 1] bcast_S1x96_S131072x96_0_1 : (⟨S1x96, .f32⟩ : BufTy).Contents (Elt F) → (⟨S131072x96, .f32⟩ : BufTy).Contents (Elt F)),
    binary main_v101 main_v105 main_v106 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S131072x96, .f32⟩) main_call10_v0) (broadcastInDim S131072x96 ![] bcast_S_S131072x96),
    TRef.binary (TRef.of (T := ⟨S131072x96, .f32⟩) main_v106) (TRef.of (T := ⟨S131072x96, .f32⟩) main_call10_v0) (TRef.of (T := ⟨S131072x96, .f32⟩) main_v107) maximumf,
    unary main_arg8 main_v108 ((extractStridedSlice S1x96x1 ![2, 0, 0] · slices_S8x96x1_S1x96x1_2_0_0) : (⟨S8x96x1, .f32⟩ : BufTy).Contents (Elt F) → (⟨S1x96x1, .f32⟩ : BufTy).Contents (Elt F)),
    reshape main_v108 main_v109 rfl shapeCasts_S1x96x1_S96x1,
    binary main_v107 main_v109 main_v110 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v111 ((extractStridedSlice S1x1 ![2, 0] · slices_S8x1_S1x1_2_0) : (⟨S8x1, .f32⟩ : BufTy).Contents (Elt F) → (⟨S1x1, .f32⟩ : BufTy).Contents (Elt F)),
    reshape main_v111 main_v112 rfl shapeCasts_S1x1_S1,
    unary main_v112 main_v113 (broadcastInDim S1x1 ![1] bcast_S1_S1x1_1 : (⟨S1, .f32⟩ : BufTy).Contents (Elt F) → (⟨S1x1, .f32⟩ : BufTy).Contents (Elt F)),
    unary main_v113 main_v114 (broadcastInDim S131072x1 ![0, 1] bcast_S1x1_S131072x1_0_1 : (⟨S1x1, .f32⟩ : BufTy).Contents (Elt F) → (⟨S131072x1, .f32⟩ : BufTy).Contents (Elt F)),
    binary main_v110 main_v114 main_v115 (addf : (⟨S131072x1, .f32⟩ : BufTy).Contents (Elt F) → (⟨S131072x1, .f32⟩ : BufTy).Contents (Elt F) → (⟨S131072x1, .f32⟩ : BufTy).Contents (Elt F)),
    reshape main_v115 main_v116 rfl shapeCasts_S131072x1_S131072,
    nullary main_c_1 (constantI S_ 32 2#32),
    unary main_c_1 main_v117 (broadcastInDim S131072 ![] bcast_S_S131072 : (⟨S_, .i32⟩ : BufTy).Contents (Elt F) → (⟨S131072, .i32⟩ : BufTy).Contents (Elt F)),
    binary main_v0 main_v117 main_v118 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v118) (TRef.of (T := ⟨S131072, .f32⟩) main_v116) (TRef.of (T := ⟨S131072, .f32⟩) main_v80) (TRef.of (T := ⟨S131072, .f32⟩) main_v119) select ]

/-- The merged vector after species 2: one choice on the species words between network 2 and the vector so far. -/
theorem out2 (V : Valuation τ sig (Elt Ideal)) :
    after (ops2 (F := Ideal)) V (Proc.devRef (τ := τ) .tc main_v119)
      = select (cmpi .eq (V (Proc.devRef (τ := τ) .tc main_v0)) (broadcastInDim S131072 ![] bcast_S_S131072 (constantI S_ 32 2#32)))
          (refNetwork 2 slices_S8x300x160_S1x300x160_2_0_0 slices_S8x160_S1x160_2_0 slices_S8x160x128_S1x160x128_2_0_0 slices_S8x128_S1x128_2_0 slices_S8x128x96_S1x128x96_2_0_0 slices_S8x96_S1x96_2_0 slices_S8x96x1_S1x96x1_2_0_0 slices_S8x1_S1x1_2_0
            (V (Proc.devRef (τ := τ) .tc main_v1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)))
          (V (Proc.devRef (τ := τ) .tc main_v80)) := by
  after_results_simp <;> rfl

/-- The line writes none of these buffers: each holds afterwards what it held before. -/
theorem keep2 (V : Valuation τ sig (Elt Ideal)) :
    after (ops2 (F := Ideal)) V (Proc.devRef (τ := τ) .tc main_v0) = V (Proc.devRef (τ := τ) .tc main_v0)
    ∧ after (ops2 (F := Ideal)) V (Proc.devRef (τ := τ) .tc main_v1) = V (Proc.devRef (τ := τ) .tc main_v1)
    ∧ after (ops2 (F := Ideal)) V (Proc.devRef (τ := τ) .tc main_arg0) = V (Proc.devRef (τ := τ) .tc main_arg0)
    ∧ after (ops2 (F := Ideal)) V (Proc.devRef (τ := τ) .tc main_arg1) = V (Proc.devRef (τ := τ) .tc main_arg1)
    ∧ after (ops2 (F := Ideal)) V (Proc.devRef (τ := τ) .tc main_arg2) = V (Proc.devRef (τ := τ) .tc main_arg2)
    ∧ after (ops2 (F := Ideal)) V (Proc.devRef (τ := τ) .tc main_arg3) = V (Proc.devRef (τ := τ) .tc main_arg3)
    ∧ after (ops2 (F := Ideal)) V (Proc.devRef (τ := τ) .tc main_arg4) = V (Proc.devRef (τ := τ) .tc main_arg4)
    ∧ after (ops2 (F := Ideal)) V (Proc.devRef (τ := τ) .tc main_arg5) = V (Proc.devRef (τ := τ) .tc main_arg5)
    ∧ after (ops2 (F := Ideal)) V (Proc.devRef (τ := τ) .tc main_arg6) = V (Proc.devRef (τ := τ) .tc main_arg6)
    ∧ after (ops2 (F := Ideal)) V (Proc.devRef (τ := τ) .tc main_arg7) = V (Proc.devRef (τ := τ) .tc main_arg7)
    ∧ after (ops2 (F := Ideal)) V (Proc.devRef (τ := τ) .tc main_arg8) = V (Proc.devRef (τ := τ) .tc main_arg8)
    ∧ after (ops2 (F := Ideal)) V (Proc.devRef (τ := τ) .tc main_arg9) = V (Proc.devRef (τ := τ) .tc main_arg9) := by
  refine ⟨?_, ?_, ?_, ?_, ?_, ?_, ?_, ?_, ?_, ?_, ?_, ?_⟩ <;> after_results_simp

/-- The first 42 of them: those printed in the window that ends inside this species. -/
def ops2a : List (HloOp τ sig (Elt F)) :=
  [ unary main_arg2 main_v81 ((extractStridedSlice S1x300x160 ![2, 0, 0] · slices_S8x300x160_S1x300x160_2_0_0) : (⟨S8x300x160, .f32⟩ : BufTy).Contents (Elt F) → (⟨S1x300x160, .f32⟩ : BufTy).Contents (Elt F)),
    reshape main_v81 main_v82 rfl shapeCasts_S1x300x160_S300x160,
    binary main_v1 main_v82 main_v83 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v84 ((extractStridedSlice S1x160 ![2, 0] · slices_S8x160_S1x160_2_0) : (⟨S8x160, .f32⟩ : BufTy).Contents (Elt F) → (⟨S1x160, .f32⟩ : BufTy).Contents (Elt F)),
    reshape main_v84 main_v85 rfl shapeCasts_S1x160_S160,
    unary main_v85 main_v86 (broadcastInDim S1x160 ![1] bcast_S160_S1x160_1 : (⟨S160, .f32⟩ : BufTy).Contents (Elt F) → (⟨S1x160, .f32⟩ : BufTy).Contents (Elt F)),
    unary main_v86 main_v87 (broadcastInDim S131072x160 ![0, 1] bcast_S1x160_S131072x160_0_1 : (⟨S1x160, .f32⟩ : BufTy).Contents (Elt F) → (⟨S131072x160, .f32⟩ : BufTy).Contents (Elt F)),
    binary main_v83 main_v87 main_v88 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S131072x160, .f32⟩) main_call8_v0) (broadcastInDim S131072x160 ![] bcast_S_S131072x160),
    TRef.binary (TRef.of (T := ⟨S131072x160, .f32⟩) main_v88) (TRef.of (T := ⟨S131072x160, .f32⟩) main_call8_v0) (TRef.of (T := ⟨S131072x160, .f32⟩) main_v89) maximumf,
    unary main_arg4 main_v90 ((extractStridedSlice S1x160x128 ![2, 0, 0] · slices_S8x160x128_S1x160x128_2_0_0) : (⟨S8x160x128, .f32⟩ : BufTy).Contents (Elt F) → (⟨S1x160x128, .f32⟩ : BufTy).Contents (Elt F)),
    reshape main_v90 main_v91 rfl shapeCasts_S1x160x128_S160x128,
    binary main_v89 main_v91 main_v92 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v93 ((extractStridedSlice S1x128 ![2, 0] · slices_S8x128_S1x128_2_0) : (⟨S8x128, .f32⟩ : BufTy).Contents (Elt F) → (⟨S1x128, .f32⟩ : BufTy).Contents (Elt F)),
    reshape main_v93 main_v94 rfl shapeCasts_S1x128_S128,
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S131072x128 ![0, 1] bcast_S1x128_S131072x128_0_1 : (⟨S1x128, .f32⟩ : BufTy).Contents (Elt F) → (⟨S131072x128, .f32⟩ : BufTy).Contents (Elt F)),
    binary main_v92 main_v96 main_v97 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S131072x128, .f32⟩) main_call9_v0) (broadcastInDim S131072x128 ![] bcast_S_S131072x128),
    TRef.binary (TRef.of (T := ⟨S131072x128, .f32⟩) main_v97) (TRef.of (T := ⟨S131072x128, .f32⟩) main_call9_v0) (TRef.of (T := ⟨S131072x128, .f32⟩) main_v98) maximumf,
    unary main_arg6 main_v99 ((extractStridedSlice S1x128x96 ![2, 0, 0] · slices_S8x128x96_S1x128x96_2_0_0) : (⟨S8x128x96, .f32⟩ : BufTy).Contents (Elt F) → (⟨S1x128x96, .f32⟩ : BufTy).Contents (Elt F)),
    reshape main_v99 main_v100 rfl shapeCasts_S1x128x96_S128x96,
    binary main_v98 main_v100 main_v101 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v102 ((extractStridedSlice S1x96 ![2, 0] · slices_S8x96_S1x96_2_0) : (⟨S8x96, .f32⟩ : BufTy).Contents (Elt F) → (⟨S1x96, .f32⟩ : BufTy).Contents (Elt F)),
    reshape main_v102 main_v103 rfl shapeCasts_S1x96_S96,
    unary main_v103 main_v104 (broadcastInDim S1x96 ![1] bcast_S96_S1x96_1 : (⟨S96, .f32⟩ : BufTy).Contents (Elt F) → (⟨S1x96, .f32⟩ : BufTy).Contents (Elt F)),
    unary main_v104 main_v105 (broadcastInDim S131072x96 ![0, 1] bcast_S1x96_S131072x96_0_1 : (⟨S1x96, .f32⟩ : BufTy).Contents (Elt F) → (⟨S131072x96, .f32⟩ : BufTy).Contents (Elt F)),
    binary main_v101 main_v105 main_v106 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S131072x96, .f32⟩) main_call10_v0) (broadcastInDim S131072x96 ![] bcast_S_S131072x96),
    TRef.binary (TRef.of (T := ⟨S131072x96, .f32⟩) main_v106) (TRef.of (T := ⟨S131072x96, .f32⟩) main_call10_v0) (TRef.of (T := ⟨S131072x96, .f32⟩) main_v107) maximumf,
    unary main_arg8 main_v108 ((extractStridedSlice S1x96x1 ![2, 0, 0] · slices_S8x96x1_S1x96x1_2_0_0) : (⟨S8x96x1, .f32⟩ : BufTy).Contents (Elt F) → (⟨S1x96x1, .f32⟩ : BufTy).Contents (Elt F)),
    reshape main_v108 main_v109 rfl shapeCasts_S1x96x1_S96x1,
    binary main_v107 main_v109 main_v110 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v111 ((extractStridedSlice S1x1 ![2, 0] · slices_S8x1_S1x1_2_0) : (⟨S8x1, .f32⟩ : BufTy).Contents (Elt F) → (⟨S1x1, .f32⟩ : BufTy).Contents (Elt F)),
    reshape main_v111 main_v112 rfl shapeCasts_S1x1_S1,
    unary main_v112 main_v113 (broadcastInDim S1x1 ![1] bcast_S1_S1x1_1 : (⟨S1, .f32⟩ : BufTy).Contents (Elt F) → (⟨S1x1, .f32⟩ : BufTy).Contents (Elt F)),
    unary main_v113 main_v114 (broadcastInDim S131072x1 ![0, 1] bcast_S1x1_S131072x1_0_1 : (⟨S1x1, .f32⟩ : BufTy).Contents (Elt F) → (⟨S131072x1, .f32⟩ : BufTy).Contents (Elt F)),
    binary main_v110 main_v114 main_v115 (addf : (⟨S131072x1, .f32⟩ : BufTy).Contents (Elt F) → (⟨S131072x1, .f32⟩ : BufTy).Contents (Elt F) → (⟨S131072x1, .f32⟩ : BufTy).Contents (Elt F)),
    reshape main_v115 main_v116 rfl shapeCasts_S131072x1_S131072 ]

/-- The other 4, printed in the next window. -/
def ops2b : List (HloOp τ sig (Elt F)) :=
  [ nullary main_c_1 (constantI S_ 32 2#32),
    unary main_c_1 main_v117 (broadcastInDim S131072 ![] bcast_S_S131072 : (⟨S_, .i32⟩ : BufTy).Contents (Elt F) → (⟨S131072, .i32⟩ : BufTy).Contents (Elt F)),
    binary main_v0 main_v117 main_v118 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v118) (TRef.of (T := ⟨S131072, .f32⟩) main_v116) (TRef.of (T := ⟨S131072, .f32⟩) main_v80) (TRef.of (T := ⟨S131072, .f32⟩) main_v119) select ]

theorem split2 : (ops2 : List (HloOp τ sig (Elt F))) = ops2a ++ ops2b := rfl

end Cert.ReferenceIdeal.RefValue

end
-- ==== Proof.RefChunk3.lean ====
/-
  Species 3's forty-six operations, from any contents.

  Slab 3 of each stacked weight array and row 3 of each stacked bias array are cut out; three dense layers, each a
  product, the bias row repeated down the rows and the rectifier, and the one-column head follow; the column is flattened;
  the species words are compared with the literal 3 and, where they agree, the network's value replaces the vector
  merged so far. Read from an arbitrary valuation of the buffers: the line's last buffer holds one choice between
  `refNetwork 3` of the valuation's flattened features and parameters and the valuation's merged vector, and the
  buffers the line does not write keep their contents.
-/
import proofs.«129781_j39633958207559_2_alg».proof.Proof.RefAtoms
import Idealize.ShloMosaic.Lib.StableHlo.Run

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

/-- Species 3's operations. -/
abbrev ops3 : List (HloOp τ sig (Elt F)) :=
  [ unary main_arg2 main_v120 ((extractStridedSlice S1x300x160 ![3, 0, 0] · slices_S8x300x160_S1x300x160_3_0_0) : (⟨S8x300x160, .f32⟩ : BufTy).Contents (Elt F) → (⟨S1x300x160, .f32⟩ : BufTy).Contents (Elt F)),
    reshape main_v120 main_v121 rfl shapeCasts_S1x300x160_S300x160,
    binary main_v1 main_v121 main_v122 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v123 ((extractStridedSlice S1x160 ![3, 0] · slices_S8x160_S1x160_3_0) : (⟨S8x160, .f32⟩ : BufTy).Contents (Elt F) → (⟨S1x160, .f32⟩ : BufTy).Contents (Elt F)),
    reshape main_v123 main_v124 rfl shapeCasts_S1x160_S160,
    unary main_v124 main_v125 (broadcastInDim S1x160 ![1] bcast_S160_S1x160_1 : (⟨S160, .f32⟩ : BufTy).Contents (Elt F) → (⟨S1x160, .f32⟩ : BufTy).Contents (Elt F)),
    unary main_v125 main_v126 (broadcastInDim S131072x160 ![0, 1] bcast_S1x160_S131072x160_0_1 : (⟨S1x160, .f32⟩ : BufTy).Contents (Elt F) → (⟨S131072x160, .f32⟩ : BufTy).Contents (Elt F)),
    binary main_v122 main_v126 main_v127 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S131072x160, .f32⟩) main_call12_v0) (broadcastInDim S131072x160 ![] bcast_S_S131072x160),
    TRef.binary (TRef.of (T := ⟨S131072x160, .f32⟩) main_v127) (TRef.of (T := ⟨S131072x160, .f32⟩) main_call12_v0) (TRef.of (T := ⟨S131072x160, .f32⟩) main_v128) maximumf,
    unary main_arg4 main_v129 ((extractStridedSlice S1x160x128 ![3, 0, 0] · slices_S8x160x128_S1x160x128_3_0_0) : (⟨S8x160x128, .f32⟩ : BufTy).Contents (Elt F) → (⟨S1x160x128, .f32⟩ : BufTy).Contents (Elt F)),
    reshape main_v129 main_v130 rfl shapeCasts_S1x160x128_S160x128,
    binary main_v128 main_v130 main_v131 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v132 ((extractStridedSlice S1x128 ![3, 0] · slices_S8x128_S1x128_3_0) : (⟨S8x128, .f32⟩ : BufTy).Contents (Elt F) → (⟨S1x128, .f32⟩ : BufTy).Contents (Elt F)),
    reshape main_v132 main_v133 rfl shapeCasts_S1x128_S128,
    unary main_v133 main_v134 (broadcastInDim S1x128 ![1] bcast_S128_S1x128_1 : (⟨S128, .f32⟩ : BufTy).Contents (Elt F) → (⟨S1x128, .f32⟩ : BufTy).Contents (Elt F)),
    unary main_v134 main_v135 (broadcastInDim S131072x128 ![0, 1] bcast_S1x128_S131072x128_0_1 : (⟨S1x128, .f32⟩ : BufTy).Contents (Elt F) → (⟨S131072x128, .f32⟩ : BufTy).Contents (Elt F)),
    binary main_v131 main_v135 main_v136 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S131072x128, .f32⟩) main_call13_v0) (broadcastInDim S131072x128 ![] bcast_S_S131072x128),
    TRef.binary (TRef.of (T := ⟨S131072x128, .f32⟩) main_v136) (TRef.of (T := ⟨S131072x128, .f32⟩) main_call13_v0) (TRef.of (T := ⟨S131072x128, .f32⟩) main_v137) maximumf,
    unary main_arg6 main_v138 ((extractStridedSlice S1x128x96 ![3, 0, 0] · slices_S8x128x96_S1x128x96_3_0_0) : (⟨S8x128x96, .f32⟩ : BufTy).Contents (Elt F) → (⟨S1x128x96, .f32⟩ : BufTy).Contents (Elt F)),
    reshape main_v138 main_v139 rfl shapeCasts_S1x128x96_S128x96,
    binary main_v137 main_v139 main_v140 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v141 ((extractStridedSlice S1x96 ![3, 0] · slices_S8x96_S1x96_3_0) : (⟨S8x96, .f32⟩ : BufTy).Contents (Elt F) → (⟨S1x96, .f32⟩ : BufTy).Contents (Elt F)),
    reshape main_v141 main_v142 rfl shapeCasts_S1x96_S96,
    unary main_v142 main_v143 (broadcastInDim S1x96 ![1] bcast_S96_S1x96_1 : (⟨S96, .f32⟩ : BufTy).Contents (Elt F) → (⟨S1x96, .f32⟩ : BufTy).Contents (Elt F)),
    unary main_v143 main_v144 (broadcastInDim S131072x96 ![0, 1] bcast_S1x96_S131072x96_0_1 : (⟨S1x96, .f32⟩ : BufTy).Contents (Elt F) → (⟨S131072x96, .f32⟩ : BufTy).Contents (Elt F)),
    binary main_v140 main_v144 main_v145 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S131072x96, .f32⟩) main_call14_v0) (broadcastInDim S131072x96 ![] bcast_S_S131072x96),
    TRef.binary (TRef.of (T := ⟨S131072x96, .f32⟩) main_v145) (TRef.of (T := ⟨S131072x96, .f32⟩) main_call14_v0) (TRef.of (T := ⟨S131072x96, .f32⟩) main_v146) maximumf,
    unary main_arg8 main_v147 ((extractStridedSlice S1x96x1 ![3, 0, 0] · slices_S8x96x1_S1x96x1_3_0_0) : (⟨S8x96x1, .f32⟩ : BufTy).Contents (Elt F) → (⟨S1x96x1, .f32⟩ : BufTy).Contents (Elt F)),
    reshape main_v147 main_v148 rfl shapeCasts_S1x96x1_S96x1,
    binary main_v146 main_v148 main_v149 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v150 ((extractStridedSlice S1x1 ![3, 0] · slices_S8x1_S1x1_3_0) : (⟨S8x1, .f32⟩ : BufTy).Contents (Elt F) → (⟨S1x1, .f32⟩ : BufTy).Contents (Elt F)),
    reshape main_v150 main_v151 rfl shapeCasts_S1x1_S1,
    unary main_v151 main_v152 (broadcastInDim S1x1 ![1] bcast_S1_S1x1_1 : (⟨S1, .f32⟩ : BufTy).Contents (Elt F) → (⟨S1x1, .f32⟩ : BufTy).Contents (Elt F)),
    unary main_v152 main_v153 (broadcastInDim S131072x1 ![0, 1] bcast_S1x1_S131072x1_0_1 : (⟨S1x1, .f32⟩ : BufTy).Contents (Elt F) → (⟨S131072x1, .f32⟩ : BufTy).Contents (Elt F)),
    binary main_v149 main_v153 main_v154 (addf : (⟨S131072x1, .f32⟩ : BufTy).Contents (Elt F) → (⟨S131072x1, .f32⟩ : BufTy).Contents (Elt F) → (⟨S131072x1, .f32⟩ : BufTy).Contents (Elt F)),
    reshape main_v154 main_v155 rfl shapeCasts_S131072x1_S131072,
    nullary main_c_2 (constantI S_ 32 3#32),
    unary main_c_2 main_v156 (broadcastInDim S131072 ![] bcast_S_S131072 : (⟨S_, .i32⟩ : BufTy).Contents (Elt F) → (⟨S131072, .i32⟩ : BufTy).Contents (Elt F)),
    binary main_v0 main_v156 main_v157 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v157) (TRef.of (T := ⟨S131072, .f32⟩) main_v155) (TRef.of (T := ⟨S131072, .f32⟩) main_v119) (TRef.of (T := ⟨S131072, .f32⟩) main_v158) select ]

/-- The merged vector after species 3: one choice on the species words between network 3 and the vector so far. -/
theorem out3 (V : Valuation τ sig (Elt Ideal)) :
    after (ops3 (F := Ideal)) V (Proc.devRef (τ := τ) .tc main_v158)
      = select (cmpi .eq (V (Proc.devRef (τ := τ) .tc main_v0)) (broadcastInDim S131072 ![] bcast_S_S131072 (constantI S_ 32 3#32)))
          (refNetwork 3 slices_S8x300x160_S1x300x160_3_0_0 slices_S8x160_S1x160_3_0 slices_S8x160x128_S1x160x128_3_0_0 slices_S8x128_S1x128_3_0 slices_S8x128x96_S1x128x96_3_0_0 slices_S8x96_S1x96_3_0 slices_S8x96x1_S1x96x1_3_0_0 slices_S8x1_S1x1_3_0
            (V (Proc.devRef (τ := τ) .tc main_v1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)))
          (V (Proc.devRef (τ := τ) .tc main_v119)) := by
  after_results_simp <;> rfl

/-- The line writes none of these buffers: each holds afterwards what it held before. -/
theorem keep3 (V : Valuation τ sig (Elt Ideal)) :
    after (ops3 (F := Ideal)) V (Proc.devRef (τ := τ) .tc main_v0) = V (Proc.devRef (τ := τ) .tc main_v0)
    ∧ after (ops3 (F := Ideal)) V (Proc.devRef (τ := τ) .tc main_v1) = V (Proc.devRef (τ := τ) .tc main_v1)
    ∧ after (ops3 (F := Ideal)) V (Proc.devRef (τ := τ) .tc main_arg0) = V (Proc.devRef (τ := τ) .tc main_arg0)
    ∧ after (ops3 (F := Ideal)) V (Proc.devRef (τ := τ) .tc main_arg1) = V (Proc.devRef (τ := τ) .tc main_arg1)
    ∧ after (ops3 (F := Ideal)) V (Proc.devRef (τ := τ) .tc main_arg2) = V (Proc.devRef (τ := τ) .tc main_arg2)
    ∧ after (ops3 (F := Ideal)) V (Proc.devRef (τ := τ) .tc main_arg3) = V (Proc.devRef (τ := τ) .tc main_arg3)
    ∧ after (ops3 (F := Ideal)) V (Proc.devRef (τ := τ) .tc main_arg4) = V (Proc.devRef (τ := τ) .tc main_arg4)
    ∧ after (ops3 (F := Ideal)) V (Proc.devRef (τ := τ) .tc main_arg5) = V (Proc.devRef (τ := τ) .tc main_arg5)
    ∧ after (ops3 (F := Ideal)) V (Proc.devRef (τ := τ) .tc main_arg6) = V (Proc.devRef (τ := τ) .tc main_arg6)
    ∧ after (ops3 (F := Ideal)) V (Proc.devRef (τ := τ) .tc main_arg7) = V (Proc.devRef (τ := τ) .tc main_arg7)
    ∧ after (ops3 (F := Ideal)) V (Proc.devRef (τ := τ) .tc main_arg8) = V (Proc.devRef (τ := τ) .tc main_arg8)
    ∧ after (ops3 (F := Ideal)) V (Proc.devRef (τ := τ) .tc main_arg9) = V (Proc.devRef (τ := τ) .tc main_arg9) := by
  refine ⟨?_, ?_, ?_, ?_, ?_, ?_, ?_, ?_, ?_, ?_, ?_, ?_⟩ <;> after_results_simp

end Cert.ReferenceIdeal.RefValue

end
-- ==== Proof.RefChunk4.lean ====
/-
  Species 4's forty-six operations, from any contents.

  Slab 4 of each stacked weight array and row 4 of each stacked bias array are cut out; three dense layers, each a
  product, the bias row repeated down the rows and the rectifier, and the one-column head follow; the column is flattened;
  the species words are compared with the literal 4 and, where they agree, the network's value replaces the vector
  merged so far. Read from an arbitrary valuation of the buffers: the line's last buffer holds one choice between
  `refNetwork 4` of the valuation's flattened features and parameters and the valuation's merged vector, and the
  buffers the line does not write keep their contents.
-/
import proofs.«129781_j39633958207559_2_alg».proof.Proof.RefAtoms
import Idealize.ShloMosaic.Lib.StableHlo.Run

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

/-- Species 4's operations. -/
abbrev ops4 : List (HloOp τ sig (Elt F)) :=
  [ unary main_arg2 main_v159 ((extractStridedSlice S1x300x160 ![4, 0, 0] · slices_S8x300x160_S1x300x160_4_0_0) : (⟨S8x300x160, .f32⟩ : BufTy).Contents (Elt F) → (⟨S1x300x160, .f32⟩ : BufTy).Contents (Elt F)),
    reshape main_v159 main_v160 rfl shapeCasts_S1x300x160_S300x160,
    binary main_v1 main_v160 main_v161 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v162 ((extractStridedSlice S1x160 ![4, 0] · slices_S8x160_S1x160_4_0) : (⟨S8x160, .f32⟩ : BufTy).Contents (Elt F) → (⟨S1x160, .f32⟩ : BufTy).Contents (Elt F)),
    reshape main_v162 main_v163 rfl shapeCasts_S1x160_S160,
    unary main_v163 main_v164 (broadcastInDim S1x160 ![1] bcast_S160_S1x160_1 : (⟨S160, .f32⟩ : BufTy).Contents (Elt F) → (⟨S1x160, .f32⟩ : BufTy).Contents (Elt F)),
    unary main_v164 main_v165 (broadcastInDim S131072x160 ![0, 1] bcast_S1x160_S131072x160_0_1 : (⟨S1x160, .f32⟩ : BufTy).Contents (Elt F) → (⟨S131072x160, .f32⟩ : BufTy).Contents (Elt F)),
    binary main_v161 main_v165 main_v166 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S131072x160, .f32⟩) main_call16_v0) (broadcastInDim S131072x160 ![] bcast_S_S131072x160),
    TRef.binary (TRef.of (T := ⟨S131072x160, .f32⟩) main_v166) (TRef.of (T := ⟨S131072x160, .f32⟩) main_call16_v0) (TRef.of (T := ⟨S131072x160, .f32⟩) main_v167) maximumf,
    unary main_arg4 main_v168 ((extractStridedSlice S1x160x128 ![4, 0, 0] · slices_S8x160x128_S1x160x128_4_0_0) : (⟨S8x160x128, .f32⟩ : BufTy).Contents (Elt F) → (⟨S1x160x128, .f32⟩ : BufTy).Contents (Elt F)),
    reshape main_v168 main_v169 rfl shapeCasts_S1x160x128_S160x128,
    binary main_v167 main_v169 main_v170 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v171 ((extractStridedSlice S1x128 ![4, 0] · slices_S8x128_S1x128_4_0) : (⟨S8x128, .f32⟩ : BufTy).Contents (Elt F) → (⟨S1x128, .f32⟩ : BufTy).Contents (Elt F)),
    reshape main_v171 main_v172 rfl shapeCasts_S1x128_S128,
    unary main_v172 main_v173 (broadcastInDim S1x128 ![1] bcast_S128_S1x128_1 : (⟨S128, .f32⟩ : BufTy).Contents (Elt F) → (⟨S1x128, .f32⟩ : BufTy).Contents (Elt F)),
    unary main_v173 main_v174 (broadcastInDim S131072x128 ![0, 1] bcast_S1x128_S131072x128_0_1 : (⟨S1x128, .f32⟩ : BufTy).Contents (Elt F) → (⟨S131072x128, .f32⟩ : BufTy).Contents (Elt F)),
    binary main_v170 main_v174 main_v175 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S131072x128, .f32⟩) main_call17_v0) (broadcastInDim S131072x128 ![] bcast_S_S131072x128),
    TRef.binary (TRef.of (T := ⟨S131072x128, .f32⟩) main_v175) (TRef.of (T := ⟨S131072x128, .f32⟩) main_call17_v0) (TRef.of (T := ⟨S131072x128, .f32⟩) main_v176) maximumf,
    unary main_arg6 main_v177 ((extractStridedSlice S1x128x96 ![4, 0, 0] · slices_S8x128x96_S1x128x96_4_0_0) : (⟨S8x128x96, .f32⟩ : BufTy).Contents (Elt F) → (⟨S1x128x96, .f32⟩ : BufTy).Contents (Elt F)),
    reshape main_v177 main_v178 rfl shapeCasts_S1x128x96_S128x96,
    binary main_v176 main_v178 main_v179 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v180 ((extractStridedSlice S1x96 ![4, 0] · slices_S8x96_S1x96_4_0) : (⟨S8x96, .f32⟩ : BufTy).Contents (Elt F) → (⟨S1x96, .f32⟩ : BufTy).Contents (Elt F)),
    reshape main_v180 main_v181 rfl shapeCasts_S1x96_S96,
    unary main_v181 main_v182 (broadcastInDim S1x96 ![1] bcast_S96_S1x96_1 : (⟨S96, .f32⟩ : BufTy).Contents (Elt F) → (⟨S1x96, .f32⟩ : BufTy).Contents (Elt F)),
    unary main_v182 main_v183 (broadcastInDim S131072x96 ![0, 1] bcast_S1x96_S131072x96_0_1 : (⟨S1x96, .f32⟩ : BufTy).Contents (Elt F) → (⟨S131072x96, .f32⟩ : BufTy).Contents (Elt F)),
    binary main_v179 main_v183 main_v184 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S131072x96, .f32⟩) main_call18_v0) (broadcastInDim S131072x96 ![] bcast_S_S131072x96),
    TRef.binary (TRef.of (T := ⟨S131072x96, .f32⟩) main_v184) (TRef.of (T := ⟨S131072x96, .f32⟩) main_call18_v0) (TRef.of (T := ⟨S131072x96, .f32⟩) main_v185) maximumf,
    unary main_arg8 main_v186 ((extractStridedSlice S1x96x1 ![4, 0, 0] · slices_S8x96x1_S1x96x1_4_0_0) : (⟨S8x96x1, .f32⟩ : BufTy).Contents (Elt F) → (⟨S1x96x1, .f32⟩ : BufTy).Contents (Elt F)),
    reshape main_v186 main_v187 rfl shapeCasts_S1x96x1_S96x1,
    binary main_v185 main_v187 main_v188 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v189 ((extractStridedSlice S1x1 ![4, 0] · slices_S8x1_S1x1_4_0) : (⟨S8x1, .f32⟩ : BufTy).Contents (Elt F) → (⟨S1x1, .f32⟩ : BufTy).Contents (Elt F)),
    reshape main_v189 main_v190 rfl shapeCasts_S1x1_S1,
    unary main_v190 main_v191 (broadcastInDim S1x1 ![1] bcast_S1_S1x1_1 : (⟨S1, .f32⟩ : BufTy).Contents (Elt F) → (⟨S1x1, .f32⟩ : BufTy).Contents (Elt F)),
    unary main_v191 main_v192 (broadcastInDim S131072x1 ![0, 1] bcast_S1x1_S131072x1_0_1 : (⟨S1x1, .f32⟩ : BufTy).Contents (Elt F) → (⟨S131072x1, .f32⟩ : BufTy).Contents (Elt F)),
    binary main_v188 main_v192 main_v193 (addf : (⟨S131072x1, .f32⟩ : BufTy).Contents (Elt F) → (⟨S131072x1, .f32⟩ : BufTy).Contents (Elt F) → (⟨S131072x1, .f32⟩ : BufTy).Contents (Elt F)),
    reshape main_v193 main_v194 rfl shapeCasts_S131072x1_S131072,
    nullary main_c_3 (constantI S_ 32 4#32),
    unary main_c_3 main_v195 (broadcastInDim S131072 ![] bcast_S_S131072 : (⟨S_, .i32⟩ : BufTy).Contents (Elt F) → (⟨S131072, .i32⟩ : BufTy).Contents (Elt F)),
    binary main_v0 main_v195 main_v196 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v196) (TRef.of (T := ⟨S131072, .f32⟩) main_v194) (TRef.of (T := ⟨S131072, .f32⟩) main_v158) (TRef.of (T := ⟨S131072, .f32⟩) main_v197) select ]

/-- The merged vector after species 4: one choice on the species words between network 4 and the vector so far. -/
theorem out4 (V : Valuation τ sig (Elt Ideal)) :
    after (ops4 (F := Ideal)) V (Proc.devRef (τ := τ) .tc main_v197)
      = select (cmpi .eq (V (Proc.devRef (τ := τ) .tc main_v0)) (broadcastInDim S131072 ![] bcast_S_S131072 (constantI S_ 32 4#32)))
          (refNetwork 4 slices_S8x300x160_S1x300x160_4_0_0 slices_S8x160_S1x160_4_0 slices_S8x160x128_S1x160x128_4_0_0 slices_S8x128_S1x128_4_0 slices_S8x128x96_S1x128x96_4_0_0 slices_S8x96_S1x96_4_0 slices_S8x96x1_S1x96x1_4_0_0 slices_S8x1_S1x1_4_0
            (V (Proc.devRef (τ := τ) .tc main_v1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)))
          (V (Proc.devRef (τ := τ) .tc main_v158)) := by
  after_results_simp <;> rfl

/-- The line writes none of these buffers: each holds afterwards what it held before. -/
theorem keep4 (V : Valuation τ sig (Elt Ideal)) :
    after (ops4 (F := Ideal)) V (Proc.devRef (τ := τ) .tc main_v0) = V (Proc.devRef (τ := τ) .tc main_v0)
    ∧ after (ops4 (F := Ideal)) V (Proc.devRef (τ := τ) .tc main_v1) = V (Proc.devRef (τ := τ) .tc main_v1)
    ∧ after (ops4 (F := Ideal)) V (Proc.devRef (τ := τ) .tc main_arg0) = V (Proc.devRef (τ := τ) .tc main_arg0)
    ∧ after (ops4 (F := Ideal)) V (Proc.devRef (τ := τ) .tc main_arg1) = V (Proc.devRef (τ := τ) .tc main_arg1)
    ∧ after (ops4 (F := Ideal)) V (Proc.devRef (τ := τ) .tc main_arg2) = V (Proc.devRef (τ := τ) .tc main_arg2)
    ∧ after (ops4 (F := Ideal)) V (Proc.devRef (τ := τ) .tc main_arg3) = V (Proc.devRef (τ := τ) .tc main_arg3)
    ∧ after (ops4 (F := Ideal)) V (Proc.devRef (τ := τ) .tc main_arg4) = V (Proc.devRef (τ := τ) .tc main_arg4)
    ∧ after (ops4 (F := Ideal)) V (Proc.devRef (τ := τ) .tc main_arg5) = V (Proc.devRef (τ := τ) .tc main_arg5)
    ∧ after (ops4 (F := Ideal)) V (Proc.devRef (τ := τ) .tc main_arg6) = V (Proc.devRef (τ := τ) .tc main_arg6)
    ∧ after (ops4 (F := Ideal)) V (Proc.devRef (τ := τ) .tc main_arg7) = V (Proc.devRef (τ := τ) .tc main_arg7)
    ∧ after (ops4 (F := Ideal)) V (Proc.devRef (τ := τ) .tc main_arg8) = V (Proc.devRef (τ := τ) .tc main_arg8)
    ∧ after (ops4 (F := Ideal)) V (Proc.devRef (τ := τ) .tc main_arg9) = V (Proc.devRef (τ := τ) .tc main_arg9) := by
  refine ⟨?_, ?_, ?_, ?_, ?_, ?_, ?_, ?_, ?_, ?_, ?_, ?_⟩ <;> after_results_simp

/-- The first 18 of them: those printed in the window that ends inside this species. -/
def ops4a : List (HloOp τ sig (Elt F)) :=
  [ unary main_arg2 main_v159 ((extractStridedSlice S1x300x160 ![4, 0, 0] · slices_S8x300x160_S1x300x160_4_0_0) : (⟨S8x300x160, .f32⟩ : BufTy).Contents (Elt F) → (⟨S1x300x160, .f32⟩ : BufTy).Contents (Elt F)),
    reshape main_v159 main_v160 rfl shapeCasts_S1x300x160_S300x160,
    binary main_v1 main_v160 main_v161 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v162 ((extractStridedSlice S1x160 ![4, 0] · slices_S8x160_S1x160_4_0) : (⟨S8x160, .f32⟩ : BufTy).Contents (Elt F) → (⟨S1x160, .f32⟩ : BufTy).Contents (Elt F)),
    reshape main_v162 main_v163 rfl shapeCasts_S1x160_S160,
    unary main_v163 main_v164 (broadcastInDim S1x160 ![1] bcast_S160_S1x160_1 : (⟨S160, .f32⟩ : BufTy).Contents (Elt F) → (⟨S1x160, .f32⟩ : BufTy).Contents (Elt F)),
    unary main_v164 main_v165 (broadcastInDim S131072x160 ![0, 1] bcast_S1x160_S131072x160_0_1 : (⟨S1x160, .f32⟩ : BufTy).Contents (Elt F) → (⟨S131072x160, .f32⟩ : BufTy).Contents (Elt F)),
    binary main_v161 main_v165 main_v166 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S131072x160, .f32⟩) main_call16_v0) (broadcastInDim S131072x160 ![] bcast_S_S131072x160),
    TRef.binary (TRef.of (T := ⟨S131072x160, .f32⟩) main_v166) (TRef.of (T := ⟨S131072x160, .f32⟩) main_call16_v0) (TRef.of (T := ⟨S131072x160, .f32⟩) main_v167) maximumf,
    unary main_arg4 main_v168 ((extractStridedSlice S1x160x128 ![4, 0, 0] · slices_S8x160x128_S1x160x128_4_0_0) : (⟨S8x160x128, .f32⟩ : BufTy).Contents (Elt F) → (⟨S1x160x128, .f32⟩ : BufTy).Contents (Elt F)),
    reshape main_v168 main_v169 rfl shapeCasts_S1x160x128_S160x128,
    binary main_v167 main_v169 main_v170 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v171 ((extractStridedSlice S1x128 ![4, 0] · slices_S8x128_S1x128_4_0) : (⟨S8x128, .f32⟩ : BufTy).Contents (Elt F) → (⟨S1x128, .f32⟩ : BufTy).Contents (Elt F)),
    reshape main_v171 main_v172 rfl shapeCasts_S1x128_S128,
    unary main_v172 main_v173 (broadcastInDim S1x128 ![1] bcast_S128_S1x128_1 : (⟨S128, .f32⟩ : BufTy).Contents (Elt F) → (⟨S1x128, .f32⟩ : BufTy).Contents (Elt F)),
    unary main_v173 main_v174 (broadcastInDim S131072x128 ![0, 1] bcast_S1x128_S131072x128_0_1 : (⟨S1x128, .f32⟩ : BufTy).Contents (Elt F) → (⟨S131072x128, .f32⟩ : BufTy).Contents (Elt F)) ]

/-- The other 28, printed in the next window. -/
def ops4b : List (HloOp τ sig (Elt F)) :=
  [ binary main_v170 main_v174 main_v175 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S131072x128, .f32⟩) main_call17_v0) (broadcastInDim S131072x128 ![] bcast_S_S131072x128),
    TRef.binary (TRef.of (T := ⟨S131072x128, .f32⟩) main_v175) (TRef.of (T := ⟨S131072x128, .f32⟩) main_call17_v0) (TRef.of (T := ⟨S131072x128, .f32⟩) main_v176) maximumf,
    unary main_arg6 main_v177 ((extractStridedSlice S1x128x96 ![4, 0, 0] · slices_S8x128x96_S1x128x96_4_0_0) : (⟨S8x128x96, .f32⟩ : BufTy).Contents (Elt F) → (⟨S1x128x96, .f32⟩ : BufTy).Contents (Elt F)),
    reshape main_v177 main_v178 rfl shapeCasts_S1x128x96_S128x96,
    binary main_v176 main_v178 main_v179 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v180 ((extractStridedSlice S1x96 ![4, 0] · slices_S8x96_S1x96_4_0) : (⟨S8x96, .f32⟩ : BufTy).Contents (Elt F) → (⟨S1x96, .f32⟩ : BufTy).Contents (Elt F)),
    reshape main_v180 main_v181 rfl shapeCasts_S1x96_S96,
    unary main_v181 main_v182 (broadcastInDim S1x96 ![1] bcast_S96_S1x96_1 : (⟨S96, .f32⟩ : BufTy).Contents (Elt F) → (⟨S1x96, .f32⟩ : BufTy).Contents (Elt F)),
    unary main_v182 main_v183 (broadcastInDim S131072x96 ![0, 1] bcast_S1x96_S131072x96_0_1 : (⟨S1x96, .f32⟩ : BufTy).Contents (Elt F) → (⟨S131072x96, .f32⟩ : BufTy).Contents (Elt F)),
    binary main_v179 main_v183 main_v184 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S131072x96, .f32⟩) main_call18_v0) (broadcastInDim S131072x96 ![] bcast_S_S131072x96),
    TRef.binary (TRef.of (T := ⟨S131072x96, .f32⟩) main_v184) (TRef.of (T := ⟨S131072x96, .f32⟩) main_call18_v0) (TRef.of (T := ⟨S131072x96, .f32⟩) main_v185) maximumf,
    unary main_arg8 main_v186 ((extractStridedSlice S1x96x1 ![4, 0, 0] · slices_S8x96x1_S1x96x1_4_0_0) : (⟨S8x96x1, .f32⟩ : BufTy).Contents (Elt F) → (⟨S1x96x1, .f32⟩ : BufTy).Contents (Elt F)),
    reshape main_v186 main_v187 rfl shapeCasts_S1x96x1_S96x1,
    binary main_v185 main_v187 main_v188 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v189 ((extractStridedSlice S1x1 ![4, 0] · slices_S8x1_S1x1_4_0) : (⟨S8x1, .f32⟩ : BufTy).Contents (Elt F) → (⟨S1x1, .f32⟩ : BufTy).Contents (Elt F)),
    reshape main_v189 main_v190 rfl shapeCasts_S1x1_S1,
    unary main_v190 main_v191 (broadcastInDim S1x1 ![1] bcast_S1_S1x1_1 : (⟨S1, .f32⟩ : BufTy).Contents (Elt F) → (⟨S1x1, .f32⟩ : BufTy).Contents (Elt F)),
    unary main_v191 main_v192 (broadcastInDim S131072x1 ![0, 1] bcast_S1x1_S131072x1_0_1 : (⟨S1x1, .f32⟩ : BufTy).Contents (Elt F) → (⟨S131072x1, .f32⟩ : BufTy).Contents (Elt F)),
    binary main_v188 main_v192 main_v193 (addf : (⟨S131072x1, .f32⟩ : BufTy).Contents (Elt F) → (⟨S131072x1, .f32⟩ : BufTy).Contents (Elt F) → (⟨S131072x1, .f32⟩ : BufTy).Contents (Elt F)),
    reshape main_v193 main_v194 rfl shapeCasts_S131072x1_S131072,
    nullary main_c_3 (constantI S_ 32 4#32),
    unary main_c_3 main_v195 (broadcastInDim S131072 ![] bcast_S_S131072 : (⟨S_, .i32⟩ : BufTy).Contents (Elt F) → (⟨S131072, .i32⟩ : BufTy).Contents (Elt F)),
    binary main_v0 main_v195 main_v196 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v196) (TRef.of (T := ⟨S131072, .f32⟩) main_v194) (TRef.of (T := ⟨S131072, .f32⟩) main_v158) (TRef.of (T := ⟨S131072, .f32⟩) main_v197) select ]

theorem split4 : (ops4 : List (HloOp τ sig (Elt F))) = ops4a ++ ops4b := rfl

end Cert.ReferenceIdeal.RefValue

end
-- ==== Proof.RefChunk5.lean ====
/-
  Species 5's forty-six operations, from any contents.

  Slab 5 of each stacked weight array and row 5 of each stacked bias array are cut out; three dense layers, each a
  product, the bias row repeated down the rows and the rectifier, and the one-column head follow; the column is flattened;
  the species words are compared with the literal 5 and, where they agree, the network's value replaces the vector
  merged so far. Read from an arbitrary valuation of the buffers: the line's last buffer holds one choice between
  `refNetwork 5` of the valuation's flattened features and parameters and the valuation's merged vector, and the
  buffers the line does not write keep their contents.
-/
import proofs.«129781_j39633958207559_2_alg».proof.Proof.RefAtoms
import Idealize.ShloMosaic.Lib.StableHlo.Run

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

/-- Species 5's operations. -/
abbrev ops5 : List (HloOp τ sig (Elt F)) :=
  [ unary main_arg2 main_v198 ((extractStridedSlice S1x300x160 ![5, 0, 0] · slices_S8x300x160_S1x300x160_5_0_0) : (⟨S8x300x160, .f32⟩ : BufTy).Contents (Elt F) → (⟨S1x300x160, .f32⟩ : BufTy).Contents (Elt F)),
    reshape main_v198 main_v199 rfl shapeCasts_S1x300x160_S300x160,
    binary main_v1 main_v199 main_v200 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v201 ((extractStridedSlice S1x160 ![5, 0] · slices_S8x160_S1x160_5_0) : (⟨S8x160, .f32⟩ : BufTy).Contents (Elt F) → (⟨S1x160, .f32⟩ : BufTy).Contents (Elt F)),
    reshape main_v201 main_v202 rfl shapeCasts_S1x160_S160,
    unary main_v202 main_v203 (broadcastInDim S1x160 ![1] bcast_S160_S1x160_1 : (⟨S160, .f32⟩ : BufTy).Contents (Elt F) → (⟨S1x160, .f32⟩ : BufTy).Contents (Elt F)),
    unary main_v203 main_v204 (broadcastInDim S131072x160 ![0, 1] bcast_S1x160_S131072x160_0_1 : (⟨S1x160, .f32⟩ : BufTy).Contents (Elt F) → (⟨S131072x160, .f32⟩ : BufTy).Contents (Elt F)),
    binary main_v200 main_v204 main_v205 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S131072x160, .f32⟩) main_call20_v0) (broadcastInDim S131072x160 ![] bcast_S_S131072x160),
    TRef.binary (TRef.of (T := ⟨S131072x160, .f32⟩) main_v205) (TRef.of (T := ⟨S131072x160, .f32⟩) main_call20_v0) (TRef.of (T := ⟨S131072x160, .f32⟩) main_v206) maximumf,
    unary main_arg4 main_v207 ((extractStridedSlice S1x160x128 ![5, 0, 0] · slices_S8x160x128_S1x160x128_5_0_0) : (⟨S8x160x128, .f32⟩ : BufTy).Contents (Elt F) → (⟨S1x160x128, .f32⟩ : BufTy).Contents (Elt F)),
    reshape main_v207 main_v208 rfl shapeCasts_S1x160x128_S160x128,
    binary main_v206 main_v208 main_v209 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v210 ((extractStridedSlice S1x128 ![5, 0] · slices_S8x128_S1x128_5_0) : (⟨S8x128, .f32⟩ : BufTy).Contents (Elt F) → (⟨S1x128, .f32⟩ : BufTy).Contents (Elt F)),
    reshape main_v210 main_v211 rfl shapeCasts_S1x128_S128,
    unary main_v211 main_v212 (broadcastInDim S1x128 ![1] bcast_S128_S1x128_1 : (⟨S128, .f32⟩ : BufTy).Contents (Elt F) → (⟨S1x128, .f32⟩ : BufTy).Contents (Elt F)),
    unary main_v212 main_v213 (broadcastInDim S131072x128 ![0, 1] bcast_S1x128_S131072x128_0_1 : (⟨S1x128, .f32⟩ : BufTy).Contents (Elt F) → (⟨S131072x128, .f32⟩ : BufTy).Contents (Elt F)),
    binary main_v209 main_v213 main_v214 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S131072x128, .f32⟩) main_call21_v0) (broadcastInDim S131072x128 ![] bcast_S_S131072x128),
    TRef.binary (TRef.of (T := ⟨S131072x128, .f32⟩) main_v214) (TRef.of (T := ⟨S131072x128, .f32⟩) main_call21_v0) (TRef.of (T := ⟨S131072x128, .f32⟩) main_v215) maximumf,
    unary main_arg6 main_v216 ((extractStridedSlice S1x128x96 ![5, 0, 0] · slices_S8x128x96_S1x128x96_5_0_0) : (⟨S8x128x96, .f32⟩ : BufTy).Contents (Elt F) → (⟨S1x128x96, .f32⟩ : BufTy).Contents (Elt F)),
    reshape main_v216 main_v217 rfl shapeCasts_S1x128x96_S128x96,
    binary main_v215 main_v217 main_v218 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v219 ((extractStridedSlice S1x96 ![5, 0] · slices_S8x96_S1x96_5_0) : (⟨S8x96, .f32⟩ : BufTy).Contents (Elt F) → (⟨S1x96, .f32⟩ : BufTy).Contents (Elt F)),
    reshape main_v219 main_v220 rfl shapeCasts_S1x96_S96,
    unary main_v220 main_v221 (broadcastInDim S1x96 ![1] bcast_S96_S1x96_1 : (⟨S96, .f32⟩ : BufTy).Contents (Elt F) → (⟨S1x96, .f32⟩ : BufTy).Contents (Elt F)),
    unary main_v221 main_v222 (broadcastInDim S131072x96 ![0, 1] bcast_S1x96_S131072x96_0_1 : (⟨S1x96, .f32⟩ : BufTy).Contents (Elt F) → (⟨S131072x96, .f32⟩ : BufTy).Contents (Elt F)),
    binary main_v218 main_v222 main_v223 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S131072x96, .f32⟩) main_call22_v0) (broadcastInDim S131072x96 ![] bcast_S_S131072x96),
    TRef.binary (TRef.of (T := ⟨S131072x96, .f32⟩) main_v223) (TRef.of (T := ⟨S131072x96, .f32⟩) main_call22_v0) (TRef.of (T := ⟨S131072x96, .f32⟩) main_v224) maximumf,
    unary main_arg8 main_v225 ((extractStridedSlice S1x96x1 ![5, 0, 0] · slices_S8x96x1_S1x96x1_5_0_0) : (⟨S8x96x1, .f32⟩ : BufTy).Contents (Elt F) → (⟨S1x96x1, .f32⟩ : BufTy).Contents (Elt F)),
    reshape main_v225 main_v226 rfl shapeCasts_S1x96x1_S96x1,
    binary main_v224 main_v226 main_v227 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v228 ((extractStridedSlice S1x1 ![5, 0] · slices_S8x1_S1x1_5_0) : (⟨S8x1, .f32⟩ : BufTy).Contents (Elt F) → (⟨S1x1, .f32⟩ : BufTy).Contents (Elt F)),
    reshape main_v228 main_v229 rfl shapeCasts_S1x1_S1,
    unary main_v229 main_v230 (broadcastInDim S1x1 ![1] bcast_S1_S1x1_1 : (⟨S1, .f32⟩ : BufTy).Contents (Elt F) → (⟨S1x1, .f32⟩ : BufTy).Contents (Elt F)),
    unary main_v230 main_v231 (broadcastInDim S131072x1 ![0, 1] bcast_S1x1_S131072x1_0_1 : (⟨S1x1, .f32⟩ : BufTy).Contents (Elt F) → (⟨S131072x1, .f32⟩ : BufTy).Contents (Elt F)),
    binary main_v227 main_v231 main_v232 (addf : (⟨S131072x1, .f32⟩ : BufTy).Contents (Elt F) → (⟨S131072x1, .f32⟩ : BufTy).Contents (Elt F) → (⟨S131072x1, .f32⟩ : BufTy).Contents (Elt F)),
    reshape main_v232 main_v233 rfl shapeCasts_S131072x1_S131072,
    nullary main_c_4 (constantI S_ 32 5#32),
    unary main_c_4 main_v234 (broadcastInDim S131072 ![] bcast_S_S131072 : (⟨S_, .i32⟩ : BufTy).Contents (Elt F) → (⟨S131072, .i32⟩ : BufTy).Contents (Elt F)),
    binary main_v0 main_v234 main_v235 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v235) (TRef.of (T := ⟨S131072, .f32⟩) main_v233) (TRef.of (T := ⟨S131072, .f32⟩) main_v197) (TRef.of (T := ⟨S131072, .f32⟩) main_v236) select ]

/-- The merged vector after species 5: one choice on the species words between network 5 and the vector so far. -/
theorem out5 (V : Valuation τ sig (Elt Ideal)) :
    after (ops5 (F := Ideal)) V (Proc.devRef (τ := τ) .tc main_v236)
      = select (cmpi .eq (V (Proc.devRef (τ := τ) .tc main_v0)) (broadcastInDim S131072 ![] bcast_S_S131072 (constantI S_ 32 5#32)))
          (refNetwork 5 slices_S8x300x160_S1x300x160_5_0_0 slices_S8x160_S1x160_5_0 slices_S8x160x128_S1x160x128_5_0_0 slices_S8x128_S1x128_5_0 slices_S8x128x96_S1x128x96_5_0_0 slices_S8x96_S1x96_5_0 slices_S8x96x1_S1x96x1_5_0_0 slices_S8x1_S1x1_5_0
            (V (Proc.devRef (τ := τ) .tc main_v1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)))
          (V (Proc.devRef (τ := τ) .tc main_v197)) := by
  after_results_simp <;> rfl

/-- The line writes none of these buffers: each holds afterwards what it held before. -/
theorem keep5 (V : Valuation τ sig (Elt Ideal)) :
    after (ops5 (F := Ideal)) V (Proc.devRef (τ := τ) .tc main_v0) = V (Proc.devRef (τ := τ) .tc main_v0)
    ∧ after (ops5 (F := Ideal)) V (Proc.devRef (τ := τ) .tc main_v1) = V (Proc.devRef (τ := τ) .tc main_v1)
    ∧ after (ops5 (F := Ideal)) V (Proc.devRef (τ := τ) .tc main_arg0) = V (Proc.devRef (τ := τ) .tc main_arg0)
    ∧ after (ops5 (F := Ideal)) V (Proc.devRef (τ := τ) .tc main_arg1) = V (Proc.devRef (τ := τ) .tc main_arg1)
    ∧ after (ops5 (F := Ideal)) V (Proc.devRef (τ := τ) .tc main_arg2) = V (Proc.devRef (τ := τ) .tc main_arg2)
    ∧ after (ops5 (F := Ideal)) V (Proc.devRef (τ := τ) .tc main_arg3) = V (Proc.devRef (τ := τ) .tc main_arg3)
    ∧ after (ops5 (F := Ideal)) V (Proc.devRef (τ := τ) .tc main_arg4) = V (Proc.devRef (τ := τ) .tc main_arg4)
    ∧ after (ops5 (F := Ideal)) V (Proc.devRef (τ := τ) .tc main_arg5) = V (Proc.devRef (τ := τ) .tc main_arg5)
    ∧ after (ops5 (F := Ideal)) V (Proc.devRef (τ := τ) .tc main_arg6) = V (Proc.devRef (τ := τ) .tc main_arg6)
    ∧ after (ops5 (F := Ideal)) V (Proc.devRef (τ := τ) .tc main_arg7) = V (Proc.devRef (τ := τ) .tc main_arg7)
    ∧ after (ops5 (F := Ideal)) V (Proc.devRef (τ := τ) .tc main_arg8) = V (Proc.devRef (τ := τ) .tc main_arg8)
    ∧ after (ops5 (F := Ideal)) V (Proc.devRef (τ := τ) .tc main_arg9) = V (Proc.devRef (τ := τ) .tc main_arg9) := by
  refine ⟨?_, ?_, ?_, ?_, ?_, ?_, ?_, ?_, ?_, ?_, ?_, ?_⟩ <;> after_results_simp

/-- The first 42 of them: those printed in the window that ends inside this species. -/
def ops5a : List (HloOp τ sig (Elt F)) :=
  [ unary main_arg2 main_v198 ((extractStridedSlice S1x300x160 ![5, 0, 0] · slices_S8x300x160_S1x300x160_5_0_0) : (⟨S8x300x160, .f32⟩ : BufTy).Contents (Elt F) → (⟨S1x300x160, .f32⟩ : BufTy).Contents (Elt F)),
    reshape main_v198 main_v199 rfl shapeCasts_S1x300x160_S300x160,
    binary main_v1 main_v199 main_v200 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v201 ((extractStridedSlice S1x160 ![5, 0] · slices_S8x160_S1x160_5_0) : (⟨S8x160, .f32⟩ : BufTy).Contents (Elt F) → (⟨S1x160, .f32⟩ : BufTy).Contents (Elt F)),
    reshape main_v201 main_v202 rfl shapeCasts_S1x160_S160,
    unary main_v202 main_v203 (broadcastInDim S1x160 ![1] bcast_S160_S1x160_1 : (⟨S160, .f32⟩ : BufTy).Contents (Elt F) → (⟨S1x160, .f32⟩ : BufTy).Contents (Elt F)),
    unary main_v203 main_v204 (broadcastInDim S131072x160 ![0, 1] bcast_S1x160_S131072x160_0_1 : (⟨S1x160, .f32⟩ : BufTy).Contents (Elt F) → (⟨S131072x160, .f32⟩ : BufTy).Contents (Elt F)),
    binary main_v200 main_v204 main_v205 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S131072x160, .f32⟩) main_call20_v0) (broadcastInDim S131072x160 ![] bcast_S_S131072x160),
    TRef.binary (TRef.of (T := ⟨S131072x160, .f32⟩) main_v205) (TRef.of (T := ⟨S131072x160, .f32⟩) main_call20_v0) (TRef.of (T := ⟨S131072x160, .f32⟩) main_v206) maximumf,
    unary main_arg4 main_v207 ((extractStridedSlice S1x160x128 ![5, 0, 0] · slices_S8x160x128_S1x160x128_5_0_0) : (⟨S8x160x128, .f32⟩ : BufTy).Contents (Elt F) → (⟨S1x160x128, .f32⟩ : BufTy).Contents (Elt F)),
    reshape main_v207 main_v208 rfl shapeCasts_S1x160x128_S160x128,
    binary main_v206 main_v208 main_v209 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v210 ((extractStridedSlice S1x128 ![5, 0] · slices_S8x128_S1x128_5_0) : (⟨S8x128, .f32⟩ : BufTy).Contents (Elt F) → (⟨S1x128, .f32⟩ : BufTy).Contents (Elt F)),
    reshape main_v210 main_v211 rfl shapeCasts_S1x128_S128,
    unary main_v211 main_v212 (broadcastInDim S1x128 ![1] bcast_S128_S1x128_1 : (⟨S128, .f32⟩ : BufTy).Contents (Elt F) → (⟨S1x128, .f32⟩ : BufTy).Contents (Elt F)),
    unary main_v212 main_v213 (broadcastInDim S131072x128 ![0, 1] bcast_S1x128_S131072x128_0_1 : (⟨S1x128, .f32⟩ : BufTy).Contents (Elt F) → (⟨S131072x128, .f32⟩ : BufTy).Contents (Elt F)),
    binary main_v209 main_v213 main_v214 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S131072x128, .f32⟩) main_call21_v0) (broadcastInDim S131072x128 ![] bcast_S_S131072x128),
    TRef.binary (TRef.of (T := ⟨S131072x128, .f32⟩) main_v214) (TRef.of (T := ⟨S131072x128, .f32⟩) main_call21_v0) (TRef.of (T := ⟨S131072x128, .f32⟩) main_v215) maximumf,
    unary main_arg6 main_v216 ((extractStridedSlice S1x128x96 ![5, 0, 0] · slices_S8x128x96_S1x128x96_5_0_0) : (⟨S8x128x96, .f32⟩ : BufTy).Contents (Elt F) → (⟨S1x128x96, .f32⟩ : BufTy).Contents (Elt F)),
    reshape main_v216 main_v217 rfl shapeCasts_S1x128x96_S128x96,
    binary main_v215 main_v217 main_v218 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v219 ((extractStridedSlice S1x96 ![5, 0] · slices_S8x96_S1x96_5_0) : (⟨S8x96, .f32⟩ : BufTy).Contents (Elt F) → (⟨S1x96, .f32⟩ : BufTy).Contents (Elt F)),
    reshape main_v219 main_v220 rfl shapeCasts_S1x96_S96,
    unary main_v220 main_v221 (broadcastInDim S1x96 ![1] bcast_S96_S1x96_1 : (⟨S96, .f32⟩ : BufTy).Contents (Elt F) → (⟨S1x96, .f32⟩ : BufTy).Contents (Elt F)),
    unary main_v221 main_v222 (broadcastInDim S131072x96 ![0, 1] bcast_S1x96_S131072x96_0_1 : (⟨S1x96, .f32⟩ : BufTy).Contents (Elt F) → (⟨S131072x96, .f32⟩ : BufTy).Contents (Elt F)),
    binary main_v218 main_v222 main_v223 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S131072x96, .f32⟩) main_call22_v0) (broadcastInDim S131072x96 ![] bcast_S_S131072x96),
    TRef.binary (TRef.of (T := ⟨S131072x96, .f32⟩) main_v223) (TRef.of (T := ⟨S131072x96, .f32⟩) main_call22_v0) (TRef.of (T := ⟨S131072x96, .f32⟩) main_v224) maximumf,
    unary main_arg8 main_v225 ((extractStridedSlice S1x96x1 ![5, 0, 0] · slices_S8x96x1_S1x96x1_5_0_0) : (⟨S8x96x1, .f32⟩ : BufTy).Contents (Elt F) → (⟨S1x96x1, .f32⟩ : BufTy).Contents (Elt F)),
    reshape main_v225 main_v226 rfl shapeCasts_S1x96x1_S96x1,
    binary main_v224 main_v226 main_v227 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v228 ((extractStridedSlice S1x1 ![5, 0] · slices_S8x1_S1x1_5_0) : (⟨S8x1, .f32⟩ : BufTy).Contents (Elt F) → (⟨S1x1, .f32⟩ : BufTy).Contents (Elt F)),
    reshape main_v228 main_v229 rfl shapeCasts_S1x1_S1,
    unary main_v229 main_v230 (broadcastInDim S1x1 ![1] bcast_S1_S1x1_1 : (⟨S1, .f32⟩ : BufTy).Contents (Elt F) → (⟨S1x1, .f32⟩ : BufTy).Contents (Elt F)),
    unary main_v230 main_v231 (broadcastInDim S131072x1 ![0, 1] bcast_S1x1_S131072x1_0_1 : (⟨S1x1, .f32⟩ : BufTy).Contents (Elt F) → (⟨S131072x1, .f32⟩ : BufTy).Contents (Elt F)),
    binary main_v227 main_v231 main_v232 (addf : (⟨S131072x1, .f32⟩ : BufTy).Contents (Elt F) → (⟨S131072x1, .f32⟩ : BufTy).Contents (Elt F) → (⟨S131072x1, .f32⟩ : BufTy).Contents (Elt F)),
    reshape main_v232 main_v233 rfl shapeCasts_S131072x1_S131072 ]

/-- The other 4, printed in the next window. -/
def ops5b : List (HloOp τ sig (Elt F)) :=
  [ nullary main_c_4 (constantI S_ 32 5#32),
    unary main_c_4 main_v234 (broadcastInDim S131072 ![] bcast_S_S131072 : (⟨S_, .i32⟩ : BufTy).Contents (Elt F) → (⟨S131072, .i32⟩ : BufTy).Contents (Elt F)),
    binary main_v0 main_v234 main_v235 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v235) (TRef.of (T := ⟨S131072, .f32⟩) main_v233) (TRef.of (T := ⟨S131072, .f32⟩) main_v197) (TRef.of (T := ⟨S131072, .f32⟩) main_v236) select ]

theorem split5 : (ops5 : List (HloOp τ sig (Elt F))) = ops5a ++ ops5b := rfl

end Cert.ReferenceIdeal.RefValue

end
-- ==== Proof.RefChunk6.lean ====
/-
  Species 6's forty-six operations, from any contents.

  Slab 6 of each stacked weight array and row 6 of each stacked bias array are cut out; three dense layers, each a
  product, the bias row repeated down the rows and the rectifier, and the one-column head follow; the column is flattened;
  the species words are compared with the literal 6 and, where they agree, the network's value replaces the vector
  merged so far. Read from an arbitrary valuation of the buffers: the line's last buffer holds one choice between
  `refNetwork 6` of the valuation's flattened features and parameters and the valuation's merged vector, and the
  buffers the line does not write keep their contents.
-/
import proofs.«129781_j39633958207559_2_alg».proof.Proof.RefAtoms
import Idealize.ShloMosaic.Lib.StableHlo.Run

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

/-- Species 6's operations. -/
abbrev ops6 : List (HloOp τ sig (Elt F)) :=
  [ unary main_arg2 main_v237 ((extractStridedSlice S1x300x160 ![6, 0, 0] · slices_S8x300x160_S1x300x160_6_0_0) : (⟨S8x300x160, .f32⟩ : BufTy).Contents (Elt F) → (⟨S1x300x160, .f32⟩ : BufTy).Contents (Elt F)),
    reshape main_v237 main_v238 rfl shapeCasts_S1x300x160_S300x160,
    binary main_v1 main_v238 main_v239 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v240 ((extractStridedSlice S1x160 ![6, 0] · slices_S8x160_S1x160_6_0) : (⟨S8x160, .f32⟩ : BufTy).Contents (Elt F) → (⟨S1x160, .f32⟩ : BufTy).Contents (Elt F)),
    reshape main_v240 main_v241 rfl shapeCasts_S1x160_S160,
    unary main_v241 main_v242 (broadcastInDim S1x160 ![1] bcast_S160_S1x160_1 : (⟨S160, .f32⟩ : BufTy).Contents (Elt F) → (⟨S1x160, .f32⟩ : BufTy).Contents (Elt F)),
    unary main_v242 main_v243 (broadcastInDim S131072x160 ![0, 1] bcast_S1x160_S131072x160_0_1 : (⟨S1x160, .f32⟩ : BufTy).Contents (Elt F) → (⟨S131072x160, .f32⟩ : BufTy).Contents (Elt F)),
    binary main_v239 main_v243 main_v244 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call24_cst) (constant S_ .f32 0x00000000#32),
    TRef.unary (TRef.of (T := ⟨S_, .f32⟩) main_call24_cst) (TRef.of (T := ⟨S131072x160, .f32⟩) main_call24_v0) (broadcastInDim S131072x160 ![] bcast_S_S131072x160),
    TRef.binary (TRef.of (T := ⟨S131072x160, .f32⟩) main_v244) (TRef.of (T := ⟨S131072x160, .f32⟩) main_call24_v0) (TRef.of (T := ⟨S131072x160, .f32⟩) main_v245) maximumf,
    unary main_arg4 main_v246 ((extractStridedSlice S1x160x128 ![6, 0, 0] · slices_S8x160x128_S1x160x128_6_0_0) : (⟨S8x160x128, .f32⟩ : BufTy).Contents (Elt F) → (⟨S1x160x128, .f32⟩ : BufTy).Contents (Elt F)),
    reshape main_v246 main_v247 rfl shapeCasts_S1x160x128_S160x128,
    binary main_v245 main_v247 main_v248 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v249 ((extractStridedSlice S1x128 ![6, 0] · slices_S8x128_S1x128_6_0) : (⟨S8x128, .f32⟩ : BufTy).Contents (Elt F) → (⟨S1x128, .f32⟩ : BufTy).Contents (Elt F)),
    reshape main_v249 main_v250 rfl shapeCasts_S1x128_S128,
    unary main_v250 main_v251 (broadcastInDim S1x128 ![1] bcast_S128_S1x128_1 : (⟨S128, .f32⟩ : BufTy).Contents (Elt F) → (⟨S1x128, .f32⟩ : BufTy).Contents (Elt F)),
    unary main_v251 main_v252 (broadcastInDim S131072x128 ![0, 1] bcast_S1x128_S131072x128_0_1 : (⟨S1x128, .f32⟩ : BufTy).Contents (Elt F) → (⟨S131072x128, .f32⟩ : BufTy).Contents (Elt F)),
    binary main_v248 main_v252 main_v253 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S131072x128, .f32⟩) main_call25_v0) (broadcastInDim S131072x128 ![] bcast_S_S131072x128),
    TRef.binary (TRef.of (T := ⟨S131072x128, .f32⟩) main_v253) (TRef.of (T := ⟨S131072x128, .f32⟩) main_call25_v0) (TRef.of (T := ⟨S131072x128, .f32⟩) main_v254) maximumf,
    unary main_arg6 main_v255 ((extractStridedSlice S1x128x96 ![6, 0, 0] · slices_S8x128x96_S1x128x96_6_0_0) : (⟨S8x128x96, .f32⟩ : BufTy).Contents (Elt F) → (⟨S1x128x96, .f32⟩ : BufTy).Contents (Elt F)),
    reshape main_v255 main_v256 rfl shapeCasts_S1x128x96_S128x96,
    binary main_v254 main_v256 main_v257 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v258 ((extractStridedSlice S1x96 ![6, 0] · slices_S8x96_S1x96_6_0) : (⟨S8x96, .f32⟩ : BufTy).Contents (Elt F) → (⟨S1x96, .f32⟩ : BufTy).Contents (Elt F)),
    reshape main_v258 main_v259 rfl shapeCasts_S1x96_S96,
    unary main_v259 main_v260 (broadcastInDim S1x96 ![1] bcast_S96_S1x96_1 : (⟨S96, .f32⟩ : BufTy).Contents (Elt F) → (⟨S1x96, .f32⟩ : BufTy).Contents (Elt F)),
    unary main_v260 main_v261 (broadcastInDim S131072x96 ![0, 1] bcast_S1x96_S131072x96_0_1 : (⟨S1x96, .f32⟩ : BufTy).Contents (Elt F) → (⟨S131072x96, .f32⟩ : BufTy).Contents (Elt F)),
    binary main_v257 main_v261 main_v262 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call26_cst) (constant S_ .f32 0x00000000#32),
    TRef.unary (TRef.of (T := ⟨S_, .f32⟩) main_call26_cst) (TRef.of (T := ⟨S131072x96, .f32⟩) main_call26_v0) (broadcastInDim S131072x96 ![] bcast_S_S131072x96),
    TRef.binary (TRef.of (T := ⟨S131072x96, .f32⟩) main_v262) (TRef.of (T := ⟨S131072x96, .f32⟩) main_call26_v0) (TRef.of (T := ⟨S131072x96, .f32⟩) main_v263) maximumf,
    unary main_arg8 main_v264 ((extractStridedSlice S1x96x1 ![6, 0, 0] · slices_S8x96x1_S1x96x1_6_0_0) : (⟨S8x96x1, .f32⟩ : BufTy).Contents (Elt F) → (⟨S1x96x1, .f32⟩ : BufTy).Contents (Elt F)),
    reshape main_v264 main_v265 rfl shapeCasts_S1x96x1_S96x1,
    binary main_v263 main_v265 main_v266 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v267 ((extractStridedSlice S1x1 ![6, 0] · slices_S8x1_S1x1_6_0) : (⟨S8x1, .f32⟩ : BufTy).Contents (Elt F) → (⟨S1x1, .f32⟩ : BufTy).Contents (Elt F)),
    reshape main_v267 main_v268 rfl shapeCasts_S1x1_S1,
    unary main_v268 main_v269 (broadcastInDim S1x1 ![1] bcast_S1_S1x1_1 : (⟨S1, .f32⟩ : BufTy).Contents (Elt F) → (⟨S1x1, .f32⟩ : BufTy).Contents (Elt F)),
    unary main_v269 main_v270 (broadcastInDim S131072x1 ![0, 1] bcast_S1x1_S131072x1_0_1 : (⟨S1x1, .f32⟩ : BufTy).Contents (Elt F) → (⟨S131072x1, .f32⟩ : BufTy).Contents (Elt F)),
    binary main_v266 main_v270 main_v271 (addf : (⟨S131072x1, .f32⟩ : BufTy).Contents (Elt F) → (⟨S131072x1, .f32⟩ : BufTy).Contents (Elt F) → (⟨S131072x1, .f32⟩ : BufTy).Contents (Elt F)),
    reshape main_v271 main_v272 rfl shapeCasts_S131072x1_S131072,
    nullary main_c_5 (constantI S_ 32 6#32),
    unary main_c_5 main_v273 (broadcastInDim S131072 ![] bcast_S_S131072 : (⟨S_, .i32⟩ : BufTy).Contents (Elt F) → (⟨S131072, .i32⟩ : BufTy).Contents (Elt F)),
    binary main_v0 main_v273 main_v274 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v274) (TRef.of (T := ⟨S131072, .f32⟩) main_v272) (TRef.of (T := ⟨S131072, .f32⟩) main_v236) (TRef.of (T := ⟨S131072, .f32⟩) main_v275) select ]

/-- The merged vector after species 6: one choice on the species words between network 6 and the vector so far. -/
theorem out6 (V : Valuation τ sig (Elt Ideal)) :
    after (ops6 (F := Ideal)) V (Proc.devRef (τ := τ) .tc main_v275)
      = select (cmpi .eq (V (Proc.devRef (τ := τ) .tc main_v0)) (broadcastInDim S131072 ![] bcast_S_S131072 (constantI S_ 32 6#32)))
          (refNetwork 6 slices_S8x300x160_S1x300x160_6_0_0 slices_S8x160_S1x160_6_0 slices_S8x160x128_S1x160x128_6_0_0 slices_S8x128_S1x128_6_0 slices_S8x128x96_S1x128x96_6_0_0 slices_S8x96_S1x96_6_0 slices_S8x96x1_S1x96x1_6_0_0 slices_S8x1_S1x1_6_0
            (V (Proc.devRef (τ := τ) .tc main_v1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)))
          (V (Proc.devRef (τ := τ) .tc main_v236)) := by
  after_results_simp <;> rfl

/-- The line writes none of these buffers: each holds afterwards what it held before. -/
theorem keep6 (V : Valuation τ sig (Elt Ideal)) :
    after (ops6 (F := Ideal)) V (Proc.devRef (τ := τ) .tc main_v0) = V (Proc.devRef (τ := τ) .tc main_v0)
    ∧ after (ops6 (F := Ideal)) V (Proc.devRef (τ := τ) .tc main_v1) = V (Proc.devRef (τ := τ) .tc main_v1)
    ∧ after (ops6 (F := Ideal)) V (Proc.devRef (τ := τ) .tc main_arg0) = V (Proc.devRef (τ := τ) .tc main_arg0)
    ∧ after (ops6 (F := Ideal)) V (Proc.devRef (τ := τ) .tc main_arg1) = V (Proc.devRef (τ := τ) .tc main_arg1)
    ∧ after (ops6 (F := Ideal)) V (Proc.devRef (τ := τ) .tc main_arg2) = V (Proc.devRef (τ := τ) .tc main_arg2)
    ∧ after (ops6 (F := Ideal)) V (Proc.devRef (τ := τ) .tc main_arg3) = V (Proc.devRef (τ := τ) .tc main_arg3)
    ∧ after (ops6 (F := Ideal)) V (Proc.devRef (τ := τ) .tc main_arg4) = V (Proc.devRef (τ := τ) .tc main_arg4)
    ∧ after (ops6 (F := Ideal)) V (Proc.devRef (τ := τ) .tc main_arg5) = V (Proc.devRef (τ := τ) .tc main_arg5)
    ∧ after (ops6 (F := Ideal)) V (Proc.devRef (τ := τ) .tc main_arg6) = V (Proc.devRef (τ := τ) .tc main_arg6)
    ∧ after (ops6 (F := Ideal)) V (Proc.devRef (τ := τ) .tc main_arg7) = V (Proc.devRef (τ := τ) .tc main_arg7)
    ∧ after (ops6 (F := Ideal)) V (Proc.devRef (τ := τ) .tc main_arg8) = V (Proc.devRef (τ := τ) .tc main_arg8)
    ∧ after (ops6 (F := Ideal)) V (Proc.devRef (τ := τ) .tc main_arg9) = V (Proc.devRef (τ := τ) .tc main_arg9) := by
  refine ⟨?_, ?_, ?_, ?_, ?_, ?_, ?_, ?_, ?_, ?_, ?_, ?_⟩ <;> after_results_simp

end Cert.ReferenceIdeal.RefValue

end
-- ==== Proof.RefChunk7.lean ====
/-
  Species 7's forty-six operations, from any contents.

  Slab 7 of each stacked weight array and row 7 of each stacked bias array are cut out; three dense layers, each a
  product, the bias row repeated down the rows and the rectifier, and the one-column head follow; the column is flattened;
  the species words are compared with the literal 7 and, where they agree, the network's value replaces the vector
  merged so far. Read from an arbitrary valuation of the buffers: the line's last buffer holds one choice between
  `refNetwork 7` of the valuation's flattened features and parameters and the valuation's merged vector, and the
  buffers the line does not write keep their contents.
-/
import proofs.«129781_j39633958207559_2_alg».proof.Proof.RefAtoms
import Idealize.ShloMosaic.Lib.StableHlo.Run

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

/-- Species 7's operations. -/
abbrev ops7 : List (HloOp τ sig (Elt F)) :=
  [ unary main_arg2 main_v276 ((extractStridedSlice S1x300x160 ![7, 0, 0] · slices_S8x300x160_S1x300x160_7_0_0) : (⟨S8x300x160, .f32⟩ : BufTy).Contents (Elt F) → (⟨S1x300x160, .f32⟩ : BufTy).Contents (Elt F)),
    reshape main_v276 main_v277 rfl shapeCasts_S1x300x160_S300x160,
    binary main_v1 main_v277 main_v278 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v279 ((extractStridedSlice S1x160 ![7, 0] · slices_S8x160_S1x160_7_0) : (⟨S8x160, .f32⟩ : BufTy).Contents (Elt F) → (⟨S1x160, .f32⟩ : BufTy).Contents (Elt F)),
    reshape main_v279 main_v280 rfl shapeCasts_S1x160_S160,
    unary main_v280 main_v281 (broadcastInDim S1x160 ![1] bcast_S160_S1x160_1 : (⟨S160, .f32⟩ : BufTy).Contents (Elt F) → (⟨S1x160, .f32⟩ : BufTy).Contents (Elt F)),
    unary main_v281 main_v282 (broadcastInDim S131072x160 ![0, 1] bcast_S1x160_S131072x160_0_1 : (⟨S1x160, .f32⟩ : BufTy).Contents (Elt F) → (⟨S131072x160, .f32⟩ : BufTy).Contents (Elt F)),
    binary main_v278 main_v282 main_v283 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call28_cst) (constant S_ .f32 0x00000000#32),
    TRef.unary (TRef.of (T := ⟨S_, .f32⟩) main_call28_cst) (TRef.of (T := ⟨S131072x160, .f32⟩) main_call28_v0) (broadcastInDim S131072x160 ![] bcast_S_S131072x160),
    TRef.binary (TRef.of (T := ⟨S131072x160, .f32⟩) main_v283) (TRef.of (T := ⟨S131072x160, .f32⟩) main_call28_v0) (TRef.of (T := ⟨S131072x160, .f32⟩) main_v284) maximumf,
    unary main_arg4 main_v285 ((extractStridedSlice S1x160x128 ![7, 0, 0] · slices_S8x160x128_S1x160x128_7_0_0) : (⟨S8x160x128, .f32⟩ : BufTy).Contents (Elt F) → (⟨S1x160x128, .f32⟩ : BufTy).Contents (Elt F)),
    reshape main_v285 main_v286 rfl shapeCasts_S1x160x128_S160x128,
    binary main_v284 main_v286 main_v287 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v288 ((extractStridedSlice S1x128 ![7, 0] · slices_S8x128_S1x128_7_0) : (⟨S8x128, .f32⟩ : BufTy).Contents (Elt F) → (⟨S1x128, .f32⟩ : BufTy).Contents (Elt F)),
    reshape main_v288 main_v289 rfl shapeCasts_S1x128_S128,
    unary main_v289 main_v290 (broadcastInDim S1x128 ![1] bcast_S128_S1x128_1 : (⟨S128, .f32⟩ : BufTy).Contents (Elt F) → (⟨S1x128, .f32⟩ : BufTy).Contents (Elt F)),
    unary main_v290 main_v291 (broadcastInDim S131072x128 ![0, 1] bcast_S1x128_S131072x128_0_1 : (⟨S1x128, .f32⟩ : BufTy).Contents (Elt F) → (⟨S131072x128, .f32⟩ : BufTy).Contents (Elt F)),
    binary main_v287 main_v291 main_v292 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call29_cst) (constant S_ .f32 0x00000000#32),
    TRef.unary (TRef.of (T := ⟨S_, .f32⟩) main_call29_cst) (TRef.of (T := ⟨S131072x128, .f32⟩) main_call29_v0) (broadcastInDim S131072x128 ![] bcast_S_S131072x128),
    TRef.binary (TRef.of (T := ⟨S131072x128, .f32⟩) main_v292) (TRef.of (T := ⟨S131072x128, .f32⟩) main_call29_v0) (TRef.of (T := ⟨S131072x128, .f32⟩) main_v293) maximumf,
    unary main_arg6 main_v294 ((extractStridedSlice S1x128x96 ![7, 0, 0] · slices_S8x128x96_S1x128x96_7_0_0) : (⟨S8x128x96, .f32⟩ : BufTy).Contents (Elt F) → (⟨S1x128x96, .f32⟩ : BufTy).Contents (Elt F)),
    reshape main_v294 main_v295 rfl shapeCasts_S1x128x96_S128x96,
    binary main_v293 main_v295 main_v296 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v297 ((extractStridedSlice S1x96 ![7, 0] · slices_S8x96_S1x96_7_0) : (⟨S8x96, .f32⟩ : BufTy).Contents (Elt F) → (⟨S1x96, .f32⟩ : BufTy).Contents (Elt F)),
    reshape main_v297 main_v298 rfl shapeCasts_S1x96_S96,
    unary main_v298 main_v299 (broadcastInDim S1x96 ![1] bcast_S96_S1x96_1 : (⟨S96, .f32⟩ : BufTy).Contents (Elt F) → (⟨S1x96, .f32⟩ : BufTy).Contents (Elt F)),
    unary main_v299 main_v300 (broadcastInDim S131072x96 ![0, 1] bcast_S1x96_S131072x96_0_1 : (⟨S1x96, .f32⟩ : BufTy).Contents (Elt F) → (⟨S131072x96, .f32⟩ : BufTy).Contents (Elt F)),
    binary main_v296 main_v300 main_v301 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call30_cst) (constant S_ .f32 0x00000000#32),
    TRef.unary (TRef.of (T := ⟨S_, .f32⟩) main_call30_cst) (TRef.of (T := ⟨S131072x96, .f32⟩) main_call30_v0) (broadcastInDim S131072x96 ![] bcast_S_S131072x96),
    TRef.binary (TRef.of (T := ⟨S131072x96, .f32⟩) main_v301) (TRef.of (T := ⟨S131072x96, .f32⟩) main_call30_v0) (TRef.of (T := ⟨S131072x96, .f32⟩) main_v302) maximumf,
    unary main_arg8 main_v303 ((extractStridedSlice S1x96x1 ![7, 0, 0] · slices_S8x96x1_S1x96x1_7_0_0) : (⟨S8x96x1, .f32⟩ : BufTy).Contents (Elt F) → (⟨S1x96x1, .f32⟩ : BufTy).Contents (Elt F)),
    reshape main_v303 main_v304 rfl shapeCasts_S1x96x1_S96x1,
    binary main_v302 main_v304 main_v305 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v306 ((extractStridedSlice S1x1 ![7, 0] · slices_S8x1_S1x1_7_0) : (⟨S8x1, .f32⟩ : BufTy).Contents (Elt F) → (⟨S1x1, .f32⟩ : BufTy).Contents (Elt F)),
    reshape main_v306 main_v307 rfl shapeCasts_S1x1_S1,
    unary main_v307 main_v308 (broadcastInDim S1x1 ![1] bcast_S1_S1x1_1 : (⟨S1, .f32⟩ : BufTy).Contents (Elt F) → (⟨S1x1, .f32⟩ : BufTy).Contents (Elt F)),
    unary main_v308 main_v309 (broadcastInDim S131072x1 ![0, 1] bcast_S1x1_S131072x1_0_1 : (⟨S1x1, .f32⟩ : BufTy).Contents (Elt F) → (⟨S131072x1, .f32⟩ : BufTy).Contents (Elt F)),
    binary main_v305 main_v309 main_v310 (addf : (⟨S131072x1, .f32⟩ : BufTy).Contents (Elt F) → (⟨S131072x1, .f32⟩ : BufTy).Contents (Elt F) → (⟨S131072x1, .f32⟩ : BufTy).Contents (Elt F)),
    reshape main_v310 main_v311 rfl shapeCasts_S131072x1_S131072,
    nullary main_c_6 (constantI S_ 32 7#32),
    unary main_c_6 main_v312 (broadcastInDim S131072 ![] bcast_S_S131072 : (⟨S_, .i32⟩ : BufTy).Contents (Elt F) → (⟨S131072, .i32⟩ : BufTy).Contents (Elt F)),
    binary main_v0 main_v312 main_v313 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v313) (TRef.of (T := ⟨S131072, .f32⟩) main_v311) (TRef.of (T := ⟨S131072, .f32⟩) main_v275) (TRef.of (T := ⟨S131072, .f32⟩) main_v314) select ]

/-- The merged vector after species 7: one choice on the species words between network 7 and the vector so far. -/
theorem out7 (V : Valuation τ sig (Elt Ideal)) :
    after (ops7 (F := Ideal)) V (Proc.devRef (τ := τ) .tc main_v314)
      = select (cmpi .eq (V (Proc.devRef (τ := τ) .tc main_v0)) (broadcastInDim S131072 ![] bcast_S_S131072 (constantI S_ 32 7#32)))
          (refNetwork 7 slices_S8x300x160_S1x300x160_7_0_0 slices_S8x160_S1x160_7_0 slices_S8x160x128_S1x160x128_7_0_0 slices_S8x128_S1x128_7_0 slices_S8x128x96_S1x128x96_7_0_0 slices_S8x96_S1x96_7_0 slices_S8x96x1_S1x96x1_7_0_0 slices_S8x1_S1x1_7_0
            (V (Proc.devRef (τ := τ) .tc main_v1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)))
          (V (Proc.devRef (τ := τ) .tc main_v275)) := by
  after_results_simp <;> rfl

/-- The line writes none of these buffers: each holds afterwards what it held before. -/
theorem keep7 (V : Valuation τ sig (Elt Ideal)) :
    after (ops7 (F := Ideal)) V (Proc.devRef (τ := τ) .tc main_v0) = V (Proc.devRef (τ := τ) .tc main_v0)
    ∧ after (ops7 (F := Ideal)) V (Proc.devRef (τ := τ) .tc main_v1) = V (Proc.devRef (τ := τ) .tc main_v1)
    ∧ after (ops7 (F := Ideal)) V (Proc.devRef (τ := τ) .tc main_arg0) = V (Proc.devRef (τ := τ) .tc main_arg0)
    ∧ after (ops7 (F := Ideal)) V (Proc.devRef (τ := τ) .tc main_arg1) = V (Proc.devRef (τ := τ) .tc main_arg1)
    ∧ after (ops7 (F := Ideal)) V (Proc.devRef (τ := τ) .tc main_arg2) = V (Proc.devRef (τ := τ) .tc main_arg2)
    ∧ after (ops7 (F := Ideal)) V (Proc.devRef (τ := τ) .tc main_arg3) = V (Proc.devRef (τ := τ) .tc main_arg3)
    ∧ after (ops7 (F := Ideal)) V (Proc.devRef (τ := τ) .tc main_arg4) = V (Proc.devRef (τ := τ) .tc main_arg4)
    ∧ after (ops7 (F := Ideal)) V (Proc.devRef (τ := τ) .tc main_arg5) = V (Proc.devRef (τ := τ) .tc main_arg5)
    ∧ after (ops7 (F := Ideal)) V (Proc.devRef (τ := τ) .tc main_arg6) = V (Proc.devRef (τ := τ) .tc main_arg6)
    ∧ after (ops7 (F := Ideal)) V (Proc.devRef (τ := τ) .tc main_arg7) = V (Proc.devRef (τ := τ) .tc main_arg7)
    ∧ after (ops7 (F := Ideal)) V (Proc.devRef (τ := τ) .tc main_arg8) = V (Proc.devRef (τ := τ) .tc main_arg8)
    ∧ after (ops7 (F := Ideal)) V (Proc.devRef (τ := τ) .tc main_arg9) = V (Proc.devRef (τ := τ) .tc main_arg9) := by
  refine ⟨?_, ?_, ?_, ?_, ?_, ?_, ?_, ?_, ?_, ?_, ?_, ?_⟩ <;> after_results_simp

/-- The first 18 of them: those printed in the window that ends inside this species. -/
def ops7a : List (HloOp τ sig (Elt F)) :=
  [ unary main_arg2 main_v276 ((extractStridedSlice S1x300x160 ![7, 0, 0] · slices_S8x300x160_S1x300x160_7_0_0) : (⟨S8x300x160, .f32⟩ : BufTy).Contents (Elt F) → (⟨S1x300x160, .f32⟩ : BufTy).Contents (Elt F)),
    reshape main_v276 main_v277 rfl shapeCasts_S1x300x160_S300x160,
    binary main_v1 main_v277 main_v278 ((fun l r => Host.dotGeneral dot_S131072x300_S300x160_S131072x160_1_0_0_1_n_n none l r) : (⟨S131072x300, .f32⟩ : BufTy).Contents (Elt F) → (⟨S300x160, .f32⟩ : BufTy).Contents (Elt F) → (⟨S131072x160, .f32⟩ : BufTy).Contents (Elt F)),
    unary main_arg3 main_v279 ((extractStridedSlice S1x160 ![7, 0] · slices_S8x160_S1x160_7_0) : (⟨S8x160, .f32⟩ : BufTy).Contents (Elt F) → (⟨S1x160, .f32⟩ : BufTy).Contents (Elt F)),
    reshape main_v279 main_v280 rfl shapeCasts_S1x160_S160,
    unary main_v280 main_v281 (broadcastInDim S1x160 ![1] bcast_S160_S1x160_1 : (⟨S160, .f32⟩ : BufTy).Contents (Elt F) → (⟨S1x160, .f32⟩ : BufTy).Contents (Elt F)),
    unary main_v281 main_v282 (broadcastInDim S131072x160 ![0, 1] bcast_S1x160_S131072x160_0_1 : (⟨S1x160, .f32⟩ : BufTy).Contents (Elt F) → (⟨S131072x160, .f32⟩ : BufTy).Contents (Elt F)),
    binary main_v278 main_v282 main_v283 (addf : (⟨S131072x160, .f32⟩ : BufTy).Contents (Elt F) → (⟨S131072x160, .f32⟩ : BufTy).Contents (Elt F) → (⟨S131072x160, .f32⟩ : BufTy).Contents (Elt F)),
    TRef.nullary (TRef.of (T := ⟨S_, .f32⟩) main_call28_cst) (constant S_ .f32 0x00000000#32),
    TRef.unary (TRef.of (T := ⟨S_, .f32⟩) main_call28_cst) (TRef.of (T := ⟨S131072x160, .f32⟩) main_call28_v0) (broadcastInDim S131072x160 ![] bcast_S_S131072x160),
    TRef.binary (TRef.of (T := ⟨S131072x160, .f32⟩) main_v283) (TRef.of (T := ⟨S131072x160, .f32⟩) main_call28_v0) (TRef.of (T := ⟨S131072x160, .f32⟩) main_v284) maximumf,
    unary main_arg4 main_v285 ((extractStridedSlice S1x160x128 ![7, 0, 0] · slices_S8x160x128_S1x160x128_7_0_0) : (⟨S8x160x128, .f32⟩ : BufTy).Contents (Elt F) → (⟨S1x160x128, .f32⟩ : BufTy).Contents (Elt F)),
    reshape main_v285 main_v286 rfl shapeCasts_S1x160x128_S160x128,
    binary main_v284 main_v286 main_v287 ((fun l r => Host.dotGeneral dot_S131072x160_S160x128_S131072x128_1_0_0_1_n_n none l r) : (⟨S131072x160, .f32⟩ : BufTy).Contents (Elt F) → (⟨S160x128, .f32⟩ : BufTy).Contents (Elt F) → (⟨S131072x128, .f32⟩ : BufTy).Contents (Elt F)),
    unary main_arg5 main_v288 ((extractStridedSlice S1x128 ![7, 0] · slices_S8x128_S1x128_7_0) : (⟨S8x128, .f32⟩ : BufTy).Contents (Elt F) → (⟨S1x128, .f32⟩ : BufTy).Contents (Elt F)),
    reshape main_v288 main_v289 rfl shapeCasts_S1x128_S128,
    unary main_v289 main_v290 (broadcastInDim S1x128 ![1] bcast_S128_S1x128_1 : (⟨S128, .f32⟩ : BufTy).Contents (Elt F) → (⟨S1x128, .f32⟩ : BufTy).Contents (Elt F)),
    unary main_v290 main_v291 (broadcastInDim S131072x128 ![0, 1] bcast_S1x128_S131072x128_0_1 : (⟨S1x128, .f32⟩ : BufTy).Contents (Elt F) → (⟨S131072x128, .f32⟩ : BufTy).Contents (Elt F)) ]

/-- The other 28, printed in the next window. -/
def ops7b : List (HloOp τ sig (Elt F)) :=
  [ binary main_v287 main_v291 main_v292 (addf : (⟨S131072x128, .f32⟩ : BufTy).Contents (Elt F) → (⟨S131072x128, .f32⟩ : BufTy).Contents (Elt F) → (⟨S131072x128, .f32⟩ : BufTy).Contents (Elt F)),
    TRef.nullary (TRef.of (T := ⟨S_, .f32⟩) main_call29_cst) (constant S_ .f32 0x00000000#32),
    TRef.unary (TRef.of (T := ⟨S_, .f32⟩) main_call29_cst) (TRef.of (T := ⟨S131072x128, .f32⟩) main_call29_v0) (broadcastInDim S131072x128 ![] bcast_S_S131072x128),
    TRef.binary (TRef.of (T := ⟨S131072x128, .f32⟩) main_v292) (TRef.of (T := ⟨S131072x128, .f32⟩) main_call29_v0) (TRef.of (T := ⟨S131072x128, .f32⟩) main_v293) maximumf,
    unary main_arg6 main_v294 ((extractStridedSlice S1x128x96 ![7, 0, 0] · slices_S8x128x96_S1x128x96_7_0_0) : (⟨S8x128x96, .f32⟩ : BufTy).Contents (Elt F) → (⟨S1x128x96, .f32⟩ : BufTy).Contents (Elt F)),
    reshape main_v294 main_v295 rfl shapeCasts_S1x128x96_S128x96,
    binary main_v293 main_v295 main_v296 ((fun l r => Host.dotGeneral dot_S131072x128_S128x96_S131072x96_1_0_0_1_n_n none l r) : (⟨S131072x128, .f32⟩ : BufTy).Contents (Elt F) → (⟨S128x96, .f32⟩ : BufTy).Contents (Elt F) → (⟨S131072x96, .f32⟩ : BufTy).Contents (Elt F)),
    unary main_arg7 main_v297 ((extractStridedSlice S1x96 ![7, 0] · slices_S8x96_S1x96_7_0) : (⟨S8x96, .f32⟩ : BufTy).Contents (Elt F) → (⟨S1x96, .f32⟩ : BufTy).Contents (Elt F)),
    reshape main_v297 main_v298 rfl shapeCasts_S1x96_S96,
    unary main_v298 main_v299 (broadcastInDim S1x96 ![1] bcast_S96_S1x96_1 : (⟨S96, .f32⟩ : BufTy).Contents (Elt F) → (⟨S1x96, .f32⟩ : BufTy).Contents (Elt F)),
    unary main_v299 main_v300 (broadcastInDim S131072x96 ![0, 1] bcast_S1x96_S131072x96_0_1 : (⟨S1x96, .f32⟩ : BufTy).Contents (Elt F) → (⟨S131072x96, .f32⟩ : BufTy).Contents (Elt F)),
    binary main_v296 main_v300 main_v301 (addf : (⟨S131072x96, .f32⟩ : BufTy).Contents (Elt F) → (⟨S131072x96, .f32⟩ : BufTy).Contents (Elt F) → (⟨S131072x96, .f32⟩ : BufTy).Contents (Elt F)),
    TRef.nullary (TRef.of (T := ⟨S_, .f32⟩) main_call30_cst) (constant S_ .f32 0x00000000#32),
    TRef.unary (TRef.of (T := ⟨S_, .f32⟩) main_call30_cst) (TRef.of (T := ⟨S131072x96, .f32⟩) main_call30_v0) (broadcastInDim S131072x96 ![] bcast_S_S131072x96),
    TRef.binary (TRef.of (T := ⟨S131072x96, .f32⟩) main_v301) (TRef.of (T := ⟨S131072x96, .f32⟩) main_call30_v0) (TRef.of (T := ⟨S131072x96, .f32⟩) main_v302) maximumf,
    unary main_arg8 main_v303 ((extractStridedSlice S1x96x1 ![7, 0, 0] · slices_S8x96x1_S1x96x1_7_0_0) : (⟨S8x96x1, .f32⟩ : BufTy).Contents (Elt F) → (⟨S1x96x1, .f32⟩ : BufTy).Contents (Elt F)),
    reshape main_v303 main_v304 rfl shapeCasts_S1x96x1_S96x1,
    binary main_v302 main_v304 main_v305 ((fun l r => Host.dotGeneral dot_S131072x96_S96x1_S131072x1_1_0_0_1_n_n none l r) : (⟨S131072x96, .f32⟩ : BufTy).Contents (Elt F) → (⟨S96x1, .f32⟩ : BufTy).Contents (Elt F) → (⟨S131072x1, .f32⟩ : BufTy).Contents (Elt F)),
    unary main_arg9 main_v306 ((extractStridedSlice S1x1 ![7, 0] · slices_S8x1_S1x1_7_0) : (⟨S8x1, .f32⟩ : BufTy).Contents (Elt F) → (⟨S1x1, .f32⟩ : BufTy).Contents (Elt F)),
    reshape main_v306 main_v307 rfl shapeCasts_S1x1_S1,
    unary main_v307 main_v308 (broadcastInDim S1x1 ![1] bcast_S1_S1x1_1 : (⟨S1, .f32⟩ : BufTy).Contents (Elt F) → (⟨S1x1, .f32⟩ : BufTy).Contents (Elt F)),
    unary main_v308 main_v309 (broadcastInDim S131072x1 ![0, 1] bcast_S1x1_S131072x1_0_1 : (⟨S1x1, .f32⟩ : BufTy).Contents (Elt F) → (⟨S131072x1, .f32⟩ : BufTy).Contents (Elt F)),
    binary main_v305 main_v309 main_v310 (addf : (⟨S131072x1, .f32⟩ : BufTy).Contents (Elt F) → (⟨S131072x1, .f32⟩ : BufTy).Contents (Elt F) → (⟨S131072x1, .f32⟩ : BufTy).Contents (Elt F)),
    reshape main_v310 main_v311 rfl shapeCasts_S131072x1_S131072,
    nullary main_c_6 (constantI S_ 32 7#32),
    unary main_c_6 main_v312 (broadcastInDim S131072 ![] bcast_S_S131072 : (⟨S_, .i32⟩ : BufTy).Contents (Elt F) → (⟨S131072, .i32⟩ : BufTy).Contents (Elt F)),
    binary main_v0 main_v312 main_v313 (cmpi .eq : (⟨S131072, .i32⟩ : BufTy).Contents (Elt F) → (⟨S131072, .i32⟩ : BufTy).Contents (Elt F) → (⟨S131072, .i1⟩ : BufTy).Contents (Elt F)),
    TRef.ternary (TRef.of (T := ⟨S131072, .i1⟩) main_v313) (TRef.of (T := ⟨S131072, .f32⟩) main_v311) (TRef.of (T := ⟨S131072, .f32⟩) main_v275) (TRef.of (T := ⟨S131072, .f32⟩) main_v314) select ]

theorem split7 : (ops7 : List (HloOp τ sig (Elt F))) = ops7a ++ ops7b := rfl

end Cert.ReferenceIdeal.RefValue

end
-- ==== Proof.RefChunkT.lean ====
/-
  The reference's last four operations, from any contents.

  The merged vector is laid out as 2048 rows of 64, a scalar zero is written, each row is summed from it, and the 2048
  sums are laid as a column. Read from an arbitrary valuation of the buffers.
-/
import proofs.«129781_j39633958207559_2_alg».proof.Proof.RefAtoms
import Idealize.ShloMosaic.Lib.StableHlo.Run

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

/-- The last four operations. -/
abbrev opsT : List (HloOp τ sig (Elt F)) :=
  [ reshape main_v314 main_v315 rfl shapeCasts_S131072_S2048x64,
    nullary main_cst_7 (constant S_ .f32 0x00000000#32),
    binary main_v315 main_cst_7 main_v316 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v316 main_v317 (broadcastInDim S2048x1 ![0] bcast_S2048_S2048x1_0 : (⟨S2048, .f32⟩ : BufTy).Contents (Elt F) → (⟨S2048x1, .f32⟩ : BufTy).Contents (Elt F)) ]

/-- The result buffer after them: the column of row sums of the valuation's merged vector. -/
theorem outT (V : Valuation τ sig (Elt Ideal)) :
    after (opsT (F := Ideal)) V (Proc.devRef (τ := τ) .tc main_v317)
      = broadcastInDim S2048x1 ![0] bcast_S2048_S2048x1_0 (Host.reduceAdd (F := Ideal) (shapeCast S2048x64 (V (Proc.devRef (τ := τ) .tc main_v314)) shapeCasts_S131072_S2048x64)
          (constant (F := Ideal) S_ .f32 0x00000000#32) reducesTo_S2048x64_S2048_d1 h_S_) := by
  after_results_simp <;> rfl

/-- The line writes none of these buffers: each holds afterwards what it held before. -/
theorem keepT (V : Valuation τ sig (Elt Ideal)) :
    after (opsT (F := Ideal)) V (Proc.devRef (τ := τ) .tc main_v0) = V (Proc.devRef (τ := τ) .tc main_v0)
    ∧ after (opsT (F := Ideal)) V (Proc.devRef (τ := τ) .tc main_v1) = V (Proc.devRef (τ := τ) .tc main_v1)
    ∧ after (opsT (F := Ideal)) V (Proc.devRef (τ := τ) .tc main_arg0) = V (Proc.devRef (τ := τ) .tc main_arg0)
    ∧ after (opsT (F := Ideal)) V (Proc.devRef (τ := τ) .tc main_arg1) = V (Proc.devRef (τ := τ) .tc main_arg1)
    ∧ after (opsT (F := Ideal)) V (Proc.devRef (τ := τ) .tc main_arg2) = V (Proc.devRef (τ := τ) .tc main_arg2)
    ∧ after (opsT (F := Ideal)) V (Proc.devRef (τ := τ) .tc main_arg3) = V (Proc.devRef (τ := τ) .tc main_arg3)
    ∧ after (opsT (F := Ideal)) V (Proc.devRef (τ := τ) .tc main_arg4) = V (Proc.devRef (τ := τ) .tc main_arg4)
    ∧ after (opsT (F := Ideal)) V (Proc.devRef (τ := τ) .tc main_arg5) = V (Proc.devRef (τ := τ) .tc main_arg5)
    ∧ after (opsT (F := Ideal)) V (Proc.devRef (τ := τ) .tc main_arg6) = V (Proc.devRef (τ := τ) .tc main_arg6)
    ∧ after (opsT (F := Ideal)) V (Proc.devRef (τ := τ) .tc main_arg7) = V (Proc.devRef (τ := τ) .tc main_arg7)
    ∧ after (opsT (F := Ideal)) V (Proc.devRef (τ := τ) .tc main_arg8) = V (Proc.devRef (τ := τ) .tc main_arg8)
    ∧ after (opsT (F := Ideal)) V (Proc.devRef (τ := τ) .tc main_arg9) = V (Proc.devRef (τ := τ) .tc main_arg9) := by
  refine ⟨?_, ?_, ?_, ?_, ?_, ?_, ?_, ?_, ?_, ?_, ?_, ?_⟩ <;> after_results_simp

end Cert.ReferenceIdeal.RefValue

end
-- ==== Proof.RefAfter.lean ====
/-
  The contents after the reference's whole line, read chunk by chunk.

  The reference's 376 operations are the first four, then forty-six for each of the eight species, then the last four.
  Running a concatenation is running its parts in turn, so the contents after the whole line are reached through ten
  valuations. Every part keeps the flattened species words, the flattened features and the ten arguments (`Holds`), and
  species `s`'s part turns the merged vector so far into one more choice; after the eighth the merged vector is `refOut`,
  and the last part lays out its row sums.
-/
import proofs.«129781_j39633958207559_2_alg».proof.Proof.RefChunkA
import proofs.«129781_j39633958207559_2_alg».proof.Proof.RefChunk0
import proofs.«129781_j39633958207559_2_alg».proof.Proof.RefChunk1
import proofs.«129781_j39633958207559_2_alg».proof.Proof.RefChunk2
import proofs.«129781_j39633958207559_2_alg».proof.Proof.RefChunk3
import proofs.«129781_j39633958207559_2_alg».proof.Proof.RefChunk4
import proofs.«129781_j39633958207559_2_alg».proof.Proof.RefChunk5
import proofs.«129781_j39633958207559_2_alg».proof.Proof.RefChunk6
import proofs.«129781_j39633958207559_2_alg».proof.Proof.RefChunk7
import proofs.«129781_j39633958207559_2_alg».proof.Proof.RefChunkT

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

/-- Running two lines one after the other is running their concatenation. -/
theorem after_append {Val : EltTy → Type} (a b : List (HloOp τ sig Val)) (V : Valuation τ sig Val) :
    after (a ++ b) V = after b (after a V) := by
  induction a generalizing V with
  | nil => rfl
  | cons op a ih => simp only [List.cons_append, after_cons, ih]

/-- The whole line: the first four operations, the eight species' parts, the last four. -/
abbrev opsAll : List (HloOp τ sig (Elt F)) :=
  opsA ++ (ops0 ++ (ops1 ++ (ops2 ++ (ops3 ++ (ops4 ++ (ops5 ++ (ops6 ++ (ops7 ++ opsT))))))))

/-- What every part keeps, relative to the contents `V0` at the start: the flattened species words, the flattened features,
    and the ten arguments. -/
structure Holds (V V0 : Valuation τ sig (Elt Ideal)) : Prop where
  v0 : V (Proc.devRef (τ := τ) .tc main_v0) = shapeCast S131072 (V0 (Proc.devRef (τ := τ) .tc main_arg0)) shapeCasts_S2048x64_S131072
  v1 : V (Proc.devRef (τ := τ) .tc main_v1) = shapeCast S131072x300 (V0 (Proc.devRef (τ := τ) .tc main_arg1)) shapeCasts_S2048x64x300_S131072x300
  a0 : V (Proc.devRef (τ := τ) .tc main_arg0) = V0 (Proc.devRef (τ := τ) .tc main_arg0)
  a1 : V (Proc.devRef (τ := τ) .tc main_arg1) = V0 (Proc.devRef (τ := τ) .tc main_arg1)
  a2 : V (Proc.devRef (τ := τ) .tc main_arg2) = V0 (Proc.devRef (τ := τ) .tc main_arg2)
  a3 : V (Proc.devRef (τ := τ) .tc main_arg3) = V0 (Proc.devRef (τ := τ) .tc main_arg3)
  a4 : V (Proc.devRef (τ := τ) .tc main_arg4) = V0 (Proc.devRef (τ := τ) .tc main_arg4)
  a5 : V (Proc.devRef (τ := τ) .tc main_arg5) = V0 (Proc.devRef (τ := τ) .tc main_arg5)
  a6 : V (Proc.devRef (τ := τ) .tc main_arg6) = V0 (Proc.devRef (τ := τ) .tc main_arg6)
  a7 : V (Proc.devRef (τ := τ) .tc main_arg7) = V0 (Proc.devRef (τ := τ) .tc main_arg7)
  a8 : V (Proc.devRef (τ := τ) .tc main_arg8) = V0 (Proc.devRef (τ := τ) .tc main_arg8)
  a9 : V (Proc.devRef (τ := τ) .tc main_arg9) = V0 (Proc.devRef (τ := τ) .tc main_arg9)

theorem holdsA (V0 : Valuation τ sig (Elt Ideal)) : Holds (after (opsA (F := Ideal)) V0) V0 := by
  obtain ⟨h0, h1, -⟩ := outA V0
  obtain ⟨k0, k1, k2, k3, k4, k5, k6, k7, k8, k9⟩ := keepA V0
  exact ⟨h0, h1, k0, k1, k2, k3, k4, k5, k6, k7, k8, k9⟩

theorem holds0 (V V0 : Valuation τ sig (Elt Ideal)) (H : Holds V V0) : Holds (after (ops0 (F := Ideal)) V) V0 := by
  obtain ⟨kv0, kv1, k0, k1, k2, k3, k4, k5, k6, k7, k8, k9⟩ := keep0 V
  exact ⟨kv0.trans H.v0, kv1.trans H.v1, k0.trans H.a0, k1.trans H.a1, k2.trans H.a2, k3.trans H.a3, k4.trans H.a4, k5.trans H.a5, k6.trans H.a6, k7.trans H.a7, k8.trans H.a8, k9.trans H.a9⟩

/-- Species 0's part from contents that hold the invariant: one more choice, between network 0 of the inputs at the start
    and the merged vector so far. -/
theorem step0 (V V0 : Valuation τ sig (Elt Ideal)) (H : Holds V V0) :
    after (ops0 (F := Ideal)) V (Proc.devRef (τ := τ) .tc main_v41)
      = select (cmpi .eq (shapeCast S131072 (V0 (Proc.devRef (τ := τ) .tc main_arg0)) shapeCasts_S2048x64_S131072) (broadcastInDim S131072 ![] bcast_S_S131072 (constantI S_ 32 0#32)))
          (refNetwork 0 slices_S8x300x160_S1x300x160_0_0_0 slices_S8x160_S1x160_0_0 slices_S8x160x128_S1x160x128_0_0_0 slices_S8x128_S1x128_0_0 slices_S8x128x96_S1x128x96_0_0_0 slices_S8x96_S1x96_0_0 slices_S8x96x1_S1x96x1_0_0_0 slices_S8x1_S1x1_0_0
            (shapeCast S131072x300 (V0 (Proc.devRef (τ := τ) .tc main_arg1)) shapeCasts_S2048x64x300_S131072x300) (V0 (Proc.devRef (τ := τ) .tc main_arg2)) (V0 (Proc.devRef (τ := τ) .tc main_arg3)) (V0 (Proc.devRef (τ := τ) .tc main_arg4)) (V0 (Proc.devRef (τ := τ) .tc main_arg5)) (V0 (Proc.devRef (τ := τ) .tc main_arg6)) (V0 (Proc.devRef (τ := τ) .tc main_arg7)) (V0 (Proc.devRef (τ := τ) .tc main_arg8)) (V0 (Proc.devRef (τ := τ) .tc main_arg9)))
          (V (Proc.devRef (τ := τ) .tc main_v2)) := by
  rw [out0 V, H.v0, H.v1, H.a2, H.a3, H.a4, H.a5, H.a6, H.a7, H.a8, H.a9]

theorem holds1 (V V0 : Valuation τ sig (Elt Ideal)) (H : Holds V V0) : Holds (after (ops1 (F := Ideal)) V) V0 := by
  obtain ⟨kv0, kv1, k0, k1, k2, k3, k4, k5, k6, k7, k8, k9⟩ := keep1 V
  exact ⟨kv0.trans H.v0, kv1.trans H.v1, k0.trans H.a0, k1.trans H.a1, k2.trans H.a2, k3.trans H.a3, k4.trans H.a4, k5.trans H.a5, k6.trans H.a6, k7.trans H.a7, k8.trans H.a8, k9.trans H.a9⟩

/-- Species 1's part from contents that hold the invariant: one more choice, between network 1 of the inputs at the start
    and the merged vector so far. -/
theorem step1 (V V0 : Valuation τ sig (Elt Ideal)) (H : Holds V V0) :
    after (ops1 (F := Ideal)) V (Proc.devRef (τ := τ) .tc main_v80)
      = select (cmpi .eq (shapeCast S131072 (V0 (Proc.devRef (τ := τ) .tc main_arg0)) shapeCasts_S2048x64_S131072) (broadcastInDim S131072 ![] bcast_S_S131072 (constantI S_ 32 1#32)))
          (refNetwork 1 slices_S8x300x160_S1x300x160_1_0_0 slices_S8x160_S1x160_1_0 slices_S8x160x128_S1x160x128_1_0_0 slices_S8x128_S1x128_1_0 slices_S8x128x96_S1x128x96_1_0_0 slices_S8x96_S1x96_1_0 slices_S8x96x1_S1x96x1_1_0_0 slices_S8x1_S1x1_1_0
            (shapeCast S131072x300 (V0 (Proc.devRef (τ := τ) .tc main_arg1)) shapeCasts_S2048x64x300_S131072x300) (V0 (Proc.devRef (τ := τ) .tc main_arg2)) (V0 (Proc.devRef (τ := τ) .tc main_arg3)) (V0 (Proc.devRef (τ := τ) .tc main_arg4)) (V0 (Proc.devRef (τ := τ) .tc main_arg5)) (V0 (Proc.devRef (τ := τ) .tc main_arg6)) (V0 (Proc.devRef (τ := τ) .tc main_arg7)) (V0 (Proc.devRef (τ := τ) .tc main_arg8)) (V0 (Proc.devRef (τ := τ) .tc main_arg9)))
          (V (Proc.devRef (τ := τ) .tc main_v41)) := by
  rw [out1 V, H.v0, H.v1, H.a2, H.a3, H.a4, H.a5, H.a6, H.a7, H.a8, H.a9]

theorem holds2 (V V0 : Valuation τ sig (Elt Ideal)) (H : Holds V V0) : Holds (after (ops2 (F := Ideal)) V) V0 := by
  obtain ⟨kv0, kv1, k0, k1, k2, k3, k4, k5, k6, k7, k8, k9⟩ := keep2 V
  exact ⟨kv0.trans H.v0, kv1.trans H.v1, k0.trans H.a0, k1.trans H.a1, k2.trans H.a2, k3.trans H.a3, k4.trans H.a4, k5.trans H.a5, k6.trans H.a6, k7.trans H.a7, k8.trans H.a8, k9.trans H.a9⟩

/-- Species 2's part from contents that hold the invariant: one more choice, between network 2 of the inputs at the start
    and the merged vector so far. -/
theorem step2 (V V0 : Valuation τ sig (Elt Ideal)) (H : Holds V V0) :
    after (ops2 (F := Ideal)) V (Proc.devRef (τ := τ) .tc main_v119)
      = select (cmpi .eq (shapeCast S131072 (V0 (Proc.devRef (τ := τ) .tc main_arg0)) shapeCasts_S2048x64_S131072) (broadcastInDim S131072 ![] bcast_S_S131072 (constantI S_ 32 2#32)))
          (refNetwork 2 slices_S8x300x160_S1x300x160_2_0_0 slices_S8x160_S1x160_2_0 slices_S8x160x128_S1x160x128_2_0_0 slices_S8x128_S1x128_2_0 slices_S8x128x96_S1x128x96_2_0_0 slices_S8x96_S1x96_2_0 slices_S8x96x1_S1x96x1_2_0_0 slices_S8x1_S1x1_2_0
            (shapeCast S131072x300 (V0 (Proc.devRef (τ := τ) .tc main_arg1)) shapeCasts_S2048x64x300_S131072x300) (V0 (Proc.devRef (τ := τ) .tc main_arg2)) (V0 (Proc.devRef (τ := τ) .tc main_arg3)) (V0 (Proc.devRef (τ := τ) .tc main_arg4)) (V0 (Proc.devRef (τ := τ) .tc main_arg5)) (V0 (Proc.devRef (τ := τ) .tc main_arg6)) (V0 (Proc.devRef (τ := τ) .tc main_arg7)) (V0 (Proc.devRef (τ := τ) .tc main_arg8)) (V0 (Proc.devRef (τ := τ) .tc main_arg9)))
          (V (Proc.devRef (τ := τ) .tc main_v80)) := by
  rw [out2 V, H.v0, H.v1, H.a2, H.a3, H.a4, H.a5, H.a6, H.a7, H.a8, H.a9]

theorem holds3 (V V0 : Valuation τ sig (Elt Ideal)) (H : Holds V V0) : Holds (after (ops3 (F := Ideal)) V) V0 := by
  obtain ⟨kv0, kv1, k0, k1, k2, k3, k4, k5, k6, k7, k8, k9⟩ := keep3 V
  exact ⟨kv0.trans H.v0, kv1.trans H.v1, k0.trans H.a0, k1.trans H.a1, k2.trans H.a2, k3.trans H.a3, k4.trans H.a4, k5.trans H.a5, k6.trans H.a6, k7.trans H.a7, k8.trans H.a8, k9.trans H.a9⟩

/-- Species 3's part from contents that hold the invariant: one more choice, between network 3 of the inputs at the start
    and the merged vector so far. -/
theorem step3 (V V0 : Valuation τ sig (Elt Ideal)) (H : Holds V V0) :
    after (ops3 (F := Ideal)) V (Proc.devRef (τ := τ) .tc main_v158)
      = select (cmpi .eq (shapeCast S131072 (V0 (Proc.devRef (τ := τ) .tc main_arg0)) shapeCasts_S2048x64_S131072) (broadcastInDim S131072 ![] bcast_S_S131072 (constantI S_ 32 3#32)))
          (refNetwork 3 slices_S8x300x160_S1x300x160_3_0_0 slices_S8x160_S1x160_3_0 slices_S8x160x128_S1x160x128_3_0_0 slices_S8x128_S1x128_3_0 slices_S8x128x96_S1x128x96_3_0_0 slices_S8x96_S1x96_3_0 slices_S8x96x1_S1x96x1_3_0_0 slices_S8x1_S1x1_3_0
            (shapeCast S131072x300 (V0 (Proc.devRef (τ := τ) .tc main_arg1)) shapeCasts_S2048x64x300_S131072x300) (V0 (Proc.devRef (τ := τ) .tc main_arg2)) (V0 (Proc.devRef (τ := τ) .tc main_arg3)) (V0 (Proc.devRef (τ := τ) .tc main_arg4)) (V0 (Proc.devRef (τ := τ) .tc main_arg5)) (V0 (Proc.devRef (τ := τ) .tc main_arg6)) (V0 (Proc.devRef (τ := τ) .tc main_arg7)) (V0 (Proc.devRef (τ := τ) .tc main_arg8)) (V0 (Proc.devRef (τ := τ) .tc main_arg9)))
          (V (Proc.devRef (τ := τ) .tc main_v119)) := by
  rw [out3 V, H.v0, H.v1, H.a2, H.a3, H.a4, H.a5, H.a6, H.a7, H.a8, H.a9]

theorem holds4 (V V0 : Valuation τ sig (Elt Ideal)) (H : Holds V V0) : Holds (after (ops4 (F := Ideal)) V) V0 := by
  obtain ⟨kv0, kv1, k0, k1, k2, k3, k4, k5, k6, k7, k8, k9⟩ := keep4 V
  exact ⟨kv0.trans H.v0, kv1.trans H.v1, k0.trans H.a0, k1.trans H.a1, k2.trans H.a2, k3.trans H.a3, k4.trans H.a4, k5.trans H.a5, k6.trans H.a6, k7.trans H.a7, k8.trans H.a8, k9.trans H.a9⟩

/-- Species 4's part from contents that hold the invariant: one more choice, between network 4 of the inputs at the start
    and the merged vector so far. -/
theorem step4 (V V0 : Valuation τ sig (Elt Ideal)) (H : Holds V V0) :
    after (ops4 (F := Ideal)) V (Proc.devRef (τ := τ) .tc main_v197)
      = select (cmpi .eq (shapeCast S131072 (V0 (Proc.devRef (τ := τ) .tc main_arg0)) shapeCasts_S2048x64_S131072) (broadcastInDim S131072 ![] bcast_S_S131072 (constantI S_ 32 4#32)))
          (refNetwork 4 slices_S8x300x160_S1x300x160_4_0_0 slices_S8x160_S1x160_4_0 slices_S8x160x128_S1x160x128_4_0_0 slices_S8x128_S1x128_4_0 slices_S8x128x96_S1x128x96_4_0_0 slices_S8x96_S1x96_4_0 slices_S8x96x1_S1x96x1_4_0_0 slices_S8x1_S1x1_4_0
            (shapeCast S131072x300 (V0 (Proc.devRef (τ := τ) .tc main_arg1)) shapeCasts_S2048x64x300_S131072x300) (V0 (Proc.devRef (τ := τ) .tc main_arg2)) (V0 (Proc.devRef (τ := τ) .tc main_arg3)) (V0 (Proc.devRef (τ := τ) .tc main_arg4)) (V0 (Proc.devRef (τ := τ) .tc main_arg5)) (V0 (Proc.devRef (τ := τ) .tc main_arg6)) (V0 (Proc.devRef (τ := τ) .tc main_arg7)) (V0 (Proc.devRef (τ := τ) .tc main_arg8)) (V0 (Proc.devRef (τ := τ) .tc main_arg9)))
          (V (Proc.devRef (τ := τ) .tc main_v158)) := by
  rw [out4 V, H.v0, H.v1, H.a2, H.a3, H.a4, H.a5, H.a6, H.a7, H.a8, H.a9]

theorem holds5 (V V0 : Valuation τ sig (Elt Ideal)) (H : Holds V V0) : Holds (after (ops5 (F := Ideal)) V) V0 := by
  obtain ⟨kv0, kv1, k0, k1, k2, k3, k4, k5, k6, k7, k8, k9⟩ := keep5 V
  exact ⟨kv0.trans H.v0, kv1.trans H.v1, k0.trans H.a0, k1.trans H.a1, k2.trans H.a2, k3.trans H.a3, k4.trans H.a4, k5.trans H.a5, k6.trans H.a6, k7.trans H.a7, k8.trans H.a8, k9.trans H.a9⟩

/-- Species 5's part from contents that hold the invariant: one more choice, between network 5 of the inputs at the start
    and the merged vector so far. -/
theorem step5 (V V0 : Valuation τ sig (Elt Ideal)) (H : Holds V V0) :
    after (ops5 (F := Ideal)) V (Proc.devRef (τ := τ) .tc main_v236)
      = select (cmpi .eq (shapeCast S131072 (V0 (Proc.devRef (τ := τ) .tc main_arg0)) shapeCasts_S2048x64_S131072) (broadcastInDim S131072 ![] bcast_S_S131072 (constantI S_ 32 5#32)))
          (refNetwork 5 slices_S8x300x160_S1x300x160_5_0_0 slices_S8x160_S1x160_5_0 slices_S8x160x128_S1x160x128_5_0_0 slices_S8x128_S1x128_5_0 slices_S8x128x96_S1x128x96_5_0_0 slices_S8x96_S1x96_5_0 slices_S8x96x1_S1x96x1_5_0_0 slices_S8x1_S1x1_5_0
            (shapeCast S131072x300 (V0 (Proc.devRef (τ := τ) .tc main_arg1)) shapeCasts_S2048x64x300_S131072x300) (V0 (Proc.devRef (τ := τ) .tc main_arg2)) (V0 (Proc.devRef (τ := τ) .tc main_arg3)) (V0 (Proc.devRef (τ := τ) .tc main_arg4)) (V0 (Proc.devRef (τ := τ) .tc main_arg5)) (V0 (Proc.devRef (τ := τ) .tc main_arg6)) (V0 (Proc.devRef (τ := τ) .tc main_arg7)) (V0 (Proc.devRef (τ := τ) .tc main_arg8)) (V0 (Proc.devRef (τ := τ) .tc main_arg9)))
          (V (Proc.devRef (τ := τ) .tc main_v197)) := by
  rw [out5 V, H.v0, H.v1, H.a2, H.a3, H.a4, H.a5, H.a6, H.a7, H.a8, H.a9]

theorem holds6 (V V0 : Valuation τ sig (Elt Ideal)) (H : Holds V V0) : Holds (after (ops6 (F := Ideal)) V) V0 := by
  obtain ⟨kv0, kv1, k0, k1, k2, k3, k4, k5, k6, k7, k8, k9⟩ := keep6 V
  exact ⟨kv0.trans H.v0, kv1.trans H.v1, k0.trans H.a0, k1.trans H.a1, k2.trans H.a2, k3.trans H.a3, k4.trans H.a4, k5.trans H.a5, k6.trans H.a6, k7.trans H.a7, k8.trans H.a8, k9.trans H.a9⟩

/-- Species 6's part from contents that hold the invariant: one more choice, between network 6 of the inputs at the start
    and the merged vector so far. -/
theorem step6 (V V0 : Valuation τ sig (Elt Ideal)) (H : Holds V V0) :
    after (ops6 (F := Ideal)) V (Proc.devRef (τ := τ) .tc main_v275)
      = select (cmpi .eq (shapeCast S131072 (V0 (Proc.devRef (τ := τ) .tc main_arg0)) shapeCasts_S2048x64_S131072) (broadcastInDim S131072 ![] bcast_S_S131072 (constantI S_ 32 6#32)))
          (refNetwork 6 slices_S8x300x160_S1x300x160_6_0_0 slices_S8x160_S1x160_6_0 slices_S8x160x128_S1x160x128_6_0_0 slices_S8x128_S1x128_6_0 slices_S8x128x96_S1x128x96_6_0_0 slices_S8x96_S1x96_6_0 slices_S8x96x1_S1x96x1_6_0_0 slices_S8x1_S1x1_6_0
            (shapeCast S131072x300 (V0 (Proc.devRef (τ := τ) .tc main_arg1)) shapeCasts_S2048x64x300_S131072x300) (V0 (Proc.devRef (τ := τ) .tc main_arg2)) (V0 (Proc.devRef (τ := τ) .tc main_arg3)) (V0 (Proc.devRef (τ := τ) .tc main_arg4)) (V0 (Proc.devRef (τ := τ) .tc main_arg5)) (V0 (Proc.devRef (τ := τ) .tc main_arg6)) (V0 (Proc.devRef (τ := τ) .tc main_arg7)) (V0 (Proc.devRef (τ := τ) .tc main_arg8)) (V0 (Proc.devRef (τ := τ) .tc main_arg9)))
          (V (Proc.devRef (τ := τ) .tc main_v236)) := by
  rw [out6 V, H.v0, H.v1, H.a2, H.a3, H.a4, H.a5, H.a6, H.a7, H.a8, H.a9]

theorem holds7 (V V0 : Valuation τ sig (Elt Ideal)) (H : Holds V V0) : Holds (after (ops7 (F := Ideal)) V) V0 := by
  obtain ⟨kv0, kv1, k0, k1, k2, k3, k4, k5, k6, k7, k8, k9⟩ := keep7 V
  exact ⟨kv0.trans H.v0, kv1.trans H.v1, k0.trans H.a0, k1.trans H.a1, k2.trans H.a2, k3.trans H.a3, k4.trans H.a4, k5.trans H.a5, k6.trans H.a6, k7.trans H.a7, k8.trans H.a8, k9.trans H.a9⟩

/-- Species 7's part from contents that hold the invariant: one more choice, between network 7 of the inputs at the start
    and the merged vector so far. -/
theorem step7 (V V0 : Valuation τ sig (Elt Ideal)) (H : Holds V V0) :
    after (ops7 (F := Ideal)) V (Proc.devRef (τ := τ) .tc main_v314)
      = select (cmpi .eq (shapeCast S131072 (V0 (Proc.devRef (τ := τ) .tc main_arg0)) shapeCasts_S2048x64_S131072) (broadcastInDim S131072 ![] bcast_S_S131072 (constantI S_ 32 7#32)))
          (refNetwork 7 slices_S8x300x160_S1x300x160_7_0_0 slices_S8x160_S1x160_7_0 slices_S8x160x128_S1x160x128_7_0_0 slices_S8x128_S1x128_7_0 slices_S8x128x96_S1x128x96_7_0_0 slices_S8x96_S1x96_7_0 slices_S8x96x1_S1x96x1_7_0_0 slices_S8x1_S1x1_7_0
            (shapeCast S131072x300 (V0 (Proc.devRef (τ := τ) .tc main_arg1)) shapeCasts_S2048x64x300_S131072x300) (V0 (Proc.devRef (τ := τ) .tc main_arg2)) (V0 (Proc.devRef (τ := τ) .tc main_arg3)) (V0 (Proc.devRef (τ := τ) .tc main_arg4)) (V0 (Proc.devRef (τ := τ) .tc main_arg5)) (V0 (Proc.devRef (τ := τ) .tc main_arg6)) (V0 (Proc.devRef (τ := τ) .tc main_arg7)) (V0 (Proc.devRef (τ := τ) .tc main_arg8)) (V0 (Proc.devRef (τ := τ) .tc main_arg9)))
          (V (Proc.devRef (τ := τ) .tc main_v275)) := by
  rw [out7 V, H.v0, H.v1, H.a2, H.a3, H.a4, H.a5, H.a6, H.a7, H.a8, H.a9]

/-- The whole line from any contents: the result buffer holds the column of row sums of the merged vector `refOut` of the
    inputs at the start, and the ten arguments are kept. -/
theorem after_all (V0 : Valuation τ sig (Elt Ideal)) :
    after (opsAll (F := Ideal)) V0 (Proc.devRef (τ := τ) .tc main_v317)
        = broadcastInDim S2048x1 ![0] bcast_S2048_S2048x1_0 (Host.reduceAdd (F := Ideal) (shapeCast S2048x64
            (refOut (shapeCast S131072 (V0 (Proc.devRef (τ := τ) .tc main_arg0)) shapeCasts_S2048x64_S131072)
              (shapeCast S131072x300 (V0 (Proc.devRef (τ := τ) .tc main_arg1)) shapeCasts_S2048x64x300_S131072x300)
              (V0 (Proc.devRef (τ := τ) .tc main_arg2)) (V0 (Proc.devRef (τ := τ) .tc main_arg3)) (V0 (Proc.devRef (τ := τ) .tc main_arg4)) (V0 (Proc.devRef (τ := τ) .tc main_arg5)) (V0 (Proc.devRef (τ := τ) .tc main_arg6)) (V0 (Proc.devRef (τ := τ) .tc main_arg7)) (V0 (Proc.devRef (τ := τ) .tc main_arg8)) (V0 (Proc.devRef (τ := τ) .tc main_arg9)))
            shapeCasts_S131072_S2048x64) (constant (F := Ideal) S_ .f32 0x00000000#32) reducesTo_S2048x64_S2048_d1 h_S_)
      ∧ after (opsAll (F := Ideal)) V0 (Proc.devRef (τ := τ) .tc main_arg0) = V0 (Proc.devRef (τ := τ) .tc main_arg0)
      ∧ after (opsAll (F := Ideal)) V0 (Proc.devRef (τ := τ) .tc main_arg1) = V0 (Proc.devRef (τ := τ) .tc main_arg1)
      ∧ after (opsAll (F := Ideal)) V0 (Proc.devRef (τ := τ) .tc main_arg2) = V0 (Proc.devRef (τ := τ) .tc main_arg2)
      ∧ after (opsAll (F := Ideal)) V0 (Proc.devRef (τ := τ) .tc main_arg3) = V0 (Proc.devRef (τ := τ) .tc main_arg3)
      ∧ after (opsAll (F := Ideal)) V0 (Proc.devRef (τ := τ) .tc main_arg4) = V0 (Proc.devRef (τ := τ) .tc main_arg4)
      ∧ after (opsAll (F := Ideal)) V0 (Proc.devRef (τ := τ) .tc main_arg5) = V0 (Proc.devRef (τ := τ) .tc main_arg5)
      ∧ after (opsAll (F := Ideal)) V0 (Proc.devRef (τ := τ) .tc main_arg6) = V0 (Proc.devRef (τ := τ) .tc main_arg6)
      ∧ after (opsAll (F := Ideal)) V0 (Proc.devRef (τ := τ) .tc main_arg7) = V0 (Proc.devRef (τ := τ) .tc main_arg7)
      ∧ after (opsAll (F := Ideal)) V0 (Proc.devRef (τ := τ) .tc main_arg8) = V0 (Proc.devRef (τ := τ) .tc main_arg8)
      ∧ after (opsAll (F := Ideal)) V0 (Proc.devRef (τ := τ) .tc main_arg9) = V0 (Proc.devRef (τ := τ) .tc main_arg9) := by
  simp only [opsAll, after_append]
  have HA := holdsA V0
  have z := (outA V0).2.2
  generalize after (opsA (F := Ideal)) V0 = VA at HA z ⊢
  have H0 := holds0 VA V0 HA
  have s0 := step0 VA V0 HA
  rw [z] at s0
  clear z HA
  generalize after (ops0 (F := Ideal)) VA = W0 at H0 s0 ⊢
  have H1 := holds1 W0 V0 H0
  have s1 := step1 W0 V0 H0
  rw [s0] at s1
  clear s0 H0
  generalize after (ops1 (F := Ideal)) W0 = W1 at H1 s1 ⊢
  have H2 := holds2 W1 V0 H1
  have s2 := step2 W1 V0 H1
  rw [s1] at s2
  clear s1 H1
  generalize after (ops2 (F := Ideal)) W1 = W2 at H2 s2 ⊢
  have H3 := holds3 W2 V0 H2
  have s3 := step3 W2 V0 H2
  rw [s2] at s3
  clear s2 H2
  generalize after (ops3 (F := Ideal)) W2 = W3 at H3 s3 ⊢
  have H4 := holds4 W3 V0 H3
  have s4 := step4 W3 V0 H3
  rw [s3] at s4
  clear s3 H3
  generalize after (ops4 (F := Ideal)) W3 = W4 at H4 s4 ⊢
  have H5 := holds5 W4 V0 H4
  have s5 := step5 W4 V0 H4
  rw [s4] at s5
  clear s4 H4
  generalize after (ops5 (F := Ideal)) W4 = W5 at H5 s5 ⊢
  have H6 := holds6 W5 V0 H5
  have s6 := step6 W5 V0 H5
  rw [s5] at s6
  clear s5 H5
  generalize after (ops6 (F := Ideal)) W5 = W6 at H6 s6 ⊢
  have H7 := holds7 W6 V0 H6
  have s7 := step7 W6 V0 H6
  rw [s6] at s7
  clear s6 H6
  generalize after (ops7 (F := Ideal)) W6 = W7 at H7 s7 ⊢
  obtain ⟨t0, t1, t2, t3, t4, t5, t6, t7, t8, t9, t10, t11⟩ := keepT W7
  refine ⟨?_, t2.trans H7.a0, t3.trans H7.a1, t4.trans H7.a2, t5.trans H7.a3, t6.trans H7.a4, t7.trans H7.a5, t8.trans H7.a6, t9.trans H7.a7, t10.trans H7.a8, t11.trans H7.a9⟩
  rw [outT W7, s7]
  rfl

end Cert.ReferenceIdeal.RefValue

end
-- ==== Proof.RefBridge.lean ====
/-
  The contents after the reference's program, from the launch contents.

  The program's list of operations is printed window by window; the chunks read here are cut species by species. The two
  cuttings of the same 376 operations are compared piece by piece: a window is the pieces of the species lists that lie in
  it, a species list cut by a window's end is its two pieces, and appending is associative. So the contents after the
  program's list are those after the chunks: the result buffer holds the column of row sums of `refOut` of the launch
  contents, which is the molecules' values, and the ten arguments are unchanged.
-/
import proofs.«129781_j39633958207559_2_alg».proof.Proof.RefMain
import proofs.«129781_j39633958207559_2_alg».proof.Proof.RefAfter

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

variable {F : FTy → Type} [FloatOps F]

theorem window0 : (RefMain.p0 : List (HloOp τ sig (Elt F))) = opsA ++ (ops0 ++ ops1a) := rfl
theorem window1 : (RefMain.p1 : List (HloOp τ sig (Elt F))) = ops1b ++ ops2a := rfl
theorem window2 : (RefMain.p2 : List (HloOp τ sig (Elt F))) = ops2b ++ (ops3 ++ ops4a) := rfl
theorem window3 : (RefMain.p3 : List (HloOp τ sig (Elt F))) = ops4b ++ ops5a := rfl
theorem window4 : (RefMain.p4 : List (HloOp τ sig (Elt F))) = ops5b ++ (ops6 ++ ops7a) := rfl
theorem window5 : (RefMain.p5 : List (HloOp τ sig (Elt F))) = ops7b ++ opsT := rfl

/-- The program's list, window by window, is the chunks' list, species by species. -/
theorem ops_eq : (RefMain.ops : List (HloOp τ sig (Elt F))) = opsAll := by
  show RefMain.p0 ++ (RefMain.p1 ++ (RefMain.p2 ++ (RefMain.p3 ++ (RefMain.p4 ++ RefMain.p5)))) = _
  rewrite [window0, window1, window2, window3, window4, window5]
  show _ = opsA ++ (ops0 ++ (ops1 ++ (ops2 ++ (ops3 ++ (ops4 ++ (ops5 ++ (ops6 ++ (ops7 ++ opsT))))))))
  rewrite [split1, split2, split4, split5, split7]
  simp only [List.append_assoc]

/-- The result buffer after the program, from the launch contents. -/
theorem after_result (m : (ℓ : Loc nD τ sig) → Buf (Elt Ideal) ℓ) (d : Dev nD) :
    after (RefMain.ops (F := Ideal)) (launchContents m d) (Proc.devRef (τ := τ) .tc main_v317)
      = broadcastInDim S2048x1 ![0] bcast_S2048_S2048x1_0 (Host.reduceAdd (F := Ideal) (shapeCast S2048x64
          (refOut (shapeCast S131072 (m ((d.tc : Thread nD τ).loc main_arg0)) shapeCasts_S2048x64_S131072)
            (shapeCast S131072x300 (m ((d.tc : Thread nD τ).loc main_arg1)) shapeCasts_S2048x64x300_S131072x300)
            (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)))
          shapeCasts_S131072_S2048x64) (constant (F := Ideal) S_ .f32 0x00000000#32) reducesTo_S2048x64_S2048_d1 h_S_) := by
  rewrite [ops_eq]
  exact (after_all (launchContents m d)).1

/-- The arguments after the program: unchanged. -/
theorem after_args (m : (ℓ : Loc nD τ sig) → Buf (Elt Ideal) ℓ) (d : Dev nD) :
    after (RefMain.ops (F := Ideal)) (launchContents m d) (Proc.devRef (τ := τ) .tc main_arg0) = m ((d.tc : Thread nD τ).loc main_arg0)
    ∧ after (RefMain.ops (F := Ideal)) (launchContents m d) (Proc.devRef (τ := τ) .tc main_arg1) = m ((d.tc : Thread nD τ).loc main_arg1)
    ∧ after (RefMain.ops (F := Ideal)) (launchContents m d) (Proc.devRef (τ := τ) .tc main_arg2) = m ((d.tc : Thread nD τ).loc main_arg2)
    ∧ after (RefMain.ops (F := Ideal)) (launchContents m d) (Proc.devRef (τ := τ) .tc main_arg3) = m ((d.tc : Thread nD τ).loc main_arg3)
    ∧ after (RefMain.ops (F := Ideal)) (launchContents m d) (Proc.devRef (τ := τ) .tc main_arg4) = m ((d.tc : Thread nD τ).loc main_arg4)
    ∧ after (RefMain.ops (F := Ideal)) (launchContents m d) (Proc.devRef (τ := τ) .tc main_arg5) = m ((d.tc : Thread nD τ).loc main_arg5)
    ∧ after (RefMain.ops (F := Ideal)) (launchContents m d) (Proc.devRef (τ := τ) .tc main_arg6) = m ((d.tc : Thread nD τ).loc main_arg6)
    ∧ after (RefMain.ops (F := Ideal)) (launchContents m d) (Proc.devRef (τ := τ) .tc main_arg7) = m ((d.tc : Thread nD τ).loc main_arg7)
    ∧ after (RefMain.ops (F := Ideal)) (launchContents m d) (Proc.devRef (τ := τ) .tc main_arg8) = m ((d.tc : Thread nD τ).loc main_arg8)
    ∧ after (RefMain.ops (F := Ideal)) (launchContents m d) (Proc.devRef (τ := τ) .tc main_arg9) = m ((d.tc : Thread nD τ).loc main_arg9) := by
  rewrite [ops_eq]
  exact (after_all (launchContents m d)).2

/-- The result buffer after the program is the molecules' values of the atoms' values, the atoms read from the flattened
    species words and the flattened feature matrix of the launch contents. -/
theorem after_result_eq (m : (ℓ : Loc nD τ sig) → Buf (Elt Ideal) ℓ) (d : Dev nD) :
    after (RefMain.ops (F := Ideal)) (launchContents m d) (Proc.devRef (τ := τ) .tc main_v317)
      = Cert.Atoms.molecules (Cert.Atoms.byMolecule (Cert.Atoms.atoms (params m d)
          (shapeCast ⟨1, ![131072]⟩ (m ((d.tc : Thread nD τ).loc main_arg0)) shapeCasts_S2048x64_S131072)
          (shapeCast ⟨2, ![131072, 300]⟩ (m ((d.tc : Thread nD τ).loc main_arg1)) shapeCasts_S2048x64x300_S131072x300))) :=
  (after_result m d).trans (rowSums_eq _ _ fun n => refOut_apply _ _ _ _ _ _ _ _ _ _ n)

end Cert.ReferenceIdeal.RefValue

end
-- ==== Proof.RefRunRead.lean ====
/-
  The reference's run, read.

  The reference is a straight line of array operations on one core, so every weakly fair execution of it terminates with each
  buffer at what the operations, in order, compute from the launch contents. Read chunk by chunk, that leaves the result at
  the molecules' values of the atoms' values — the atoms read from the flattened species words and the flattened features —
  and every argument as launched.
-/
import proofs.«129781_j39633958207559_2_alg».proof.Proof.RefBridge

noncomputable section

namespace Cert.ReferenceIdeal.RefValue

open Cert.ReferenceIdeal Cert.ReferenceIdeal.Gen Idealize.ShloMosaic Idealize.ShloMosaic.TcCoe
  Idealize.SL.Sem Idealize.ShloMosaic.StableHlo

/-- On every device, from any memory with zero counters: every weakly fair execution of the reference terminates with the result
    at the molecules' values and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v317)
        = Cert.Atoms.molecules (Cert.Atoms.byMolecule (Cert.Atoms.atoms (params m c)
            (shapeCast ⟨1, ![131072]⟩ (m ((c.tc : Thread nD τ).loc main_arg0)) shapeCasts_S2048x64_S131072)
            (shapeCast ⟨2, ![131072, 300]⟩ (m ((c.tc : Thread nD τ).loc main_arg1)) shapeCasts_S2048x64x300_S131072x300)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨a0, a1, a2, a3, a4, a5, a6, a7, a8, a9⟩ := after_args m c
      exact ⟨(h c main_v317).trans (after_result_eq m c), (h c main_arg0).trans a0, (h c main_arg1).trans a1,
        (h c main_arg2).trans a2, (h c main_arg3).trans a3, (h c main_arg4).trans a4, (h c main_arg5).trans a5,
        (h c main_arg6).trans a6, (h c main_arg7).trans a7, (h c main_arg8).trans a8, (h c main_arg9).trans a9⟩)
    (run_seq RefMain.scopedRefs_eq RefMain.scopedSems_eq defs main (fun _ => RefMain.ops) RefMain.main_eq
      (fun _ => RefMain.ops_sub) m ρ (fun _ => RefMain.ops_fresh))

end Cert.ReferenceIdeal.RefValue

end
-- ==== Proof.lean ====
/-
  The certificate: the kernel and its reference compute the same molecule values on the extended reals.

  An atom has a feature row and a species word; species `s` owns a small network (three rectified dense layers and a scalar
  head); an atom's value is picked among the eight networks' values by its word, by a chain of eight choices from zero; a
  molecule's value is the sum of its 64 atoms' values (`Spec.lean`). The kernel evaluates all eight first layers as one
  product against the eight weight matrices laid side by side, then each network's remaining layers on its own 160 columns,
  the head as a row sum of an elementwise product; the reference evaluates each network with four matrix products. Read at
  an index, each product is the same sum of the same terms in the same order, each bias the same entry, each rectifier the
  same maximum with zero, each choice the same test of the same word: the two results are one function of the arguments
  (`KernelBody.lean`, `KernelArray.lean` for the kernel; `RefAtoms.lean` and the modules that read the reference's run chunk by chunk for the reference). No law of arithmetic beyond
  reading the operations is used, so the precondition is never opened. A change of float format is the identity on the
  extended reals, and the idealization rewrote nothing, so the kernel's idealization is its own text.
-/
import proofs.«129781_j39633958207559_2_alg».proof.Defs
import proofs.«129781_j39633958207559_2_alg».proof.Proof.Gen.Kernel
import proofs.«129781_j39633958207559_2_alg».proof.Proof.Gen.Kernel.Skeleton
import proofs.«129781_j39633958207559_2_alg».proof.Proof.Gen.Kernel.Launch
import proofs.«129781_j39633958207559_2_alg».proof.Proof.Gen.Kernel.Points
import proofs.«129781_j39633958207559_2_alg».proof.Proof.Gen.Kernel.Frame
import proofs.«129781_j39633958207559_2_alg».proof.Proof.Gen.KernelIdeal
import proofs.«129781_j39633958207559_2_alg».proof.Proof.Gen.KernelIdeal.Skeleton
import proofs.«129781_j39633958207559_2_alg».proof.Proof.Gen.KernelIdeal.Launch
import proofs.«129781_j39633958207559_2_alg».proof.Proof.Gen.KernelIdeal.Points
import proofs.«129781_j39633958207559_2_alg».proof.Proof.Gen.KernelIdeal.Frame
import proofs.«129781_j39633958207559_2_alg».proof.Proof.Gen.ReferenceIdeal
import proofs.«129781_j39633958207559_2_alg».proof.Proof.Gen.Pre_finite_inputs
import proofs.«129781_j39633958207559_2_alg».proof.Proof.KernelArray
import proofs.«129781_j39633958207559_2_alg».proof.Proof.RefRunRead
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments both programs end with every molecule's sum of its atoms' values. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9⟩ := hagree c
  unfold Cert.ReferenceIdeal.RefValue.params Cert.KernelIdeal.Arr.result Cert.KernelIdeal.Arr.params
    Cert.KernelIdeal.Arr.words Cert.KernelIdeal.Arr.feats
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
